-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_v13 : IVec S_ 1) (main_v15 : IVec S2x320000 1) (main_c_5 : IVec S_ 32) : IVec S_ 1 :=
  let main_v16 : IVec S2x320000 32 := broadcastInDim S2x320000 ![] bcast_S_S2x320000 main_c_5
  let main_v17 : IVec S2x320000 1 := cmpi .sle main_arg1 main_v16
  let main_v18 : IVec S2x320000 1 := andi main_v15 main_v17
  let main_c_6 : IVec S_ 1 := constantI S_ 1 1#1
  let main_v19 : IVec S_ 1 := (fun x v => Host.reduce IntOp.andi x v reducesTo_S2x320000_S_d0_1 h_S_) main_v18 main_c_6
  let main_v20 : IVec S_ 1 := andi main_v13 main_v19
  main_v20

def fn {F : FTy → Type} [FloatOps F] (main_arg0 : FVec F S10000x128 .f32) (main_arg1 : IVec S2x320000 32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_c_4 : IVec S_ 32 := constantI S_ 32 0#32
  let main_v14 : IVec S2x320000 32 := broadcastInDim S2x320000 ![] bcast_S_S2x320000 main_c_4
  let main_v15 : IVec S2x320000 1 := cmpi .sge main_arg1 main_v14
  let main_c_5 : IVec S_ 32 := constantI S_ 32 9999#32
  fn_part1 (F := F) main_arg1 main_v13 main_v15 main_c_5
-- ==== Kernel.lean ====
abbrev S10000x128 : Shape := ⟨2, ![10000, 128]⟩
abbrev S2x320000 : Shape := ⟨2, ![2, 320000]⟩
abbrev S128x128 : Shape := ⟨2, ![128, 128]⟩
abbrev S1x320000 : Shape := ⟨2, ![1, 320000]⟩
abbrev S320000 : Shape := ⟨1, ![320000]⟩
abbrev S320000x128 : Shape := ⟨2, ![320000, 128]⟩
abbrev S10000 : Shape := ⟨1, ![10000]⟩
abbrev S5x40x128 : Shape := ⟨3, ![5, 40, 128]⟩
abbrev S_ : Shape := ⟨0, ![]⟩
abbrev S1000x128 : Shape := ⟨2, ![1000, 128]⟩
abbrev S1x40x128 : Shape := ⟨3, ![1, 40, 128]⟩
abbrev S40x128 : Shape := ⟨2, ![40, 128]⟩
abbrev S40 : Shape := ⟨1, ![40]⟩

abbrev nBuf : Table → Nat
  | .hbm => 8
  | .local .tc .vmem => 4
  | .shared => 1
  | .local .scVector .vmem => 2
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128x128, .f32⟩
  | .hbm, ⟨4, _⟩ => ⟨S1x320000, .i32⟩
  | .hbm, ⟨5, _⟩ => ⟨S320000, .i32⟩
  | .hbm, ⟨6, _⟩ => ⟨S10000x128, .f32⟩
  | .hbm, ⟨7, _⟩ => ⟨S320000x128, .f32⟩
  | .local .tc .vmem, ⟨0, _⟩ => ⟨S10000x128, .f32⟩
  | .local .tc .vmem, ⟨1, _⟩ => ⟨S128x128, .f32⟩
  | .local .tc .vmem, ⟨2, _⟩ => ⟨S128x128, .f32⟩
  | .local .tc .vmem, ⟨3, _⟩ => ⟨S10000x128, .f32⟩
  | .shared, ⟨0, _⟩ => ⟨S10000x128, .f32⟩
  | .local .scVector .vmem, ⟨0, _⟩ => ⟨S10000, .i32⟩
  | .local .scVector .vmem, ⟨1, _⟩ => ⟨S5x40x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 16 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 5 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v2_scv : Ref sig .scVector := ⟨.hbm, 6, rfl⟩
abbrev main_v1_scv : Ref sig .scVector := ⟨.hbm, 5, rfl⟩
abbrev main_v3_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch2 : Ref sig .scVector := ⟨.shared, 0, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_cond1 (i : grid1.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32 : BitVec 32 := 0#32
  let v5 : BitVec 1 := Scalar.cmpi .ne v4 c0_i32
  v5

def k1_mult1 (i : grid1.Coords) : BitVec 32 :=
  let arg1 : BitVec 32 := BitVec.ofNat 32 (i 1).val
  let c1000_i32 : BitVec 32 := 1000#32
  let v53 : BitVec 32 := Scalar.muli arg1 c1000_i32
  v53
def k1_off1 (i : grid1.Coords) : Fin 2 → Nat :=
  let arg1 : BitVec 32 := BitVec.ofNat 32 (i 1).val
  let c1000_i32 : BitVec 32 := 1000#32
  let v53 : BitVec 32 := Scalar.muli arg1 c1000_i32
  let v54 : BitVec 32 := v53
  let c0_i32_56_r0 : BitVec 32 := 0#32
  ![v54.toNat, 0]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k1_t1_loop : Scf.Loop 32 :=
  let c0_i32_19 : BitVec 32 := 0#32
  let c50_i32 : BitVec 32 := 50#32
  let v22 : BitVec 32 := Scalar.addi c0_i32_19 c50_i32
  let c1_i32_20 : BitVec 32 := 1#32
  ⟨c0_i32_19, v22, c1_i32_20⟩
def k1_cond2 (k1_t1 : Fin k1_t1_loop.trips) : BitVec 1 :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c0_i32_57 : BitVec 32 := 0#32
  let v55 : BitVec 32 := Scalar.addi v54 c0_i32_57
  let c4_i32_58 : BitVec 32 := 4#32
  let v56 : BitVec 32 := Scalar.addi v55 c4_i32_58
  let c250_i32 : BitVec 32 := 250#32
  let v57 : BitVec 1 := Scalar.cmpi .slt v56 c250_i32
  let v58 : BitVec 32 := Scalar.extui v57
  let c0_i32_59 : BitVec 32 := 0#32
  let v59 : BitVec 1 := Scalar.cmpi .ne v58 c0_i32_59
  v59

def k1_cond3 (k1_t1 : Fin k1_t1_loop.trips) : BitVec 1 :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c0_i32_57 : BitVec 32 := 0#32
  let v55 : BitVec 32 := Scalar.addi v54 c0_i32_57
  let c1_i32_146 : BitVec 32 := 1#32
  let v140 : BitVec 1 := Scalar.cmpi .sge v55 c1_i32_146
  let v141 : BitVec 32 := Scalar.extui v140
  let c0_i32_147 : BitVec 32 := 0#32
  let v142 : BitVec 1 := Scalar.cmpi .ne v141 c0_i32_147
  v142

def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_158 : BitVec 32 := 0#32
  ![v2.toNat, 0]
def k1_off4 (k1_t1 : Fin k1_t1_loop.trips) : Fin 1 → Nat :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c0_i32_57 : BitVec 32 := 0#32
  let v55 : BitVec 32 := Scalar.addi v54 c0_i32_57
  let c4_i32_148 : BitVec 32 := 4#32
  let v143 : BitVec 32 := Scalar.addi v55 c4_i32_148
  let c40_i32_149 : BitVec 32 := 40#32
  let v144 : BitVec 32 := Scalar.muli v143 c40_i32_149
  ![v144.toNat]
def k1_off5 (i : grid1.Coords) (k1_t1 : Fin k1_t1_loop.trips) (c0_i32_57 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let v55 : BitVec 32 := Scalar.addi v54 c0_i32_57
  let c40_i32_66 : BitVec 32 := 40#32
  let v64 : BitVec 32 := Scalar.muli v55 c40_i32_66
  let v65 : BitVec 32 := Scalar.addi v2 v64
  let c0_i32_70 : BitVec 32 := 0#32
  ![v65.toNat, 0]
def k1_cond4 (k1_t1 : Fin k1_t1_loop.trips) : BitVec 1 :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c1_i32_74 : BitVec 32 := 1#32
  let v72 : BitVec 32 := Scalar.addi v54 c1_i32_74
  let c4_i32_75 : BitVec 32 := 4#32
  let v73 : BitVec 32 := Scalar.addi v72 c4_i32_75
  let c250_i32_76 : BitVec 32 := 250#32
  let v74 : BitVec 1 := Scalar.cmpi .slt v73 c250_i32_76
  let v75 : BitVec 32 := Scalar.extui v74
  let c0_i32_77 : BitVec 32 := 0#32
  let v76 : BitVec 1 := Scalar.cmpi .ne v75 c0_i32_77
  v76

def k1_cond5 (k1_t1 : Fin k1_t1_loop.trips) : BitVec 1 :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c1_i32_74 : BitVec 32 := 1#32
  let v72 : BitVec 32 := Scalar.addi v54 c1_i32_74
  let c1_i32_146 : BitVec 32 := 1#32
  let v140 : BitVec 1 := Scalar.cmpi .sge v72 c1_i32_146
  let v141 : BitVec 32 := Scalar.extui v140
  let c0_i32_147 : BitVec 32 := 0#32
  let v142 : BitVec 1 := Scalar.cmpi .ne v141 c0_i32_147
  v142

def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_158 : BitVec 32 := 0#32
  ![v2.toNat, 0]
def k1_off7 (k1_t1 : Fin k1_t1_loop.trips) : Fin 1 → Nat :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c1_i32_74 : BitVec 32 := 1#32
  let v72 : BitVec 32 := Scalar.addi v54 c1_i32_74
  let c4_i32_148 : BitVec 32 := 4#32
  let v143 : BitVec 32 := Scalar.addi v72 c4_i32_148
  let c40_i32_149 : BitVec 32 := 40#32
  let v144 : BitVec 32 := Scalar.muli v143 c40_i32_149
  ![v144.toNat]
def k1_cond6 (k1_t1 : Fin k1_t1_loop.trips) : BitVec 1 :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c2_i32_92 : BitVec 32 := 2#32
  let v89 : BitVec 32 := Scalar.addi v54 c2_i32_92
  let c4_i32_93 : BitVec 32 := 4#32
  let v90 : BitVec 32 := Scalar.addi v89 c4_i32_93
  let c250_i32_94 : BitVec 32 := 250#32
  let v91 : BitVec 1 := Scalar.cmpi .slt v90 c250_i32_94
  let v92 : BitVec 32 := Scalar.extui v91
  let c0_i32_95 : BitVec 32 := 0#32
  let v93 : BitVec 1 := Scalar.cmpi .ne v92 c0_i32_95
  v93

def k1_cond7 (k1_t1 : Fin k1_t1_loop.trips) : BitVec 1 :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c2_i32_92 : BitVec 32 := 2#32
  let v89 : BitVec 32 := Scalar.addi v54 c2_i32_92
  let c1_i32_146 : BitVec 32 := 1#32
  let v140 : BitVec 1 := Scalar.cmpi .sge v89 c1_i32_146
  let v141 : BitVec 32 := Scalar.extui v140
  let c0_i32_147 : BitVec 32 := 0#32
  let v142 : BitVec 1 := Scalar.cmpi .ne v141 c0_i32_147
  v142

def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_158 : BitVec 32 := 0#32
  ![v2.toNat, 0]
def k1_off9 (k1_t1 : Fin k1_t1_loop.trips) : Fin 1 → Nat :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c2_i32_92 : BitVec 32 := 2#32
  let v89 : BitVec 32 := Scalar.addi v54 c2_i32_92
  let c4_i32_148 : BitVec 32 := 4#32
  let v143 : BitVec 32 := Scalar.addi v89 c4_i32_148
  let c40_i32_149 : BitVec 32 := 40#32
  let v144 : BitVec 32 := Scalar.muli v143 c40_i32_149
  ![v144.toNat]
def k1_cond8 (k1_t1 : Fin k1_t1_loop.trips) : BitVec 1 :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c3_i32_110 : BitVec 32 := 3#32
  let v106 : BitVec 32 := Scalar.addi v54 c3_i32_110
  let c4_i32_111 : BitVec 32 := 4#32
  let v107 : BitVec 32 := Scalar.addi v106 c4_i32_111
  let c250_i32_112 : BitVec 32 := 250#32
  let v108 : BitVec 1 := Scalar.cmpi .slt v107 c250_i32_112
  let v109 : BitVec 32 := Scalar.extui v108
  let c0_i32_113 : BitVec 32 := 0#32
  let v110 : BitVec 1 := Scalar.cmpi .ne v109 c0_i32_113
  v110

def k1_cond9 (k1_t1 : Fin k1_t1_loop.trips) : BitVec 1 :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c3_i32_110 : BitVec 32 := 3#32
  let v106 : BitVec 32 := Scalar.addi v54 c3_i32_110
  let c1_i32_146 : BitVec 32 := 1#32
  let v140 : BitVec 1 := Scalar.cmpi .sge v106 c1_i32_146
  let v141 : BitVec 32 := Scalar.extui v140
  let c0_i32_147 : BitVec 32 := 0#32
  let v142 : BitVec 1 := Scalar.cmpi .ne v141 c0_i32_147
  v142

def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_158 : BitVec 32 := 0#32
  ![v2.toNat, 0]
def k1_off11 (k1_t1 : Fin k1_t1_loop.trips) : Fin 1 → Nat :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c3_i32_110 : BitVec 32 := 3#32
  let v106 : BitVec 32 := Scalar.addi v54 c3_i32_110
  let c4_i32_148 : BitVec 32 := 4#32
  let v143 : BitVec 32 := Scalar.addi v106 c4_i32_148
  let c40_i32_149 : BitVec 32 := 40#32
  let v144 : BitVec 32 := Scalar.muli v143 c40_i32_149
  ![v144.toNat]
def k1_cond10 (k1_t1 : Fin k1_t1_loop.trips) : BitVec 1 :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c4_i32_128 : BitVec 32 := 4#32
  let v123 : BitVec 32 := Scalar.addi v54 c4_i32_128
  let c4_i32_129 : BitVec 32 := 4#32
  let v124 : BitVec 32 := Scalar.addi v123 c4_i32_129
  let c250_i32_130 : BitVec 32 := 250#32
  let v125 : BitVec 1 := Scalar.cmpi .slt v124 c250_i32_130
  let v126 : BitVec 32 := Scalar.extui v125
  let c0_i32_131 : BitVec 32 := 0#32
  let v127 : BitVec 1 := Scalar.cmpi .ne v126 c0_i32_131
  v127

def k1_cond11 (k1_t1 : Fin k1_t1_loop.trips) : BitVec 1 :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c4_i32_128 : BitVec 32 := 4#32
  let v123 : BitVec 32 := Scalar.addi v54 c4_i32_128
  let c1_i32_146 : BitVec 32 := 1#32
  let v140 : BitVec 1 := Scalar.cmpi .sge v123 c1_i32_146
  let v141 : BitVec 32 := Scalar.extui v140
  let c0_i32_147 : BitVec 32 := 0#32
  let v142 : BitVec 1 := Scalar.cmpi .ne v141 c0_i32_147
  v142

def k1_off12 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_158 : BitVec 32 := 0#32
  ![v2.toNat, 0]
def k1_off13 (k1_t1 : Fin k1_t1_loop.trips) : Fin 1 → Nat :=
  let c0_i32_56 : BitVec 32 := 0#32
  let c0_i32_19 : BitVec 32 := 0#32
  let c1_i32_20 : BitVec 32 := 1#32
  let arg18 : BitVec 32 := Scf.iv c0_i32_19 c1_i32_20 k1_t1
  let c5_i32 : BitVec 32 := 5#32
  let v53 : BitVec 32 := Scalar.muli arg18 c5_i32
  let v54 : BitVec 32 := Scalar.addi c0_i32_56 v53
  let c4_i32_128 : BitVec 32 := 4#32
  let v123 : BitVec 32 := Scalar.addi v54 c4_i32_128
  let c4_i32_148 : BitVec 32 := 4#32
  let v143 : BitVec 32 := Scalar.addi v123 c4_i32_148
  let c40_i32_149 : BitVec 32 := 40#32
  let v144 : BitVec 32 := Scalar.muli v143 c40_i32_149
  ![v144.toNat]
def k1_off14 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_25 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  inb_S5x40x128_S1x40x128_0_0_0 : ∀ a, (![0, 0, 0] : Fin 3 → Nat) a + S1x40x128.size a ≤ S5x40x128.size a
  squeezes_S1x40x128_S40x128 : S1x40x128.Squeezes S40x128
  inb_S10000_S40_0 : ∀ a, (![0] : Fin 1 → Nat) a + S40.size a ≤ S10000.size a
  gathers_S10000x128_S40x128 : S10000x128.Gathers 0 S40x128
  inb_S5x40x128_S1x40x128_1_0_0 : ∀ a, (![1, 0, 0] : Fin 3 → Nat) a + S1x40x128.size a ≤ S5x40x128.size a
  inb_S10000_S40_40 : ∀ a, (![40] : Fin 1 → Nat) a + S40.size a ≤ S10000.size a
  inb_S5x40x128_S1x40x128_2_0_0 : ∀ a, (![2, 0, 0] : Fin 3 → Nat) a + S1x40x128.size a ≤ S5x40x128.size a
  inb_S10000_S40_80 : ∀ a, (![80] : Fin 1 → Nat) a + S40.size a ≤ S10000.size a
  inb_S5x40x128_S1x40x128_3_0_0 : ∀ a, (![3, 0, 0] : Fin 3 → Nat) a + S1x40x128.size a ≤ S5x40x128.size a
  inb_S10000_S40_120 : ∀ a, (![120] : Fin 1 → Nat) a + S40.size a ≤ S10000.size a
  inb_S5x40x128_S1x40x128_4_0_0 : ∀ a, (![4, 0, 0] : Fin 3 → Nat) a + S1x40x128.size a ≤ S5x40x128.size a
  dot_S128x128_S128x128_S128x128_1_0_0_1_n_n_wf : DotDims.WF S128x128 S128x128 S128x128 [1] [0] [0] [1] [] []
  dot_S10000x128_S128x128_S10000x128_1_1_0_0_n_n_wf : DotDims.WF S10000x128 S128x128 S10000x128 [1] [1] [0] [0] [] []
  hcc1_scratch3 : 4 + S_.numel ≤ 16
  hcc1_scratch4 : 5 + S_.numel ≤ 16
  hcc1_scratch5 : 6 + S_.numel ≤ 16
  hcc1_scratch6 : 7 + S_.numel ≤ 16
  hcc1_scratch7 : 8 + S_.numel ≤ 16
  hcc1_scratch8 : 9 + S_.numel ≤ 16
  hcc1_scratch9 : 10 + S_.numel ≤ 16
  hcc1_scratch10 : 11 + S_.numel ≤ 16
  hcc1_scratch11 : 12 + S_.numel ≤ 16
  hcc1_scratch12 : 13 + S_.numel ≤ 16
  hcc1_scoped0 : 14 + S_.numel ≤ 16
  hcc1_scoped1 : 15 + S_.numel ≤ 16
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hcore1 : grid1.bound 0 ≤ τ.nSC
  hsub1 : grid1.bound 1 ≤ τ.nSub
  k1_mult1_dvd : ∀ i : grid1.Coords, ∀ (k1_h1 : k1_cond1 i = 1#1), 8 ∣ (k1_mult1 i).toNat
  k1_off1_inb : ∀ i : grid1.Coords, ∀ (k1_h1 : k1_cond1 i = 1#1), ∀ a, (k1_off1 i) a + S1000x128.size a ≤ S10000x128.size a
  k1_off2_inb : ∀ i : grid1.Coords, ∀ a, (k1_off2 i) a + S10000.size a ≤ S320000.size a
  k1_t1_ok : k1_t1_loop.OK
  k1_off3_inb : ∀ (i : grid1.Coords) (k1_t1 : Fin k1_t1_loop.trips), ∀ (k1_h2 : k1_cond2 k1_t1 = 1#1), ∀ (k1_h3 : k1_cond3 k1_t1 = 1#1), ∀ a, (k1_off3 i) a + S40x128.size a ≤ S320000x128.size a
  k1_off4_inb : ∀ k1_t1 : Fin k1_t1_loop.trips, ∀ (k1_h2 : k1_cond2 k1_t1 = 1#1), ∀ a, (k1_off4 k1_t1) a + S40.size a ≤ S10000.size a
  k1_off5_inb : ∀ (i : grid1.Coords) (k1_t1 : Fin k1_t1_loop.trips), ∀ (r : Fin 5), ∀ a, (k1_off5 i k1_t1 (BitVec.ofNat 32 r.val)) a + S40x128.size a ≤ S320000x128.size a
  k1_off6_inb : ∀ (i : grid1.Coords) (k1_t1 : Fin k1_t1_loop.trips), ∀ (k1_h4 : k1_cond4 k1_t1 = 1#1), ∀ (k1_h5 : k1_cond5 k1_t1 = 1#1), ∀ a, (k1_off6 i) a + S40x128.size a ≤ S320000x128.size a
  k1_off7_inb : ∀ k1_t1 : Fin k1_t1_loop.trips, ∀ (k1_h4 : k1_cond4 k1_t1 = 1#1), ∀ a, (k1_off7 k1_t1) a + S40.size a ≤ S10000.size a
  k1_off8_inb : ∀ (i : grid1.Coords) (k1_t1 : Fin k1_t1_loop.trips), ∀ (k1_h6 : k1_cond6 k1_t1 = 1#1), ∀ (k1_h7 : k1_cond7 k1_t1 = 1#1), ∀ a, (k1_off8 i) a + S40x128.size a ≤ S320000x128.size a
  k1_off9_inb : ∀ k1_t1 : Fin k1_t1_loop.trips, ∀ (k1_h6 : k1_cond6 k1_t1 = 1#1), ∀ a, (k1_off9 k1_t1) a + S40.size a ≤ S10000.size a
  k1_off10_inb : ∀ (i : grid1.Coords) (k1_t1 : Fin k1_t1_loop.trips), ∀ (k1_h8 : k1_cond8 k1_t1 = 1#1), ∀ (k1_h9 : k1_cond9 k1_t1 = 1#1), ∀ a, (k1_off10 i) a + S40x128.size a ≤ S320000x128.size a
  k1_off11_inb : ∀ k1_t1 : Fin k1_t1_loop.trips, ∀ (k1_h8 : k1_cond8 k1_t1 = 1#1), ∀ a, (k1_off11 k1_t1) a + S40.size a ≤ S10000.size a
  k1_off12_inb : ∀ (i : grid1.Coords) (k1_t1 : Fin k1_t1_loop.trips), ∀ (k1_h10 : k1_cond10 k1_t1 = 1#1), ∀ (k1_h11 : k1_cond11 k1_t1 = 1#1), ∀ a, (k1_off12 i) a + S40x128.size a ≤ S320000x128.size a
  k1_off13_inb : ∀ k1_t1 : Fin k1_t1_loop.trips, ∀ (k1_h10 : k1_cond10 k1_t1 = 1#1), ∀ a, (k1_off13 k1_t1) a + S40.size a ≤ S10000.size a
  k1_off14_inb : ∀ i : grid1.Coords, ∀ a, (k1_off14 i) a + S40x128.size a ≤ S320000x128.size a

variable [Facts₀]

abbrev cc1_scratch3 : DmaSems sig S_ := SemArray.consecutive 4 S_ hcc1_scratch3
abbrev cc1_scratch4 : DmaSems sig S_ := SemArray.consecutive 5 S_ hcc1_scratch4
abbrev cc1_scratch5 : DmaSems sig S_ := SemArray.consecutive 6 S_ hcc1_scratch5
abbrev cc1_scratch6 : DmaSems sig S_ := SemArray.consecutive 7 S_ hcc1_scratch6
abbrev cc1_scratch7 : DmaSems sig S_ := SemArray.consecutive 8 S_ hcc1_scratch7
abbrev cc1_scratch8 : DmaSems sig S_ := SemArray.consecutive 9 S_ hcc1_scratch8
abbrev cc1_scratch9 : DmaSems sig S_ := SemArray.consecutive 10 S_ hcc1_scratch9
abbrev cc1_scratch10 : DmaSems sig S_ := SemArray.consecutive 11 S_ hcc1_scratch10
abbrev cc1_scratch11 : DmaSems sig S_ := SemArray.consecutive 12 S_ hcc1_scratch11
abbrev cc1_scratch12 : DmaSems sig S_ := SemArray.consecutive 13 S_ hcc1_scratch12
abbrev cc1_scoped0 : DmaSems sig S_ := SemArray.consecutive 14 S_ hcc1_scoped0
abbrev cc1_scoped1 : DmaSems sig S_ := SemArray.consecutive 15 S_ hcc1_scoped1
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_v2) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩

abbrev nBuf : Space → Nat
  | .hbm => 33
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128x128, .f32⟩
  | .hbm, ⟨4, _⟩ => ⟨S1x320000, .i32⟩
  | .hbm, ⟨5, _⟩ => ⟨S320000, .i32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S1, .i32⟩
  | .hbm, ⟨15, _⟩ => ⟨S_, .i32⟩
  | .hbm, ⟨16, _⟩ => ⟨S320000x1, .i32⟩
  | .hbm, ⟨17, _⟩ => ⟨S320000x1, .i1⟩
  | .hbm, ⟨18, _⟩ => ⟨S1x1, .i32⟩
  | .hbm, ⟨19, _⟩ => ⟨S320000x1, .i32⟩
  | .hbm, ⟨20, _⟩ => ⟨S320000x1, .i1⟩
  | .hbm, ⟨21, _⟩ => ⟨S320000x1, .i1⟩
  | .hbm, ⟨22, _⟩ => ⟨S_, .i1⟩
  | .hbm, ⟨23, _⟩ => ⟨S320000, .i1⟩
  | .hbm, ⟨24, _⟩ => ⟨S320000x128, .f32⟩
  | .hbm, ⟨25, _⟩ => ⟨S320000x128, .i1⟩
  | .hbm, ⟨26, _⟩ => ⟨S_, .f32⟩
  | .hbm, ⟨27, _⟩ => ⟨S320000x128, .f32⟩
  | .hbm, ⟨28, _⟩ => ⟨S320000x128, .f32⟩
  | .hbm, ⟨29, _⟩ => ⟨S128x128, .f32⟩
  | .hbm, ⟨30, _⟩ => ⟨S320000x128, .f32⟩
  | .hbm, ⟨31, _⟩ => ⟨S128x128, .f32⟩
  | .hbm, ⟨32, _⟩ => ⟨S320000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  transposes_S128x128_S128x128_1_0 : S128x128.Transposes [1, 0] S128x128
  gather_S10000x128_S320000x1_S320000x128_1_0_n_n_0_1_1128_wf : GatherDims.WF S10000x128 S320000x1 S320000x128 [1] [0] [] [0] [] 1 ![1, 128]
  dot_S320000x128_S128x128_S320000x128_1_0_0_1_n_n_wf : DotDims.WF S320000x128 S128x128 S320000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf

class Facts : Prop extends Facts₀ where

variable [Facts]
-- ==== Proof.KSetup.lean ====
/-
  The idealized kernel program as the SparseCore launch theorem sees it, and the resource algebra its proof
  runs in. The program is @main on the TensorCore (two host operations that cut row 0 out of the edge list, one
  TensorCore kernel that multiplies the node features by the product of the two weight matrices, and one
  SparseCore call) beside the two sequencers and the thirty-two vector subcores. The algebra has four parts:
  the rounds of the launch handshakes, the rounds of the subcore barrier's cells (one cell per vector subcore),
  the rounds of the TensorCore kernel's staging cells, and the counters of the vector subcores' own copies.
-/
import proofs.«205984_g59184649339042_cont_9to1_m_680_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205984_g59184649339042_cont_9to1_m_680_25_alg».proof.Proof.Gen.KernelIdeal
import proofs.«205984_g59184649339042_cont_9to1_m_680_25_alg».proof.Proof.Gen.KernelIdeal.Skeleton

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The kernels' labels, lifted through the one TensorCore pipeline. -/
abbrev ΛP : Labels := Pipeline.Sig Λ₀ (Fin 1) fun p => (pcfgs (F := F) p).Adm
/-- The one SparseCore call: the gather, on both SparseCores, sixteen vector subcores each. -/
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

/-- The handshakes' rounds: the left factor. -/
abbrev EH : Emb UH (MT nD τ sig (HIx 1) (Elt F) ℕ UU ℕ) := embL
/-- The barrier cells' rounds. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore kernel's staging cells' rounds. -/
def EP : Emb UP (MT nD τ sig (HIx 1) (Elt F) ℕ UU ℕ) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

/-- Node features, edge list, the two weight matrices; row 0 of the edge list cut out and flattened; the
    transformed node features; the result. As locations of device d. -/
abbrev xLoc (d : Dev nD) : Loc nD τ sig := (SparseCore.T d).loc main_arg0
abbrev eLoc (d : Dev nD) : Loc nD τ sig := (SparseCore.T d).loc main_arg1
abbrev w1Loc (d : Dev nD) : Loc nD τ sig := (SparseCore.T d).loc main_arg2
abbrev w2Loc (d : Dev nD) : Loc nD τ sig := (SparseCore.T d).loc main_arg3
abbrev r0Loc (d : Dev nD) : Loc nD τ sig := (SparseCore.T d).loc main_v0
abbrev iLoc (d : Dev nD) : Loc nD τ sig := (SparseCore.T d).loc main_v1
abbrev yLoc (d : Dev nD) : Loc nD τ sig := (SparseCore.T d).loc main_v2
abbrev oLoc (d : Dev nD) : Loc nD τ sig := (SparseCore.T d).loc main_v3

end Cert.KernelIdeal.KRun

end
-- ==== Proof.Spec.lean ====
/-
  The function both programs compute, index by index, on the extended reals.

  For edge e with source node r = edge_index[0, e] (a row number of the node table, 0 ≤ r ≤ 9999) and output
  channel o, the result is the node's feature row pushed through the two linear maps:

      out[e, o] = Σ_k ( Σ_i x[r, i] · W1[k, i] ) · W2[o, k].

  One program first multiplies the two weight matrices and applies the product to every node, then looks the
  rows up per edge (the arrangement Gk: Σ_i x[r, i] · ( Σ_k W2[o, k] · W1[k, i] )); the other looks the
  rows up first and applies the two maps one after the other (the arrangement Gr). On real entries the two
  arrangements are equal by distributivity and an exchange of the two finite sums; on the extended reals
  distributivity needs every entry finite, which is where the finiteness of the inputs is used.
-/
import Idealize.ShloMosaic.PureOps.Ideal
import Idealize.ShloMosaic.Lib.ValueIdx

noncomputable section

namespace Cert.Spec

open Idealize.ShloMosaic Idealize.ShloMosaic.ValueIdx

abbrev SX : Shape := ⟨2, ![10000, 128]⟩
abbrev SE : Shape := ⟨2, ![2, 320000]⟩
abbrev SW : Shape := ⟨2, ![128, 128]⟩
abbrev SO : Shape := ⟨2, ![320000, 128]⟩

/-- The source node of edge e: word e of row 0 of the edge list read as a natural number, capped at the last
    row of the node table (under the input range 0 ≤ edge_index ≤ 9999 the cap never acts). -/
def rowIx (ei : IVec SE 32) (e : Fin 320000) : Fin 10000 :=
  ⟨min (ei (ix2 (0 : Fin 2) e)).toNat 9999, by omega⟩

/-- The input range of the edge list, as the proofs use it: every word of row 0 is a row number of the node table. -/
def RowsInRange (ei : IVec SE 32) : Prop := ∀ e : Fin 320000, (ei (ix2 (0 : Fin 2) e)).toNat ≤ 9999

theorem rowIx_val {ei : IVec SE 32} (h : RowsInRange ei) (e : Fin 320000) : (rowIx ei e).val = (ei (ix2 (0 : Fin 2) e)).toNat :=
  Nat.min_eq_left (h e)

/-- Every entry is a real number. -/
def AllReal {S : Shape} (v : FVec Ideal S .f32) : Prop := ∀ i, ∃ r : ℝ, v i = (r : EReal)

/-- Weights multiplied first: Σ_i x[r, i] · ( Σ_k W2[o, k] · W1[k, i] ). -/
def Gk (x : FVec Ideal SX .f32) (ei : IVec SE 32) (w1 w2 : FVec Ideal SW .f32) : FVec Ideal SO .f32 :=
  fun j => ∑ i : Fin 128, x (ix2 (rowIx ei (j 0)) i) * ∑ k : Fin 128, w2 (ix2 (j 1 : Fin 128) k) * w1 (ix2 k i)

/-- The two maps one after the other: Σ_k ( Σ_i x[r, i] · W1[k, i] ) · W2[o, k]. -/
def Gr (x : FVec Ideal SX .f32) (ei : IVec SE 32) (w1 w2 : FVec Ideal SW .f32) : FVec Ideal SO .f32 :=
  fun j => ∑ k : Fin 128, (∑ i : Fin 128, x (ix2 (rowIx ei (j 0)) i) * w1 (ix2 k i)) * w2 (ix2 (j 1 : Fin 128) k)

end Cert.Spec

end
-- ==== Proof.KVals.lean ====
/-
  What the program's arrays hold at each point, as pure functions of the launch memory: row 0 of the edge list
  cut out (a [1, 320000] array), the same flattened (the list of source-node numbers, one per edge), the node
  features multiplied by the product of the two weight matrices (one row per node), and the result: for edge e
  and channel o, entry o of the transformed row of e's source node.
-/
import proofs.«205984_g59184649339042_cont_9to1_m_680_25_alg».proof.Proof.KSetup
import proofs.«205984_g59184649339042_cont_9to1_m_680_25_alg».proof.Proof.Spec

noncomputable section

namespace Cert.KernelIdeal.KRun

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

local notation "𝕄" => MT nD τ sig (HIx 1) (Elt F) ℕ UU ℕ

/-- Row 0 of the edge list. -/
def r0val (d : Dev nD) : Buf (Elt F) (r0Loc d) :=
  (extractStridedSlice S1x320000 ![0, 0] (m (eLoc d) : IVec S2x320000 32) slices_S2x320000_S1x320000_0_0 : IVec S1x320000 32)

/-- The same flattened: the source node's number, per edge. -/
def ival (d : Dev nD) : Buf (Elt F) (iLoc d) :=
  (fun i => shapeCast S320000 (r0val m d : IVec S1x320000 32) shapeCasts_S1x320000_S320000 i : IVec S320000 32)

/-- The node features times the product of the two weight matrices: what the TensorCore kernel stores. -/
def yval (d : Dev nD) : Buf (Elt F) (yLoc d) :=
  (k0_pay1 (m (w2Loc d) : FVec F S128x128 .f32) (m (w1Loc d) : FVec F S128x128 .f32) (m (xLoc d) : FVec F S10000x128 .f32) : FVec F S10000x128 .f32)

/-- The result: row (source node of edge e) of the transformed features, at row e. -/
def oval (d : Dev nD) : Buf (Elt F) (oLoc d) :=
  (fun j => (yval m d : FVec F S10000x128 .f32) (ix2 (Cert.Spec.rowIx (m (eLoc d) : IVec S2x320000 32) (j 0)) (j 1 : Fin 128)) : FVec F S320000x128 .f32)

/-- @main's arrays after its two host operations and the TensorCore kernel, before the SparseCore call. -/
abbrev Mid (d : Dev nD) : sProp 𝕄 :=
  iprop((xLoc d ↦{fullShare} m (xLoc d)) ∗ (eLoc d ↦{fullShare} m (eLoc d)) ∗ (w1Loc d ↦{fullShare} m (w1Loc d)) ∗ (w2Loc d ↦{fullShare} m (w2Loc d))
    ∗ (r0Loc d ↦{fullShare} r0val m d) ∗ (iLoc d ↦{fullShare} ival m d) ∗ (yLoc d ↦{fullShare} yval m d) ∗ (oLoc d ↦{fullShare} m (oLoc d)))

end Cert.KernelIdeal.KRun

end
-- ==== Proof.KMainReg.lean ====
/-
  The TensorCore kernel's region inside @main: the pipeline's proof data (four whole-array windows at the one
  grid point: the node features and the two weight matrices fetched, the transformed features written back), the
  body's triple (four loads and one store of the payload the generated skeleton names), and the region's step: from
  the four arrays at their launch contents to the transformed-features array holding that payload of the two weight
  matrices and the node features (the value the set-up module names yval), the three inputs unchanged, while the
  thread goes on owing its start signals.
-/
import proofs.«205984_g59184649339042_cont_9to1_m_680_25_alg».proof.Proof.KSetup
import proofs.«205984_g59184649339042_cont_9to1_m_680_25_alg».proof.Proof.KVals
import proofs.«205984_g59184649339042_cont_9to1_m_680_25_alg».proof.Proof.Gen.KernelIdeal.Launch
import proofs.«205984_g59184649339042_cont_9to1_m_680_25_alg».proof.Proof.Gen.KernelIdeal.Points
import proofs.«205984_g59184649339042_cont_9to1_m_680_25_alg».proof.Proof.Gen.KernelIdeal.Skeleton
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.KernelIdeal.KRun

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig (HIx 1) (Elt F) ℕ UU ℕ

/-! ## What the region entry needs from the launch -/

/-- The staging cells' launch ghost state and the transfers' duty tokens of the one pipeline, on device d. -/
def Gd (d : Dev nD) : sProp 𝕄 :=
  iprop(Pipeline.cellsGhost cfgs (EP (F := F)) 0 d ∗ Pipeline.toksInit cfgs (EP (F := F)) 0 d)

/-- The launch element of the staging cells' rounds. -/
def uP₀ : UP := initOf (Pipeline.cells (nD := nD) (τ := τ) cfgs cellOf_inj) (Pipeline.launchToks (nD := nD) (τ := τ) cfgs cellOf_inj)

omit [FloatOps F] in
theorem fund_Gd : BI.own ((EP (F := F)) uP₀) ⊢ |==> bigSep Finset.univ (Gd (F := F)) := by
  unfold uP₀ Gd
  iintro Hu
  imod (Pipeline.fund_ghost cfgs (EP (F := F)) cellOf_inj) $$ Hu with ⟨Hg, Ht⟩
  imodintro
  rw [bigSep_sep']
  have h1 : (bigSep Finset.univ fun c : Dev nD => bigSep Finset.univ fun p : Fin 1 => (Pipeline.cellsGhost cfgs (EP (F := F)) p c : sProp 𝕄))
      ⊢ bigSep Finset.univ fun c : Dev nD => (Pipeline.cellsGhost cfgs (EP (F := F)) 0 c : sProp 𝕄) :=
    bigSep_mono fun c _ => Entails.of_eq (BI.bigSep_univ_of_subsingleton (0 : Fin 1) (Φ := fun p => Pipeline.cellsGhost cfgs (EP (F := F)) p c))
  have h2 : (bigSep Finset.univ fun c : Dev nD => bigSep Finset.univ fun p : Fin 1 => (Pipeline.toksInit cfgs (EP (F := F)) p c : sProp 𝕄))
      ⊢ bigSep Finset.univ fun c : Dev nD => (Pipeline.toksInit cfgs (EP (F := F)) 0 c : sProp 𝕄) :=
    bigSep_mono fun c _ => Entails.of_eq (BI.bigSep_univ_of_subsingleton (0 : Fin 1) (Φ := fun p => Pipeline.toksInit cfgs (EP (F := F)) p c))
  isplitl [Hg]
  · iapply h1; iexact Hg
  · iapply h2; iexact Ht

namespace Tc

/-- The thread's debt at the region, its recorded pairs at level zero. -/
abbrev owesTc (d : Dev nD) : sProp 𝕄 :=
  iprop(∃ W, ⌜(K (F := F)).WBelow (T d) W 0⌝ ∗ owes (T d) ((K (F := F)).Otc d 0) W)

/-! ## The windows' blocks and what the body stores -/

/-- Device d's TensorCore buffers when the region is entered: as launched. -/
abbrev Vr (d : Dev nD) (b : Ref sig .tc) : Buf (Elt F) ((d : Thread nD τ).loc b) := m ((d : Thread nD τ).loc b)

/-- Window w's block at point t, read off its array. -/
def iblk (d : Dev nD) (w : Fin cfg0.W) (t : Fin cfg0.N) : ((cfg0.win w).xblock (cfg0.grid.coords t)).Idx → Elt F (cfg0.win w).elt :=
  ((cfg0.win w).blk t).view.read (Elt F) (Vr m d (Pipeline.arrRef spec0 w))

abbrev rS : Rect S128x128 := Rect.unit (s := S128x128) ![0, 0] S128x128.size inb_S128x128_S128x128_0_0
abbrev rB : Rect S10000x128 := Rect.unit (s := S10000x128) ![0, 0] S10000x128.size inb_S10000x128_S10000x128_0_0

/-- The output window's staging buffer after the body: its one store as a piece. -/
def out3 (x0 : Vec F S10000x128 .f32) (x1 : Vec F S128x128 .f32) (x2 : Vec F S128x128 .f32) : Vec F S10000x128 .f32 :=
  View.canon [⟨rB, k0_pay1 (View.ld x2 rS) (View.ld x1 rS) (View.ld x0 rB)⟩]

/-- The store covers the buffer. -/
theorem cover3 (p0 : Vec F S10000x128 .f32) (y : S10000x128.Idx) :
    ∃ pc ∈ ([⟨rB, p0⟩] : List (View.Piece (Elt F) S10000x128 .f32)), y ∈ pc.1.set :=
  View.cover_of_tiled [⟨rB, p0⟩] S10000x128.size (by rfl) y

/-! ## The body's triple -/

set_option maxHeartbeats 1000000 in
/-- The kernel body on whole staging memrefs, the three inputs' at given contents and the output's at anything, runs
    to the continuation holding the inputs' as they were and the output's at the stored product. -/
theorem sound_kernel (c : Dev nD) (E : Set ℕ) (arg0 : Memref sig .tc .vmem S10000x128 .f32) (harg0 : arg0.IsWhole) (arg1 : Memref sig .tc .vmem S128x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (x2 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ (∃ dd, owns (c : Thread nD τ) arg3 fullShare dd)
        ∗ (iprop(owns (c : Thread nD τ) arg0 fullShare x0 ∗ owns (c : Thread nD τ) arg1 fullShare x1 ∗ owns (c : Thread nD τ) arg2 fullShare x2 ∗ owns (c : Thread nD τ) arg3 fullShare (out3 x0 x1 x2)) -∗ Kc ⟨⟩))
      ⊢ wp frame (wpE (defs₀ (F := F)) Variants.none c none) E (cc0__dense_body arg0 harg0 arg1 harg1 arg2 harg2 arg3 harg3) Kc := by
  simp only [cc0__dense_body_eq_skeleton]; unfold cc0__dense_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data of the one pipeline on device d: the arrays as the region finds them; after the body each input's
    buffer at its block and the output's at the stored product; the invariant the scoped rest (nothing); full shares;
    the thread owing its start signals throughout, its recorded pairs at level zero. -/
def dats (_ : Fin 1) (d : Dev nD) : Dat τ (Elt F) (HIx 1) ℕ UU ℕ cfg0 d where
  A w := Vr m d (Pipeline.arrRef spec0 w)
  after w t := match w with
    | ⟨0, _⟩ => iblk m d 0 t
    | ⟨1, _⟩ => iblk m d 1 t
    | ⟨2, _⟩ => iblk m d 2 t
    | ⟨3, _⟩ => out3 (iblk m d 0 t) (iblk m d 1 t) (iblk m d 2 t)
  Φ _ := Pipeline.scopedRest spec0 d
  q _ := fullShare
  owed _ := (K (F := F)).Otc d 0
  recorded _ := {p | (K (F := F)).lev ((d : Thread nD τ), p.1) p.2 ≤ 0}

theorem A_eq (d : Dev nD) (w : Fin cfg0.W) : (dats m 0 d).A w = Vr m d (Pipeline.arrRef spec0 w) := by
  dsimp only [dats]

theorem after0_0 (d : Dev nD) (t : Fin cfg0.N) : (dats m 0 d).after 0 t = iblk m d 0 t := by dsimp only [dats]
theorem after0_1 (d : Dev nD) (t : Fin cfg0.N) : (dats m 0 d).after 1 t = iblk m d 1 t := by dsimp only [dats]
theorem after0_2 (d : Dev nD) (t : Fin cfg0.N) : (dats m 0 d).after 2 t = iblk m d 2 t := by dsimp only [dats]
theorem after0_3 (d : Dev nD) (t : Fin cfg0.N) : (dats m 0 d).after 3 t = out3 (iblk m d 0 t) (iblk m d 1 t) (iblk m d 2 t) := by dsimp only [dats]

/-- Each input's current staging buffer holds its block when the body runs. -/
theorem before0_0 (d : Dev nD) (t : Fin cfg0.N) (dd) : (dats m 0 d).before 0 t dd = iblk m d 0 t :=
  ((dats m 0 d).before_in_eq_fetched 0 rfl (fun _ => rfl) (fun _ _ _ => rfl) (fun t => by rw [after0_0]; unfold Dat.blockOf iblk; rw [A_eq]; try rfl) t dd).trans
    (by unfold Dat.fetched Dat.blockOf iblk; rw [A_eq]; try rfl)
theorem before0_1 (d : Dev nD) (t : Fin cfg0.N) (dd) : (dats m 0 d).before 1 t dd = iblk m d 1 t :=
  ((dats m 0 d).before_in_eq_fetched 1 rfl (fun _ => rfl) (fun _ _ _ => rfl) (fun t => by rw [after0_1]; unfold Dat.blockOf iblk; rw [A_eq]; try rfl) t dd).trans
    (by unfold Dat.fetched Dat.blockOf iblk; rw [A_eq]; try rfl)
theorem before0_2 (d : Dev nD) (t : Fin cfg0.N) (dd) : (dats m 0 d).before 2 t dd = iblk m d 2 t :=
  ((dats m 0 d).before_in_eq_fetched 2 rfl (fun _ => rfl) (fun _ _ _ => rfl) (fun t => by rw [after0_2]; unfold Dat.blockOf iblk; rw [A_eq]; try rfl) t dd).trans
    (by unfold Dat.fetched Dat.blockOf iblk; rw [A_eq]; try rfl)

/-! ## The body obligation -/

/-- What the body is called with at point t, the windows one by one, -/
def bodyPre (d : Dev nD) (t : Fin cfg0.N) : sProp 𝕄 :=
  iprop((dats m 0 d).Φ t.castSucc ∗ (dats m 0 d).owesAt none t.castSucc
    ∗ (∃ dd, owns (d : Thread nD τ) (st0_0 t) fullShare ((dats m 0 d).before 0 t dd))
    ∗ (∃ dd, owns (d : Thread nD τ) (st0_1 t) fullShare ((dats m 0 d).before 1 t dd))
    ∗ (∃ dd, owns (d : Thread nD τ) (st0_2 t) fullShare ((dats m 0 d).before 2 t dd))
    ∗ (∃ dd, owns (d : Thread nD τ) (st0_3 t) fullShare ((dats m 0 d).before 3 t dd)))

/-- and what it returns. -/
def bodyPost (d : Dev nD) (t : Fin cfg0.N) : sProp 𝕄 :=
  iprop((dats m 0 d).Φ t.succ ∗ (dats m 0 d).owesAt none t.succ
    ∗ owns (d : Thread nD τ) (st0_0 t) fullShare ((dats m 0 d).after 0 t)
    ∗ owns (d : Thread nD τ) (st0_1 t) fullShare ((dats m 0 d).after 1 t)
    ∗ owns (d : Thread nD τ) (st0_2 t) fullShare ((dats m 0 d).after 2 t)
    ∗ owns (d : Thread nD τ) (st0_3 t) fullShare ((dats m 0 d).after 3 t))

/-- The body at any point: the inputs' memrefs hold their blocks, so the body's triple applies; the invariant and the
    thread's debt pass through unread. -/
theorem sound_body (d : Dev nD) (t : Fin cfg0.N) :
    bodyPre m d t ⊢ wp frame (wpE (defs₀ (F := F)) Variants.none d none) Set.univ (bodyAt0 t) (fun _ => bodyPost m d t) := by
  unfold bodyPre bodyPost bodyAt0
  simp only [before0_0, before0_1, before0_2]
  rw [show (dats m 0 d).Φ t.succ = (dats m 0 d).Φ t.castSucc from rfl,
    show (dats m 0 d).owesAt none t.succ = (dats m 0 d).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel d Set.univ _ _ _ _ _ _ _ _ (iblk m d 0 t) (iblk m d 1 t) (iblk m d 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (d : Dev nD) : BodyObligation (dats (F := F) m 0 d) (defs₀ (F := F)) Variants.none none Set.univ := fun t => by
  rw [bigSep_W0, bigSep_W0]
  exact sound_body m d t

/-! ## What the region leaves in the arrays -/

section Final

variable [∀ e, Nonempty (Elt F e)]

theorem hz : (![0, 0] : Fin 2 → Nat) = fun _ => 0 := funext fun a => by fin_cases a <;> rfl

/-- A whole-array window's block, read off an array's contents, is the contents. -/
theorem read_blk0 (t : Fin cfg0.N) (A : FVec F S10000x128 .f32) : ((cfg0.win 0).blk t).view.read (Elt F) A = A := by
  funext j
  show A (((cfg0.win 0).blk t).view.emb j) = A j
  congr 1
  funext a; apply Fin.ext
  match a with
  | ⟨0, _⟩ => show 0 * 10000 + 1 * (j 0).val = (j 0).val; omega
  | ⟨1, _⟩ => show 0 * 128 + 1 * (j 1).val = (j 1).val; omega
theorem read_blk1 (t : Fin cfg0.N) (A : FVec F S128x128 .f32) : ((cfg0.win 1).blk t).view.read (Elt F) A = A := by
  funext j
  show A (((cfg0.win 1).blk t).view.emb j) = A j
  congr 1
  funext a; apply Fin.ext
  match a with
  | ⟨0, _⟩ => show 0 * 128 + 1 * (j 0).val = (j 0).val; omega
  | ⟨1, _⟩ => show 0 * 128 + 1 * (j 1).val = (j 1).val; omega
theorem read_blk2 (t : Fin cfg0.N) (A : FVec F S128x128 .f32) : ((cfg0.win 2).blk t).view.read (Elt F) A = A := by
  funext j
  show A (((cfg0.win 2).blk t).view.emb j) = A j
  congr 1
  funext a; apply Fin.ext
  match a with
  | ⟨0, _⟩ => show 0 * 128 + 1 * (j 0).val = (j 0).val; omega
  | ⟨1, _⟩ => show 0 * 128 + 1 * (j 1).val = (j 1).val; omega
theorem read_blk3 (t : Fin cfg0.N) (A : FVec F S10000x128 .f32) : ((cfg0.win 3).blk t).view.read (Elt F) A = A := by
  funext j
  show A (((cfg0.win 3).blk t).view.emb j) = A j
  congr 1
  funext a; apply Fin.ext
  match a with
  | ⟨0, _⟩ => show 0 * 10000 + 1 * (j 0).val = (j 0).val; omega
  | ⟨1, _⟩ => show 0 * 128 + 1 * (j 1).val = (j 1).val; omega

theorem iblk0_eq (d : Dev nD) (t : Fin cfg0.N) : iblk m d 0 t = (m (xLoc d) : FVec F S10000x128 .f32) := read_blk0 t _
theorem iblk1_eq (d : Dev nD) (t : Fin cfg0.N) : iblk m d 1 t = (m (w1Loc d) : FVec F S128x128 .f32) := read_blk1 t _
theorem iblk2_eq (d : Dev nD) (t : Fin cfg0.N) : iblk m d 2 t = (m (w2Loc d) : FVec F S128x128 .f32) := read_blk2 t _

/-- What the one point writes back is the product, read through the window. -/
theorem flushed3_eq (d : Dev nD) (t : Fin cfg0.N) :
    (dats m 0 d).flushed 3 t = ((cfg0.win 3).blk t).view.read (Elt F) (yval m d) := by
  show (cfg0.win 3).cut (grid0.coords t) ((dats m 0 d).after 3 t) = _
  rw [after0_3, read_blk3]
  unfold out3
  rw [View.canon_unit_zero hz]
  simp only [View.ld_unit_zero (S := S128x128) hz, View.ld_unit_zero (S := S10000x128) hz]
  rw [iblk0_eq, iblk1_eq, iblk2_eq]
  rfl

/-- The one point's block is the whole array. -/
theorem cover_blk3 (i : S10000x128.Idx) : ∃ t : Fin cfg0.N, (cfg0.win 3).flush t = true ∧ i ∈ ((cfg0.win 3).blk t).view.set := by
  refine ⟨t0_0, flush0_3 t0_0, ?_⟩
  show i ∈ ((View.whole main_v2).slice (win0_3.rect t0_0)).set
  rw [View.set_slice_whole, Rect.mem_set_unit]
  intro a
  match a with
  | ⟨0, _⟩ => show 0 * 10000 ≤ (i 0).val ∧ (i 0).val < 0 * 10000 + 10000; have h0 : (i 0).val < 10000 := (i 0).isLt; omega
  | ⟨1, _⟩ => show 0 * 128 ≤ (i 1).val ∧ (i 1).val < 0 * 128 + 128; have h1 : (i 1).val < 128 := (i 1).isLt; omega

/-- The transformed-features array after the region. -/
theorem final3 (d : Dev nD) : (dats m 0 d).arrAt 3 cfg0.N = yval m d :=
  (dats m 0 d).arrAt_eq_of_cover 3 _ (fun t _ => flushed3_eq m d t) cover_blk3

end Final

/-! ## The region's step -/

section Region

variable [∀ e, Nonempty (Elt F e)]

/-- No prefetched table. -/
abbrev adm : (p : Fin 1) → (pcfgs (F := F) p).Adm := fun p => (cfgs p).toPCfg_adm

/-- The start signals the thread owes are all at a call's index: nothing at the kernels' own index. -/
theorem Otc_none (d : Dev nD) (g : GSem nD τ sig) : (K (F := F)).Otc d 0 g none = 0 := by
  by_contra h
  have h' := SparseCore.Cfg.lev_of_Otc_pos (K := K (F := F)) (d := d) (n := 0) (g := g) (ι := none) (Nat.pos_of_ne_zero h)
  rw [SparseCore.Cfg.lev_none] at h'
  omega

/-- The four windows' arrays at the region's entry, -/
abbrev regIn (d : Dev nD) : sProp 𝕄 :=
  iprop((xLoc d ↦{fullShare} m (xLoc d)) ∗ (w1Loc d ↦{fullShare} m (w1Loc d)) ∗ (w2Loc d ↦{fullShare} m (w2Loc d)) ∗ (yLoc d ↦{fullShare} m (yLoc d)))
/-- and after it. -/
abbrev regOut (d : Dev nD) : sProp 𝕄 :=
  iprop((xLoc d ↦{fullShare} m (xLoc d)) ∗ (w1Loc d ↦{fullShare} m (w1Loc d)) ∗ (w2Loc d ↦{fullShare} m (w2Loc d)) ∗ (yLoc d ↦{fullShare} yval m d))

theorem arrays_entry (d : Dev nD) : regIn m d ⊢ (dats m 0 d).arrays ((dats m 0 d).arrAt · 0) := by
  rw [Pipeline.arrays_eq cfgs (dats m) 0 d launch0.arr_whole ((dats m 0 d).share_full fun _ => rfl), bigSep_W0]
  exact .rfl

theorem arrays_exit (d : Dev nD) : (dats m 0 d).arrays ((dats m 0 d).arrAt · cfg0.N) ⊢ regOut m d := by
  rw [Pipeline.arrays_eq cfgs (dats m) 0 d launch0.arr_whole ((dats m 0 d).share_full fun _ => rfl), bigSep_W0,
    (dats m 0 d).arrAt_in 0 rfl, (dats m 0 d).arrAt_in 1 rfl, (dats m 0 d).arrAt_in 2 rfl, final3]
  exact .rfl

/-- The region's thread states: the thread's debt beside the four arrays. -/
abbrev regPre (d : Dev nD) : sProp 𝕄 := iprop(owesTc (F := F) d ∗ regIn m d)
abbrev regPost (d : Dev nD) : sProp 𝕄 := iprop(owesTc (F := F) d ∗ regOut m d)

set_option backward.isDefEq.respectTransparency.types false in
/-- The region: the windows' decided layout, no semaphore of the kernel's own, the body obligation; the staging cells'
    waits sit at the kernels' own index, below every start signal the thread owes. -/
def reg0 : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody d := (body_obligation m d).loose
  hwaits d := Pipeline.cellsWaits_intro (Pipeline.pin (pcfgs (F := F)) adm) (dats m) none 0 d fun w s t =>
    (K (F := F)).mayWait_none _ (Otc_none d)
  pre := regPre m
  post := regPost m
  X _ := iprop(emp)
  Y _ := iprop(emp)
  Z _ := iprop(emp)
  hentry d := by
    rw [Pipeline.ownSems0_none]
    iintro ⟨⟨HO, Ha⟩, -, -⟩
    imodintro
    isplitl [Ha]; · iapply (arrays_entry m d); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin d := by
    rw [show (dats m 0 d).Φ 0 = Pipeline.scopedRest spec0 d from rfl]
    iintro ⟨-, -, Hr⟩
    iexact Hr
  hout d := by
    rw [Pipeline.ownSems0_none, show (dats m 0 d).Φ (Fin.last cfg0.N) = Pipeline.scopedRest spec0 d from rfl]
    iintro Hr
    isplitr; · iempintro
    isplitr; · iempintro
    iexact Hr
  hexit d := by
    iintro ⟨Ha, HO, -, -⟩
    imodintro
    isplitl [HO]
    · unfold Pipeline.Dat.owesAt Pipeline.owesWithin
      icases HO with ⟨%W, %hW, HO⟩; iexists W; isplitr
      · ipureintro
        intro p hp
        rcases hW hp with h | ⟨w, s, rfl⟩
        · exact h
        · exact le_of_eq (SparseCore.Cfg.lev_none _ _)
      iexact HO
    iapply (arrays_exit m d); iexact Ha

set_option backward.isDefEq.respectTransparency.types false in
/-- The TensorCore kernel's call in @main: from the boundary, the thread's debt, the four arrays and the staging
    cells' launch ghost state to the boundary, the debt and the arrays after the kernel. -/
theorem region_step (P : (K (F := F)).Pay (nD := nD) (Val := Elt F) (Name := ℕ) (U := UU)) (κ : GSem nD τ sig → ℕ) (d : Dev nD) (Φ : PUnit → sProp 𝕄) :
    iprop((K (F := F)).ctx EH P κ ∗ boundary (T d) ∗ regPre m d ∗ Gd (F := F) d
        ∗ ((boundary (T d) ∗ regPost m d) -∗ Φ ⟨⟩))
      ⊢ wp frame (wpE ((K (F := F)).defs (D (F := F))) 𝒱 (SparseCore.T d) none) Set.univ
          (Prog.lift (.customCall (SparseCore.inner (Pipeline.entry 0)) ())) Φ := by
  refine BIBase.Entails.trans ?_ (show wp frame (wpE (D (F := F)) 𝒱 (SparseCore.T d) none) Set.univ (Prog.lift (.customCall (Pipeline.entry 0) ())) Φ
      ⊢ wp frame (wpE ((K (F := F)).defs (D (F := F))) 𝒱 (SparseCore.T d) none) Set.univ (Prog.lift (.customCall (SparseCore.inner (Pipeline.entry 0)) ())) Φ
      from (K (F := F)).wp_liftProg (D (F := F)) 𝒱 (SparseCore.T d) Set.univ none _ Φ)
  refine BIBase.Entails.trans ?_ (Pipeline.RegionSeg.wp (pcfgs (F := F)) adm (dats m) none cellOf_inj (EP (F := F)) defs₀ 𝒱₀ (K (F := F)).L (K (F := F)).lev (reg0 m) d none
      (fun u h => nomatch h) (fun x => .ret x) Φ)
  show _ ⊢ iprop((iprop(boundary (T d) ∗ regPost m d) -∗ wp frame (wpE (D (F := F)) 𝒱 (SparseCore.T d) none) Set.univ (.ret ⟨⟩) Φ)
    ∗ boundary (T d) ∗ regPre m d ∗ levAts (K (F := F)).L (K (F := F)).lev ∗ Gd (F := F) d)
  iintro ⟨#Hctx, Hb, Hpre, HG, Hk⟩
  ihave Hlev := (SparseCore.Cfg.ctx_levAts κ) $$ Hctx
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitr; · iexact Hlev
  iexact HG

end Region

end Tc

end Cert.KernelIdeal.KRun

end
-- ==== Proof.KMain.lean ====
/-
  @main on the TensorCore: the two host operations that cut row 0 out of the edge list and flatten it, the
  TensorCore kernel's region (which leaves the transformed-features array at the value the set-up module names yval),
  and the SparseCore call. Stated for any payload record whose call-0 operands are
  carved out of the arrays as they stand after the region.
-/
import proofs.«205984_g59184649339042_cont_9to1_m_680_25_alg».proof.Proof.KSetup
import proofs.«205984_g59184649339042_cont_9to1_m_680_25_alg».proof.Proof.KVals
import proofs.«205984_g59184649339042_cont_9to1_m_680_25_alg».proof.Proof.Gen.KernelIdeal.Launch
import proofs.«205984_g59184649339042_cont_9to1_m_680_25_alg».proof.Proof.Gen.KernelIdeal.Points
import proofs.«205984_g59184649339042_cont_9to1_m_680_25_alg».proof.Proof.KMainReg

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]
variable (m : (ℓ : Loc nD τ sig) → Buf (Elt F) ℓ) (ρ : Dev nD → PrngReg)

local notation "𝕄" => MT nD τ sig (HIx 1) (Elt F) ℕ UU ℕ

namespace Tc

/-! ## @main's arrays -/

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (eLoc d ↦{fullShare} W main_arg1) ∗ (w1Loc d ↦{fullShare} W main_arg2) ∗ (w2Loc d ↦{fullShare} W main_arg3)
          ∗ (r0Loc d ↦{fullShare} W main_v0) ∗ (iLoc d ↦{fullShare} W main_v1) ∗ (yLoc d ↦{fullShare} W main_v2) ∗ (oLoc d ↦{fullShare} W main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The two host operations -/

abbrev e' : DevRef τ sig := Proc.devRef .tc (main_arg1 : Ref sig .tc)
abbrev r0' : DevRef τ sig := Proc.devRef .tc (main_v0 : Ref sig .tc)
abbrev i' : DevRef τ sig := Proc.devRef .tc (main_v1 : Ref sig .tc)
/-- Row 0 of the edge list cut out; -/
abbrev opSlice : HloOp τ sig (Elt F) :=
  StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
/-- and flattened. -/
abbrev opFlat : HloOp τ sig (Elt F) := StableHlo.reshape main_v0 main_v1 rfl shapeCasts_S1x320000_S320000

abbrev S1 : Finset (DevRef τ sig) := {e', r0'}
abbrev S2 : Finset (DevRef τ sig) := {r0', i'}

/-- The launch valuation, and the one after the slice. -/
def V0 (d : Dev nD) : Valuation τ sig (Elt F) := fun b => m (d, b)
abbrev V1 (d : Dev nD) : Valuation τ sig (Elt F) := (opSlice (F := F)).result (V0 m d)

omit [FloatOps F] in
theorem held_S1 (d : Dev nD) (W : Valuation τ sig (Elt F)) :
    (held (T d) S1 W : sProp 𝕄) = iprop((eLoc d ↦{fullShare} W e') ∗ (r0Loc d ↦{fullShare} W r0')) := by
  unfold held S1
  rw [SparseCore.bigSep_insert' (by decide), bigSep_singleton]
omit [FloatOps F] in
theorem held_S2 (d : Dev nD) (W : Valuation τ sig (Elt F)) :
    (held (T d) S2 W : sProp 𝕄) = iprop((r0Loc d ↦{fullShare} W r0') ∗ (iLoc d ↦{fullShare} W i')) := by
  unfold held S2
  rw [SparseCore.bigSep_insert' (by decide), bigSep_singleton]

theorem hS1 : (opSlice (F := F)).bufs ⊆ S1 := show ({e', r0'} : Finset (DevRef τ sig)) ⊆ S1 by decide
theorem hS2 : (opFlat (F := F)).bufs ⊆ S2 := show ({r0', i'} : Finset (DevRef τ sig)) ⊆ S2 by decide

theorem V1_e (d : Dev nD) : (opSlice (F := F)).result (V0 m d) e' = m (eLoc d) :=
  StableHlo.unary_result_ne _ _ _ _ _ (V0 m d) (show (main_arg1 : Ref sig .tc) ≠ main_v0 by decide)
theorem V1_r0 (d : Dev nD) : (opSlice (F := F)).result (V0 m d) r0' = r0val m d := StableHlo.unary_result _ _ _ _ _ (V0 m d)
theorem V1_i (d : Dev nD) : (opSlice (F := F)).result (V0 m d) i' = m (iLoc d) :=
  StableHlo.unary_result_ne _ _ _ _ _ (V0 m d) (show (main_v1 : Ref sig .tc) ≠ main_v0 by decide)
theorem V2_r0 (d : Dev nD) : (opFlat (F := F)).result (V1 m d) r0' = r0val m d :=
  (StableHlo.reshape_result_ne _ _ _ _ _ _ (V1 m d) (show (main_v0 : Ref sig .tc) ≠ main_v1 by decide)).trans (V1_r0 m d)
theorem V2_i (d : Dev nD) : (opFlat (F := F)).result (V1 m d) i' = ival m d := by
  refine (StableHlo.reshape_result _ _ _ _ _ _ (V1 m d)).trans ?_
  unfold ival; rw [← V1_r0]; rfl

/-! ## The thread's state around the region -/

/-- The rest of the TensorCore's state before call 0: its positions, rounds, tokens and credit. -/
abbrev tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom (Q := 1) 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt0_eq (d : Dev nD) : (K (F := F)).tcSt EH d 0 = iprop(owesTc (F := F) d ∗ tcRest (F := F) d) := rfl

end Tc

open Tc

/-! ## @main -/

theorem hmain_of [∀ e, Nonempty (Elt F e)] (P : (K (F := F)).Pay (nD := nD) (Val := Elt F) (Name := ℕ) (U := UU)) (Rest FIN : Dev nD → sProp 𝕄)
    (hst : ∀ d, Mid m d ⊢ iprop((bigSep Finset.univ fun c : Fin ((K (F := F)).nCore 0) => P.st 0 d c) ∗ Rest d))
    (hdn : ∀ d, iprop(Rest d ∗ bigSep Finset.univ fun c : Fin ((K (F := F)).nCore 0) => P.dn 0 d c) ⊢ FIN d)
    (κ : GSem nD τ sig → ℕ) (d : Dev nD) :
    iprop((K (F := F)).ctx EH P κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN d) := by
  unfold SparseCore.Cfg.tcRes
  rw [unscopedBufs_eq, tcSt0_eq]
  simp only [main, wp_bind, wp_pure]
  iintro ⟨#Hctx, ⟨HO, Hrest⟩, ⟨Hb, ⟨Hx, He, Hw1, Hw2, Hr0, Hi, Hy, Ho⟩, -, -⟩, HG⟩
  -- row 0 of the edge list
  iapply (wp_hlo_within 𝒱 (SparseCore.T d) none Set.univ (op := opSlice) (S := S1) hS1 (V := V0 m d)) $$ [Hb He Hr0]
  · isplitl [Hb]; · iexact Hb
    rw [held_S1]
    isplitl [He]; · iexact He
    iexact Hr0
  iintro ⟨Hb, Hheld⟩
  rw [wp_ret]; imodintro
  ihave Hh := (Entails.of_eq (held_S1 (F := F) d _)) $$ Hheld
  icases Hh with ⟨He, Hr0⟩
  -- flattened
  iapply (wp_hlo_within 𝒱 (SparseCore.T d) none Set.univ (op := opFlat) (S := S2) hS2 (V := (opSlice (F := F)).result (V0 m d))) $$ [Hb Hr0 Hi]
  · isplitl [Hb]; · iexact Hb
    rw [held_S2, V1_i]
    isplitl [Hr0]; · iexact Hr0
    iexact Hi
  iintro ⟨Hb, Hheld⟩
  rw [wp_ret]; imodintro
  ihave Hh := (Entails.of_eq (held_S2 (F := F) d _)) $$ Hheld
  rw [V2_r0, V2_i, V1_e]
  icases Hh with ⟨Hr0, Hi⟩
  -- the TensorCore kernel
  iapply (region_step m P κ d) $$ [HO Hb Hx Hw1 Hw2 Hy HG Hrest He Hr0 Hi Ho]
  isplitr; · iexact Hctx
  isplitl [Hb]; · iexact Hb
  isplitl [HO Hx Hw1 Hw2 Hy]
  · isplitl [HO]; · iexact HO
    isplitl [Hx]; · iexact Hx
    isplitl [Hw1]; · iexact Hw1
    isplitl [Hw2]; · iexact Hw2
    iexact Hy
  isplitl [HG]; · iexact HG
  iintro ⟨Hb, HO, Hx, Hw1, Hw2, Hy⟩
  -- the SparseCore call
  ihave Hmid := (hst d) $$ [Hx He Hw1 Hw2 Hr0 Hi Hy Ho]
  · isplitl [Hx]; · iexact Hx
    isplitl [He]; · iexact He
    isplitl [Hw1]; · iexact Hw1
    isplitl [Hw2]; · iexact Hw2
    isplitl [Hr0]; · iexact Hr0
    isplitl [Hi]; · iexact Hi
    isplitl [Hy]; · iexact Hy
    iexact Ho
  icases Hmid with ⟨Hst0, HR⟩
  iapply ((K (F := F)).wp_run (D (F := F)) 𝒱 (EH := EH) (P := P) κ d 0) $$ [HO Hrest Hst0 HR]
  isplitr; · iexact Hctx
  isplitl [HO Hrest]
  · ihave Hst' := (Entails.of_eq (tcSt0_eq (F := F) d).symm) $$ [HO Hrest]
    · isplitl [HO]; · iexact HO
      iexact Hrest
    iexact Hst'
  isplitl [Hst0]; · iexact Hst0
  iintro ⟨Hst, Hdn⟩
  imodintro
  ihave Hst' := (Entails.of_eq (show (K (F := F)).tcSt EH d ((0 : Fin 1).val + 1) = (K (F := F)).tcSt EH d 1 from rfl)) $$ Hst
  isplitl [Hst']; · iexact Hst'
  iapply (hdn d)
  isplitl [HR]; · iexact HR
  iexact Hdn

end Cert.KernelIdeal.KRun

end
-- ==== Proof.KCells.lean ====
/-
  The blocks the vector subcores work on, and the subcore barrier's cells.

  Of the sixteen vector subcores of a SparseCore the first ten each copy a block of 1000 rows of the transformed
  node features into the SparseCore's shared memory; all sixteen then meet at the barrier, after which every one
  of them reads the whole shared copy. So the barrier carries ownership: arriving, subcore n (n < 10) hands to
  every subcore j of its SparseCore a read share of its block, at the contents it copied; leaving, subcore j has
  collected a read share of all ten blocks, that is, of the whole shared array.
  Subcore i of SparseCore c is worker 2 i + c of thirty-two: it owns entries [10000 w, 10000 (w + 1)) of the list
  of source nodes and the same rows of the result.
-/
import proofs.«205984_g59184649339042_cont_9to1_m_680_25_alg».proof.Proof.KVals

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Blocks -/

theorem hdiv10 : 10 ∣ S10000x128.size 0 := ⟨1000, rfl⟩
theorem hdiv32i : 32 ∣ S320000.size 0 := ⟨10000, rfl⟩
theorem hdiv32o : 32 ∣ S320000x128.size 0 := ⟨10000, rfl⟩
/-- Rows [1000 n, 1000 (n + 1)) of the node table. -/
abbrev stageRect (n : Fin 10) : Rect S10000x128 := Rect.part (s := S10000x128) (a₀ := 0) hdiv10 n
/-- Entries [10000 w, 10000 (w + 1)) of the list of source nodes. -/
abbrev idxRect (w : Fin 32) : Rect S320000 := Rect.part (s := S320000) (a₀ := 0) hdiv32i w
/-- Rows [10000 w, 10000 (w + 1)) of the result. -/
abbrev outRect (w : Fin 32) : Rect S320000x128 := Rect.part (s := S320000x128) (a₀ := 0) hdiv32o w
/-- Block n of the node table as a set of elements; nothing for n ≥ 10. -/
def stageSet (n : ℕ) : Finset S10000x128.Idx := if h : n < 10 then (stageRect ⟨n, h⟩).set else ∅
/-- The worker number of vector subcore i of SparseCore c. -/
def wid (c : Fin 2) (i : Fin 16) : Fin 32 := ⟨2 * i.val + c.val, by omega⟩

theorem nSub_eq : τ.nSub = 16 := rfl
theorem nSC_eq : τ.nSC = 2 := rfl

/-- SparseCore c's shared copy of the transformed node features, as every vector subcore of it addresses it. -/
abbrev shRef (c : Fin τ.nSC) : DevRef τ sig := ⟨.shared, ⟨0, by decide⟩, c⟩
abbrev shLoc (d : Dev nD) (c : Fin τ.nSC) : Loc nD τ sig := (d, shRef c)

/-! ## Sixteen read shares of the whole -/

/-- The full share halved k times to the right. -/
def rk (k : ℕ) : PosShare TreeShare := (PosShare.right)^[k] fullShare
/-- The share of the shared copy that vector subcore j ends with: the left half of what is left after j halvings,
    the last subcore taking all that is left. The sixteen make up the full share. -/
def q16 (j : Fin 16) : PosShare TreeShare := if j.val < 15 then (rk j.val).left else rk 15

variable [FloatOps F]
variable (m : (ℓ : Loc nD τ sig) → Buf (Elt F) ℓ)

/-- The shared copy's contents once staged: the transformed node features. -/
def shval (d : Dev nD) (c : Fin τ.nSC) : Buf (Elt F) (shLoc d c) := (yval m d : FVec F S10000x128 .f32)

/-! ## The barrier cells -/

/-- Vector subcore (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What subcore n's arrival hands subcore j's round: a read share of block n of the shared copy, at the staged
    contents (nothing from the six subcores that stage no block). -/
def bPay (g : GSem nD τ sig) (n : ℕ) : sProp 𝕄 :=
  match g with
  | ((d, .scVector c j), _) => if n < 10 then iprop(shLoc d c ↦[stageSet n]{q16 (Fin.cast nSub_eq j)} shval m d c) else iprop(emp)
  | _ => iprop(emp)

/-- The barrier cells' schedule: one round on each, one unit duty per vector subcore of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a vector subcore of SparseCore c owe for the barrier: a unit on every subcore's cell. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A vector subcore's barrier kit: every cell's invariant of its SparseCore and that each has reached round 0, its
    duty token in every cell's round 0, its own position at the origin of round 0, and the credit for the sixteen
    units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

end Cert.KernelIdeal.KRun

end
-- ==== Proof.KPay.lean ====
/-
  What the launch handshakes carry. The TensorCore hands each SparseCore, for the one call: a read share of
  the transformed node features (each SparseCore half), and for each of its sixteen workers the worker's
  entries of the list of source nodes and the worker's rows of the result. The sequencer hands each vector
  subcore its worker's entries and rows, and — to the ten that stage — its block of the features (in HBM, at
  the SparseCore's share) and the same block of the SparseCore's shared memory, to be overwritten. A vector
  subcore hands back its entries unchanged, its rows of the result holding the looked-up rows, its HBM block,
  and a sixteenth read share of the WHOLE shared copy, which now holds the features; the sixteen shares make
  the shared array whole again for the sequencer.
-/
import proofs.«205984_g59184649339042_cont_9to1_m_680_25_alg».proof.Proof.KCells

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-- The elements of worker w's entries of the list of source nodes, and of its rows of the result. -/
abbrev idxSet (w : Fin 32) : Finset S320000.Idx := (idxRect w).set
abbrev outSet (w : Fin 32) : Finset S320000x128.Idx := (outRect w).set

/-- SparseCore c's read share of the transformed features in HBM: a half each. -/
def qY (c : Fin 2) : PosShare TreeShare := if c.val = 0 then fullShare.left else fullShare.right

/-- The SparseCore and the worker of the call's core number c and subcore number i. -/
abbrev c2 (c : Fin ((K (F := F)).nCore 0)) : Fin 2 := Fin.cast nCore_zero c
abbrev i16 (i : Fin ((K (F := F)).nSub 0)) : Fin 16 := Fin.cast nSub_zero i

/-- A worker's rows of the result hold the looked-up rows. -/
def GoodRows (d : Dev nD) (w : Fin 32) (f : Buf (Elt F) (oLoc d)) : Prop := ∀ j ∈ outSet w, (f : FVec F S320000x128 .f32) j = (oval m d : FVec F S320000x128 .f32) j

def P : (K (F := F)).Pay (nD := nD) (Val := Elt F) (Name := ℕ) (U := UU) where
  st := fun q d c => match q with
    | 0 => iprop((yLoc d ↦{qY (c2 c)} yval m d)
        ∗ bigSep Finset.univ fun i : Fin 16 => iprop((iLoc d ↦[idxSet (wid (c2 c) i)]{fullShare} ival m d) ∗ (oLoc d ↦[outSet (wid (c2 c) i)]{fullShare} m (oLoc d))))
  dn := fun q d c => match q with
    | 0 => iprop((yLoc d ↦{qY (c2 c)} yval m d)
        ∗ bigSep Finset.univ fun i : Fin 16 => iprop((iLoc d ↦[idxSet (wid (c2 c) i)]{fullShare} ival m d)
            ∗ ∃ f, ⌜GoodRows m d (wid (c2 c) i) f⌝ ∗ (oLoc d ↦[outSet (wid (c2 c) i)]{fullShare} f)))
  go := fun q d c i => match q with
    | 0 => iprop((iLoc d ↦[idxSet (wid (c2 c) (i16 i))]{fullShare} ival m d) ∗ (oLoc d ↦[outSet (wid (c2 c) (i16 i))]{fullShare} m (oLoc d))
        ∗ (yLoc d ↦[stageSet i.val]{qY (c2 c)} yval m d) ∗ ∃ f, shLoc d (coreOf c) ↦[stageSet i.val]{fullShare} f)
  td := fun q d c i => match q with
    | 0 => iprop((iLoc d ↦[idxSet (wid (c2 c) (i16 i))]{fullShare} ival m d)
        ∗ (∃ f, ⌜GoodRows m d (wid (c2 c) (i16 i)) f⌝ ∗ (oLoc d ↦[outSet (wid (c2 c) (i16 i))]{fullShare} f))
        ∗ (yLoc d ↦[stageSet i.val]{qY (c2 c)} yval m d) ∗ (shLoc d (coreOf c) ↦{q16 (i16 i)} shval m d (coreOf c)))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => by unfold P; dsimp only; infer_instance
  dn q d c := match q with
    | 0 => by unfold P; dsimp only; infer_instance
  go q d c i := match q with
    | 0 => by unfold P; dsimp only; infer_instance
  td q d c i := match q with
    | 0 => by unfold P; dsimp only; infer_instance

end Cert.KernelIdeal.KRun

end
-- ==== Proof.KShares.lean ====
/-
  The full share as sixteen read shares.

  Halving the full share to the right again and again, and keeping each left half, cuts it into the pieces
  L₀, L₁, …, L₁₄ and the remainder R₁₅, where R₀ is the full share, R_k = L_k + R_{k+1}. A points-to assertion at
  the full share is therefore the separating conjunction of the sixteen points-to assertions at these pieces.
-/
import proofs.«205984_g59184649339042_cont_9to1_m_680_25_alg».proof.Proof.KCells
import Idealize.ShloMosaic.Lib.Ring

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- One more halving: the remainder after k + 1 halvings is the right half of the remainder after k. -/
theorem rk_succ (k : ℕ) : rk (k + 1) = (rk k).right := by
  unfold rk; exact Function.iterate_succ_apply' _ _ _

/-- The remainder after k halvings is its left half together with the remainder after k + 1. -/
theorem pointsTo_rk_split {ℓ : Loc nD τ sig} (I : Finset (Idx ℓ)) (f : Buf (Elt F) ℓ) (k : ℕ) :
    (ℓ ↦[I]{rk k} f : sProp 𝕄) = iprop((ℓ ↦[I]{(rk k).left} f) ∗ ℓ ↦[I]{rk (k + 1)} f) := by
  rw [rk_succ]
  have h : (ℓ ↦[I]{rk k} f : sProp 𝕄) ⊣⊢ iprop((ℓ ↦[I]{(rk k).left} f) ∗ ℓ ↦[I]{(rk k).right} f) :=
    pointsTo_share (PosShare.mem_left_op_right (rk k))
  exact BI.equiv_iff.mp ⟨h.1, h.2⟩

/-- The full share is the first n left halves together with the remainder after n halvings. -/
theorem pointsTo_rk_chain {ℓ : Loc nD τ sig} (I : Finset (Idx ℓ)) (f : Buf (Elt F) ℓ) (n : ℕ) :
    (ℓ ↦[I]{fullShare} f : sProp 𝕄)
      = iprop(bigSep (Finset.range n) (fun j => (ℓ ↦[I]{(rk j).left} f : sProp 𝕄)) ∗ ℓ ↦[I]{rk n} f) := by
  induction n with
  | zero =>
    rw [Finset.range_zero, bigSep_empty]
    exact (BI.equiv_iff.mp BI.emp_sep).symm
  | succ n ih =>
    rw [ih, pointsTo_rk_split I f n, Finset.range_add_one, bigSep_insert Finset.notMem_range_self]
    exact BI.equiv_iff.mp ⟨BI.sep_assoc'.trans (BI.sep_mono BI.sep_comm (.refl _)),
      (BI.sep_mono BI.sep_comm (.refl _)).trans BI.sep_assoc⟩

/-- A points-to assertion at the full share is the sixteen points-to assertions at the shares q16. -/
theorem pointsTo_q16 {ℓ : Loc nD τ sig} (I : Finset (Idx ℓ)) (f : Buf (Elt F) ℓ) :
    (ℓ ↦[I]{fullShare} f : sProp 𝕄) = bigSep Finset.univ fun j : Fin 16 => (ℓ ↦[I]{q16 j} f : sProp 𝕄) := by
  rw [Ring.bigSep_fin_eq_range 16 _ (fun t => (ℓ ↦[I]{if t < 15 then (rk t).left else rk 15} f : sProp 𝕄)) (fun t h => rfl),
    show Finset.range 16 = insert 15 (Finset.range 15) from Finset.range_add_one,
    bigSep_insert Finset.notMem_range_self,
    bigSep_congr (Ψ := fun j => (ℓ ↦[I]{(rk j).left} f : sProp 𝕄)) (fun t ht => by rw [if_pos (Finset.mem_range.mp ht)]),
    pointsTo_rk_chain I f 15]
  exact BI.equiv_iff.mp ⟨BI.sep_comm, BI.sep_comm⟩

end Cert.KernelIdeal.KRun

end
-- ==== Proof.KStage.lean ====
/-
  The ten staged blocks tile the node table.

  Block n (n < 10) is rows [1000 n, 1000 (n + 1)) of the 10000-row table: different blocks share no element and
  together they are the whole table. So a points-to assertion on the whole shared copy, at any share, is the
  separating conjunction of the ten points-to assertions on its blocks.
-/
import proofs.«205984_g59184649339042_cont_9to1_m_680_25_alg».proof.Proof.KCells

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Below ten, block n is the n-th of the ten equal parts of the table along its rows. -/
theorem stageSet_of_lt {n : ℕ} (h : n < 10) : stageSet n = (stageRect ⟨n, h⟩).set := dif_pos h

/-- From ten on there is no block. -/
theorem stageSet_of_ge {n : ℕ} (h : 10 ≤ n) : stageSet n = ∅ := dif_neg (by omega)

/-- Different blocks share no element. -/
theorem stageSet_disjoint : ∀ n ∈ Finset.range 10, ∀ n' ∈ Finset.range 10, n ≠ n' → Disjoint (stageSet n) (stageSet n') := by
  intro n hn n' hn' hne
  rw [stageSet_of_lt (Finset.mem_range.mp hn), stageSet_of_lt (Finset.mem_range.mp hn')]
  exact Rect.part_disjoint hdiv10 (fun e => hne (congrArg Fin.val e))

/-- The ten blocks are the whole table. -/
theorem stageSet_cover : (Finset.range 10).biUnion stageSet = Finset.univ := by
  ext i
  refine ⟨fun _ => Finset.mem_univ i, fun _ => ?_⟩
  obtain ⟨j, hj⟩ := Rect.exists_mem_part hdiv10 i
  refine Finset.mem_biUnion.mpr ⟨j.val, Finset.mem_range.mpr j.isLt, ?_⟩
  rw [stageSet_of_lt j.isLt]
  exact hj

/-- The whole shared copy, at any share and any contents, is its ten blocks. -/
theorem pointsTo_stages (d : Dev nD) (c : Fin τ.nSC) (q : PosShare TreeShare) (f : Buf (Elt F) (shLoc d c)) :
    (shLoc d c ↦{q} f : sProp 𝕄) = bigSep (Finset.range 10) fun n => (shLoc d c ↦[stageSet n]{q} f : sProp 𝕄) := by
  rw [← pointsTo_biUnion (Finset.range 10) (ℓ := shLoc d c) stageSet stageSet_disjoint, stageSet_cover]

end Cert.KernelIdeal.KRun

end
-- ==== Proof.KVecSplit.lean ====
/-
  How a SparseCore's operands split among its sixteen vector subcores, and how their results gather.

  The SparseCore holds a read share of the transformed node features, and for each of its sixteen workers the
  worker's entries of the list of source nodes and its rows of the result; among the sequencer's own buffers is
  the SparseCore's shared array. Going out, the features' share and the shared array are each cut into the
  sixteen blocks of the node table (ten blocks of 1000 rows that tile it, and six empty ones), one per subcore;
  the entries and rows are already dealt per worker. Coming back, the features' blocks make the share whole
  again, the entries and rows are as the workers left them, and the sixteen read shares of the whole shared
  array, one from each subcore, add up to the full share: the shared array is the sequencer's again.
-/
import proofs.«205984_g59184649339042_cont_9to1_m_680_25_alg».proof.Proof.KPay
import proofs.«205984_g59184649339042_cont_9to1_m_680_25_alg».proof.Proof.KShares
import proofs.«205984_g59184649339042_cont_9to1_m_680_25_alg».proof.Proof.KStage

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-! ## The pieces, and the payload's fields written over them -/

/-- Worker (c, i)'s entries of the list of source nodes. -/
abbrev idxPts (d : Dev nD) (c : Fin 2) (i : Fin 16) : sProp 𝕄 := iLoc d ↦[idxSet (wid c i)]{fullShare} ival m d
/-- Its rows of the result, before the call. -/
abbrev outPts (d : Dev nD) (c : Fin 2) (i : Fin 16) : sProp 𝕄 := oLoc d ↦[outSet (wid c i)]{fullShare} m (oLoc d)
/-- Its rows of the result, holding the looked-up rows. -/
abbrev outDone (d : Dev nD) (c : Fin 2) (i : Fin 16) : sProp 𝕄 :=
  iprop(∃ f, ⌜GoodRows m d (wid c i) f⌝ ∗ (oLoc d ↦[outSet (wid c i)]{fullShare} f))
/-- Block n of the transformed features, at SparseCore c's share. -/
abbrev yBlk (d : Dev nD) (c : Fin 2) (n : ℕ) : sProp 𝕄 := yLoc d ↦[stageSet n]{qY c} yval m d
/-- Block n of the shared array, at some contents. -/
abbrev shBlk (d : Dev nD) (c : Fin τ.nSC) (n : ℕ) : sProp 𝕄 := iprop(∃ f, shLoc d c ↦[stageSet n]{fullShare} f)
/-- Subcore j's read share of the whole shared array, holding the features. -/
abbrev shShare (d : Dev nD) (c : Fin τ.nSC) (j : Fin 16) : sProp 𝕄 := shLoc d c ↦{q16 j} shval m d c

/-- What a task is handed, and what it hands back, by the task's number below sixteen. -/
abbrev goOf (d : Dev nD) (c : Fin 2) (cc : Fin τ.nSC) (j : Fin 16) : sProp 𝕄 :=
  iprop(idxPts m d c j ∗ outPts m d c j ∗ yBlk m d c j.val ∗ shBlk (F := F) d cc j.val)
abbrev tdOf (d : Dev nD) (c : Fin 2) (cc : Fin τ.nSC) (j : Fin 16) : sProp 𝕄 :=
  iprop(idxPts m d c j ∗ outDone m d c j ∗ yBlk m d c j.val ∗ shShare m d cc j)

theorem P_st0 (d : Dev nD) (c : Fin ((K (F := F)).nCore 0)) :
    (P m).st 0 d c = iprop((yLoc d ↦{qY (c2 c)} yval m d)
      ∗ bigSep Finset.univ fun i : Fin 16 => iprop(idxPts m d (c2 c) i ∗ outPts m d (c2 c) i)) := rfl
theorem P_dn0 (d : Dev nD) (c : Fin ((K (F := F)).nCore 0)) :
    (P m).dn 0 d c = iprop((yLoc d ↦{qY (c2 c)} yval m d)
      ∗ bigSep Finset.univ fun i : Fin 16 => iprop(idxPts m d (c2 c) i ∗ outDone m d (c2 c) i)) := rfl
theorem P_go0 (d : Dev nD) (c : Fin ((K (F := F)).nCore 0)) (i : Fin ((K (F := F)).nSub 0)) :
    (P m).go 0 d c i = goOf m d (c2 c) (coreOf c) (i16 i) := rfl
theorem P_td0 (d : Dev nD) (c : Fin ((K (F := F)).nCore 0)) (i : Fin ((K (F := F)).nSub 0)) :
    (P m).td 0 d c i = tdOf m d (c2 c) (coreOf c) (i16 i) := rfl

/-! ## Sixteen blocks that tile the node table -/

omit [FloatOps F] in
/-- Any two different blocks share no element: below ten by the tiling, from ten on a block is empty. -/
theorem stageSet_disjoint' (n n' : ℕ) (h : n ≠ n') : Disjoint (stageSet n) (stageSet n') := by
  by_cases hn : n < 10
  · by_cases hn' : n' < 10
    · exact stageSet_disjoint n (Finset.mem_range.mpr hn) n' (Finset.mem_range.mpr hn') h
    · rw [stageSet_of_ge (by omega : 10 ≤ n')]; exact Finset.disjoint_empty_right _
  · rw [stageSet_of_ge (by omega : 10 ≤ n)]; exact Finset.disjoint_empty_left _

omit [FloatOps F] in
/-- The sixteen blocks are the whole table. -/
theorem stageSet_cover16 : (Finset.univ : Finset (Fin 16)).biUnion (fun i => stageSet i.val) = Finset.univ := by
  ext x
  refine ⟨fun _ => Finset.mem_univ x, fun _ => ?_⟩
  have hx : x ∈ (Finset.range 10).biUnion stageSet := by rw [stageSet_cover]; exact Finset.mem_univ x
  obtain ⟨n, hn, hxn⟩ := Finset.mem_biUnion.mp hx
  exact Finset.mem_biUnion.mpr ⟨⟨n, by have := Finset.mem_range.mp hn; omega⟩, Finset.mem_univ _, hxn⟩

omit [FloatOps F] in
/-- An array of the table's shape, whole at any share and contents, is its sixteen blocks. -/
theorem pointsTo_blocks16 {ℓ : Loc nD τ sig} (B : ℕ → Finset (Idx ℓ)) (hd : ∀ n n', n ≠ n' → Disjoint (B n) (B n'))
    (hc : (Finset.univ : Finset (Fin 16)).biUnion (fun i => B i.val) = Finset.univ) (q : PosShare TreeShare) (f : Buf (Elt F) ℓ) :
    (ℓ ↦{q} f : sProp 𝕄) = bigSep Finset.univ fun i : Fin 16 => (ℓ ↦[B i.val]{q} f : sProp 𝕄) := by
  rw [← pointsTo_biUnion Finset.univ (ℓ := ℓ) (fun i : Fin 16 => B i.val) (fun i _ j _ h => hd _ _ (fun e => h (Fin.ext e))), hc]

omit [FloatOps F] in
theorem yPts_blocks (d : Dev nD) (q : PosShare TreeShare) (f : Buf (Elt F) (yLoc d)) :
    (yLoc d ↦{q} f : sProp 𝕄) = bigSep Finset.univ fun i : Fin 16 => (yLoc d ↦[stageSet i.val]{q} f : sProp 𝕄) :=
  pointsTo_blocks16 (ℓ := yLoc d) stageSet stageSet_disjoint' stageSet_cover16 q f

omit [FloatOps F] in
theorem shPts_blocks (d : Dev nD) (c : Fin τ.nSC) (q : PosShare TreeShare) (f : Buf (Elt F) (shLoc d c)) :
    (shLoc d c ↦{q} f : sProp 𝕄) = bigSep Finset.univ fun i : Fin 16 => (shLoc d c ↦[stageSet i.val]{q} f : sProp 𝕄) :=
  pointsTo_blocks16 (ℓ := shLoc d c) stageSet stageSet_disjoint' stageSet_cover16 q f

omit [FloatOps F] in
/-- The shared array whole, at some contents, is its sixteen blocks, each at some contents. -/
theorem shBlk_intro (d : Dev nD) (c : Fin τ.nSC) (f : Buf (Elt F) (shLoc d c)) :
    (shLoc d c ↦{fullShare} f : sProp 𝕄) ⊢ bigSep Finset.univ fun i : Fin 16 => shBlk (F := F) d c i.val :=
  (Entails.of_eq (shPts_blocks d c fullShare f)).trans (SparseCore.ent (bigSep_mono
    (Φ := fun i : Fin 16 => (shLoc d c ↦[stageSet i.val]{fullShare} f : sProp 𝕄))
    (Ψ := fun i : Fin 16 => shBlk (F := F) d c i.val)
    fun i _ => BI.BIClass.exists_intro (Φ := fun g => (shLoc d c ↦[stageSet i.val]{fullShare} g : sProp 𝕄)) f))

/-- The sixteen subcores' read shares of the whole shared array add up to the full share. -/
theorem shShare_join (d : Dev nD) (c : Fin τ.nSC) :
    (bigSep Finset.univ fun j : Fin 16 => shShare m d c j) ⊢ (iprop(∃ f, shLoc d c ↦{fullShare} f) : sProp 𝕄) := by
  unfold shShare
  rw [← pointsTo_q16 (ℓ := shLoc d c) Finset.univ (shval m d c)]
  iintro H
  iexists (shval m d c)
  iexact H

omit [FloatOps F] in
/-- Re-indexing the sixteen tasks by the numbers below sixteen. -/
theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

omit [FloatOps F] in
/-- The shared array is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## The split -/

theorem vecSplit : (K (F := F)).VecSplit (P m) 0 := by
  intro d c
  have hgo : (fun i : Fin ((K (F := F)).nSub 0) => (P m).go 0 d c i) = fun i => goOf m d (c2 c) (coreOf c) (i16 i) :=
    funext fun i => P_go0 m d c i
  have htd : (fun i : Fin ((K (F := F)).nSub 0) => (P m).td 0 d c i) = fun i => tdOf m d (c2 c) (coreOf c) (i16 i) :=
    funext fun i => P_td0 m d c i
  rw [hgo, htd, P_st0, P_dn0, bigSep_tasks (F := F) (goOf m d (c2 c) (coreOf c)), bigSep_tasks (F := F) (tdOf m d (c2 c) (coreOf c))]
  simp only [goOf, tdOf, bigSep_sep']
  rw [ownBufs_S, yPts_blocks]
  iintro ⟨⟨Hy, Hi, Ho⟩, ⟨%fsh, Hsh⟩, Hrest⟩; imodintro
  isplitl [Hy Hi Ho Hsh]
  · isplitl [Hi]; · iexact Hi
    isplitl [Ho]; · iexact Ho
    isplitl [Hy]; · iexact Hy
    iapply (shBlk_intro d (coreOf c) fsh); iexact Hsh
  iintro ⟨Hi, Ho, Hy, Hsh⟩
  isplitl [Hi Ho Hy]
  · isplitl [Hy]; · iexact Hy
    isplitl [Hi]; · iexact Hi
    iexact Ho
  isplitl [Hsh]; · iapply (shShare_join m d (coreOf c)); iexact Hsh
  iexact Hrest

end Cert.KernelIdeal.KRun

end
-- ==== Proof.KEnds.lean ====
/-
  The two ends of the SparseCore call on the TensorCore's side, and how the final memory reads the claim.

  Before the call the TensorCore holds its arrays whole. What it hands the two SparseCores is cut out of three
  of them: the transformed node features' full share is the two halves, one per SparseCore; the list of source
  nodes and the result are each the thirty-two workers' blocks of 10000 entries or rows, and worker 2 i + c is
  subcore i of SparseCore c, so the blocks regroup as two families of sixteen. Coming back, the thirty-two
  blocks of the result, each holding the looked-up rows on its own rows, join into the whole result at one
  contents that agrees with the looked-up rows everywhere. Against the final memory each whole array then
  reads as its contents.
-/
import proofs.«205984_g59184649339042_cont_9to1_m_680_25_alg».proof.Proof.KPay
import proofs.«205984_g59184649339042_cont_9to1_m_680_25_alg».proof.Proof.KShares
import proofs.«205984_g59184649339042_cont_9to1_m_680_25_alg».proof.Proof.KVecSplit

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-! ## What stays with the TensorCore, and what it ends with -/

/-- The arrays the call does not touch. -/
abbrev Rest (d : Dev nD) : sProp 𝕄 :=
  iprop((xLoc d ↦{fullShare} m (xLoc d)) ∗ (eLoc d ↦{fullShare} m (eLoc d)) ∗ (w1Loc d ↦{fullShare} m (w1Loc d)) ∗ (w2Loc d ↦{fullShare} m (w2Loc d))
    ∗ (r0Loc d ↦{fullShare} r0val m d))

/-- The arguments unchanged and the result whole, at contents that are the looked-up rows. -/
abbrev FIN (d : Dev nD) : sProp 𝕄 :=
  iprop((xLoc d ↦{fullShare} m (xLoc d)) ∗ (eLoc d ↦{fullShare} m (eLoc d)) ∗ (w1Loc d ↦{fullShare} m (w1Loc d)) ∗ (w2Loc d ↦{fullShare} m (w2Loc d))
    ∗ ∃ f, ⌜∀ j, (f : FVec F S320000x128 .f32) j = (oval m d : FVec F S320000x128 .f32) j⌝ ∗ (oLoc d ↦{fullShare} f))

/-! ## Thirty-two workers as two families of sixteen -/

/-- Worker 2 i + c is subcore i of SparseCore c: a bijection. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, i⟩
    refine Prod.ext (Fin.ext ?_) (Fin.ext ?_)
    · show (2 * i.val + c.val) % 2 = c.val
      have := c.isLt; omega
    · show (2 * i.val + c.val) / 2 = i.val
      have := c.isLt; omega
  right_inv w := Fin.ext (by show 2 * (w.val / 2) + w.val % 2 = w.val; omega)

omit [FloatOps F] in
/-- A separating conjunction over the thirty-two workers, regrouped by SparseCore and subcore. -/
theorem bigSep_workers (Φ : Fin 32 → sProp 𝕄) :
    bigSep Finset.univ Φ = iprop((bigSep Finset.univ fun i : Fin 16 => Φ (wid 0 i)) ∗ bigSep Finset.univ fun i : Fin 16 => Φ (wid 1 i)) := by
  rw [bigSep_univ_equiv widEquiv Φ, ← Finset.univ_product_univ, SparseCore.bigSep_product, bigSep_univ_two]
  rfl

omit [FloatOps F] in
/-- Re-indexing the two SparseCores by the numbers below two. -/
theorem bigSep_cores (Φ : Fin 2 → sProp 𝕄) :
    (bigSep Finset.univ fun c : Fin ((K (F := F)).nCore 0) => Φ (c2 c)) = iprop(Φ 0 ∗ Φ 1) := by
  rw [← bigSep_univ_two Φ]
  exact bigSep_congr fun _ _ => congrArg Φ (Fin.ext rfl)

/-! ## The blocks of the list of source nodes and of the result -/

omit [FloatOps F] in
theorem idx_disjoint : ∀ w ∈ (Finset.univ : Finset (Fin 32)), ∀ w' ∈ (Finset.univ : Finset (Fin 32)), w ≠ w' → Disjoint (idxSet w) (idxSet w') :=
  fun _ _ _ _ h => Rect.part_disjoint hdiv32i h
omit [FloatOps F] in
theorem idx_cover : (Finset.univ : Finset (Fin 32)).biUnion idxSet = Finset.univ := Rect.biUnion_part hdiv32i
omit [FloatOps F] in
theorem out_disjoint : ∀ w ∈ (Finset.univ : Finset (Fin 32)), ∀ w' ∈ (Finset.univ : Finset (Fin 32)), w ≠ w' → Disjoint (outSet w) (outSet w') :=
  fun _ _ _ _ h => Rect.part_disjoint hdiv32o h
omit [FloatOps F] in
theorem out_cover : (Finset.univ : Finset (Fin 32)).biUnion outSet = Finset.univ := Rect.biUnion_part hdiv32o

omit [FloatOps F] in
/-- The list of source nodes whole is the thirty-two workers' entries. -/
theorem iPts_parts (d : Dev nD) (f : Buf (Elt F) (iLoc d)) :
    (iLoc d ↦{fullShare} f : sProp 𝕄) = bigSep Finset.univ fun w : Fin 32 => (iLoc d ↦[idxSet w]{fullShare} f : sProp 𝕄) := by
  rw [← pointsTo_biUnion Finset.univ (ℓ := iLoc d) idxSet idx_disjoint, idx_cover]

omit [FloatOps F] in
/-- The result whole is the thirty-two workers' rows. -/
theorem oPts_parts (d : Dev nD) (f : Buf (Elt F) (oLoc d)) :
    (oLoc d ↦{fullShare} f : sProp 𝕄) = bigSep Finset.univ fun w : Fin 32 => (oLoc d ↦[outSet w]{fullShare} f : sProp 𝕄) := by
  rw [← pointsTo_biUnion Finset.univ (ℓ := oLoc d) outSet out_disjoint, out_cover]

omit [FloatOps F] in
theorem qY_zero : qY 0 = fullShare.left := rfl
omit [FloatOps F] in
theorem qY_one : qY 1 = fullShare.right := rfl

/-- The transformed features' full share is the two SparseCores' halves. -/
theorem yPts_halves (d : Dev nD) :
    (yLoc d ↦{fullShare} yval m d : sProp 𝕄) ⊢ iprop((yLoc d ↦{qY 0} yval m d) ∗ (yLoc d ↦{qY 1} yval m d)) := by
  rw [qY_zero, qY_one]
  exact (pointsTo_share (PosShare.mem_left_op_right fullShare)).1

/-! ## Into the call -/

/-- What SparseCore c is handed, by its number below two. -/
abbrev stOf (d : Dev nD) (c : Fin 2) : sProp 𝕄 :=
  iprop((yLoc d ↦{qY c} yval m d) ∗ bigSep Finset.univ fun i : Fin 16 => iprop(idxPts m d c i ∗ outPts m d c i))
/-- What it hands back. -/
abbrev dnOf (d : Dev nD) (c : Fin 2) : sProp 𝕄 :=
  iprop((yLoc d ↦{qY c} yval m d) ∗ bigSep Finset.univ fun i : Fin 16 => iprop(idxPts m d c i ∗ outDone m d c i))

theorem hst (d : Dev nD) : Mid m d ⊢ iprop((bigSep Finset.univ fun c : Fin ((K (F := F)).nCore 0) => (P m).st 0 d c) ∗ Rest m d) := by
  have e : (fun c : Fin ((K (F := F)).nCore 0) => (P m).st 0 d c) = fun c => stOf m d (c2 c) := funext fun c => P_st0 m d c
  rw [e, bigSep_cores (F := F) (stOf m d)]
  simp only [stOf, bigSep_sep']
  unfold Mid Rest
  rw [iPts_parts, oPts_parts, bigSep_workers (fun w => (iLoc d ↦[idxSet w]{fullShare} ival m d : sProp 𝕄)),
    bigSep_workers (fun w => (oLoc d ↦[outSet w]{fullShare} m (oLoc d) : sProp 𝕄))]
  iintro ⟨Hx, He, Hw1, Hw2, Hr0, ⟨Hi0, Hi1⟩, Hy, ⟨Ho0, Ho1⟩⟩
  ihave Hy' := (yPts_halves m d) $$ Hy
  icases Hy' with ⟨Hy0, Hy1⟩
  isplitl [Hy0 Hy1 Hi0 Hi1 Ho0 Ho1]
  · isplitl [Hy0 Hi0 Ho0]
    · isplitl [Hy0]; · iexact Hy0
      isplitl [Hi0]; · iexact Hi0
      iexact Ho0
    · isplitl [Hy1]; · iexact Hy1
      isplitl [Hi1]; · iexact Hi1
      iexact Ho1
  isplitl [Hx]; · iexact Hx
  isplitl [He]; · iexact He
  isplitl [Hw1]; · iexact Hw1
  isplitl [Hw2]; · iexact Hw2
  iexact Hr0

/-! ## Out of the call -/

/-- Worker w's rows of the result, holding the looked-up rows. -/
abbrev doneW (d : Dev nD) (w : Fin 32) : sProp 𝕄 :=
  iprop(∃ f, ⌜GoodRows m d w f⌝ ∗ (oLoc d ↦[outSet w]{fullShare} f))

/-- The thirty-two workers' rows, each holding the looked-up rows, are the whole result at one contents that
    agrees with the looked-up rows everywhere. -/
theorem out_join (d : Dev nD) :
    (bigSep Finset.univ fun w : Fin 32 => doneW m d w)
      ⊢ (iprop(∃ f, ⌜∀ j, (f : FVec F S320000x128 .f32) j = (oval m d : FVec F S320000x128 .f32) j⌝ ∗ (oLoc d ↦{fullShare} f)) : sProp 𝕄) := by
  refine (bigSep_exists_pi Finset.univ (fun w (f : Buf (Elt F) (oLoc d)) => (iprop(⌜GoodRows m d w f⌝ ∗ (oLoc d ↦[outSet w]{fullShare} f)) : sProp 𝕄))).trans ?_
  iintro ⟨%fs, H⟩
  ihave H2 := (bigSep_pure_sep Finset.univ (fun w => GoodRows m d w (fs w)) (fun w => (oLoc d ↦[outSet w]{fullShare} fs w : sProp 𝕄))) $$ H
  icases H2 with ⟨%hg, H3⟩
  ihave H4 := (pointsTo_biUnion_join Finset.univ outSet fs (fs 0) out_disjoint) $$ H3
  icases H4 with ⟨%g, %hgf, Hg⟩
  rw [out_cover]
  iexists g
  isplitr
  · ipureintro
    intro j
    obtain ⟨w, hw⟩ := Rect.exists_mem_part hdiv32o j
    exact (hgf w (Finset.mem_univ _) j hw).trans (hg w (Finset.mem_univ _) j hw)
  · iexact Hg

theorem hdn (d : Dev nD) : iprop(Rest m d ∗ bigSep Finset.univ fun c : Fin ((K (F := F)).nCore 0) => (P m).dn 0 d c) ⊢ FIN m d := by
  have e : (fun c : Fin ((K (F := F)).nCore 0) => (P m).dn 0 d c) = fun c => dnOf m d (c2 c) := funext fun c => P_dn0 m d c
  rw [e, bigSep_cores (F := F) (dnOf m d)]
  simp only [dnOf, bigSep_sep']
  unfold Rest FIN
  iintro ⟨⟨Hx, He, Hw1, Hw2, -⟩, ⟨-, -, Ho0⟩, ⟨-, -, Ho1⟩⟩
  isplitl [Hx]; · iexact Hx
  isplitl [He]; · iexact He
  isplitl [Hw1]; · iexact Hw1
  isplitl [Hw2]; · iexact Hw2
  iapply (out_join m d)
  rw [bigSep_workers (doneW m d)]
  isplitl [Ho0]; · iexact Ho0
  iexact Ho1

/-! ## The final memory -/

/-- What the final memory holds on device d: the result is the looked-up rows, the arguments are unchanged. -/
def fq (d : Dev nD) (s' : Phys nD τ sig (Elt F)) : Prop :=
  s'.mem.mem (oLoc d) = oval m d ∧ s'.mem.mem (xLoc d) = m (xLoc d) ∧ s'.mem.mem (eLoc d) = m (eLoc d)
    ∧ s'.mem.mem (w1Loc d) = m (w1Loc d) ∧ s'.mem.mem (w2Loc d) = m (w2Loc d)

/-- A whole array held at the full share reads as its contents in the memory. -/
theorem agree_whole {ℓ : Loc nD τ sig} (s' : Phys nD τ sig (Elt F)) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have ho : iprop(FIN m d ∗ SI s') ⊢ (⌜s'.mem.mem (oLoc d) = oval m d⌝ : sProp 𝕄) := by
    unfold FIN
    iintro ⟨⟨-, -, -, -, ⟨%f, %hf, Ho⟩⟩, HSI⟩
    ihave H := (agree_whole (ℓ := oLoc d) s' f) $$ [Ho HSI]
    · isplitl [Ho]; · iexact Ho
      iexact HSI
    icases H with %h
    ipureintro
    rw [h]; exact funext hf
  have hx : iprop(FIN m d ∗ SI s') ⊢ (⌜s'.mem.mem (xLoc d) = m (xLoc d)⌝ : sProp 𝕄) := by
    unfold FIN
    iintro ⟨⟨Hx, -⟩, HSI⟩
    iapply (agree_whole s' (m (xLoc d)))
    isplitl [Hx]; · iexact Hx
    iexact HSI
  have he : iprop(FIN m d ∗ SI s') ⊢ (⌜s'.mem.mem (eLoc d) = m (eLoc d)⌝ : sProp 𝕄) := by
    unfold FIN
    iintro ⟨⟨-, He, -⟩, HSI⟩
    iapply (agree_whole s' (m (eLoc d)))
    isplitl [He]; · iexact He
    iexact HSI
  have h1 : iprop(FIN m d ∗ SI s') ⊢ (⌜s'.mem.mem (w1Loc d) = m (w1Loc d)⌝ : sProp 𝕄) := by
    unfold FIN
    iintro ⟨⟨-, -, Hw, -⟩, HSI⟩
    iapply (agree_whole s' (m (w1Loc d)))
    isplitl [Hw]; · iexact Hw
    iexact HSI
  have h2 : iprop(FIN m d ∗ SI s') ⊢ (⌜s'.mem.mem (w2Loc d) = m (w2Loc d)⌝ : sProp 𝕄) := by
    unfold FIN
    iintro ⟨⟨-, -, -, Hw, -⟩, HSI⟩
    iapply (agree_whole s' (m (w2Loc d)))
    isplitl [Hw]; · iexact Hw
    iexact HSI
  refine Laws.pure_elim _ ho fun a0 => Laws.pure_elim _ hx fun a1 => Laws.pure_elim _ he fun a2 =>
    Laws.pure_elim _ h1 fun a3 => Laws.pure_elim _ h2 fun a4 => ?_
  iintro -
  ipureintro
  exact ⟨a0, a1, a2, a3, a4⟩

end Cert.KernelIdeal.KRun

end
-- ==== Proof.KLaunch.lean ====
/-
  The launch element of the ghost state, and what the launch hands over.

  The ghost state starts as one element with three parts: the launch handshakes' rounds, the subcore barrier's
  rounds (one cell per vector subcore, each with one round in which every subcore of the same SparseCore has one
  duty), and the TensorCore kernel's staging cells' rounds. From it, from the credit for the vector subcores' own
  debts and from the free semaphores, the launch makes: the handshakes' part as it is, the staging cells' ghost
  state per device, and for every vector subcore its barrier kit — every cell's invariant of its SparseCore and
  that each has reached round 0, its duty tokens, its own position, and the credit for the sixteen units of its
  own round.
-/
import proofs.«205984_g59184649339042_cont_9to1_m_680_25_alg».proof.Proof.KPay
import proofs.«205984_g59184649339042_cont_9to1_m_680_25_alg».proof.Proof.KMainReg

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

abbrev DCI : Type := Dev nD × Fin τ.nSC × Fin τ.nSub
abbrev bcell₃ (x : DCI) : GSem nD τ sig := bcell x.1 x.2.1 x.2.2

/-- Every vector subcore's barrier cell. -/
def bCells : Finset (GSem nD τ sig) := Finset.univ.image bcell₃
/-- Subcore i's token in subcore j's cell, for every pair of subcores of a SparseCore. -/
def bToks : Finset (GSem nD τ sig × ℕ × ℕ) :=
  Finset.univ.image fun x : DCI × Fin (grid1.bound 1) => (bcell x.1.1 x.1.2.1 (x.2.castLE hsub1), 0, x.1.2.2.val)
/-- The launch element: the three parts' initial elements and the unit of the counters. -/
def u₀ : UU := (initOf (K (F := F)).hsCells (K (F := F)).hsToks, (initOf bCells bToks, (uP₀, 1)))

omit [FloatOps F] in
theorem bigSep_emp' {I : Type} (s : Finset I) : (bigSep s fun _ => iprop(emp)) = (iprop(emp) : sProp 𝕄) := bigSep_emp_const s

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element with the unit at the counters is its three parts, each embedded. -/
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄)
      ⊢ iprop(BI.own (EH a) ∗ BI.own ((uEmb (nD := nD) (sig := sig) (Ix := HIx 1) (Val := Elt F) (Name := ℕ) (U := UU) (Lvl := ℕ)).toEmb
          ((1, (b, (p, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (BI.own ((uEmb (nD := nD) (sig := sig) (Ix := HIx 1) (Val := Elt F) (Name := ℕ) (U := UU) (Lvl := ℕ)).toEmb
          ((1, (b, (p, 1))) : UU)) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  iintro Hu
  ihave H := h1 $$ Hu
  icases H with ⟨HH, HR⟩
  ihave H2 := h2 $$ HR
  icases H2 with ⟨HB, HP⟩
  isplitl [HH]; · iexact HH
  isplitl [HB]; · iexact HB
  iexact HP

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each vector subcore the sixteen units of its own cell. -/
theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every vector subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One vector subcore's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each vector subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- What the launch makes of the launch element, the credit and the free semaphores. -/
theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => Gd (F := F) d)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod (fund_Gd (F := F)) $$ HP with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Cert.KernelIdeal.KRun

end
-- ==== Proof.KMem.lean ====
/-
  A vector subcore's arrays as the kernel addresses them: the three HBM arrays and its three scratch arrays
  whole, and the pieces it slices out of them — its entries of the list of source nodes, a staging subcore's
  block of the node table (in HBM and in the shared memory), and the five slots of its row buffer, each a
  window of forty rows.
-/
import proofs.«205984_g59184649339042_cont_9to1_m_680_25_alg».proof.Proof.KCells

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

abbrev cV (L : grid1.Coords) : Fin τ.nSC := (L 0).castLE hcore1
abbrev jV (L : grid1.Coords) : Fin τ.nSub := (L 1).castLE hsub1

/-- The worker's entries of the list of source nodes, as the kernel slices them. -/
abbrev iSl (L : grid1.Coords) : Memref sig .scVector .hbm S10000 .i32 :=
  (iV).slice (Rect.unit (s := S320000) (k1_off2 L) S10000.size (k1_off2_inb L)) (fun _ => rfl)
/-- A staging subcore's block of the transformed features, in HBM and in the shared memory, as the kernel slices them. -/
abbrev ySl (L : grid1.Coords) (h1 : k1_cond1 L = 1#1) : Memref sig .scVector .hbm S1000x128 .f32 :=
  (yV).slice (Rect.unit (s := S10000x128) (k1_off1 L) S1000x128.size (k1_off1_inb L h1)) (fun _ => rfl)
abbrev shSl (L : grid1.Coords) (h1 : k1_cond1 L = 1#1) : Memref sig .scVector .shared S1000x128 .f32 :=
  (shV).slice (Rect.unit (s := S10000x128) (k1_off1 L) S1000x128.size (k1_off1_inb L h1)) (fun _ => rfl)

/-- Slot b of the row buffer: forty rows of 128, as the kernel slices and squeezes it. -/
abbrev rwSl (b : Fin 5) (hb : ∀ a, (![b.val, 0, 0] : Fin 3 → Nat) a + S1x40x128.size a ≤ S5x40x128.size a) : Memref sig .scVector .vmem S40x128 .f32 :=
  ((rwV).slice (Rect.unit (s := S5x40x128) ![b.val, 0, 0] S1x40x128.size hb) (fun _ => rfl)).squeeze S40x128 squeezes_S1x40x128_S40x128

/-- The twelve DMA semaphores of a vector subcore: one per slot for the gathers, one per slot for the copies out,
    and the two of the staging copy and of the index copy. -/
abbrev sem (a : DmaSems sig S_) (d : Dev nD) (L : grid1.Coords) : GSem nD τ sig := (V d (cV L) (jV L), .dma a.sem)

end Cert.KernelIdeal.KRun

end
-- ==== Proof.KSplit.lean ====
/-
  A vector subcore's own storage, opened.

  At its start a vector subcore owns its scoped cells, all at zero, and its own buffers, each whole at some
  contents. Here the twelve DMA semaphores the kernel uses are taken out of the cells one after the other, the
  two scratch buffers (the copy of the source-node numbers and the row buffer) out of the buffers, and the row
  buffer is cut into its five slots of forty rows.
-/
import proofs.«205984_g59184649339042_cont_9to1_m_680_25_alg».proof.Proof.KMem

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

/-! ## Taking a list of distinct members out of a separating conjunction -/

section Peel
variable {M : Type} [URA M] {I : Type}

/-- Φ at each member of the list, in order, and then R. -/
def sepList (Φ : I → sProp M) : List I → sProp M → sProp M
  | [], R => R
  | i :: l, R => iprop(Φ i ∗ sepList Φ l R)

/-- A separating conjunction over a finite set is Φ at each of a list of distinct members, in order, and the
    conjunction over the set with those members removed. -/
theorem bigSep_peel [DecidableEq I] (Φ : I → sProp M) :
    ∀ (l : List I) (s : Finset I), l.Nodup → (∀ i ∈ l, i ∈ s) → bigSep s Φ = sepList Φ l (bigSep (l.foldl Finset.erase s) Φ)
  | [], s, _, _ => rfl
  | i :: l, s, hn, hm => by
    rw [SparseCore.bigSep_erase' (hm i List.mem_cons_self)]
    show _ = iprop(Φ i ∗ sepList Φ l (bigSep (l.foldl Finset.erase (s.erase i)) Φ))
    rw [← bigSep_peel Φ l (s.erase i) (List.nodup_cons.mp hn).2 (fun j hj =>
      Finset.mem_erase.mpr ⟨fun e => (List.nodup_cons.mp hn).1 (e ▸ hj), hm j (List.mem_cons_of_mem _ hj)⟩)]

end Peel

variable (d : Dev nD) (L : grid1.Coords)

/-! ## The twelve DMA semaphores -/

/-- The DMA semaphores the kernel names, in the order of its parameters. -/
abbrev semIds : List (DmaSem sig) :=
  [cc1_scratch3.sem, cc1_scratch4.sem, cc1_scratch5.sem, cc1_scratch6.sem, cc1_scratch7.sem, cc1_scratch8.sem, cc1_scratch9.sem,
    cc1_scratch10.sem, cc1_scratch11.sem, cc1_scratch12.sem, cc1_scoped0.sem, cc1_scoped1.sem]

theorem semIds_nodup : semIds.Nodup := by decide

theorem semIds_scoped : ∀ s ∈ semIds, (SemLoc.dma s : SemLoc sig).isScoped .scVector = true := by decide

/-- The subcore's cells of those semaphores. -/
abbrev semCells (d : Dev nD) (L : grid1.Coords) : List (GSem nD τ sig) :=
  semIds.map fun s => ((V d (cV L) (jV L), SemLoc.dma s) : GSem nD τ sig)

/-- The subcore's other scoped cells. -/
abbrev semRest (d : Dev nD) (L : grid1.Coords) : Finset (GSem nD τ sig) :=
  (semCells d L).foldl Finset.erase (ownCells (V d (cV L) (jV L)))

/-- The subcore's scoped cells at zero: the twelve DMA semaphores' cells, in the order of the kernel's parameters,
    and the rest. -/
theorem ownSems0_V :
    (ownSems0 (V d (cV L) (jV L)) : sProp 𝕄)
      = iprop(semVal (sem cc1_scratch3 d L) 0 ∗ semVal (sem cc1_scratch4 d L) 0 ∗ semVal (sem cc1_scratch5 d L) 0
          ∗ semVal (sem cc1_scratch6 d L) 0 ∗ semVal (sem cc1_scratch7 d L) 0 ∗ semVal (sem cc1_scratch8 d L) 0
          ∗ semVal (sem cc1_scratch9 d L) 0 ∗ semVal (sem cc1_scratch10 d L) 0 ∗ semVal (sem cc1_scratch11 d L) 0
          ∗ semVal (sem cc1_scratch12 d L) 0 ∗ semVal (sem cc1_scoped0 d L) 0 ∗ semVal (sem cc1_scoped1 d L) 0
          ∗ bigSep (semRest d L) fun g => semVal g 0) := by
  unfold SparseCore.Cfg.ownSems0
  exact bigSep_peel (fun g => (semVal g 0 : sProp 𝕄)) (semCells d L) (ownCells (V d (cV L) (jV L)))
    (semIds_nodup.map fun a b e => SemLoc.dma.inj (Prod.mk.inj e).2)
    (fun g hg => by
      obtain ⟨s, hs, rfl⟩ := List.mem_map.mp hg
      exact mem_ownCells.mpr ⟨rfl, semIds_scoped s hs⟩)

/-! ## The two scratch buffers -/

/-- The subcore's two scratch buffers, as buffers of its device. -/
abbrev bufRefs (L : grid1.Coords) : List (DevRef τ sig) :=
  [cc1_scratch0, cc1_scratch1].map (Proc.scVector (cV L) (jV L) : Proc τ).devRef

/-- Its other own buffers. -/
abbrev bufRest (L : grid1.Coords) : Finset (DevRef τ sig) :=
  (bufRefs L).foldl Finset.erase (ownRefs (τ := τ) (.scVector (cV L) (jV L)))

/-- The subcore's own buffers, each whole at some contents: the copy of the source-node numbers, the row buffer, and
    the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (bufRest L) fun b => iprop(∃ f, ((d, b) : Loc nD τ sig) ↦{fullShare} f)) := by
  unfold SparseCore.Cfg.ownBufs
  exact bigSep_peel (fun b => (iprop(∃ f, ((d, b) : Loc nD τ sig) ↦{fullShare} f) : sProp 𝕄)) (bufRefs L)
    (ownRefs (τ := τ) (.scVector (cV L) (jV L)))
    ((by decide : [cc1_scratch0, cc1_scratch1].Nodup).map (Proc.devRef_injective _))
    (fun b hb => by
      obtain ⟨r, hr, rfl⟩ := List.mem_map.mp hb
      rcases List.mem_pair.mp hr with rfl | rfl <;>
        exact SparseCore.Cfg.mem_ownRefs_of_owner (p := Proc.scVector (cV L) (jV L)) rfl)

theorem pts_ixV (f : Buf (Elt F) ((V d (cV L) (jV L)).loc cc1_scratch0)) :
    ((ixV).view.loc (V d (cV L) (jV L)) ↦{fullShare} f : sProp 𝕄) = (V d (cV L) (jV L)).loc cc1_scratch0 ↦{fullShare} f := rfl

theorem pts_rwV (f : Buf (Elt F) ((V d (cV L) (jV L)).loc cc1_scratch1)) :
    ((rwV).view.loc (V d (cV L) (jV L)) ↦{fullShare} f : sProp 𝕄) = (V d (cV L) (jV L)).loc cc1_scratch1 ↦{fullShare} f := rfl

/-! ## The row buffer's five slots -/

theorem hdiv5 : 5 ∣ S5x40x128.size 0 := ⟨1, rfl⟩
/-- Slot b: the b-th of the five equal parts of the row buffer along its first axis. -/
abbrev slotRect (b : Fin 5) : Rect S5x40x128 := Rect.part (s := S5x40x128) (a₀ := 0) hdiv5 b

/-- The rectangle the kernel slices for slot b is that part. -/
theorem slotRect_eq (b : Fin 5) (hb : ∀ a, (![b.val, 0, 0] : Fin 3 → Nat) a + S1x40x128.size a ≤ S5x40x128.size a) :
    Rect.unit (s := S5x40x128) ![b.val, 0, 0] S1x40x128.size hb = slotRect b := by
  unfold slotRect Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The elements of the row buffer under slot b, squeezed or not. -/
theorem set_rwSl (b : Fin 5) (hb : ∀ a, (![b.val, 0, 0] : Fin 3 → Nat) a + S1x40x128.size a ≤ S5x40x128.size a) :
    (rwSl b hb).view.set = (slotRect b).set := by
  have e : (rwSl b hb).view.set = ((rwV).view.slice (Rect.unit (s := S5x40x128) ![b.val, 0, 0] S1x40x128.size hb)).set :=
    View.set_reshape _ _
  rw [e, slotRect_eq b hb]
  exact View.set_slice_whole _ _

/-- The row buffer whole is its five slots. -/
theorem rw_slots (f : Buf (Elt F) ((rwV).view.loc (V d (cV L) (jV L)))) :
    ((rwV).view.loc (V d (cV L) (jV L)) ↦{fullShare} f : sProp 𝕄)
      = iprop(((rwSl 0 inb_S5x40x128_S1x40x128_0_0_0).view.loc (V d (cV L) (jV L)) ↦[(rwSl 0 inb_S5x40x128_S1x40x128_0_0_0).view.set]{fullShare} f)
          ∗ ((rwSl 1 inb_S5x40x128_S1x40x128_1_0_0).view.loc (V d (cV L) (jV L)) ↦[(rwSl 1 inb_S5x40x128_S1x40x128_1_0_0).view.set]{fullShare} f)
          ∗ ((rwSl 2 inb_S5x40x128_S1x40x128_2_0_0).view.loc (V d (cV L) (jV L)) ↦[(rwSl 2 inb_S5x40x128_S1x40x128_2_0_0).view.set]{fullShare} f)
          ∗ ((rwSl 3 inb_S5x40x128_S1x40x128_3_0_0).view.loc (V d (cV L) (jV L)) ↦[(rwSl 3 inb_S5x40x128_S1x40x128_3_0_0).view.set]{fullShare} f)
          ∗ ((rwSl 4 inb_S5x40x128_S1x40x128_4_0_0).view.loc (V d (cV L) (jV L)) ↦[(rwSl 4 inb_S5x40x128_S1x40x128_4_0_0).view.set]{fullShare} f)) := by
  rw [set_rwSl 0, set_rwSl 1, set_rwSl 2, set_rwSl 3, set_rwSl 4]
  have hcov : (Finset.univ : Finset (Fin 5)).biUnion (fun b => (slotRect b).set) = Finset.univ := Rect.biUnion_part hdiv5
  rw [← hcov, pointsTo_biUnion Finset.univ (ℓ := (rwV).view.loc (V d (cV L) (jV L))) (fun b => (slotRect b).set)
    (fun b _ b' _ h => Rect.part_disjoint hdiv5 h)]
  exact BI.bigSep_univ_eq_bigSepL [0, 1, 2, 3, 4] (by decide) (by decide) _

end Cert.KernelIdeal.KRun

end
-- ==== Proof.KSlices.lean ====
/-
  The pieces a vector subcore slices out of the shared arrays, as parts of those arrays.

  Subcore (c, i) is worker w = 2 i + c: the window of the list of source nodes it slices, at offset
  20000 i + 10000 c, is part w of the thirty-two equal parts of the list. A staging subcore (i < 10) slices rows
  [1000 i, 1000 (i + 1)) of the transformed node features and of the shared copy: part i of the ten equal parts
  of the table along its rows.
-/
import proofs.«205984_g59184649339042_cont_9to1_m_680_25_alg».proof.Proof.KMem
import proofs.«205984_g59184649339042_cont_9to1_m_680_25_alg».proof.Proof.KStage

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable (d : Dev nD) (L : grid1.Coords)

/-! ## The staging condition -/

/-- The kernel's staging condition holds exactly on the first ten vector subcores. -/
theorem cond1_iff : ∀ L : grid1.Coords, k1_cond1 L = 1#1 ↔ (L 1).val < 10 := by decide +kernel

/-! ## The window of the list of source nodes -/

/-- The rectangle the kernel slices out of the list is the worker's part. -/
theorem iRect_eq : Rect.unit (s := S320000) (k1_off2 L) S10000.size (k1_off2_inb L) = idxRect (wid (L 0) (L 1)) := by
  unfold idxRect Rect.part Rect.block
  congr 1 <;> funext a
  · rw [k1_off2_eq]
    match a with
    | 0 => simp [Shape.partIx, Shape.partSize, wid]; omega
  · match a with
    | 0 => simp [Shape.partSize]

theorem set_iSl : (iSl L).view.set = ((iV).view.slice (idxRect (wid (L 0) (L 1)))).set := by
  show ((iV).view.slice (Rect.unit (s := S320000) (k1_off2 L) S10000.size (k1_off2_inb L))).set = _
  rw [iRect_eq L]

/-! ## A staging subcore's block -/

/-- The rectangle a staging subcore slices out of the table is its block. -/
theorem yRect_eq (h1 : k1_cond1 L = 1#1) :
    Rect.unit (s := S10000x128) (k1_off1 L) S1000x128.size (k1_off1_inb L h1) = stageRect ⟨(L 1).val, (cond1_iff L).mp h1⟩ := by
  unfold stageRect Rect.part Rect.block
  congr 1 <;> funext a
  · rw [k1_off1_eq]
    match a with
    | 0 => simp [Shape.partIx, Shape.partSize]; omega
    | 1 => simp [Shape.partIx, Shape.partSize]
  · match a with
    | 0 => simp [Shape.partSize]
    | 1 => simp [Shape.partSize]

theorem set_ySl (h1 : k1_cond1 L = 1#1) :
    (ySl L h1).view.set = ((yV).view.slice (stageRect ⟨(L 1).val, (cond1_iff L).mp h1⟩)).set := by
  show ((yV).view.slice (Rect.unit (s := S10000x128) (k1_off1 L) S1000x128.size (k1_off1_inb L h1))).set = _
  rw [yRect_eq L h1]

theorem set_shSl (h1 : k1_cond1 L = 1#1) :
    (shSl L h1).view.set = ((shV).view.slice (stageRect ⟨(L 1).val, (cond1_iff L).mp h1⟩)).set := by
  show ((shV).view.slice (Rect.unit (s := S10000x128) (k1_off1 L) S1000x128.size (k1_off1_inb L h1))).set = _
  rw [yRect_eq L h1]

/-- A block of the shared copy, and of the transformed features in HBM, as a set of elements. -/
theorem set_shV_stage (n : Fin 10) : ((shV).view.slice (stageRect n)).set = stageSet n.val := by
  rw [stageSet_of_lt n.isLt]
  exact View.set_slice_whole _ _
theorem set_yV_stage (n : Fin 10) : ((yV).view.slice (stageRect n)).set = stageSet n.val := by
  rw [stageSet_of_lt n.isLt]
  exact View.set_slice_whole _ _

theorem set_iV_idx (w : Fin 32) : ((iV).view.slice (idxRect w)).set = (idxRect w).set := View.set_slice_whole _ _

/-! ## The same, as points-to assertions on the device's arrays -/

/-- The worker's window of the list, as the kernel addresses it, is its part of the device's list. -/
theorem pts_iSl (q : PosShare TreeShare) (f : Buf (Elt F) (iLoc d)) :
    ((iSl L).view.loc (V d (cV L) (jV L)) ↦[(iSl L).view.set]{q} f : sProp 𝕄) = iLoc d ↦[(idxRect (wid (L 0) (L 1))).set]{q} f := by
  rw [set_iSl, set_iV_idx]

/-- A staging subcore's block of the transformed features, as the kernel addresses it, is block (L 1) of the device's. -/
theorem pts_ySl (h1 : k1_cond1 L = 1#1) (q : PosShare TreeShare) (f : Buf (Elt F) (yLoc d)) :
    ((ySl L h1).view.loc (V d (cV L) (jV L)) ↦[(ySl L h1).view.set]{q} f : sProp 𝕄) = yLoc d ↦[stageSet (L 1).val]{q} f := by
  rw [set_ySl, set_yV_stage]

/-- A staging subcore's block of the shared copy, as the kernel addresses it, is block (L 1) of its SparseCore's. -/
theorem pts_shSl (h1 : k1_cond1 L = 1#1) (q : PosShare TreeShare) (f : Buf (Elt F) (shLoc d (cV L))) :
    ((shSl L h1).view.loc (V d (cV L) (jV L)) ↦[(shSl L h1).view.set]{q} f : sProp 𝕄) = shLoc d (cV L) ↦[stageSet (L 1).val]{q} f := by
  rw [set_shSl, set_shV_stage]
  rfl

end Cert.KernelIdeal.KRun

end
-- ==== Proof.KObl.lean ====
/-
  The vector subcores' obligation to the launch.

  The launch asks, of the task of vector subcore i of SparseCore c: from the launch's level table, its barrier
  kit, what the sequencer hands it (its entries of the list of source nodes, its rows of the result, and — if it
  stages — its block of the transformed features and of the shared copy) and its scoped storage, the kernel run
  at the subcore's grid point returns the entries unchanged, the rows holding the looked-up rows, the block, a
  sixteenth read share of the whole shared copy holding the features, and the scoped storage. The kernel's
  triple at a grid point is taken as a hypothesis here; this module only transports it to the launch's spelling.
-/
import proofs.«205984_g59184649339042_cont_9to1_m_680_25_alg».proof.Proof.KPay
import proofs.«205984_g59184649339042_cont_9to1_m_680_25_alg».proof.Proof.KSplit
import proofs.«205984_g59184649339042_cont_9to1_m_680_25_alg».proof.Proof.KSlices
import proofs.«205984_g59184649339042_cont_9to1_m_680_25_alg».proof.Proof.KMem

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

/-- The grid point of vector subcore s of SparseCore c. -/
def coordsV (c : Fin (grid1.bound 0)) (s : Fin (grid1.bound 1)) : grid1.Coords :=
  fun | 0 => c | 1 => s | ⟨_ + 2, h⟩ => absurd h (Nat.not_lt.2 (Nat.le_add_left _ _))

set_option maxRecDepth 16384 in
/-- The kernel's label on a vector subcore runs the kernel at the subcore's grid point, on the whole arrays, its
    scratch and its twelve DMA semaphores. -/
theorem defs₀_vector (c : Fin τ.nSC) (s : Fin τ.nSub) :
    defs₀ (F := F) (.scVector c s) 1 ()
      = SparseCore.onTile hcore1 hsub1 (fun c s => cc1_gather (coordsV c s)
          yV (Memref.isWhole_whole _) iV (Memref.isWhole_whole _) oV (Memref.isWhole_whole _) ixV (Memref.isWhole_whole _) rwV (Memref.isWhole_whole _) shV (Memref.isWhole_whole _)
          cc1_scratch3 cc1_scratch4 cc1_scratch5 cc1_scratch6 cc1_scratch7 cc1_scratch8 cc1_scratch9 cc1_scratch10 cc1_scratch11 cc1_scratch12 cc1_scoped0 cc1_scoped1) ⟨⟩ c s := rfl

/-- The kernel's triple at a grid point L, for worker w = wid (L 0) (L 1): what the obligation needs. -/
def TileBody : Prop :=
  ∀ (d : Dev nD) (L : grid1.Coords) (O : CellTallies nD τ sig (HIx 1)) (W : Waits sig (HIx 1)), (∀ g, O g none = 0) →
    (∀ g ι, 0 < O g ι → 8 * (0 : Fin 1).val + 6 ≤ (K (F := F)).lev g ι) →
    iprop(levAts (K (F := F)).L (K (F := F)).lev ∗ bkit m d (cV L) (jV L)
        ∗ ((iLoc d ↦[idxSet (wid (L 0) (L 1))]{fullShare} ival m d) ∗ (oLoc d ↦[outSet (wid (L 0) (L 1))]{fullShare} m (oLoc d))
            ∗ (yLoc d ↦[stageSet (L 1).val]{qY (L 0)} yval m d) ∗ ∃ f, shLoc d (cV L) ↦[stageSet (L 1).val]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1_gather L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1)
          fun _ => iprop(((iLoc d ↦[idxSet (wid (L 0) (L 1))]{fullShare} ival m d) ∗ (∃ f, ⌜GoodRows m d (wid (L 0) (L 1)) f⌝ ∗ (oLoc d ↦[outSet (wid (L 0) (L 1))]{fullShare} f))
              ∗ (yLoc d ↦[stageSet (L 1).val]{qY (L 0)} yval m d) ∗ (shLoc d (cV L) ↦{q16 (L 1)} shval m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

set_option maxRecDepth 16384 in
/-- The obligation, from the kernel's triple. -/
theorem tileObl (hbody : TileBody (F := F) m) (hF : (K (F := F)).Facts) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) O W hO hOlev

end Cert.KernelIdeal.KRun

end
-- ==== Proof.KInv.lean ====
/-
  The state of a vector subcore inside its loop of gathers and copies out.

  The subcore's 10000 entries of the list of source nodes are cut into 250 chunks of forty; chunk k is gathered
  (forty rows of the shared copy of the transformed features, the rows the chunk's entries name) into slot
  k mod 5 of the row buffer and copied from there to rows [40 k, 40 k + 40) of the worker's rows of the result.
  A slot is in one of four states: free; a gather of chunk k in flight into it; chunk k landed in it; a copy of
  chunk k out of it in flight. A gather in flight holds, until it is waited for, the slot, the chunk's forty
  entries of the index list (at the slot's read share of the list) and the slot's read share of the shared copy;
  a copy out in flight holds the slot and the chunk's rows of the result. The result is held one chunk's rows at a
  time; the rows of the chunks copied so far hold the gathered rows.
-/
import proofs.«205984_g59184649339042_cont_9to1_m_680_25_alg».proof.Proof.KMem
import proofs.«205984_g59184649339042_cont_9to1_m_680_25_alg».proof.Proof.KSplit

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

/-! ## Canonical windows -/

theorem ixWin_inb (k : ℕ) : ∀ a, (![40 * (k % 250)] : Fin 1 → ℕ) a + S40.size a ≤ S10000.size a := by
  intro a
  have : k % 250 < 250 := Nat.mod_lt _ (by decide)
  match a with
  | ⟨0, _⟩ => show 40 * (k % 250) + 40 ≤ 10000; omega
/-- Chunk k's forty entries of the subcore's copy of its index list. -/
abbrev ixWin (k : ℕ) : Memref sig .scVector .vmem S40 .i32 :=
  (ixV).slice (Rect.unit (s := S10000) ![40 * (k % 250)] S40.size (ixWin_inb k)) (fun _ => rfl)

theorem oWin_inb (L : grid1.Coords) (k : ℕ) : ∀ a, (![20000 * (L 1).val + 10000 * (L 0).val + 40 * (k % 250), 0] : Fin 2 → ℕ) a + S40x128.size a ≤ S320000x128.size a := by
  intro a
  have : k % 250 < 250 := Nat.mod_lt _ (by decide)
  have h1 : (L 1).val < 16 := (L 1).isLt
  have h0 : (L 0).val < 2 := (L 0).isLt
  match a with
  | ⟨0, _⟩ => show 20000 * (L 1).val + 10000 * (L 0).val + 40 * (k % 250) + 40 ≤ 320000; omega
  | ⟨1, _⟩ => show 0 + 128 ≤ 128; omega
/-- Chunk k's forty rows of the worker's rows of the result. -/
abbrev oWin (L : grid1.Coords) (k : ℕ) : Memref sig .scVector .hbm S40x128 .f32 :=
  (oV).slice (Rect.unit (s := S320000x128) ![20000 * (L 1).val + 10000 * (L 0).val + 40 * (k % 250), 0] S40x128.size (oWin_inb L k)) (fun _ => rfl)
/-- The whole shared copy, as the kernel slices it for a gather's source. -/
abbrev shAll : Memref sig .scVector .shared S10000x128 .f32 :=
  (shV).slice (Rect.unit (s := S10000x128) ![0, 0] S10000x128.size inb_S10000x128_S10000x128_0_0) (fun _ => rfl)

local notation "thr" => V d (cV L) (jV L)

/-- An in-flight transfer that delivers more delivers less. -/
theorem flight_mono {c : Thread nD τ} {sm : SemLoc sig} {ι : HIx 1} {N : ℕ} {D D' : sProp 𝕄} (h : D ⊢ D') :
    (Transfers.Flight (countersEmb (nD := nD) (τ := τ) (sig := sig) (Ix := HIx 1) (Val := Elt F) (Name := ℕ) (U := UU) (Lvl := ℕ)) c sm ι N D : sProp 𝕄)
      ⊢ Transfers.Flight countersEmb c sm ι N D' := by
  unfold Transfers.Flight
  iintro ⟨⟨%R, HR, %h1, %h2⟩, Hc⟩
  isplitr [Hc]
  · iexists R
    isplitl [HR]; · iexact HR
    isplitr
    · ipureintro
      intro K
      have e : iprop(R ∗ ((iprop(semVal (c, sm) 0 ∗ D')) -∗ K ⟨⟩)) ⊢ iprop(R ∗ ((iprop(semVal (c, sm) 0 ∗ D)) -∗ K ⟨⟩)) := by
        iintro ⟨HR, Hk⟩
        isplitl [HR]; · iexact HR
        iintro ⟨Hs, HD⟩
        iapply Hk
        isplitl [Hs]; · iexact Hs
        iapply h; iexact HD
      exact e.trans (h1 K)
    · ipureintro; exact h2
  · iexact Hc

variable (fix : Buf (Elt F) ((ixV).view.loc (V d (cV L) (jV L))))

/-- Every entry of the subcore's copy of its index list names a row of the node table. -/
def FixOk : Prop := ∀ i, ((fix : IVec S10000 32) i).toNat < 10000

theorem hinWin (hfix : FixOk d L fix) (k : ℕ) : ∀ x, ((ixWin k).view.read (Elt F) fix x).toNat < S10000x128.size gathers_S10000x128_S40x128.axis := by
  intro x
  rw [show (ixWin k).view.read (Elt F) fix x = fix ((ixWin k).view.emb x) from (View.read_apply _ _).trans (cast_eq _ _)]
  exact hfix _

/-- The rows chunk k's gather delivers: row r is the shared copy's row named by entry 40 k + r of the index list. -/
def GP (hfix : FixOk d L fix) (k : ℕ) : S40x128.Idx → Elt F .f32 :=
  SparseCore.gatherPayload gathers_S10000x128_S40x128 ((shAll).view.read (Elt F) (shval m d (cV L)))
    (SparseCore.rows ((ixWin k).view.read (Elt F) fix) rfl (hinWin d L fix hfix k))

variable (hfix : FixOk d L fix)

/-- A gather of chunk k into the slot sl in flight on the semaphore g, at the slot's shares qi of the index list
    and qs of the shared copy: what its wait hands back (the slot's contents once landed are fixed when the gather is issued). -/
def GFl (g : DmaSems sig S_) (sl : Memref sig .scVector .vmem S40x128 .f32) (k : ℕ) (qi qs : PosShare TreeShare) : sProp 𝕄 :=
  iprop(∃ fb, ⌜sl.view.read (Elt F) fb = GP m d L fix hfix k⌝ ∗
    Transfers.Flight countersEmb (V d (cV L) (jV L)) (SemLoc.dma g.sem) (default : HIx 1) 163840
      iprop(((sl.view.loc (V d (cV L) (jV L)) ↦[sl.view.set]{fullShare} fb)
          ∗ ((ixWin k).view.loc (V d (cV L) (jV L)) ↦[(ixWin k).view.set]{qi} fix))
        ∗ ((shAll).view.loc (V d (cV L) (jV L)) ↦[(shAll).view.set]{qs} shval m d (cV L))))

/-- A copy of chunk k out of the slot sl in flight on the semaphore s. -/
def SFl (s : DmaSems sig S_) (sl : Memref sig .scVector .vmem S40x128 .f32) (k : ℕ) : sProp 𝕄 :=
  iprop(∃ fo fb, ⌜(oWin L k).view.read (Elt F) fo = GP m d L fix hfix k⌝ ∗
    Transfers.Flight countersEmb (V d (cV L) (jV L)) (SemLoc.dma s.sem) (default : HIx 1) 163840
      iprop(((oWin L k).view.loc (V d (cV L) (jV L)) ↦[(oWin L k).view.set]{fullShare} fo)
        ∗ (sl.view.loc (V d (cV L) (jV L)) ↦[sl.view.set]{fullShare} fb)))

/-- The slot's read shares of the shared copy and of the index list, both whole. -/
def Shares (qi qs : PosShare TreeShare) : sProp 𝕄 :=
  iprop(((shV).view.loc (V d (cV L) (jV L)) ↦{qs} shval m d (cV L)) ∗ ((ixV).view.loc (V d (cV L) (jV L)) ↦{qi} fix))

def SlotFree (g s : DmaSems sig S_) (sl : Memref sig .scVector .vmem S40x128 .f32) (qi qs : PosShare TreeShare) : sProp 𝕄 :=
  iprop((∃ fb, sl.view.loc (V d (cV L) (jV L)) ↦[sl.view.set]{fullShare} fb) ∗ Shares m d L fix qi qs
    ∗ semVal (V d (cV L) (jV L), SemLoc.dma g.sem) 0 ∗ semVal (V d (cV L) (jV L), SemLoc.dma s.sem) 0)

def SlotGath (g s : DmaSems sig S_) (sl : Memref sig .scVector .vmem S40x128 .f32) (k : ℕ) (qi qs : PosShare TreeShare) : sProp 𝕄 :=
  iprop(GFl m d L fix hfix g sl k qi qs ∗ ((ixV).view.loc (V d (cV L) (jV L)) ↦[Finset.univ \ (ixWin k).view.set]{qi} fix)
    ∗ semVal (V d (cV L) (jV L), SemLoc.dma s.sem) 0)

def SlotLanded (g s : DmaSems sig S_) (sl : Memref sig .scVector .vmem S40x128 .f32) (k : ℕ) (qi qs : PosShare TreeShare) : sProp 𝕄 :=
  iprop((∃ fb, ⌜sl.view.read (Elt F) fb = GP m d L fix hfix k⌝ ∗ (sl.view.loc (V d (cV L) (jV L)) ↦[sl.view.set]{fullShare} fb)) ∗ Shares m d L fix qi qs
    ∗ semVal (V d (cV L) (jV L), SemLoc.dma g.sem) 0 ∗ semVal (V d (cV L) (jV L), SemLoc.dma s.sem) 0)

def SlotStor (g s : DmaSems sig S_) (sl : Memref sig .scVector .vmem S40x128 .f32) (k : ℕ) (qi qs : PosShare TreeShare) : sProp 𝕄 :=
  iprop(SFl m d L fix hfix s sl k ∗ Shares m d L fix qi qs ∗ semVal (V d (cV L) (jV L), SemLoc.dma g.sem) 0)

/-- The worker's rows of the result, chunk by chunk, but the chunks in excl (whose rows copies in flight hold):
    the chunks below n hold the gathered rows. -/
def OutRes (n : ℕ) (excl : Finset ℕ) : sProp 𝕄 :=
  bigSep (Finset.range 250 \ excl) fun k => iprop(∃ fo, ⌜k < n → (oWin L k).view.read (Elt F) fo = GP m d L fix hfix k⌝
    ∗ ((oWin L k).view.loc (V d (cV L) (jV L)) ↦[(oWin L k).view.set]{fullShare} fo))

/-- A share cut in five, one piece per slot. -/
def s5 (q : PosShare TreeShare) : Fin 5 → PosShare TreeShare
  | 0 => q.left | 1 => q.right.left | 2 => q.right.right.left | 3 => q.right.right.right.left | 4 => q.right.right.right.right

/-- The five slots' states, each at its piece of the index list's full share and of the subcore's share q of the shared copy. -/
abbrev sl0 : Memref sig .scVector .vmem S40x128 .f32 := rwSl 0 inb_S5x40x128_S1x40x128_0_0_0
abbrev sl1 : Memref sig .scVector .vmem S40x128 .f32 := rwSl 1 inb_S5x40x128_S1x40x128_1_0_0
abbrev sl2 : Memref sig .scVector .vmem S40x128 .f32 := rwSl 2 inb_S5x40x128_S1x40x128_2_0_0
abbrev sl3 : Memref sig .scVector .vmem S40x128 .f32 := rwSl 3 inb_S5x40x128_S1x40x128_3_0_0
abbrev sl4 : Memref sig .scVector .vmem S40x128 .f32 := rwSl 4 inb_S5x40x128_S1x40x128_4_0_0

variable (q : PosShare TreeShare)

/-- Before the first trip: chunks 0 … 3 being gathered, slot 4 free, nothing copied out. -/
def InvStart : sProp 𝕄 :=
  iprop(SlotGath m d L fix hfix cc1_scratch3 cc1_scratch8 sl0 0 (s5 fullShare 0) (s5 q 0) ∗ SlotGath m d L fix hfix cc1_scratch4 cc1_scratch9 sl1 1 (s5 fullShare 1) (s5 q 1)
    ∗ SlotGath m d L fix hfix cc1_scratch5 cc1_scratch10 sl2 2 (s5 fullShare 2) (s5 q 2) ∗ SlotGath m d L fix hfix cc1_scratch6 cc1_scratch11 sl3 3 (s5 fullShare 3) (s5 q 3)
    ∗ SlotFree m d L fix cc1_scratch7 cc1_scratch12 sl4 (s5 fullShare 4) (s5 q 4) ∗ OutRes m d L fix hfix 0 ∅)

/-- Before trip t, 1 ≤ t ≤ 49: chunks 5 t … 5 t + 3 being gathered, chunk 5 t − 1 being copied out of slot 4, the
    chunks before it copied. -/
def InvMid (t : ℕ) : sProp 𝕄 :=
  iprop(SlotGath m d L fix hfix cc1_scratch3 cc1_scratch8 sl0 (5 * t) (s5 fullShare 0) (s5 q 0) ∗ SlotGath m d L fix hfix cc1_scratch4 cc1_scratch9 sl1 (5 * t + 1) (s5 fullShare 1) (s5 q 1)
    ∗ SlotGath m d L fix hfix cc1_scratch5 cc1_scratch10 sl2 (5 * t + 2) (s5 fullShare 2) (s5 q 2) ∗ SlotGath m d L fix hfix cc1_scratch6 cc1_scratch11 sl3 (5 * t + 3) (s5 fullShare 3) (s5 q 3)
    ∗ SlotStor m d L fix hfix cc1_scratch7 cc1_scratch12 sl4 (5 * t - 1) (s5 fullShare 4) (s5 q 4) ∗ OutRes m d L fix hfix (5 * t - 1) {5 * t - 1})

/-- After the last trip: the last five chunks being copied out, one per slot. -/
def InvEnd : sProp 𝕄 :=
  iprop(SlotStor m d L fix hfix cc1_scratch3 cc1_scratch8 sl0 245 (s5 fullShare 0) (s5 q 0) ∗ SlotStor m d L fix hfix cc1_scratch4 cc1_scratch9 sl1 246 (s5 fullShare 1) (s5 q 1)
    ∗ SlotStor m d L fix hfix cc1_scratch5 cc1_scratch10 sl2 247 (s5 fullShare 2) (s5 q 2) ∗ SlotStor m d L fix hfix cc1_scratch6 cc1_scratch11 sl3 248 (s5 fullShare 3) (s5 q 3)
    ∗ SlotStor m d L fix hfix cc1_scratch7 cc1_scratch12 sl4 249 (s5 fullShare 4) (s5 q 4) ∗ OutRes m d L fix hfix 245 {245, 246, 247, 248, 249})

/-- The slots and the result before trip t (t = 50: after the loop). -/
def InvAt (t : ℕ) : sProp 𝕄 :=
  if t = 0 then InvStart m d L fix hfix q else if t < 50 then InvMid m d L fix hfix q t else InvEnd m d L fix hfix q

end Cert.KernelIdeal.KRun

end
-- ==== Proof.KPost.lean ====
/-
  After the loop of gathers and copies out: the last five copies out, one per slot, are waited for; then every slot
  is free again, every semaphore reads zero, and every chunk's rows of the result hold the gathered rows. The 250
  windows of forty rows tile the worker's rows of the result, so the worker's rows are held whole again, each
  window reading as its chunk's gathered rows.
-/
import proofs.«205984_g59184649339042_cont_9to1_m_680_25_alg».proof.Proof.KInv
import proofs.«205984_g59184649339042_cont_9to1_m_680_25_alg».proof.Proof.KSplit
import proofs.«205984_g59184649339042_cont_9to1_m_680_25_alg».proof.Proof.KSlices
import proofs.«205984_g59184649339042_cont_9to1_m_680_25_alg».proof.Proof.KPay

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

local notation "thr" => V d (cV L) (jV L)

namespace Post

/-- The window the closing waits name as their destination: the first forty of the worker's rows (a wait reads
    only its semaphore and the size of the transfer). -/
abbrev waitWin (L : grid1.Coords) : Memref sig .scVector .hbm S40x128 .f32 :=
  (oV).slice (Rect.unit (s := S320000x128) (k1_off14 L) S40x128.size (k1_off14_inb L)) (fun _ => rfl)

/-- The three waits that end the loop's part of the kernel, -/
abbrev waits3 (L : grid1.Coords) : Prog (TpuEff nD τ sig (Elt F) Λ₀ (.scVector (cV L) (jV L))) PUnit := do
  Prog.lift (.waitDma2 cc1_scratch8.sem sl0 (waitWin L) ((View.wordExact_bits rfl).reshape _ _) (View.wordExact_bits rfl))
  Prog.lift (.waitDma2 cc1_scratch9.sem sl1 (waitWin L) ((View.wordExact_bits rfl).reshape _ _) (View.wordExact_bits rfl))
  Prog.lift (.waitDma2 cc1_scratch10.sem sl2 (waitWin L) ((View.wordExact_bits rfl).reshape _ _) (View.wordExact_bits rfl))
  pure ⟨⟩
/-- and the two that end the kernel. -/
abbrev waits2 (L : grid1.Coords) : Prog (TpuEff nD τ sig (Elt F) Λ₀ (.scVector (cV L) (jV L))) PUnit := do
  Prog.lift (.waitDma2 cc1_scratch11.sem sl3 (waitWin L) ((View.wordExact_bits rfl).reshape _ _) (View.wordExact_bits rfl))
  Prog.lift (.waitDma2 cc1_scratch12.sem sl4 (waitWin L) ((View.wordExact_bits rfl).reshape _ _) (View.wordExact_bits rfl))
  pure ⟨⟩

/-- The two closing stretches are the printed functions' own text after the loop. -/
theorem part5_tail (v2 : BitVec 32) :
    k1_part5_skel (F := F) L yV (Memref.isWhole_whole _) iV (Memref.isWhole_whole _) oV (Memref.isWhole_whole _) ixV (Memref.isWhole_whole _) rwV (Memref.isWhole_whole _) shV (Memref.isWhole_whole _)
        cc1_scratch3 cc1_scratch4 cc1_scratch5 cc1_scratch6 cc1_scratch7 cc1_scratch8 cc1_scratch9 cc1_scratch10 cc1_scratch11 cc1_scratch12 cc1_scoped0 cc1_scoped1 v2
      = (do
          SparseCore.enqueueIndirectGather rfl shAll sl3 gathers_S10000x128_S40x128 (ixWin 3) rfl cc1_scratch6.sem (View.wordExact_bits rfl) rfl (Or.inr rfl)
          Scf.Loop.for k1_t1_loop k1_t1_ok ⟨⟩ (k1_t1_body L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2)
          waits3 L) := rfl

variable (fix : Buf (Elt F) ((ixV).view.loc (V d (cV L) (jV L)))) (hfix : FixOk d L fix) (q : PosShare TreeShare)

/-- The closing stretch of the kernel's own function is its text after the two parts. -/
theorem gather_tail :
    cc1_gather_skel (F := F) L yV (Memref.isWhole_whole _) iV (Memref.isWhole_whole _) oV (Memref.isWhole_whole _) ixV (Memref.isWhole_whole _) rwV (Memref.isWhole_whole _) shV (Memref.isWhole_whole _)
        cc1_scratch3 cc1_scratch4 cc1_scratch5 cc1_scratch6 cc1_scratch7 cc1_scratch8 cc1_scratch9 cc1_scratch10 cc1_scratch11 cc1_scratch12 cc1_scoped0 cc1_scoped1
      = (do
          let v2 : BitVec 32 ← k1_part4 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1
          k1_part5 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2
          waits2 L) := rfl

/-! ## The result's windows -/

/-- Knowing more chunks copied than are held changes nothing: the bound only speaks of the chunks held. -/
theorem OutRes_mono {n n' : ℕ} {excl : Finset ℕ} (h : ∀ k ∈ Finset.range 250 \ excl, k < n' → k < n) :
    OutRes m d L fix hfix n excl ⊢ OutRes m d L fix hfix n' excl :=
  bigSep_mono fun k hk =>
    (show iprop(∃ fo, ⌜k < n → (oWin L k).view.read (Elt F) fo = GP m d L fix hfix k⌝ ∗ ((oWin L k).view.loc (V d (cV L) (jV L)) ↦[(oWin L k).view.set]{fullShare} fo))
        ⊢ (iprop(∃ fo, ⌜k < n' → (oWin L k).view.read (Elt F) fo = GP m d L fix hfix k⌝ ∗ ((oWin L k).view.loc (V d (cV L) (jV L)) ↦[(oWin L k).view.set]{fullShare} fo)) : sProp 𝕄) from by
      iintro ⟨%fo, %hfo, H⟩
      iexists fo
      isplitr; · ipureintro; exact fun hlt => hfo (h k hk hlt)
      iexact H)

theorem sdiff_erase {excl : Finset ℕ} {k : ℕ} (hk : k ∈ excl) (hk' : k < 250) :
    Finset.range 250 \ excl.erase k = insert k (Finset.range 250 \ excl) := by
  ext x
  simp only [Finset.mem_sdiff, Finset.mem_erase, Finset.mem_insert, Finset.mem_range, not_and]
  constructor
  · rintro ⟨hx, hne⟩
    by_cases e : x = k
    · exact Or.inl e
    · exact Or.inr ⟨hx, fun hm => hne e hm⟩
  · rintro (rfl | ⟨hx, hn⟩)
    · exact ⟨hk', fun e => absurd rfl e⟩
    · exact ⟨hx, fun _ hm => hn hm⟩

/-- A chunk's window, holding the gathered rows, joins the windows held. -/
theorem OutRes_add {n : ℕ} {excl : Finset ℕ} (k : ℕ) (hk : k ∈ excl) (hk' : k < 250)
    (fo : Buf (Elt F) ((oWin L k).view.loc (V d (cV L) (jV L)))) (hfo : (oWin L k).view.read (Elt F) fo = GP m d L fix hfix k) :
    iprop(OutRes m d L fix hfix n excl ∗ ((oWin L k).view.loc (V d (cV L) (jV L)) ↦[(oWin L k).view.set]{fullShare} fo))
      ⊢ OutRes m d L fix hfix n (excl.erase k) := by
  unfold OutRes
  rw [sdiff_erase hk hk', SparseCore.bigSep_insert' (by simp [hk])]
  iintro ⟨Hres, Hw⟩
  isplitl [Hw]
  · iexists fo
    isplitr; · ipureintro; exact fun _ => hfo
    iexact Hw
  iexact Hres

/-- The last five chunks, and the last two. -/
abbrev last5 : Finset ℕ := {245, 246, 247, 248, 249}
abbrev last2 : Finset ℕ := {248, 249}

/-- With all but the last five chunks held, each holding its gathered rows, the bound may be the whole count. -/
theorem OutRes_close : OutRes m d L fix hfix 245 last5 ⊢ OutRes m d L fix hfix 250 last5 :=
  OutRes_mono m d L fix hfix fun k hk _ => by
    simp only [last5, Finset.mem_sdiff, Finset.mem_range, Finset.mem_insert, Finset.mem_singleton, not_or] at hk; omega

/-! ## The closing waits -/

variable (O : CellTallies nD τ sig (HIx 1)) (W : Waits sig (HIx 1))

/-- The thread's debt, its recorded pairs the given ones and pairs at the kernel's own index or the call's. -/
def owesW : sProp 𝕄 :=
  iprop(∃ W', ⌜∀ p ∈ W', p ∈ W ∨ p.2 = none ∨ p.2 = some (0 : Fin 1)⌝ ∗ owes (V d (cV L) (jV L)) O W')

/-- After the first three waits: slots 0, 1, 2 free, the copies out of slots 3 and 4 still in flight. -/
def Mid3 : sProp 𝕄 :=
  iprop(SlotFree m d L fix cc1_scratch3 cc1_scratch8 sl0 (s5 fullShare 0) (s5 q 0) ∗ SlotFree m d L fix cc1_scratch4 cc1_scratch9 sl1 (s5 fullShare 1) (s5 q 1)
    ∗ SlotFree m d L fix cc1_scratch5 cc1_scratch10 sl2 (s5 fullShare 2) (s5 q 2) ∗ SlotStor m d L fix hfix cc1_scratch6 cc1_scratch11 sl3 248 (s5 fullShare 3) (s5 q 3)
    ∗ SlotStor m d L fix hfix cc1_scratch7 cc1_scratch12 sl4 249 (s5 fullShare 4) (s5 q 4) ∗ OutRes m d L fix hfix 250 last2
    ∗ owesW d L O W)

/-- After all five: every slot free, every chunk's rows holding the gathered rows. -/
def AfterAll : sProp 𝕄 :=
  iprop(SlotFree m d L fix cc1_scratch3 cc1_scratch8 sl0 (s5 fullShare 0) (s5 q 0) ∗ SlotFree m d L fix cc1_scratch4 cc1_scratch9 sl1 (s5 fullShare 1) (s5 q 1)
    ∗ SlotFree m d L fix cc1_scratch5 cc1_scratch10 sl2 (s5 fullShare 2) (s5 q 2) ∗ SlotFree m d L fix cc1_scratch6 cc1_scratch11 sl3 (s5 fullShare 3) (s5 q 3)
    ∗ SlotFree m d L fix cc1_scratch7 cc1_scratch12 sl4 (s5 fullShare 4) (s5 q 4) ∗ OutRes m d L fix hfix 250 ∅
    ∗ owesW d L O W)

set_option maxHeartbeats 8000000 in
/-- The three waits that end the loop's part. -/
theorem post_waits3 (Φ : PUnit → sProp 𝕄) :
    iprop(Transfers.MayWaits (V d (cV L) (jV L)) (default : HIx 1) O ∗ InvEnd m d L fix hfix q ∗ owesW d L O W
        ∗ (Mid3 m d L fix hfix q O W -∗ Φ ⟨⟩))
      ⊢ wp frame (wpE (defs₀ (F := F)) 𝒱₀ (V d (cV L) (jV L)) none) Set.univ (waits3 (F := F) L) Φ := by
  unfold InvEnd SlotStor SFl Shares owesW
  iintro ⟨#Hmw, ⟨⟨⟨%fo0, %fb0, %hfo0, Hf0⟩, ⟨Hsh0, Hix0⟩, Hg0⟩, ⟨⟨%fo1, %fb1, %hfo1, Hf1⟩, ⟨Hsh1, Hix1⟩, Hg1⟩, ⟨⟨%fo2, %fb2, %hfo2, Hf2⟩, ⟨Hsh2, Hix2⟩, Hg2⟩, S3, S4, Hout⟩, ⟨%W', %hW', HO⟩, Hk⟩
  sl_exec
  rw [wp_ret]; imodintro
  iapply Hk
  unfold Mid3 SlotFree SlotStor SFl Shares owesW
  isplitl [Hf0_src Hsh0 Hix0 Hg0 Hf0]
  · isplitl [Hf0_src]; · iexists fb0; iexact Hf0_src
    isplitl [Hsh0 Hix0]; · isplitl [Hsh0]; · iexact Hsh0
                           iexact Hix0
    isplitl [Hg0]; · iexact Hg0
    iexact Hf0
  isplitl [Hf1_src Hsh1 Hix1 Hg1 Hf1]
  · isplitl [Hf1_src]; · iexists fb1; iexact Hf1_src
    isplitl [Hsh1 Hix1]; · isplitl [Hsh1]; · iexact Hsh1
                           iexact Hix1
    isplitl [Hg1]; · iexact Hg1
    iexact Hf1
  isplitl [Hf2_src Hsh2 Hix2 Hg2 Hf2]
  · isplitl [Hf2_src]; · iexists fb2; iexact Hf2_src
    isplitl [Hsh2 Hix2]; · isplitl [Hsh2]; · iexact Hsh2
                           iexact Hix2
    isplitl [Hg2]; · iexact Hg2
    iexact Hf2
  isplitl [S3]; · iexact S3
  isplitl [S4]; · iexact S4
  isplitl [Hout Hf0_dst Hf1_dst Hf2_dst]
  · ihave H0 := (OutRes_close m d L fix hfix) $$ Hout
    ihave H1 := (OutRes_add m d L fix hfix (n := 250) (excl := last5) 245 (by decide) (by decide) fo0 hfo0) $$ [H0 Hf0_dst]
    · isplitl [H0]; · iexact H0
      iexact Hf0_dst
    ihave H2 := (OutRes_add m d L fix hfix (n := 250) (excl := last5.erase 245) 246 (by decide) (by decide) fo1 hfo1) $$ [H1 Hf1_dst]
    · isplitl [H1]; · iexact H1
      iexact Hf1_dst
    ihave H3 := (OutRes_add m d L fix hfix (n := 250) (excl := (last5.erase 245).erase 246) 247 (by decide) (by decide) fo2 hfo2) $$ [H2 Hf2_dst]
    · isplitl [H2]; · iexact H2
      iexact Hf2_dst
    rw [show last2 = ((last5.erase 245).erase 246).erase 247 by decide]
    iexact H3
  iexists _
  isplitr
  swap; · iexact HO
  ipureintro
  intro p hp
  simp only [Finset.mem_insert] at hp
  rcases hp with rfl | rfl | rfl | hp
  · exact Or.inr (Or.inl rfl)
  · exact Or.inr (Or.inl rfl)
  · exact Or.inr (Or.inl rfl)
  · exact hW' p hp

set_option maxHeartbeats 8000000 in
/-- The two waits that end the kernel. -/
theorem post_waits2 (Φ : PUnit → sProp 𝕄) :
    iprop(Transfers.MayWaits (V d (cV L) (jV L)) (default : HIx 1) O ∗ Mid3 m d L fix hfix q O W
        ∗ (AfterAll m d L fix hfix q O W -∗ Φ ⟨⟩))
      ⊢ wp frame (wpE (defs₀ (F := F)) 𝒱₀ (V d (cV L) (jV L)) none) Set.univ (waits2 (F := F) L) Φ := by
  unfold Mid3 SlotFree SlotStor SFl Shares owesW
  iintro ⟨#Hmw, ⟨F0, F1, F2, ⟨⟨%fo3, %fb3, %hfo3, Hf3⟩, ⟨Hsh3, Hix3⟩, Hg3⟩, ⟨⟨%fo4, %fb4, %hfo4, Hf4⟩, ⟨Hsh4, Hix4⟩, Hg4⟩, Hout, ⟨%W', %hW', HO⟩⟩, Hk⟩
  sl_exec
  rw [wp_ret]; imodintro
  iapply Hk
  unfold AfterAll SlotFree Shares owesW
  isplitl [F0]; · iexact F0
  isplitl [F1]; · iexact F1
  isplitl [F2]; · iexact F2
  isplitl [Hf3_src Hsh3 Hix3 Hg3 Hf3]
  · isplitl [Hf3_src]; · iexists fb3; iexact Hf3_src
    isplitl [Hsh3 Hix3]; · isplitl [Hsh3]; · iexact Hsh3
                           iexact Hix3
    isplitl [Hg3]; · iexact Hg3
    iexact Hf3
  isplitl [Hf4_src Hsh4 Hix4 Hg4 Hf4]
  · isplitl [Hf4_src]; · iexists fb4; iexact Hf4_src
    isplitl [Hsh4 Hix4]; · isplitl [Hsh4]; · iexact Hsh4
                           iexact Hix4
    isplitl [Hg4]; · iexact Hg4
    iexact Hf4
  isplitl [Hout Hf3_dst Hf4_dst]
  · ihave H1 := (OutRes_add m d L fix hfix (n := 250) (excl := last2) 248 (by decide) (by decide) fo3 hfo3) $$ [Hout Hf3_dst]
    · isplitl [Hout]; · iexact Hout
      iexact Hf3_dst
    ihave H2 := (OutRes_add m d L fix hfix (n := 250) (excl := last2.erase 248) 249 (by decide) (by decide) fo4 hfo4) $$ [H1 Hf4_dst]
    · isplitl [H1]; · iexact H1
      iexact Hf4_dst
    rw [show (∅ : Finset ℕ) = (last2.erase 248).erase 249 by decide]
    iexact H2
  iexists _
  isplitr
  swap; · iexact HO
  ipureintro
  intro p hp
  simp only [Finset.mem_insert] at hp
  rcases hp with rfl | rfl | hp
  · exact Or.inr (Or.inl rfl)
  · exact Or.inr (Or.inl rfl)
  · exact hW' p hp

/-! ## The worker's rows, whole again -/

omit [FloatOps F] in
/-- A chunk's window, as a set of elements of the result: the forty rows from the chunk's first. -/
theorem mem_oWin (k : ℕ) (i : S320000x128.Idx) :
    i ∈ (oWin L k).view.set ↔ 20000 * (L 1).val + 10000 * (L 0).val + 40 * (k % 250) ≤ (i 0).val
      ∧ (i 0).val < 20000 * (L 1).val + 10000 * (L 0).val + 40 * (k % 250) + 40 := by
  show i ∈ ((View.whole main_v3_scv).slice (Rect.unit (s := S320000x128) ![20000 * (L 1).val + 10000 * (L 0).val + 40 * (k % 250), 0] S40x128.size (oWin_inb L k))).set ↔ _
  rw [View.set_slice_whole, Rect.mem_set_unit]
  constructor
  · intro h; exact h 0
  · intro h a
    match a with
    | ⟨0, _⟩ => exact h
    | ⟨1, _⟩ => exact ⟨Nat.zero_le _, by have h1 : (i 1).val < 128 := (i 1).isLt; show (i 1).val < 0 + 128; omega⟩

omit [FloatOps F] in
/-- A worker's rows of the result, as a set of elements: the ten thousand rows from the worker's first. -/
theorem mem_outSet (w : Fin 32) (i : S320000x128.Idx) : i ∈ outSet w ↔ 10000 * w.val ≤ (i 0).val ∧ (i 0).val < 10000 * w.val + 10000 := by
  unfold outSet outRect Rect.part Rect.block
  rw [Rect.mem_set_unit]
  constructor
  · intro h
    have h0 := h 0
    simp [Shape.partIx, Shape.partSize] at h0
    omega
  · intro h a
    match a with
    | ⟨0, _⟩ => simp [Shape.partIx, Shape.partSize]; omega
    | ⟨1, _⟩ => simp [Shape.partIx, Shape.partSize]; exact (i 1).isLt

omit [FloatOps F] in
theorem oWin_disjoint : ∀ k ∈ Finset.range 250, ∀ k' ∈ Finset.range 250, k ≠ k' → Disjoint (oWin L k).view.set (oWin L k').view.set := by
  intro k hk k' hk' hne
  rw [Finset.mem_range] at hk hk'
  rw [Finset.disjoint_left]
  intro i hi hi'
  rw [mem_oWin, Nat.mod_eq_of_lt hk] at hi
  rw [mem_oWin, Nat.mod_eq_of_lt hk'] at hi'
  omega

omit [FloatOps F] in
/-- The 250 windows tile the worker's rows. -/
theorem oWin_cover : (Finset.range 250).biUnion (fun k => (oWin L k).view.set) = outSet (wid (L 0) (L 1)) := by
  ext i
  rw [Finset.mem_biUnion, mem_outSet]
  have h1 : (L 1).val < 16 := (L 1).isLt
  have h0 : (L 0).val < 2 := (L 0).isLt
  show _ ↔ 10000 * (2 * (L 1).val + (L 0).val) ≤ (i 0).val ∧ (i 0).val < 10000 * (2 * (L 1).val + (L 0).val) + 10000
  constructor
  · rintro ⟨k, hk, hi⟩
    rw [Finset.mem_range] at hk
    rw [mem_oWin, Nat.mod_eq_of_lt hk] at hi
    omega
  · intro h
    refine ⟨((i 0).val - (20000 * (L 1).val + 10000 * (L 0).val)) / 40, ?_, ?_⟩
    · rw [Finset.mem_range]; omega
    · rw [mem_oWin, Nat.mod_eq_of_lt (by omega)]; omega

/-- The worker's rows whole again, each chunk's window reading as its gathered rows. -/
theorem out_join :
    OutRes m d L fix hfix 250 ∅
      ⊢ (iprop(∃ f : Buf (Elt F) (oLoc d), ⌜∀ k < 250, (oWin L k).view.read (Elt F) f = GP m d L fix hfix k⌝ ∗ (oLoc d ↦[outSet (wid (L 0) (L 1))]{fullShare} f)) : sProp 𝕄) := by
  unfold OutRes
  rw [Finset.sdiff_empty]
  refine (bigSep_exists_pi (Finset.range 250) (fun k (fo : Buf (Elt F) (oLoc d)) =>
    (iprop(⌜k < 250 → (oWin L k).view.read (Elt F) fo = GP m d L fix hfix k⌝ ∗ (oLoc d ↦[(oWin L k).view.set]{fullShare} fo)) : sProp 𝕄))).trans ?_
  iintro ⟨%fs, H⟩
  ihave H2 := (bigSep_pure_sep (Finset.range 250) (fun k => k < 250 → (oWin L k).view.read (Elt F) (fs k) = GP m d L fix hfix k)
    (fun k => (oLoc d ↦[(oWin L k).view.set]{fullShare} fs k : sProp 𝕄))) $$ H
  icases H2 with ⟨%hg, H3⟩
  ihave H4 := (pointsTo_biUnion_join (Finset.range 250) (fun k => (oWin L k).view.set) fs (fs 0) (oWin_disjoint L)) $$ H3
  icases H4 with ⟨%g, %hgf, Hg⟩
  rw [oWin_cover]
  iexists g
  isplitr
  · ipureintro
    intro k hk
    rw [← hg k (Finset.mem_range.mpr hk) hk]
    funext x
    rw [View.read_apply, View.read_apply, hgf k (Finset.mem_range.mpr hk) _ ((oWin L k).view.emb_mem_set x)]
  · iexact Hg

end Post

end Cert.KernelIdeal.KRun

end
-- ==== Proof.KLoop.lean ====
/-
  The loop of fifty trips: each trip takes the slots and the result from their state before the trip to
  their state before the next, so the fifty take them from the start state to the end state, after which
  the first three of the five closing waits run.
-/
import proofs.«205984_g59184649339042_cont_9to1_m_680_25_alg».proof.Proof.KMem
import proofs.«205984_g59184649339042_cont_9to1_m_680_25_alg».proof.Proof.KPost

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

open Post

local notation "thr" => V d (cV L) (jV L)

variable (fix : Buf (Elt F) ((ixV).view.loc (V d (cV L) (jV L)))) (hfix : FixOk d L fix) (q : PosShare TreeShare)
variable (O : CellTallies nD τ sig (HIx 1)) (W : Waits sig (HIx 1))

/-- The loop's invariant: before trip k the slots and the result are as InvAt k says. -/
def LInv (k : ℕ) (_ : Unit) : sProp 𝕄 :=
  iprop(Transfers.MayWaits (V d (cV L) (jV L)) (default : HIx 1) O ∗ InvAt m d L fix hfix q k ∗ owesW d L O W)

/-- One trip. -/
def TripOk (v2 : BitVec 32) : Prop :=
  ∀ (t : Fin k1_t1_loop.trips) (acc : Unit), LInv m d L fix hfix q O W t.val acc
    ⊢ wp frame (wpE (defs₀ (F := F)) 𝒱₀ (V d (cV L) (jV L)) none) Set.univ
        (k1_t1_body L yV (Memref.isWhole_whole _) iV (Memref.isWhole_whole _) oV (Memref.isWhole_whole _) ixV (Memref.isWhole_whole _) rwV (Memref.isWhole_whole _) shV (Memref.isWhole_whole _)
          cc1_scratch3 cc1_scratch4 cc1_scratch5 cc1_scratch6 cc1_scratch7 cc1_scratch8 cc1_scratch9 cc1_scratch10 cc1_scratch11 cc1_scratch12 cc1_scoped0 cc1_scoped1 v2 t acc)
        (LInv m d L fix hfix q O W (t.val + 1))

set_option maxHeartbeats 4000000 in
/-- The fifty trips, then the three waits that end the part. -/
theorem loop_run (v2 : BitVec 32) (htrip : TripOk m d L fix hfix q O W v2) (Φ : PUnit → sProp 𝕄) :
    iprop(Transfers.MayWaits (V d (cV L) (jV L)) (default : HIx 1) O ∗ InvStart m d L fix hfix q ∗ owesW d L O W
        ∗ (Mid3 m d L fix hfix q O W -∗ Φ ⟨⟩))
      ⊢ wp frame (wpE (defs₀ (F := F)) 𝒱₀ (V d (cV L) (jV L)) none) Set.univ
          (do Scf.Loop.for k1_t1_loop k1_t1_ok ⟨⟩ (k1_t1_body L yV (Memref.isWhole_whole _) iV (Memref.isWhole_whole _) oV (Memref.isWhole_whole _) ixV (Memref.isWhole_whole _) rwV (Memref.isWhole_whole _) shV (Memref.isWhole_whole _)
                cc1_scratch3 cc1_scratch4 cc1_scratch5 cc1_scratch6 cc1_scratch7 cc1_scratch8 cc1_scratch9 cc1_scratch10 cc1_scratch11 cc1_scratch12 cc1_scoped0 cc1_scoped1 v2)
              waits3 L) Φ := by
  iintro ⟨#Hmw, Hinv, HO, Hk⟩
  sl_for (LInv m d L fix hfix q O W) $$ [Hinv HO]
  case region => exact htrip
  · unfold LInv InvAt
    rw [if_pos rfl]
    isplitr; · iexact Hmw
    isplitl [Hinv]; · iexact Hinv
    iexact HO
  iintro %acc HI
  have h50 : Scf.trips k1_t1_loop.lb k1_t1_loop.ub k1_t1_loop.st = 50 := by decide
  rw [h50]
  unfold LInv InvAt
  rw [if_neg (by decide), if_neg (by decide)]
  icases HI with ⟨-, Hinv, HO⟩
  unfold loop_run.sl.prog.cont_1
  iapply (post_waits3 m d L fix hfix q O W Φ)
  isplitr; · iexact Hmw
  isplitl [Hinv]; · iexact Hinv
  isplitl [HO]; · iexact HO
  iexact Hk

end Cert.KernelIdeal.KRun

end
-- ==== Proof.KIdx.lean ====
/-
  The list of source nodes read at an entry.

  The list is row 0 of the edge list cut out (a [1, 320000] block) and flattened: entry e of the list is word
  (0, e) of the edge list. Under the input range every entry is a row number of the node table, and it is the
  row the specification looks up for edge e.
-/
import proofs.«205984_g59184649339042_cont_9to1_m_680_25_alg».proof.Proof.KVals
import proofs.«205984_g59184649339042_cont_9to1_m_680_25_alg».proof.Proof.Spec
import Idealize.ShloMosaic.Lib.Pipeline.Value

noncomputable section

namespace Cert.KernelIdeal.KRun

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-- Entry e of the list of source nodes is word (0, e) of the edge list: the flattening keeps the row-major
    position, and the cut-out block starts at the origin. -/
theorem ival_apply (d : Dev nD) (e : Fin 320000) :
    (ival m d : IVec S320000 32) (ValueIdx.ix1 e) = (m (eLoc d) : IVec S2x320000 32) (ValueIdx.ix2 (0 : Fin 2) e) := by
  unfold ival r0val
  refine (shapeCast_apply _ _ (ix1 e) (ix2 (0 : Fin 1) e) ?_).trans ?_
  · rw [Shape.rowMajor_val_two, Shape.rowMajor_val_one]
    show 0 * 320000 + e.val = e.val
    omega
  · exact extractStridedSlice_apply _ _ _ _ _ (fun a => match a with
      | ⟨0, _⟩ => rfl
      | ⟨1, _⟩ => by show e.val = 0 + e.val; omega)

/-- Under the input range every entry of the list is a row number of the node table. -/
theorem ival_le (d : Dev nD) (h : Cert.Spec.RowsInRange (m (eLoc d) : IVec S2x320000 32)) (i : S320000.Idx) :
    ((ival m d : IVec S320000 32) i).toNat ≤ 9999 := by
  obtain ⟨e, rfl⟩ : ∃ e : Fin 320000, i = ix1 e := ⟨i 0, eq_ix1 i⟩
  rw [ival_apply]
  exact h e

/-- Under the input range the row the specification looks up for edge e is entry e of the list. -/
theorem rowIx_eq_ival (d : Dev nD) (h : Cert.Spec.RowsInRange (m (eLoc d) : IVec S2x320000 32)) (e : Fin 320000) :
    (Cert.Spec.rowIx (m (eLoc d) : IVec S2x320000 32) e).val = ((ival m d : IVec S320000 32) (ValueIdx.ix1 e)).toNat := by
  rw [Cert.Spec.rowIx_val h, ival_apply]

end Cert.KernelIdeal.KRun

end
-- ==== Proof.KVal.lean ====
/-
  The rows a chunk's gather delivers are the expected result's rows.

  The subcore's copy of its entries of the list of source nodes holds, at entry i, the list's entry 10000 w + i
  (w the worker's number). Chunk k's gather reads, for its row r, the row of the shared copy — the transformed
  node features — that entry 40 k + r of the copy names; the expected result's row 10000 w + 40 k + r is the
  transformed features' row named by the list's entry 10000 w + 40 k + r: the same row. So a result array
  whose 250 windows of forty rows each read as the gathers' payloads holds the looked-up rows on all of the
  worker's rows.
-/
import proofs.«205984_g59184649339042_cont_9to1_m_680_25_alg».proof.Proof.KInv
import proofs.«205984_g59184649339042_cont_9to1_m_680_25_alg».proof.Proof.KIdx
import proofs.«205984_g59184649339042_cont_9to1_m_680_25_alg».proof.Proof.KSlices
import proofs.«205984_g59184649339042_cont_9to1_m_680_25_alg».proof.Proof.KPay

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

open Idealize.ShloMosaic.ValueIdx

variable (d : Dev nD) (L : grid1.Coords)

/-! ## The subcore's copy of its index entries -/

/-- What the copy holds: the worker's window of the list of source nodes. -/
def fixVal : Buf (Elt F) ((ixV).view.loc (V d (cV L) (jV L))) := (iSl L).view.read (Elt F) (ival m d)

/-- Copying the window into the whole scratch leaves exactly the window's contents. -/
theorem fix_write_eq (g : Buf (Elt F) ((ixV).view.loc (V d (cV L) (jV L)))) :
    View.write (Elt F) (ixV).view g (ReadAs.same.apply (View.read (Elt F) (iSl L).view (ival m d))) Finset.univ = fixVal m d L :=
  View.write_whole_univ _ _ _

/-- Entry i of the copy is the list's entry under i in the worker's window. -/
theorem fixVal_eq (i : S10000.Idx) : (fixVal m d L : IVec S10000 32) i = (ival m d : IVec S320000 32) ((iSl L).view.emb i) :=
  (View.read_apply _ _).trans (cast_eq _ _)

omit [FloatOps F] in
/-- The worker's window starts at entry 10000 w = 20000 i + 10000 c. -/
theorem iSl_emb_val (i : S10000.Idx) : (((iSl L).view.emb i) 0 : ℕ) = 20000 * (L 1).val + 10000 * (L 0).val + (i 0).val := by
  show (k1_off2 L) 0 + 1 * (i 0).val = _
  rw [k1_off2_eq]
  show 20000 * (L 1).val + 10000 * (L 0).val + 1 * (i 0).val = _
  omega

theorem fixOk (hR : Cert.Spec.RowsInRange (m (eLoc d) : IVec S2x320000 32)) : FixOk d L (fixVal m d L) := by
  intro i
  rw [fixVal_eq]
  have := ival_le m d hR ((iSl L).view.emb i)
  omega

/-! ## Where the windows sit -/

omit [FloatOps F] in
/-- The kernel's slice of the whole shared copy is the whole of it. -/
theorem shAll_emb (y : S10000x128.Idx) : (shAll).view.emb y = y := by
  funext b
  refine Fin.ext ?_
  match b with
  | ⟨0, _⟩ => show 0 + 1 * (y 0).val = (y 0).val; omega
  | ⟨1, _⟩ => show 0 + 1 * (y 1).val = (y 1).val; omega

omit [FloatOps F] in
/-- Chunk k's window of the copy starts at entry 40 k. -/
theorem ixWin_emb_val (k : ℕ) (z : S40.Idx) : (((ixWin k).view.emb z) 0 : ℕ) = 40 * (k % 250) + (z 0).val := by
  show 40 * (k % 250) + 1 * (z 0).val = _
  omega

omit [FloatOps F] in
/-- Chunk k's window of the result starts at row 10000 w + 40 k, column 0. -/
theorem oWin_emb_val0 (k : ℕ) (x : S40x128.Idx) :
    (((oWin L k).view.emb x) 0 : ℕ) = 20000 * (L 1).val + 10000 * (L 0).val + 40 * (k % 250) + (x 0).val := by
  show 20000 * (L 1).val + 10000 * (L 0).val + 40 * (k % 250) + 1 * (x 0).val = _
  omega
omit [FloatOps F] in
theorem oWin_emb_val1 (k : ℕ) (x : S40x128.Idx) : (((oWin L k).view.emb x) 1 : ℕ) = (x 1).val := by
  show 0 + 1 * (x 1).val = _
  omega

variable (fix : Buf (Elt F) ((ixV).view.loc (V d (cV L) (jV L)))) (hfix : FixOk d L fix)

/-- Chunk k's payload at (r, c) is the expected result at row 10000 w + 40 k + r, column c: both are the
    transformed features' row named by the list's entry 10000 w + 40 k + r. -/
theorem GP_eq (hR : Cert.Spec.RowsInRange (m (eLoc d) : IVec S2x320000 32)) (hfx : fix = fixVal m d L) (k : ℕ) (x : S40x128.Idx) :
    GP m d L fix hfix k x = (oval m d : FVec F S320000x128 .f32) ((oWin L k).view.emb x) := by
  subst hfx
  unfold GP SparseCore.gatherPayload
  refine ((View.read_apply _ _).trans (cast_eq _ _)).trans ?_
  rw [shAll_emb]
  unfold shval oval
  refine congrArg (yval m d : FVec F S10000x128 .f32) ?_
  funext b
  refine Fin.ext ?_
  match b with
  | ⟨0, _⟩ =>
    have hz : ∀ r : Fin S40.numel, ((S40.rowMajor.symm r) 0 : ℕ) = r.val := fun r => by
      have h := Shape.rowMajor_val_one (S40.rowMajor.symm r)
      rw [Equiv.apply_symm_apply] at h
      exact h.symm
    have e2 : ∀ z : S40.Idx, (ixWin k).view.read (Elt F) (fixVal m d L) z
        = (ival m d : IVec S320000 32) ((iSl L).view.emb ((ixWin k).view.emb z)) :=
      fun z => ((View.read_apply _ _).trans (cast_eq _ _)).trans (fixVal_eq m d L _)
    refine (congrArg Fin.val (Shape.Gathers.idx_axis gathers_S10000x128_S40x128 _ x)).trans ?_
    unfold SparseCore.rows
    show ((ixWin k).view.read (Elt F) (fixVal m d L) _).toNat = (Cert.Spec.rowIx (m (eLoc d) : IVec S2x320000 32) ((oWin L k).view.emb x 0)).val
    rw [e2]
    refine Eq.trans ?_ (rowIx_eq_ival m d hR _).symm
    refine congrArg (fun i => ((ival m d : IVec S320000 32) i).toNat) ?_
    funext a
    refine Fin.ext ?_
    match a with
    | ⟨0, _⟩ =>
      refine (iSl_emb_val L _).trans ?_
      rw [ixWin_emb_val, hz]
      show _ = ((oWin L k).view.emb x 0 : ℕ)
      rw [oWin_emb_val0]
      show 20000 * (L 1).val + 10000 * (L 0).val + (40 * (k % 250) + (x 0).val)
        = 20000 * (L 1).val + 10000 * (L 0).val + 40 * (k % 250) + (x 0).val
      omega
  | ⟨1, _⟩ =>
    refine (Shape.Gathers.idx_of_ne gathers_S10000x128_S40x128 _ x ⟨1, _⟩ Nat.one_ne_zero).trans ?_
    show (x 1).val = ((oWin L k).view.emb x 1).val
    exact (oWin_emb_val1 L k x).symm

/-- A result array whose 250 windows read as the gathers' payloads holds the looked-up rows on all of the worker's rows:
    row 10000 w + n lies in window n / 40, at its row n mod 40. -/
theorem good_of_windows (hR : Cert.Spec.RowsInRange (m (eLoc d) : IVec S2x320000 32)) (hfx : fix = fixVal m d L)
    (f : Buf (Elt F) (oLoc d)) (h : ∀ k < 250, (oWin L k).view.read (Elt F) f = GP m d L fix hfix k) :
    GoodRows m d (wid (L 0) (L 1)) f := by
  intro j hj
  have hb := (Rect.mem_set_unit.mp hj) 0
  have hlo : 20000 * (L 1).val + 10000 * (L 0).val ≤ (j 0).val := by
    have := hb.1; simp [Shape.partIx, Shape.partSize, wid] at this; omega
  have hhi : (j 0).val < 20000 * (L 1).val + 10000 * (L 0).val + 10000 := by
    have := hb.2; simp [Shape.partIx, Shape.partSize, wid] at this; omega
  have hk : ((j 0).val - (20000 * (L 1).val + 10000 * (L 0).val)) / 40 < 250 := by omega
  have hx : (oWin L (((j 0).val - (20000 * (L 1).val + 10000 * (L 0).val)) / 40)).view.emb
      (ix2 (⟨((j 0).val - (20000 * (L 1).val + 10000 * (L 0).val)) % 40, Nat.mod_lt _ (by decide)⟩ : Fin 40) (j 1)) = j := by
    funext a
    refine Fin.ext ?_
    match a with
    | ⟨0, _⟩ =>
      refine (oWin_emb_val0 L _ _).trans ?_
      rw [Nat.mod_eq_of_lt hk]
      show 20000 * (L 1).val + 10000 * (L 0).val + 40 * (((j 0).val - (20000 * (L 1).val + 10000 * (L 0).val)) / 40)
        + ((j 0).val - (20000 * (L 1).val + 10000 * (L 0).val)) % 40 = (j 0).val
      omega
    | ⟨1, _⟩ => exact oWin_emb_val1 L _ _
  have e := congrFun (h _ hk) (ix2 (⟨((j 0).val - (20000 * (L 1).val + 10000 * (L 0).val)) % 40, Nat.mod_lt _ (by decide)⟩ : Fin 40) (j 1))
  rw [GP_eq m d L fix hfix hR hfx, hx] at e
  refine Eq.trans ?_ e
  refine Eq.trans ?_ ((View.read_apply _ _).trans (cast_eq _ _)).symm
  rw [hx]

end Cert.KernelIdeal.KRun

end
-- ==== Proof.KTripLib.lean ====
/-
  Bookkeeping lemmas for a trip of the loop of gathers and copies out.

  The worker's rows of the result are held one chunk's rows at a time: a chunk's rows can be taken out of the
  collection and put back (with the fact that they now hold the gathered rows). The windows the kernel slices at
  trip t — entries [40 k, 40 k + 40) of the index list and rows [40 k, 40 k + 40) of the worker's rows, for
  k = 5 t + r — are the canonical windows of chunk k. A gather or a copy out, as it stands while in
  flight, is the in-flight state of the invariant.
-/
import proofs.«205984_g59184649339042_cont_9to1_m_680_25_alg».proof.Proof.KInv
import proofs.«205984_g59184649339042_cont_9to1_m_680_25_alg».proof.Proof.KSlices
import Idealize.ShloMosaic.Lib.Writes

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

/-! ## Bookkeeping of the result's windows -/

theorem out_put (n n' k0 : ℕ) (excl : Finset ℕ) (hk0 : k0 ∈ excl) (hk : k0 < 250)
    (hmono : ∀ k ∈ Finset.range 250 \ excl, k < n' → k < n) :
    iprop((∃ fo, ⌜(oWin L k0).view.read (Elt F) fo = GP m d L fix hfix k0⌝ ∗ ((oWin L k0).view.loc (V d (cV L) (jV L)) ↦[(oWin L k0).view.set]{fullShare} fo))
        ∗ OutRes m d L fix hfix n excl) ⊢ OutRes m d L fix hfix n' (excl.erase k0) := by
  unfold OutRes
  rw [Finset.sdiff_erase (Finset.mem_range.mpr hk), SparseCore.bigSep_insert' (fun h => (Finset.mem_sdiff.mp h).2 hk0)]
  have hstep : ∀ k ∈ Finset.range 250 \ excl, (iprop(∃ fo, ⌜k < n → (oWin L k).view.read (Elt F) fo = GP m d L fix hfix k⌝
        ∗ ((oWin L k).view.loc (V d (cV L) (jV L)) ↦[(oWin L k).view.set]{fullShare} fo)) : sProp 𝕄)
      ⊢ iprop(∃ fo, ⌜k < n' → (oWin L k).view.read (Elt F) fo = GP m d L fix hfix k⌝
        ∗ ((oWin L k).view.loc (V d (cV L) (jV L)) ↦[(oWin L k).view.set]{fullShare} fo)) := fun k hk' => by
    iintro ⟨%fo, %h, H⟩
    iexists fo
    isplitr
    · ipureintro; exact fun hlt => h (hmono k hk' hlt)
    · iexact H
  have hm : (bigSep (Finset.range 250 \ excl) fun k => (iprop(∃ fo, ⌜k < n → (oWin L k).view.read (Elt F) fo = GP m d L fix hfix k⌝
        ∗ ((oWin L k).view.loc (V d (cV L) (jV L)) ↦[(oWin L k).view.set]{fullShare} fo)) : sProp 𝕄))
      ⊢ bigSep (Finset.range 250 \ excl) fun k => (iprop(∃ fo, ⌜k < n' → (oWin L k).view.read (Elt F) fo = GP m d L fix hfix k⌝
        ∗ ((oWin L k).view.loc (V d (cV L) (jV L)) ↦[(oWin L k).view.set]{fullShare} fo)) : sProp 𝕄) :=
    bigSep_mono hstep
  iintro ⟨⟨%fo, %hfo, H⟩, Hr⟩
  isplitl [H]
  · iexists fo
    isplitr
    · ipureintro; exact fun _ => hfo
    · iexact H
  · iapply hm; iexact Hr

theorem out_take (n k0 : ℕ) (excl : Finset ℕ) (hk0 : k0 ∉ excl) (hk : k0 < 250) :
    OutRes m d L fix hfix n excl ⊢ iprop((∃ fo, (oWin L k0).view.loc (V d (cV L) (jV L)) ↦[(oWin L k0).view.set]{fullShare} fo)
        ∗ OutRes m d L fix hfix n (insert k0 excl)) := by
  unfold OutRes
  rw [SparseCore.bigSep_erase' (i := k0) (Finset.mem_sdiff.mpr ⟨Finset.mem_range.mpr hk, hk0⟩), ← Finset.sdiff_insert]
  iintro ⟨⟨%fo, -, H⟩, Hr⟩
  isplitl [H]
  · iexists fo; iexact H
  · iexact Hr

/-! ## The kernel's windows are the canonical ones -/

/-- Slices through rectangles of the same sizes at equal offsets are equal, whatever their in-bounds evidence. -/
theorem slice_unit_eq {κ : Kind} {sp : Space} {s : Shape} {e : EltTy} (mm : Memref sig κ sp s e) {off off' size : Fin s.rank → ℕ}
    (h : off = off') (p : ∀ a, off a + size a ≤ s.size a) (p' : ∀ a, off' a + size a ≤ s.size a) :
    mm.slice (Rect.unit off size p) (fun _ => rfl) = mm.slice (Rect.unit off' size p') (fun _ => rfl) := by
  subst h; rfl

theorem trips_le (t : Fin k1_t1_loop.trips) : t.val < 50 := Nat.lt_of_lt_of_le t.isLt k1_t1_abs.2.1
theorem cond4_le : ∀ t : Fin k1_t1_loop.trips, k1_cond4 t = 1#1 → t.val ≤ 48 := by decide +kernel
theorem cond6_le : ∀ t : Fin k1_t1_loop.trips, k1_cond6 t = 1#1 → t.val ≤ 48 := by decide +kernel
theorem cond8_le : ∀ t : Fin k1_t1_loop.trips, k1_cond8 t = 1#1 → t.val ≤ 48 := by decide +kernel
theorem cond10_le : ∀ t : Fin k1_t1_loop.trips, k1_cond10 t = 1#1 → t.val ≤ 48 := by decide +kernel

theorem oWin_off5 (t : Fin k1_t1_loop.trips) (r : Fin 5) :
    (oV).slice (Rect.unit (s := S320000x128) (k1_off5 L t (BitVec.ofNat 32 r.val)) S40x128.size (k1_off5_inb L t r)) (fun _ => rfl) = oWin L (5 * t.val + r.val) := by
  refine slice_unit_eq (oV) ?_ _ _
  have ht := trips_le t
  have hr := r.isLt
  rw [k1_off5_eq, Nat.mod_eq_of_lt (show 5 * t.val + r.val < 250 by omega),
    show 20000 * (L 1).val + 10000 * (L 0).val + 200 * t.val + 40 * r.val = 20000 * (L 1).val + 10000 * (L 0).val + 40 * (5 * t.val + r.val) by omega]

theorem ixWin_off4 (t : Fin k1_t1_loop.trips) (h : k1_cond2 t = 1#1) :
    (ixV).slice (Rect.unit (s := S10000) (k1_off4 t) S40.size (k1_off4_inb t h)) (fun _ => rfl) = ixWin (5 * t.val + 4) := by
  refine slice_unit_eq (ixV) ?_ _ _
  have ht := trips_le t
  rw [k1_off4_eq, Nat.mod_eq_of_lt (show 5 * t.val + 4 < 250 by omega), show 200 * t.val + 160 = 40 * (5 * t.val + 4) by omega]

theorem ixWin_off7 (t : Fin k1_t1_loop.trips) (h : k1_cond4 t = 1#1) :
    (ixV).slice (Rect.unit (s := S10000) (k1_off7 t) S40.size (k1_off7_inb t h)) (fun _ => rfl) = ixWin (5 * t.val + 5) := by
  refine slice_unit_eq (ixV) ?_ _ _
  have ht := cond4_le t h
  rw [k1_off7_eq, Nat.mod_eq_of_lt (show 5 * t.val + 5 < 250 by omega), show 200 * t.val + 200 = 40 * (5 * t.val + 5) by omega]

theorem ixWin_off9 (t : Fin k1_t1_loop.trips) (h : k1_cond6 t = 1#1) :
    (ixV).slice (Rect.unit (s := S10000) (k1_off9 t) S40.size (k1_off9_inb t h)) (fun _ => rfl) = ixWin (5 * t.val + 6) := by
  refine slice_unit_eq (ixV) ?_ _ _
  have ht := cond6_le t h
  rw [k1_off9_eq, Nat.mod_eq_of_lt (show 5 * t.val + 6 < 250 by omega), show 200 * t.val + 240 = 40 * (5 * t.val + 6) by omega]

theorem ixWin_off11 (t : Fin k1_t1_loop.trips) (h : k1_cond8 t = 1#1) :
    (ixV).slice (Rect.unit (s := S10000) (k1_off11 t) S40.size (k1_off11_inb t h)) (fun _ => rfl) = ixWin (5 * t.val + 7) := by
  refine slice_unit_eq (ixV) ?_ _ _
  have ht := cond8_le t h
  rw [k1_off11_eq, Nat.mod_eq_of_lt (show 5 * t.val + 7 < 250 by omega), show 200 * t.val + 280 = 40 * (5 * t.val + 7) by omega]

theorem ixWin_off13 (t : Fin k1_t1_loop.trips) (h : k1_cond10 t = 1#1) :
    (ixV).slice (Rect.unit (s := S10000) (k1_off13 t) S40.size (k1_off13_inb t h)) (fun _ => rfl) = ixWin (5 * t.val + 8) := by
  refine slice_unit_eq (ixV) ?_ _ _
  have ht := cond10_le t h
  rw [k1_off13_eq, Nat.mod_eq_of_lt (show 5 * t.val + 8 < 250 by omega), show 200 * t.val + 320 = 40 * (5 * t.val + 8) by omega]

/-- The waits' destination operand: the first forty rows of the worker's rows. -/
theorem oWin_base (off : Fin 2 → ℕ) (hoff : off = ![20000 * (L 1).val + 10000 * (L 0).val, 0]) (p : ∀ a, off a + S40x128.size a ≤ S320000x128.size a) :
    (oV).slice (Rect.unit (s := S320000x128) off S40x128.size p) (fun _ => rfl) = oWin L 0 := by
  refine slice_unit_eq (oV) ?_ _ _
  rw [hoff]
  simp
theorem oWin_off3 (t : Fin k1_t1_loop.trips) (h2 : k1_cond2 t = 1#1) (h3 : k1_cond3 t = 1#1) :
    (oV).slice (Rect.unit (s := S320000x128) (k1_off3 L) S40x128.size (k1_off3_inb L t h2 h3)) (fun _ => rfl) = oWin L 0 := oWin_base L _ (k1_off3_eq L) _
theorem oWin_off6 (t : Fin k1_t1_loop.trips) (h4 : k1_cond4 t = 1#1) (h5 : k1_cond5 t = 1#1) :
    (oV).slice (Rect.unit (s := S320000x128) (k1_off6 L) S40x128.size (k1_off6_inb L t h4 h5)) (fun _ => rfl) = oWin L 0 := oWin_base L _ (k1_off6_eq L) _
theorem oWin_off8 (t : Fin k1_t1_loop.trips) (h6 : k1_cond6 t = 1#1) (h7 : k1_cond7 t = 1#1) :
    (oV).slice (Rect.unit (s := S320000x128) (k1_off8 L) S40x128.size (k1_off8_inb L t h6 h7)) (fun _ => rfl) = oWin L 0 := oWin_base L _ (k1_off8_eq L) _
theorem oWin_off10 (t : Fin k1_t1_loop.trips) (h8 : k1_cond8 t = 1#1) (h9 : k1_cond9 t = 1#1) :
    (oV).slice (Rect.unit (s := S320000x128) (k1_off10 L) S40x128.size (k1_off10_inb L t h8 h9)) (fun _ => rfl) = oWin L 0 := oWin_base L _ (k1_off10_eq L) _
theorem oWin_off12 (t : Fin k1_t1_loop.trips) (h10 : k1_cond10 t = 1#1) (h11 : k1_cond11 t = 1#1) :
    (oV).slice (Rect.unit (s := S320000x128) (k1_off12 L) S40x128.size (k1_off12_inb L t h10 h11)) (fun _ => rfl) = oWin L 0 := oWin_base L _ (k1_off12_eq L) _
theorem oWin_off14 :
    (oV).slice (Rect.unit (s := S320000x128) (k1_off14 L) S40x128.size (k1_off14_inb L)) (fun _ => rfl) = oWin L 0 := oWin_base L _ (k1_off14_eq L) _

/-! ## Transfers in flight, in the invariant's spelling -/

theorem k1_off4_canon (t : Fin k1_t1_loop.trips) : k1_off4 t = ![40 * ((5 * t.val + 4) % 250)] := by
  have ht := trips_le t
  rw [k1_off4_eq, Nat.mod_eq_of_lt (show 5 * t.val + 4 < 250 by omega), show 200 * t.val + 160 = 40 * (5 * t.val + 4) by omega]
theorem k1_off7_canon (t : Fin k1_t1_loop.trips) (h : k1_cond4 t = 1#1) : k1_off7 t = ![40 * ((5 * t.val + 5) % 250)] := by
  have ht := cond4_le t h
  rw [k1_off7_eq, Nat.mod_eq_of_lt (show 5 * t.val + 5 < 250 by omega), show 200 * t.val + 200 = 40 * (5 * t.val + 5) by omega]
theorem k1_off9_canon (t : Fin k1_t1_loop.trips) (h : k1_cond6 t = 1#1) : k1_off9 t = ![40 * ((5 * t.val + 6) % 250)] := by
  have ht := cond6_le t h
  rw [k1_off9_eq, Nat.mod_eq_of_lt (show 5 * t.val + 6 < 250 by omega), show 200 * t.val + 240 = 40 * (5 * t.val + 6) by omega]
theorem k1_off11_canon (t : Fin k1_t1_loop.trips) (h : k1_cond8 t = 1#1) : k1_off11 t = ![40 * ((5 * t.val + 7) % 250)] := by
  have ht := cond8_le t h
  rw [k1_off11_eq, Nat.mod_eq_of_lt (show 5 * t.val + 7 < 250 by omega), show 200 * t.val + 280 = 40 * (5 * t.val + 7) by omega]
theorem k1_off13_canon (t : Fin k1_t1_loop.trips) (h : k1_cond10 t = 1#1) : k1_off13 t = ![40 * ((5 * t.val + 8) % 250)] := by
  have ht := cond10_le t h
  rw [k1_off13_eq, Nat.mod_eq_of_lt (show 5 * t.val + 8 < 250 by omega), show 200 * t.val + 320 = 40 * (5 * t.val + 8) by omega]

/-- A gather just issued, in canonical form: the window of the index list it reads is given by its
    offset, which is chunk k's. -/
theorem gath_canon (g : DmaSems sig S_) (sl : Memref sig .scVector .vmem S40x128 .f32) (k : ℕ) (qi qs : PosShare TreeShare)
    (off : Fin 1 → ℕ) (hinb : ∀ a, off a + S40.size a ≤ S10000.size a) (hoff : off = ![40 * (k % 250)])
    (fprev : Buf (Elt F) (sl.view.loc (V d (cV L) (jV L)))) (p : S40x128.Idx → Elt F .f32)
    (hp : ∀ hinw, p = SparseCore.gatherPayload gathers_S10000x128_S40x128 ((shAll).view.read (Elt F) (shval m d (cV L)))
      (SparseCore.rows (((ixV).slice (Rect.unit (s := S10000) off S40.size hinb) (fun _ => rfl)).view.read (Elt F) fix) rfl hinw)) :
    (Transfers.Flight countersEmb (V d (cV L) (jV L)) (SemLoc.dma g.sem) (default : HIx 1) 163840
      iprop(((sl.view.loc (V d (cV L) (jV L)) ↦[sl.view.set]{fullShare} sl.view.writes (Elt F) fprev [⟨Rect.whole S40x128, p⟩])
          ∗ ((ixV).view.loc (V d (cV L) (jV L)) ↦[((ixV).slice (Rect.unit (s := S10000) off S40.size hinb) (fun _ => rfl)).view.set]{qi} fix))
        ∗ ((shV).view.loc (V d (cV L) (jV L)) ↦[(shAll).view.set]{qs} shval m d (cV L))) : sProp 𝕄)
      ⊢ GFl m d L fix hfix g sl k qi qs := by
  subst hoff
  unfold GFl
  iintro H
  iexists (sl.view.writes (Elt F) fprev [⟨Rect.whole S40x128, p⟩])
  isplitr
  · ipureintro
    funext x
    have e := View.read_writes_cons_emb sl.view fprev (Rect.whole S40x128) p [] x
    rw [Rect.emb_whole_apply] at e
    rw [e, hp (hinWin d L fix hfix k)]
    rfl
  · iexact H

/-! ## The kernel's windows, as points-to assertions -/

theorem k1_off5_canon (t : Fin k1_t1_loop.trips) (r : Fin 5) :
    k1_off5 L t (BitVec.ofNat 32 r.val) = ![20000 * (L 1).val + 10000 * (L 0).val + 40 * ((5 * t.val + r.val) % 250), 0] := by
  have ht := trips_le t
  have hr := r.isLt
  rw [k1_off5_eq, Nat.mod_eq_of_lt (show 5 * t.val + r.val < 250 by omega),
    show 20000 * (L 1).val + 10000 * (L 0).val + 200 * t.val + 40 * r.val = 20000 * (L 1).val + 10000 * (L 0).val + 40 * (5 * t.val + r.val) by omega]

/-- A window of the worker's rows given by its offset, which is chunk k's, is chunk k's canonical window. -/
theorem pts_oWin_gen (k : ℕ) (off : Fin 2 → ℕ) (p : ∀ a, off a + S40x128.size a ≤ S320000x128.size a)
    (hoff : off = ![20000 * (L 1).val + 10000 * (L 0).val + 40 * (k % 250), 0]) (q : PosShare TreeShare)
    (f : Buf (Elt F) ((oWin L k).view.loc (V d (cV L) (jV L)))) :
    ((oWin L k).view.loc (V d (cV L) (jV L)) ↦[(oWin L k).view.set]{q} f : sProp 𝕄)
      = (((oV).slice (Rect.unit (s := S320000x128) off S40x128.size p) (fun _ => rfl)).view.loc (V d (cV L) (jV L))
          ↦[((oV).slice (Rect.unit (s := S320000x128) off S40x128.size p) (fun _ => rfl)).view.set]{q} f) := by
  subst hoff; rfl

theorem pts_oWin5 (t : Fin k1_t1_loop.trips) (r : Fin 5) (q : PosShare TreeShare) (f : Buf (Elt F) ((oWin L (5 * t.val + r.val)).view.loc (V d (cV L) (jV L)))) :
    ((oWin L (5 * t.val + r.val)).view.loc (V d (cV L) (jV L)) ↦[(oWin L (5 * t.val + r.val)).view.set]{q} f : sProp 𝕄)
      = (((oV).slice (Rect.unit (s := S320000x128) (k1_off5 L t (BitVec.ofNat 32 r.val)) S40x128.size (k1_off5_inb L t r)) (fun _ => rfl)).view.loc (V d (cV L) (jV L))
          ↦[((oV).slice (Rect.unit (s := S320000x128) (k1_off5 L t (BitVec.ofNat 32 r.val)) S40x128.size (k1_off5_inb L t r)) (fun _ => rfl)).view.set]{q} f) :=
  pts_oWin_gen d L (5 * t.val + r.val) _ _ (k1_off5_canon L t r) q f

/-- The five instances in the program's literal spelling. -/
theorem pts_oWin5_0 (t : Fin k1_t1_loop.trips) (q : PosShare TreeShare) (f : Buf (Elt F) ((oWin L (5 * t.val)).view.loc (V d (cV L) (jV L)))) :
    ((oWin L (5 * t.val)).view.loc (V d (cV L) (jV L)) ↦[(oWin L (5 * t.val)).view.set]{q} f : sProp 𝕄)
      = (((oV).slice (Rect.unit (s := S320000x128) (k1_off5 L t 0#32) S40x128.size (k1_off5_inb L t 0)) (fun _ => rfl)).view.loc (V d (cV L) (jV L))
          ↦[((oV).slice (Rect.unit (s := S320000x128) (k1_off5 L t 0#32) S40x128.size (k1_off5_inb L t 0)) (fun _ => rfl)).view.set]{q} f) :=
  pts_oWin5 d L t 0 q f
theorem pts_oWin5_1 (t : Fin k1_t1_loop.trips) (q : PosShare TreeShare) (f : Buf (Elt F) ((oWin L (5 * t.val + 1)).view.loc (V d (cV L) (jV L)))) :
    ((oWin L (5 * t.val + 1)).view.loc (V d (cV L) (jV L)) ↦[(oWin L (5 * t.val + 1)).view.set]{q} f : sProp 𝕄)
      = (((oV).slice (Rect.unit (s := S320000x128) (k1_off5 L t 1#32) S40x128.size (k1_off5_inb L t 1)) (fun _ => rfl)).view.loc (V d (cV L) (jV L))
          ↦[((oV).slice (Rect.unit (s := S320000x128) (k1_off5 L t 1#32) S40x128.size (k1_off5_inb L t 1)) (fun _ => rfl)).view.set]{q} f) :=
  pts_oWin5 d L t 1 q f
theorem pts_oWin5_2 (t : Fin k1_t1_loop.trips) (q : PosShare TreeShare) (f : Buf (Elt F) ((oWin L (5 * t.val + 2)).view.loc (V d (cV L) (jV L)))) :
    ((oWin L (5 * t.val + 2)).view.loc (V d (cV L) (jV L)) ↦[(oWin L (5 * t.val + 2)).view.set]{q} f : sProp 𝕄)
      = (((oV).slice (Rect.unit (s := S320000x128) (k1_off5 L t 2#32) S40x128.size (k1_off5_inb L t 2)) (fun _ => rfl)).view.loc (V d (cV L) (jV L))
          ↦[((oV).slice (Rect.unit (s := S320000x128) (k1_off5 L t 2#32) S40x128.size (k1_off5_inb L t 2)) (fun _ => rfl)).view.set]{q} f) :=
  pts_oWin5 d L t 2 q f
theorem pts_oWin5_3 (t : Fin k1_t1_loop.trips) (q : PosShare TreeShare) (f : Buf (Elt F) ((oWin L (5 * t.val + 3)).view.loc (V d (cV L) (jV L)))) :
    ((oWin L (5 * t.val + 3)).view.loc (V d (cV L) (jV L)) ↦[(oWin L (5 * t.val + 3)).view.set]{q} f : sProp 𝕄)
      = (((oV).slice (Rect.unit (s := S320000x128) (k1_off5 L t 3#32) S40x128.size (k1_off5_inb L t 3)) (fun _ => rfl)).view.loc (V d (cV L) (jV L))
          ↦[((oV).slice (Rect.unit (s := S320000x128) (k1_off5 L t 3#32) S40x128.size (k1_off5_inb L t 3)) (fun _ => rfl)).view.set]{q} f) :=
  pts_oWin5 d L t 3 q f
theorem pts_oWin5_4 (t : Fin k1_t1_loop.trips) (q : PosShare TreeShare) (f : Buf (Elt F) ((oWin L (5 * t.val + 4)).view.loc (V d (cV L) (jV L)))) :
    ((oWin L (5 * t.val + 4)).view.loc (V d (cV L) (jV L)) ↦[(oWin L (5 * t.val + 4)).view.set]{q} f : sProp 𝕄)
      = (((oV).slice (Rect.unit (s := S320000x128) (k1_off5 L t 4#32) S40x128.size (k1_off5_inb L t 4)) (fun _ => rfl)).view.loc (V d (cV L) (jV L))
          ↦[((oV).slice (Rect.unit (s := S320000x128) (k1_off5 L t 4#32) S40x128.size (k1_off5_inb L t 4)) (fun _ => rfl)).view.set]{q} f) :=
  pts_oWin5 d L t 4 q f

/-- A window of the index list given by its offset, which is chunk k's, is chunk k's canonical window; so is what is left
    of the list beside it. -/
theorem pts_ixWin_gen (k : ℕ) (off : Fin 1 → ℕ) (p : ∀ a, off a + S40.size a ≤ S10000.size a) (hoff : off = ![40 * (k % 250)]) (qi : PosShare TreeShare) :
    ((ixV).view.loc (V d (cV L) (jV L)) ↦[((ixV).slice (Rect.unit (s := S10000) off S40.size p) (fun _ => rfl)).view.set]{qi} fix : sProp 𝕄)
      = ((ixWin k).view.loc (V d (cV L) (jV L)) ↦[(ixWin k).view.set]{qi} fix) := by
  subst hoff; rfl
theorem pts_ixRest_gen (k : ℕ) (off : Fin 1 → ℕ) (p : ∀ a, off a + S40.size a ≤ S10000.size a) (hoff : off = ![40 * (k % 250)]) (qi : PosShare TreeShare) :
    ((ixV).view.loc (V d (cV L) (jV L)) ↦[Finset.univ \ ((ixV).slice (Rect.unit (s := S10000) off S40.size p) (fun _ => rfl)).view.set]{qi} fix : sProp 𝕄)
      = ((ixV).view.loc (V d (cV L) (jV L)) ↦[Finset.univ \ (ixWin k).view.set]{qi} fix) := by
  subst hoff; rfl

theorem pts_ixWin4 (t : Fin k1_t1_loop.trips) (h : k1_cond2 t = 1#1) (qi : PosShare TreeShare) :
    ((ixV).view.loc (V d (cV L) (jV L)) ↦[((ixV).slice (Rect.unit (s := S10000) (k1_off4 t) S40.size (k1_off4_inb t h)) (fun _ => rfl)).view.set]{qi} fix : sProp 𝕄)
      = ((ixWin (5 * t.val + 4)).view.loc (V d (cV L) (jV L)) ↦[(ixWin (5 * t.val + 4)).view.set]{qi} fix) :=
  pts_ixWin_gen d L fix (5 * t.val + 4) _ _ (k1_off4_canon t) qi
theorem pts_ixWin7 (t : Fin k1_t1_loop.trips) (h : k1_cond4 t = 1#1) (qi : PosShare TreeShare) :
    ((ixV).view.loc (V d (cV L) (jV L)) ↦[((ixV).slice (Rect.unit (s := S10000) (k1_off7 t) S40.size (k1_off7_inb t h)) (fun _ => rfl)).view.set]{qi} fix : sProp 𝕄)
      = ((ixWin (5 * t.val + 5)).view.loc (V d (cV L) (jV L)) ↦[(ixWin (5 * t.val + 5)).view.set]{qi} fix) :=
  pts_ixWin_gen d L fix (5 * t.val + 5) _ _ (k1_off7_canon t h) qi
theorem pts_ixWin9 (t : Fin k1_t1_loop.trips) (h : k1_cond6 t = 1#1) (qi : PosShare TreeShare) :
    ((ixV).view.loc (V d (cV L) (jV L)) ↦[((ixV).slice (Rect.unit (s := S10000) (k1_off9 t) S40.size (k1_off9_inb t h)) (fun _ => rfl)).view.set]{qi} fix : sProp 𝕄)
      = ((ixWin (5 * t.val + 6)).view.loc (V d (cV L) (jV L)) ↦[(ixWin (5 * t.val + 6)).view.set]{qi} fix) :=
  pts_ixWin_gen d L fix (5 * t.val + 6) _ _ (k1_off9_canon t h) qi
theorem pts_ixWin11 (t : Fin k1_t1_loop.trips) (h : k1_cond8 t = 1#1) (qi : PosShare TreeShare) :
    ((ixV).view.loc (V d (cV L) (jV L)) ↦[((ixV).slice (Rect.unit (s := S10000) (k1_off11 t) S40.size (k1_off11_inb t h)) (fun _ => rfl)).view.set]{qi} fix : sProp 𝕄)
      = ((ixWin (5 * t.val + 7)).view.loc (V d (cV L) (jV L)) ↦[(ixWin (5 * t.val + 7)).view.set]{qi} fix) :=
  pts_ixWin_gen d L fix (5 * t.val + 7) _ _ (k1_off11_canon t h) qi
theorem pts_ixWin13 (t : Fin k1_t1_loop.trips) (h : k1_cond10 t = 1#1) (qi : PosShare TreeShare) :
    ((ixV).view.loc (V d (cV L) (jV L)) ↦[((ixV).slice (Rect.unit (s := S10000) (k1_off13 t) S40.size (k1_off13_inb t h)) (fun _ => rfl)).view.set]{qi} fix : sProp 𝕄)
      = ((ixWin (5 * t.val + 8)).view.loc (V d (cV L) (jV L)) ↦[(ixWin (5 * t.val + 8)).view.set]{qi} fix) :=
  pts_ixWin_gen d L fix (5 * t.val + 8) _ _ (k1_off13_canon t h) qi

theorem pts_ixRest4 (t : Fin k1_t1_loop.trips) (h : k1_cond2 t = 1#1) (qi : PosShare TreeShare) (k : ℕ) (hk : k = 5 * t.val + 4) :
    ((ixV).view.loc (V d (cV L) (jV L)) ↦[Finset.univ \ ((ixV).slice (Rect.unit (s := S10000) (k1_off4 t) S40.size (k1_off4_inb t h)) (fun _ => rfl)).view.set]{qi} fix : sProp 𝕄)
      = ((ixV).view.loc (V d (cV L) (jV L)) ↦[Finset.univ \ (ixWin k).view.set]{qi} fix) :=
  pts_ixRest_gen d L fix k _ _ (hk ▸ k1_off4_canon t) qi
theorem pts_ixRest7 (t : Fin k1_t1_loop.trips) (h : k1_cond4 t = 1#1) (qi : PosShare TreeShare) (k : ℕ) (hk : k = 5 * t.val + 5) :
    ((ixV).view.loc (V d (cV L) (jV L)) ↦[Finset.univ \ ((ixV).slice (Rect.unit (s := S10000) (k1_off7 t) S40.size (k1_off7_inb t h)) (fun _ => rfl)).view.set]{qi} fix : sProp 𝕄)
      = ((ixV).view.loc (V d (cV L) (jV L)) ↦[Finset.univ \ (ixWin k).view.set]{qi} fix) :=
  pts_ixRest_gen d L fix k _ _ (hk ▸ k1_off7_canon t h) qi
theorem pts_ixRest9 (t : Fin k1_t1_loop.trips) (h : k1_cond6 t = 1#1) (qi : PosShare TreeShare) (k : ℕ) (hk : k = 5 * t.val + 6) :
    ((ixV).view.loc (V d (cV L) (jV L)) ↦[Finset.univ \ ((ixV).slice (Rect.unit (s := S10000) (k1_off9 t) S40.size (k1_off9_inb t h)) (fun _ => rfl)).view.set]{qi} fix : sProp 𝕄)
      = ((ixV).view.loc (V d (cV L) (jV L)) ↦[Finset.univ \ (ixWin k).view.set]{qi} fix) :=
  pts_ixRest_gen d L fix k _ _ (hk ▸ k1_off9_canon t h) qi
theorem pts_ixRest11 (t : Fin k1_t1_loop.trips) (h : k1_cond8 t = 1#1) (qi : PosShare TreeShare) (k : ℕ) (hk : k = 5 * t.val + 7) :
    ((ixV).view.loc (V d (cV L) (jV L)) ↦[Finset.univ \ ((ixV).slice (Rect.unit (s := S10000) (k1_off11 t) S40.size (k1_off11_inb t h)) (fun _ => rfl)).view.set]{qi} fix : sProp 𝕄)
      = ((ixV).view.loc (V d (cV L) (jV L)) ↦[Finset.univ \ (ixWin k).view.set]{qi} fix) :=
  pts_ixRest_gen d L fix k _ _ (hk ▸ k1_off11_canon t h) qi
theorem pts_ixRest13 (t : Fin k1_t1_loop.trips) (h : k1_cond10 t = 1#1) (qi : PosShare TreeShare) (k : ℕ) (hk : k = 5 * t.val + 8) :
    ((ixV).view.loc (V d (cV L) (jV L)) ↦[Finset.univ \ ((ixV).slice (Rect.unit (s := S10000) (k1_off13 t) S40.size (k1_off13_inb t h)) (fun _ => rfl)).view.set]{qi} fix : sProp 𝕄)
      = ((ixV).view.loc (V d (cV L) (jV L)) ↦[Finset.univ \ (ixWin k).view.set]{qi} fix) :=
  pts_ixRest_gen d L fix k _ _ (hk ▸ k1_off13_canon t h) qi

/-- A chunk's window of the index list and the rest of the list make the list whole again. -/
theorem ix_rejoin (k : ℕ) (qi : PosShare TreeShare) :
    iprop(((ixWin k).view.loc (V d (cV L) (jV L)) ↦[(ixWin k).view.set]{qi} fix) ∗ ((ixV).view.loc (V d (cV L) (jV L)) ↦[Finset.univ \ (ixWin k).view.set]{qi} fix))
      ⊢ ((ixV).view.loc (V d (cV L) (jV L)) ↦{qi} fix : sProp 𝕄) :=
  (pointsTo_split_subset (Finset.subset_univ _)).2

/-- Rows written with the gathered rows read back the gathered rows. -/
theorem stored_good (k : ℕ) (off : Fin 2 → ℕ) (hinb : ∀ a, off a + S40x128.size a ≤ S320000x128.size a)
    (hoff : off = ![20000 * (L 1).val + 10000 * (L 0).val + 40 * (k % 250), 0]) (fw : Buf (Elt F) ((oV).view.loc (V d (cV L) (jV L))))
    (p : S40x128.Idx → Elt F .f32) (hp : p = GP m d L fix hfix k) :
    (oWin L k).view.read (Elt F) (((oV).slice (Rect.unit (s := S320000x128) off S40x128.size hinb) (fun _ => rfl)).view.writes (Elt F) fw [⟨Rect.whole S40x128, p⟩])
      = GP m d L fix hfix k := by
  subst hoff
  subst hp
  funext x
  have e := View.read_writes_cons_emb (oWin L k).view fw (Rect.whole S40x128) (GP m d L fix hfix k) [] x
  rw [Rect.emb_whole_apply] at e
  exact e

end Cert.KernelIdeal.KRun

end
-- ==== Proof.KPre5.lean ====
/-
  The head of the last part of a vector subcore's program, up to its loop: the gather of chunk 3 into slot 3.

  From slot 3 free — the slot at some contents, its read shares of the shared copy and of the index list whole,
  its two semaphores at zero — the gather is issued: the slot, chunk 3's forty entries of the index list and the
  share of the shared copy travel with it, and what its wait will hand back is the slot holding the rows those
  entries name, which is chunk 3's payload.
-/
import proofs.«205984_g59184649339042_cont_9to1_m_680_25_alg».proof.Proof.KInv
import proofs.«205984_g59184649339042_cont_9to1_m_680_25_alg».proof.Proof.KVal
import proofs.«205984_g59184649339042_cont_9to1_m_680_25_alg».proof.Proof.KTripLib

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable (d : Dev nD) (L : grid1.Coords)
variable (fix : Buf (Elt F) ((ixV).view.loc (V d (cV L) (jV L)))) (hfix : FixOk d L fix)

omit [FloatOps F] in
/-- An in-flight transfer on a semaphore, the semaphore spelt another way. -/
theorem flight_sem {c : Thread nD τ} {sm sm' : DmaSem sig} (h : sm = sm') {ι : HIx 1} {N : ℕ} {D : sProp 𝕄} :
    (Transfers.Flight (countersEmb (nD := nD) (τ := τ) (sig := sig) (Ix := HIx 1) (Val := Elt F) (Name := ℕ) (U := UU) (Lvl := ℕ)) c (SemLoc.dma sm) ι N D : sProp 𝕄)
      ⊢ Transfers.Flight countersEmb c (SemLoc.dma sm') ι N D := by
  subst h
  all_goals exact .rfl

set_option maxHeartbeats 8000000 in
/-- The gather of chunk 3 into slot 3, before any continuation: from the slot free to the gather in flight. -/
theorem pre5_gather {α : Type} (k : PUnit → Prog (TpuEff nD τ sig (Elt F) Λ₀ (.scVector (cV L) (jV L))) α) (Φ : α → sProp 𝕄)
    (O : CellTallies nD τ sig (HIx 1)) (W : Waits sig (HIx 1)) (qi qs : PosShare TreeShare)
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000) :
    iprop(Transfers.MayWaits (V d (cV L) (jV L)) (default : HIx 1) O
        ∗ SlotFree m d L fix cc1_scratch6 cc1_scratch11 sl3 qi qs
        ∗ owes (V d (cV L) (jV L)) O W
        ∗ (iprop(SlotGath m d L fix hfix cc1_scratch6 cc1_scratch11 sl3 3 qi qs ∗ owes (V d (cV L) (jV L)) O W)
            -∗ wp frame (wpE (defs₀ (F := F)) 𝒱₀ (V d (cV L) (jV L)) none) Set.univ (k ⟨⟩) Φ))
      ⊢ wp frame (wpE (defs₀ (F := F)) 𝒱₀ (V d (cV L) (jV L)) none) Set.univ
          ((SparseCore.enqueueIndirectGather rfl
              ((shV).slice (Rect.unit (s := S10000x128) ![0, 0] S10000x128.size inb_S10000x128_S10000x128_0_0) (fun _ => rfl))
              (((rwV).slice (Rect.unit (s := S5x40x128) ![3, 0, 0] S1x40x128.size inb_S5x40x128_S1x40x128_3_0_0) (fun _ => rfl)).squeeze S40x128 squeezes_S1x40x128_S40x128)
              gathers_S10000x128_S40x128
              ((ixV).slice (Rect.unit (s := S10000) ![120] S40.size inb_S10000_S40_120) (fun _ => rfl))
              rfl cc1_scratch6.sem (View.wordExact_bits rfl) rfl (Or.inr rfl)) >>= k) Φ := by
  unfold SlotFree Shares
  iintro ⟨#Hmw, ⟨⟨%fb, Hslot⟩, ⟨Hsh, Hix⟩, Hg, Hs⟩, HO, Hk⟩
  -- the slot, spelt as the program slices it
  ihave Hslot := (Entails.of_eq (show ((sl3).view.loc (V d (cV L) (jV L)) ↦[(sl3).view.set]{fullShare} fb : sProp 𝕄)
      = ((((rwV).slice (Rect.unit (s := S5x40x128) ![3, 0, 0] S1x40x128.size inb_S5x40x128_S1x40x128_3_0_0) (fun _ => rfl)).squeeze S40x128 squeezes_S1x40x128_S40x128).view.loc (V d (cV L) (jV L)) ↦[(((rwV).slice (Rect.unit (s := S5x40x128) ![3, 0, 0] S1x40x128.size inb_S5x40x128_S1x40x128_3_0_0) (fun _ => rfl)).squeeze S40x128 squeezes_S1x40x128_S40x128).view.set]{fullShare} fb) from rfl)) $$ Hslot
  sl_exec
  -- the gather in flight, in the canonical form: what it delivers into the slot is chunk 3's payload
  ihave Hg := (flight_sem (F := F) (sm := ⟨7, _⟩) (sm' := cc1_scratch6.sem) rfl) $$ Hg
  ihave Hgf := (gath_canon m d L fix hfix cc1_scratch6 (((rwV).slice (Rect.unit (s := S5x40x128) ![3, 0, 0] S1x40x128.size inb_S5x40x128_S1x40x128_3_0_0) (fun _ => rfl)).squeeze S40x128 squeezes_S1x40x128_S40x128) 3 qi qs ![120] inb_S10000_S40_120 rfl fb (pre5_gather.sl.gather0 m d L fix hin) (fun _ => rfl)) $$ Hg
  ihave Hgf := (Entails.of_eq (show GFl m d L fix hfix cc1_scratch6 (((rwV).slice (Rect.unit (s := S5x40x128) ![3, 0, 0] S1x40x128.size inb_S5x40x128_S1x40x128_3_0_0) (fun _ => rfl)).squeeze S40x128 squeezes_S1x40x128_S40x128) 3 qi qs = GFl m d L fix hfix cc1_scratch6 sl3 3 qi qs from rfl)) $$ Hgf
  iapply Hk
  isplitr [HO]
  · unfold SlotGath
    isplitl [Hgf]; · iexact Hgf
    isplitl [Hix]; · iexact Hix
    iexact Hs
  iexact HO

end Cert.KernelIdeal.KRun

end
-- ==== Proof.KBarrier.lean ====
/-
  What the subcore barrier carries, and what the copied index list holds.

  A staging subcore arrives at the barrier having copied its block of the transformed features into the shared
  memory: element by element the block now holds those features, so the subcore can hand every subcore of its
  SparseCore a sixteenth read share of the block at those contents — the payload of its duty in each round. A
  subcore that stages nothing hands nothing. Leaving the barrier, a subcore has collected its sixteenth share
  of each of the ten blocks: a sixteenth read share of the whole shared copy, holding the features.
  The subcore's copy of its window of the list of source nodes holds, under the input range, row numbers of the
  node table.
-/
import proofs.«205984_g59184649339042_cont_9to1_m_680_25_alg».proof.Proof.KSlices
import proofs.«205984_g59184649339042_cont_9to1_m_680_25_alg».proof.Proof.KShares
import proofs.«205984_g59184649339042_cont_9to1_m_680_25_alg».proof.Proof.KStage
import proofs.«205984_g59184649339042_cont_9to1_m_680_25_alg».proof.Proof.KIdx
import proofs.«205984_g59184649339042_cont_9to1_m_680_25_alg».proof.Proof.KMem
import Idealize.ShloMosaic.Lib.Writes

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable (d : Dev nD) (L : grid1.Coords)

/-! ## Arriving -/

/-- An element of the block just copied holds what the copy read at the same place of the block in HBM. -/
theorem staged_at (h1 : k1_cond1 L = 1#1) (fsh : Buf (Elt F) ((shSl L h1).view.loc (V d (cV L) (jV L)))) (x : S1000x128.Idx) :
    ((shSl L h1).view.writes (Elt F) fsh [⟨Rect.whole S1000x128, ReadAs.same.apply (View.read (Elt F) (ySl L h1).view (yval m d))⟩]) ((shSl L h1).view.emb x)
      = (View.read (Elt F) (ySl L h1).view (yval m d)) x := by
  have e := View.read_writes_cons_emb (shSl L h1).view fsh (Rect.whole S1000x128)
    (ReadAs.same.apply (View.read (Elt F) (ySl L h1).view (yval m d))) [] x
  rw [Rect.emb_whole_apply, View.read_apply] at e
  exact (cast_eq _ _).symm.trans e

/-- The block just copied holds, on its own elements, the transformed features: the copy reads the block of the
    features in HBM and writes the block of the shared memory through the same rectangle. -/
theorem staged_agree (h1 : k1_cond1 L = 1#1) (fsh : Buf (Elt F) ((shSl L h1).view.loc (V d (cV L) (jV L)))) :
    ∀ i ∈ (shSl L h1).view.set,
      ((shSl L h1).view.writes (Elt F) fsh [⟨Rect.whole S1000x128, ReadAs.same.apply (View.read (Elt F) (ySl L h1).view (yval m d))⟩]) i
        = (shval m d (cV L) : FVec F S10000x128 .f32) i := by
  intro i hi
  obtain ⟨x, -, rfl⟩ := Finset.mem_map.mp hi
  exact (staged_at m d L h1 fsh x).trans rfl

/-- A staging subcore's payloads: a sixteenth read share of its block, at the features, into every round. -/
theorem pays_intro (h1 : k1_cond1 L = 1#1) (fsh : Buf (Elt F) ((shSl L h1).view.loc (V d (cV L) (jV L)))) :
    ((shSl L h1).view.loc (V d (cV L) (jV L)) ↦[(shSl L h1).view.set]{fullShare}
        (shSl L h1).view.writes (Elt F) fsh [⟨Rect.whole S1000x128, ReadAs.same.apply (View.read (Elt F) (ySl L h1).view (yval m d))⟩] : sProp 𝕄)
      ⊢ bigSep Finset.univ fun j : Fin (grid1.bound 1) => (bRd (F := F) m).payload (bcell d (cV L) (j.castLE hsub1)) 0 (jV L).val := by
  have e1 : ((shSl L h1).view.loc (V d (cV L) (jV L)) ↦[(shSl L h1).view.set]{fullShare}
        (shSl L h1).view.writes (Elt F) fsh [⟨Rect.whole S1000x128, ReadAs.same.apply (View.read (Elt F) (ySl L h1).view (yval m d))⟩] : sProp 𝕄)
      = ((shSl L h1).view.loc (V d (cV L) (jV L)) ↦[(shSl L h1).view.set]{fullShare} shval m d (cV L)) :=
    pointsTo_congr (staged_agree m d L h1 fsh)
  rw [e1, pts_shSl d L h1 fullShare (shval m d (cV L)), pointsTo_q16]
  refine Entails.of_eq (bigSep_congr fun j _ => ?_)
  show _ = bPay m (bcell d (cV L) (j.castLE hsub1)) (jV L).val
  unfold bPay
  dsimp only
  exact ((if_pos (show (jV L).val < 10 from (cond1_iff L).mp h1)).trans rfl).symm

/-- A subcore that stages nothing hands nothing. -/
theorem pays_intro_idle (h1 : ¬ k1_cond1 L = 1#1) :
    (iprop(emp) : sProp 𝕄)
      ⊢ bigSep Finset.univ fun j : Fin (grid1.bound 1) => (bRd (F := F) m).payload (bcell d (cV L) (j.castLE hsub1)) 0 (jV L).val := by
  have hn : ¬ (jV L).val < 10 := fun h => h1 ((cond1_iff L).mpr h)
  have e : (fun j : Fin (grid1.bound 1) => (bRd (F := F) m).payload (bcell d (cV L) (j.castLE hsub1)) 0 (jV L).val)
      = fun _ => (iprop(emp) : sProp 𝕄) := funext fun j => by
    show bPay m (bcell d (cV L) (j.castLE hsub1)) (jV L).val = _
    unfold bPay
    dsimp only
    exact if_neg hn
  rw [e]
  exact Entails.of_eq (bigSep_emp_const Finset.univ).symm

/-! ## Leaving -/

/-- What a subcore's own round collected: a sixteenth read share of the whole shared copy, at the features. -/
theorem pays_elim :
    (bigSep ((bRd (F := F) m).duties (bcell d (cV L) (jV L)) 0 \ ∅) fun n => (bRd (F := F) m).payload (bcell d (cV L) (jV L)) 0 n)
      ⊢ ((shV).view.loc (V d (cV L) (jV L)) ↦{q16 (Fin.cast nSub_eq (jV L))} shval m d (cV L) : sProp 𝕄) := by
  rw [Finset.sdiff_empty, bRd_duties₀]
  have hsub : Finset.range 10 ⊆ (Finset.univ : Finset (Fin τ.nSub)).image Fin.val := fun n hn =>
    Finset.mem_image.mpr ⟨⟨n, by have := Finset.mem_range.mp hn; show n < 16; omega⟩, Finset.mem_univ _, rfl⟩
  have e : (bigSep (Finset.range 10) fun n => (bRd (F := F) m).payload (bcell d (cV L) (jV L)) 0 n)
      = (shLoc d (cV L) ↦{q16 (Fin.cast nSub_eq (jV L))} shval m d (cV L) : sProp 𝕄) := by
    rw [pointsTo_stages d (cV L)]
    refine bigSep_congr fun n hn => ?_
    show bPay m (bcell d (cV L) (jV L)) n = _
    unfold bPay
    dsimp only
    exact if_pos (Finset.mem_range.mp hn)
  show _ ⊢ (shLoc d (cV L) ↦{q16 (Fin.cast nSub_eq (jV L))} shval m d (cV L) : sProp 𝕄)
  rw [← e]
  exact bigSep_subset hsub

/-! ## The copied index list -/

/-- Contents whose every word is below 10000 read, through any forty-entry window, words below 10000. -/
theorem hin' (fix : Buf (Elt F) ((ixV).view.loc (V d (cV L) (jV L)))) (hfix : ∀ i, ((fix : IVec S10000 32) i).toNat < 10000) :
    ∀ (off : Fin 1 → ℕ) (hinb : ∀ a, off a + S40.size a ≤ S10000.size a) (hst) (x : S40.Idx),
      ((((ixV).slice (Rect.unit (s := S10000) off S40.size hinb) hst).view.read (Elt F) fix) x).toNat < 10000 :=
  fun off hinb hst x => hfix _

/-- Under the input range, the subcore's copy of its window of the list holds row numbers of the node table. -/
theorem copied_lt (hR : Cert.Spec.RowsInRange (m (eLoc d) : IVec S2x320000 32)) (g : Buf (Elt F) ((ixV).view.loc (V d (cV L) (jV L)))) :
    ∀ i, ((View.write (Elt F) (ixV).view g (ReadAs.same.apply (View.read (Elt F) (iSl L).view (ival m d))) Finset.univ : IVec S10000 32) i).toNat < 10000 := by
  intro i
  rw [show View.write (Elt F) (ixV).view g (ReadAs.same.apply (View.read (Elt F) (iSl L).view (ival m d))) Finset.univ
      = ReadAs.same.apply (View.read (Elt F) (iSl L).view (ival m d)) from View.write_whole_univ _ _ _]
  exact Nat.lt_succ_of_le (ival_le m d hR ((iSl L).view.emb i))

theorem hin (hR : Cert.Spec.RowsInRange (m (eLoc d) : IVec S2x320000 32)) :
    ∀ (g : Buf (Elt F) ((ixV).view.loc (V d (cV L) (jV L)))) (off : Fin 1 → ℕ) (hinb : ∀ a, off a + S40.size a ≤ S10000.size a) (hst) (x : S40.Idx),
      ((((ixV).slice (Rect.unit (s := S10000) off S40.size hinb) hst).view.read (Elt F)
        (View.write (Elt F) (ixV).view g (ReadAs.same.apply (View.read (Elt F) (iSl L).view (ival m d))) Finset.univ)) x).toNat < 10000 :=
  fun g off hinb hst x => hin' d L _ (copied_lt m d L hR g) off hinb hst x

end Cert.KernelIdeal.KRun

end
-- ==== Proof.KTile.lean ====
/-
  The vector subcore's whole task, assembled: the staging copy, the index copy and the barrier, the first four
  gathers, the fifty trips of the loop, the five closing waits. Entering, the subcore's storage is opened into
  its index buffer, the five slots of its row buffer and its twelve semaphores, and its rows of the result are
  cut into the 250 chunks' windows; leaving, the windows — each now holding its chunk's gathered rows, that is
  the expected result's rows — are joined again, the five pieces of each read share rejoined, and the storage
  closed.
-/
import proofs.«205984_g59184649339042_cont_9to1_m_680_25_alg».proof.Proof.KMem
import proofs.«205984_g59184649339042_cont_9to1_m_680_25_alg».proof.Proof.KLoop
import proofs.«205984_g59184649339042_cont_9to1_m_680_25_alg».proof.Proof.KPre5
import proofs.«205984_g59184649339042_cont_9to1_m_680_25_alg».proof.Proof.KVal
import proofs.«205984_g59184649339042_cont_9to1_m_680_25_alg».proof.Proof.KObl
import proofs.«205984_g59184649339042_cont_9to1_m_680_25_alg».proof.Proof.KBarrier

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

open Post

set_option maxHeartbeats 4000000 in
/-- The five slots, at contents of their own, are the row buffer at some contents: the slots are the buffer's
    five parts along its first axis, pairwise disjoint, so the five contents glue into one. -/
theorem rw_slots_join :
    iprop((∃ f, (sl0).view.loc (V d (cV L) (jV L)) ↦[(sl0).view.set]{fullShare} f) ∗ (∃ f, (sl1).view.loc (V d (cV L) (jV L)) ↦[(sl1).view.set]{fullShare} f)
        ∗ (∃ f, (sl2).view.loc (V d (cV L) (jV L)) ↦[(sl2).view.set]{fullShare} f) ∗ (∃ f, (sl3).view.loc (V d (cV L) (jV L)) ↦[(sl3).view.set]{fullShare} f)
        ∗ (∃ f, (sl4).view.loc (V d (cV L) (jV L)) ↦[(sl4).view.set]{fullShare} f))
      ⊢ (iprop(∃ f, (rwV).view.loc (V d (cV L) (jV L)) ↦{fullShare} f) : sProp 𝕄) := by
  classical
  iintro ⟨⟨%f0, H0⟩, ⟨%f1, H1⟩, ⟨%f2, H2⟩, ⟨%f3, H3⟩, ⟨%f4, H4⟩⟩
  have hd : ∀ (b b' : Fin 5) (hb) (hb'), b ≠ b' → ∀ j, j ∈ (rwSl b hb).view.set → j ∉ (rwSl b' hb').view.set := by
    intro b b' hb hb' hne j hj hj'
    rw [set_rwSl] at hj hj'
    exact Finset.disjoint_left.mp (Rect.part_disjoint hdiv5 hne) hj hj'
  let g : Buf (Elt F) ((rwV).view.loc (V d (cV L) (jV L))) := fun j =>
    if j ∈ (sl0).view.set then f0 j else if j ∈ (sl1).view.set then f1 j else if j ∈ (sl2).view.set then f2 j
    else if j ∈ (sl3).view.set then f3 j else f4 j
  iexists g
  rw [rw_slots d L g]
  isplitl [H0]
  · rw [← pointsTo_congr (f := f0) (g := g) (fun j hj => by simp only [g, if_pos hj])]; iexact H0
  isplitl [H1]
  · rw [← pointsTo_congr (f := f1) (g := g) (fun j hj => by
      simp only [g, if_neg (hd 1 0 _ _ (by decide) j hj), if_pos hj])]; iexact H1
  isplitl [H2]
  · rw [← pointsTo_congr (f := f2) (g := g) (fun j hj => by
      simp only [g, if_neg (hd 2 0 _ _ (by decide) j hj), if_neg (hd 2 1 _ _ (by decide) j hj), if_pos hj])]; iexact H2
  isplitl [H3]
  · rw [← pointsTo_congr (f := f3) (g := g) (fun j hj => by
      simp only [g, if_neg (hd 3 0 _ _ (by decide) j hj), if_neg (hd 3 1 _ _ (by decide) j hj), if_neg (hd 3 2 _ _ (by decide) j hj), if_pos hj])]; iexact H3
  · rw [← pointsTo_congr (f := f4) (g := g) (fun j hj => by
      simp only [g, if_neg (hd 4 0 _ _ (by decide) j hj), if_neg (hd 4 1 _ _ (by decide) j hj), if_neg (hd 4 2 _ _ (by decide) j hj), if_neg (hd 4 3 _ _ (by decide) j hj)])]; iexact H4

/-- The worker's rows of the result, cut into the chunks' windows (no chunk copied yet). -/
theorem out_split' (fix : Buf (Elt F) ((ixV).view.loc (V d (cV L) (jV L)))) (hfix : FixOk d L fix) (f : Buf (Elt F) (oLoc d)) :
    (oLoc d ↦[outSet (wid (L 0) (L 1))]{fullShare} f : sProp 𝕄) ⊢ OutRes m d L fix hfix 0 ∅ := by
  have e : (bigSep (Finset.range 250) fun k => (oLoc d ↦[(oWin L k).view.set]{fullShare} f : sProp 𝕄))
      = (oLoc d ↦[outSet (wid (L 0) (L 1))]{fullShare} f) := by
    rw [← pointsTo_biUnion (Finset.range 250) (ℓ := oLoc d) (fun k => (oWin L k).view.set) (oWin_disjoint L), oWin_cover]
  unfold OutRes
  rw [Finset.sdiff_empty, ← e]
  refine bigSep_mono fun k _ => ?_
  show (oLoc d ↦[(oWin L k).view.set]{fullShare} f : sProp 𝕄)
    ⊢ iprop(∃ fo, ⌜k < 0 → (oWin L k).view.read (Elt F) fo = GP m d L fix hfix k⌝ ∗ ((oWin L k).view.loc (V d (cV L) (jV L)) ↦[(oWin L k).view.set]{fullShare} fo))
  iintro H
  iexists f
  isplitr
  · ipureintro; intro h; exact absurd h (Nat.not_lt_zero k)
  iexact H

/-- Five pieces of a share are the share. -/
theorem s5_join {ℓ : Loc nD τ sig} (I : Finset (Idx ℓ)) (f : Buf (Elt F) ℓ) (q : PosShare TreeShare) :
    iprop((ℓ ↦[I]{s5 q 0} f) ∗ (ℓ ↦[I]{s5 q 1} f) ∗ (ℓ ↦[I]{s5 q 2} f) ∗ (ℓ ↦[I]{s5 q 3} f) ∗ (ℓ ↦[I]{s5 q 4} f)) ⊢ (ℓ ↦[I]{q} f : sProp 𝕄) := by
  unfold s5
  iintro ⟨H0, H1, H2, H3, H4⟩
  ihave H34 := (pointsTo_share (PosShare.mem_left_op_right q.right.right.right)).2 $$ [H3 H4]; · isplitl [H3] <;> iassumption
  ihave H24 := (pointsTo_share (PosShare.mem_left_op_right q.right.right)).2 $$ [H2 H34]; · isplitl [H2] <;> iassumption
  ihave H14 := (pointsTo_share (PosShare.mem_left_op_right q.right)).2 $$ [H1 H24]; · isplitl [H1] <;> iassumption
  iapply (pointsTo_share (PosShare.mem_left_op_right q)).2
  isplitl [H0] <;> iassumption

variable (hR : ∀ d, Cert.Spec.RowsInRange (m (eLoc d) : IVec S2x320000 32))

/-- The pre-loop part, as its lemma states it. -/
def Pre4Ok : Prop :=
  ∀ (d : Dev nD) (L : grid1.Coords) (O : CellTallies nD τ sig (HIx 1)) (W : Waits sig (HIx 1)), (∀ g, O g none = 0) →
    (∀ g ι, 0 < O g ι → 8 * (0 : Fin 1).val + 6 ≤ (K (F := F)).lev g ι) → ∀ (Φ : BitVec 32 → sProp 𝕄),
    iprop(levAts (K (F := F)).L (K (F := F)).lev ∗ bkit m d (cV L) (jV L)
        ∗ (iLoc d ↦[idxSet (wid (L 0) (L 1))]{fullShare} ival m d) ∗ (yLoc d ↦[stageSet (L 1).val]{qY (L 0)} yval m d) ∗ (∃ f, shLoc d (cV L) ↦[stageSet (L 1).val]{fullShare} f)
        ∗ (∃ f, (ixV).view.loc (V d (cV L) (jV L)) ↦{fullShare} f) ∗ (∃ f, (rwV).view.loc (V d (cV L) (jV L)) ↦{fullShare} f)
        ∗ semVal (sem cc1_scratch3 d L) 0 ∗ semVal (sem cc1_scratch4 d L) 0 ∗ semVal (sem cc1_scratch5 d L) 0 ∗ semVal (sem cc1_scratch6 d L) 0 ∗ semVal (sem cc1_scratch7 d L) 0
        ∗ semVal (sem cc1_scratch8 d L) 0 ∗ semVal (sem cc1_scratch9 d L) 0 ∗ semVal (sem cc1_scratch10 d L) 0 ∗ semVal (sem cc1_scratch11 d L) 0 ∗ semVal (sem cc1_scratch12 d L) 0
        ∗ semVal (sem cc1_scoped0 d L) 0 ∗ semVal (sem cc1_scoped1 d L) 0
        ∗ owes (V d (cV L) (jV L)) (O + oxV d (cV L)) W
        ∗ (∀ v2, iprop((iLoc d ↦[idxSet (wid (L 0) (L 1))]{fullShare} ival m d) ∗ (yLoc d ↦[stageSet (L 1).val]{qY (L 0)} yval m d)
              ∗ SlotGath m d L (fixVal m d L) (fixOk m d L (hR d)) cc1_scratch3 cc1_scratch8 sl0 0 (s5 fullShare 0) (s5 (q16 (L 1)) 0)
              ∗ SlotGath m d L (fixVal m d L) (fixOk m d L (hR d)) cc1_scratch4 cc1_scratch9 sl1 1 (s5 fullShare 1) (s5 (q16 (L 1)) 1)
              ∗ SlotGath m d L (fixVal m d L) (fixOk m d L (hR d)) cc1_scratch5 cc1_scratch10 sl2 2 (s5 fullShare 2) (s5 (q16 (L 1)) 2)
              ∗ SlotFree m d L (fixVal m d L) cc1_scratch6 cc1_scratch11 sl3 (s5 fullShare 3) (s5 (q16 (L 1)) 3)
              ∗ SlotFree m d L (fixVal m d L) cc1_scratch7 cc1_scratch12 sl4 (s5 fullShare 4) (s5 (q16 (L 1)) 4)
              ∗ semVal (sem cc1_scoped0 d L) 0 ∗ semVal (sem cc1_scoped1 d L) 0
              ∗ owesW d L O W) -∗ Φ v2))
      ⊢ wp frame (wpE (defs₀ (F := F)) 𝒱₀ (V d (cV L) (jV L)) none) Set.univ
          (k1_part4 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1) Φ

set_option maxHeartbeats 8000000 in
theorem tile_body_of (hpre4 : Pre4Ok m hR)
    (htrip : ∀ (d : Dev nD) (L : grid1.Coords) (O : CellTallies nD τ sig (HIx 1)) (W : Waits sig (HIx 1)) (v2 : BitVec 32),
      TripOk m d L (fixVal m d L) (fixOk m d L (hR d)) (q16 (L 1)) O W v2) : TileBody (F := F) m := by
  intro d L O W hO hOlev
  rw [cc1_gather_eq_skeleton, gather_tail]
  rw [(K (F := F)).scopedBufs_V facts d (cV L) (jV L), SparseCore.Cfg.scopedSems0_V (Val := Elt F) d (cV L) (jV L), ownSems0_V d L, ownBufs_V d L]
  iintro ⟨#Hlv, Hkit, ⟨Hi, Ho, Hy, Hsh⟩, ⟨⟨%fix0, Hix⟩, ⟨%frw, Hrw⟩, Hbufs⟩, ⟨Hg0, Hg1, Hg2, Hg3, Hg4, Ht0, Ht1, Ht2, Ht3, Ht4, Hs0, Hs1, Hsems⟩, HO⟩
  ihave Hmw := ((K (F := F)).mayWaits_none (thr := V d (cV L) (jV L)) hO) $$ Hlv
  ihave Hout := (out_split' m d L (fixVal m d L) (fixOk m d L (hR d)) _) $$ Ho
  rw [wp_bind]
  iapply (hpre4 d L O W hO hOlev _)
  isplitr; · iexact Hlv
  isplitl [Hkit]; · iexact Hkit
  isplitl [Hi]; · iexact Hi
  isplitl [Hy]; · iexact Hy
  isplitl [Hsh]; · iexact Hsh
  isplitl [Hix]; · iexists fix0; iexact Hix
  isplitl [Hrw]; · iexists frw; iexact Hrw
  isplitl [Hg0]; · iexact Hg0
  isplitl [Hg1]; · iexact Hg1
  isplitl [Hg2]; · iexact Hg2
  isplitl [Hg3]; · iexact Hg3
  isplitl [Hg4]; · iexact Hg4
  isplitl [Ht0]; · iexact Ht0
  isplitl [Ht1]; · iexact Ht1
  isplitl [Ht2]; · iexact Ht2
  isplitl [Ht3]; · iexact Ht3
  isplitl [Ht4]; · iexact Ht4
  isplitl [Hs0]; · iexact Hs0
  isplitl [Hs1]; · iexact Hs1
  isplitl [HO]; · iexact HO
  iintro %v2 ⟨Hi, Hy, G0, G1, G2, F3, F4, Hs0, Hs1, HOW⟩
  -- the fourth gather
  rw [k1_part5_eq_skeleton, part5_tail, wp_bind]
  unfold owesW
  icases HOW with ⟨%W1, %hW1, HO⟩
  iapply (pre5_gather m d L (fixVal m d L) (fixOk m d L (hR d)) _ _ O W1 (s5 fullShare 3) (s5 (q16 (L 1)) 3) (hin' d L (fixVal m d L) (fixOk m d L (hR d))))
  isplitr; · iexact Hmw
  isplitl [F3]; · iexact F3
  isplitl [HO]; · iexact HO
  iintro ⟨G3, HO⟩
  -- the loop, and the first three closing waits
  iapply (loop_run m d L (fixVal m d L) (fixOk m d L (hR d)) (q16 (L 1)) O W v2 (htrip d L O W v2) _)
  isplitr; · iexact Hmw
  isplitl [G0 G1 G2 G3 F4 Hout]
  · unfold InvStart
    isplitl [G0]; · iexact G0
    isplitl [G1]; · iexact G1
    isplitl [G2]; · iexact G2
    isplitl [G3]; · iexact G3
    isplitl [F4]; · iexact F4
    iexact Hout
  isplitl [HO]
  · unfold owesW; iexists W1; isplitr; · ipureintro; exact hW1
    iexact HO
  iintro HM3
  -- the last two
  iapply (post_waits2 m d L (fixVal m d L) (fixOk m d L (hR d)) (q16 (L 1)) O W _)
  isplitr; · iexact Hmw
  isplitl [HM3]; · iexact HM3
  iintro HA
  unfold AfterAll SlotFree Shares owesW
  icases HA with ⟨⟨S0, ⟨Hsh0, Hix0⟩, Hg0, Ht0⟩, ⟨S1, ⟨Hsh1, Hix1⟩, Hg1, Ht1⟩, ⟨S2, ⟨Hsh2, Hix2⟩, Hg2, Ht2⟩, ⟨S3, ⟨Hsh3, Hix3⟩, Hg3, Ht3⟩, ⟨S4, ⟨Hsh4, Hix4⟩, Hg4, Ht4⟩, Hout, ⟨%W2, %hW2, HO⟩⟩
  isplitl [Hi Hout Hy Hsh0 Hsh1 Hsh2 Hsh3 Hsh4]
  · isplitl [Hi]; · iexact Hi
    isplitl [Hout]
    · ihave H := (Post.out_join m d L (fixVal m d L) (fixOk m d L (hR d))) $$ Hout
      icases H with ⟨%f, %hf, Hf⟩
      iexists f; isplitr
      · ipureintro; exact good_of_windows m d L (fixVal m d L) (fixOk m d L (hR d)) (hR d) rfl f hf
      iexact Hf
    isplitl [Hy]; · iexact Hy
    iapply (s5_join (F := F) (ℓ := shLoc d (cV L)) Finset.univ (shval m d (cV L)) (q16 (L 1)))
    isplitl [Hsh0]; · iexact Hsh0
    isplitl [Hsh1]; · iexact Hsh1
    isplitl [Hsh2]; · iexact Hsh2
    isplitl [Hsh3]; · iexact Hsh3
    iexact Hsh4
  isplitl [Hix0 Hix1 Hix2 Hix3 Hix4 S0 S1 S2 S3 S4 Hbufs]
  · isplitl [Hix0 Hix1 Hix2 Hix3 Hix4]
    · iexists (fixVal m d L)
      iapply (s5_join (F := F) (ℓ := (V d (cV L) (jV L)).loc cc1_scratch0) Finset.univ (fixVal m d L) fullShare)
      isplitl [Hix0]; · iexact Hix0
      isplitl [Hix1]; · iexact Hix1
      isplitl [Hix2]; · iexact Hix2
      isplitl [Hix3]; · iexact Hix3
      iexact Hix4
    isplitl [S0 S1 S2 S3 S4]
    · iapply (rw_slots_join (F := F) d L)
      isplitl [S0]; · iexact S0
      isplitl [S1]; · iexact S1
      isplitl [S2]; · iexact S2
      isplitl [S3]; · iexact S3
      iexact S4
    iexact Hbufs
  isplitl [Hg0 Hg1 Hg2 Hg3 Hg4 Ht0 Ht1 Ht2 Ht3 Ht4 Hs0 Hs1 Hsems]
  · isplitl [Hg0]; · iexact Hg0
    isplitl [Hg1]; · iexact Hg1
    isplitl [Hg2]; · iexact Hg2
    isplitl [Hg3]; · iexact Hg3
    isplitl [Hg4]; · iexact Hg4
    isplitl [Ht0]; · iexact Ht0
    isplitl [Ht1]; · iexact Ht1
    isplitl [Ht2]; · iexact Ht2
    isplitl [Ht3]; · iexact Ht3
    isplitl [Ht4]; · iexact Ht4
    isplitl [Hs0]; · iexact Hs0
    isplitl [Hs1]; · iexact Hs1
    iexact Hsems
  iexists W2; isplitr
  · ipureintro; exact hW2
  iexact HO

end Cert.KernelIdeal.KRun

end
-- ==== Proof.KPre4.lean ====
/-
  The part of a vector subcore's body before its loop.

  A staging subcore copies its block of the transformed features into the shared memory; every subcore copies its
  window of the list of source nodes into its own memory; all sixteen of a SparseCore meet at the barrier, which
  leaves each a sixteenth read share of the whole shared copy; then the gathers of chunks 0, 1 and 2 into slots
  0, 1 and 2 of the row buffer are issued. What is left is the loop's state before the gather of chunk 3.
-/
import proofs.«205984_g59184649339042_cont_9to1_m_680_25_alg».proof.Proof.KTripLib
import proofs.«205984_g59184649339042_cont_9to1_m_680_25_alg».proof.Proof.KBarrier
import proofs.«205984_g59184649339042_cont_9to1_m_680_25_alg».proof.Proof.KVal
import proofs.«205984_g59184649339042_cont_9to1_m_680_25_alg».proof.Proof.KSlices
import proofs.«205984_g59184649339042_cont_9to1_m_680_25_alg».proof.Proof.KSplit

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable (d : Dev nD) (L : grid1.Coords)

set_option maxHeartbeats 8000000 in
/-- A staging subcore: its block copied into the shared memory and handed over at the barrier. -/
theorem pre4_stage (hF : (K (F := F)).Facts) (hR : Cert.Spec.RowsInRange (m (eLoc d) : IVec S2x320000 32)) (h1 : k1_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) (Φ : BitVec 32 → sProp 𝕄) :
    iprop(levAts (K (F := F)).L (K (F := F)).lev ∗ bkit m d (cV L) (jV L)
        ∗ (iLoc d ↦[idxSet (wid (L 0) (L 1))]{fullShare} ival m d) ∗ (yLoc d ↦[stageSet (L 1).val]{qY (L 0)} yval m d)
        ∗ (∃ f, shLoc d (cV L) ↦[stageSet (L 1).val]{fullShare} f)
        ∗ (∃ f, (ixV).view.loc (V d (cV L) (jV L)) ↦{fullShare} f) ∗ (∃ f, (rwV).view.loc (V d (cV L) (jV L)) ↦{fullShare} f)
        ∗ semVal (sem cc1_scratch3 d L) 0 ∗ semVal (sem cc1_scratch4 d L) 0 ∗ semVal (sem cc1_scratch5 d L) 0 ∗ semVal (sem cc1_scratch6 d L) 0 ∗ semVal (sem cc1_scratch7 d L) 0 ∗ semVal (sem cc1_scratch8 d L) 0 ∗ semVal (sem cc1_scratch9 d L) 0 ∗ semVal (sem cc1_scratch10 d L) 0 ∗ semVal (sem cc1_scratch11 d L) 0 ∗ semVal (sem cc1_scratch12 d L) 0 ∗ semVal (sem cc1_scoped0 d L) 0 ∗ semVal (sem cc1_scoped1 d L) 0
        ∗ owes (V d (cV L) (jV L)) (O + oxV d (cV L)) W
        ∗ (∀ v2, iprop((iLoc d ↦[idxSet (wid (L 0) (L 1))]{fullShare} ival m d) ∗ (yLoc d ↦[stageSet (L 1).val]{qY (L 0)} yval m d)
              ∗ SlotGath m d L (fixVal m d L) (fixOk m d L hR) cc1_scratch3 cc1_scratch8 sl0 0 (s5 fullShare 0) (s5 (q16 (L 1)) 0)
              ∗ SlotGath m d L (fixVal m d L) (fixOk m d L hR) cc1_scratch4 cc1_scratch9 sl1 1 (s5 fullShare 1) (s5 (q16 (L 1)) 1)
              ∗ SlotGath m d L (fixVal m d L) (fixOk m d L hR) cc1_scratch5 cc1_scratch10 sl2 2 (s5 fullShare 2) (s5 (q16 (L 1)) 2)
              ∗ SlotFree m d L (fixVal m d L) cc1_scratch6 cc1_scratch11 sl3 (s5 fullShare 3) (s5 (q16 (L 1)) 3)
              ∗ SlotFree m d L (fixVal m d L) cc1_scratch7 cc1_scratch12 sl4 (s5 fullShare 4) (s5 (q16 (L 1)) 4)
              ∗ semVal (sem cc1_scoped0 d L) 0 ∗ semVal (sem cc1_scoped1 d L) 0
              ∗ (∃ W', ⌜∀ p ∈ W', p ∈ W ∨ p.2 = none ∨ p.2 = some (0 : Fin 1)⌝ ∗ owes (V d (cV L) (jV L)) O W')) -∗ Φ v2))
      ⊢ wp frame (wpE (defs₀ (F := F)) 𝒱₀ (V d (cV L) (jV L)) none) Set.univ
          (k1_part4 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1) Φ := by
  rw [k1_part4_eq_skeleton]; unfold k1_part4_skel
  unfold bkit
  iintro ⟨#Hlv, ⟨⟨%κ, #Hinv⟩, Htoks, #Hrch, Hat, Hcred⟩, Hi, Hy, ⟨%fsh, Hsh⟩, ⟨%fix0, Hix⟩, ⟨%frw, Hrw⟩, Hg0, Hg1, Hg2, Hg3, Hg4, Ht0, Ht1, Ht2, Ht3, Ht4, Hs0, Hs1, HO, Hk⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the three sliced operands and the row buffer's slots, as the kernel addresses them
  ihave Hi := (Entails.of_eq (pts_iSl (F := F) d L fullShare (ival m d)).symm) $$ Hi
  ihave Hy := (Entails.of_eq (pts_ySl (F := F) d L h1 (qY (L 0)) (yval m d)).symm) $$ Hy
  ihave Hsh := (Entails.of_eq (pts_shSl (F := F) d L h1 fullShare fsh).symm) $$ Hsh
  ihave Hrw := (Entails.of_eq (rw_slots (F := F) d L frw)) $$ Hrw
  icases Hrw with ⟨Hrw0, Hrw1, Hrw2, Hrw3, Hrw4⟩
  sl_exec
  have pi : ((shSl L h1).view.loc (V d (cV L) (jV L)) ↦[(shSl L h1).view.set]{fullShare}
        (shSl L h1).view.writes (Elt F) fsh [⟨Rect.whole S1000x128, pre4_stage.sl.dma0 m d L h1⟩] : sProp 𝕄)
      ⊢ bigSep Finset.univ fun j : Fin (grid1.bound 1) => (bRd (F := F) m).payload (bcell d (cV L) (j.castLE hsub1)) 0 (jV L).val :=
    pays_intro m d L h1 fsh
  ihave Hpays := pi $$ Hsh
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hshw := (pays_elim m d L) $$ Hgot
  ihave Hshw := (Entails.of_eq (show ((shV).view.loc (V d (cV L) (jV L)) ↦{q16 (Fin.cast nSub_eq (jV L))} shval m d (cV L) : sProp 𝕄)
      = ((shV).view.loc (V d (cV L) (jV L)) ↦{q16 (L 1)} shval m d (cV L)) from rfl)) $$ Hshw
  -- the index copy holds the worker's window of the list
  ihave Hix := (Entails.of_eq (show ((ixV).view.loc (V d (cV L) (jV L)) ↦{fullShare}
        View.write (Elt F) (ixV).view fix0 (pre4_stage.sl.dma0_1 m d L) Finset.univ : sProp 𝕄)
      = ((ixV).view.loc (V d (cV L) (jV L)) ↦{fullShare} fixVal m d L) from congrArg (fun f => ((ixV).view.loc (V d (cV L) (jV L)) ↦{fullShare} f : sProp 𝕄)) (fix_write_eq m d L fix0))) $$ Hix
  have hin : ∀ (off : Fin 1 → ℕ) (hinb : ∀ a, off a + S40.size a ≤ S10000.size a) (hst) (x : S40.Idx),
      ((((ixV).slice (Rect.unit (s := S10000) off S40.size hinb) hst).view.read (Elt F) (fixVal m d L)) x).toNat < 10000 :=
    hin' d L (fixVal m d L) (fixOk m d L hR)
  -- the shared copy's share and the index list's, cut in five: one piece per slot
  ihave H := (pointsTo_share (PosShare.mem_left_op_right _)).1 $$ Hshw; icases H with ⟨Hsh0, H⟩
  ihave H := (pointsTo_share (PosShare.mem_left_op_right _)).1 $$ H; icases H with ⟨Hsh1, H⟩
  ihave H := (pointsTo_share (PosShare.mem_left_op_right _)).1 $$ H; icases H with ⟨Hsh2, H⟩
  ihave H := (pointsTo_share (PosShare.mem_left_op_right _)).1 $$ H; icases H with ⟨Hsh3, Hsh4⟩
  ihave H := (pointsTo_share (PosShare.mem_left_op_right _)).1 $$ Hix; icases H with ⟨Hix0, H⟩
  ihave H := (pointsTo_share (PosShare.mem_left_op_right _)).1 $$ H; icases H with ⟨Hix1, H⟩
  ihave H := (pointsTo_share (PosShare.mem_left_op_right _)).1 $$ H; icases H with ⟨Hix2, H⟩
  ihave H := (pointsTo_share (PosShare.mem_left_op_right _)).1 $$ H; icases H with ⟨Hix3, Hix4⟩
  -- slots 0, 1, 2 as the program slices them
  ihave Hrw0 := (Entails.of_eq (show ((sl0).view.loc (V d (cV L) (jV L)) ↦[(sl0).view.set]{fullShare} frw : sProp 𝕄)
      = ((((rwV).slice (Rect.unit (s := S5x40x128) ![0, 0, 0] S1x40x128.size inb_S5x40x128_S1x40x128_0_0_0) (fun _ => rfl)).squeeze S40x128 squeezes_S1x40x128_S40x128).view.loc (V d (cV L) (jV L))
          ↦[(((rwV).slice (Rect.unit (s := S5x40x128) ![0, 0, 0] S1x40x128.size inb_S5x40x128_S1x40x128_0_0_0) (fun _ => rfl)).squeeze S40x128 squeezes_S1x40x128_S40x128).view.set]{fullShare} frw) from rfl)) $$ Hrw0
  ihave Hrw1 := (Entails.of_eq (show ((sl1).view.loc (V d (cV L) (jV L)) ↦[(sl1).view.set]{fullShare} frw : sProp 𝕄)
      = ((((rwV).slice (Rect.unit (s := S5x40x128) ![1, 0, 0] S1x40x128.size inb_S5x40x128_S1x40x128_1_0_0) (fun _ => rfl)).squeeze S40x128 squeezes_S1x40x128_S40x128).view.loc (V d (cV L) (jV L))
          ↦[(((rwV).slice (Rect.unit (s := S5x40x128) ![1, 0, 0] S1x40x128.size inb_S5x40x128_S1x40x128_1_0_0) (fun _ => rfl)).squeeze S40x128 squeezes_S1x40x128_S40x128).view.set]{fullShare} frw) from rfl)) $$ Hrw1
  ihave Hrw2 := (Entails.of_eq (show ((sl2).view.loc (V d (cV L) (jV L)) ↦[(sl2).view.set]{fullShare} frw : sProp 𝕄)
      = ((((rwV).slice (Rect.unit (s := S5x40x128) ![2, 0, 0] S1x40x128.size inb_S5x40x128_S1x40x128_2_0_0) (fun _ => rfl)).squeeze S40x128 squeezes_S1x40x128_S40x128).view.loc (V d (cV L) (jV L))
          ↦[(((rwV).slice (Rect.unit (s := S5x40x128) ![2, 0, 0] S1x40x128.size inb_S5x40x128_S1x40x128_2_0_0) (fun _ => rfl)).squeeze S40x128 squeezes_S1x40x128_S40x128).view.set]{fullShare} frw) from rfl)) $$ Hrw2
  sl_exec
  sl_step
  iapply Hk
  unfold SlotGath SlotFree Shares
  isplitl [Hi]; · iapply (Entails.of_eq (pts_iSl (F := F) d L fullShare (ival m d))); iexact Hi
  isplitl [Hy]; · iapply (Entails.of_eq (pts_ySl (F := F) d L h1 (qY (L 0)) (yval m d))); iexact Hy
  -- slot 0: chunk 0 being gathered
  isplitl [Hg0 Hix0 Ht0]
  · isplitl [Hg0]
    · iapply (gath_canon m d L (fixVal m d L) (fixOk m d L hR) cc1_scratch3 sl0 0 (s5 fullShare 0) (s5 (q16 (L 1)) 0) ![0] inb_S10000_S40_0 rfl frw (pre4_stage.sl.gather0 m d L hin) (fun _ => rfl))
      iexact Hg0
    isplitl [Hix0]
    · iapply (Entails.of_eq (pts_ixRest_gen d L (fixVal m d L) 0 ![0] inb_S10000_S40_0 rfl (s5 fullShare 0))); iexact Hix0
    iexact Ht0
  -- slot 1: chunk 1 being gathered
  isplitl [Hg1 Hix1 Ht1]
  · isplitl [Hg1]
    · iapply (gath_canon m d L (fixVal m d L) (fixOk m d L hR) cc1_scratch4 sl1 1 (s5 fullShare 1) (s5 (q16 (L 1)) 1) ![40] inb_S10000_S40_40 rfl frw (pre4_stage.sl.gather1 m d L hin) (fun _ => rfl))
      iexact Hg1
    isplitl [Hix1]
    · iapply (Entails.of_eq (pts_ixRest_gen d L (fixVal m d L) 1 ![40] inb_S10000_S40_40 rfl (s5 fullShare 1))); iexact Hix1
    iexact Ht1
  -- slot 2: chunk 2 being gathered
  isplitl [Hg2 Hix2 Ht2]
  · isplitl [Hg2]
    · iapply (gath_canon m d L (fixVal m d L) (fixOk m d L hR) cc1_scratch5 sl2 2 (s5 fullShare 2) (s5 (q16 (L 1)) 2) ![80] inb_S10000_S40_80 rfl frw (pre4_stage.sl.gather2 m d L hin) (fun _ => rfl))
      iexact Hg2
    isplitl [Hix2]
    · iapply (Entails.of_eq (pts_ixRest_gen d L (fixVal m d L) 2 ![80] inb_S10000_S40_80 rfl (s5 fullShare 2))); iexact Hix2
    iexact Ht2
  -- slot 3: free
  isplitl [Hrw3 Hsh3 Hix3 Hg3 Ht3]
  · isplitl [Hrw3]; · iexists frw; iexact Hrw3
    isplitl [Hsh3 Hix3]
    · isplitl [Hsh3]; · iexact Hsh3
      iexact Hix3
    isplitl [Hg3]; · iexact Hg3
    iexact Ht3
  -- slot 4: free
  isplitl [Hrw4 Hsh4 Hix4 Hg4 Ht4]
  · isplitl [Hrw4]; · iexists frw; iexact Hrw4
    isplitl [Hsh4 Hix4]
    · isplitl [Hsh4]; · iexact Hsh4
      iexact Hix4
    isplitl [Hg4]; · iexact Hg4
    iexact Ht4
  isplitl [Hs0]; · iexact Hs0
  isplitl [Hs1]; · iexact Hs1
  iexists _; isplitr
  swap; · iexact HO
  ipureintro; intro p hp
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  exact .inl hp

set_option maxHeartbeats 8000000 in
/-- A subcore that stages nothing: nothing copied into the shared memory, nothing handed over at the barrier. -/
theorem pre4_idle (hF : (K (F := F)).Facts) (hR : Cert.Spec.RowsInRange (m (eLoc d) : IVec S2x320000 32)) (h1 : ¬ k1_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) (Φ : BitVec 32 → sProp 𝕄) :
    iprop(levAts (K (F := F)).L (K (F := F)).lev ∗ bkit m d (cV L) (jV L)
        ∗ (iLoc d ↦[idxSet (wid (L 0) (L 1))]{fullShare} ival m d) ∗ (yLoc d ↦[stageSet (L 1).val]{qY (L 0)} yval m d)
        ∗ (∃ f, shLoc d (cV L) ↦[stageSet (L 1).val]{fullShare} f)
        ∗ (∃ f, (ixV).view.loc (V d (cV L) (jV L)) ↦{fullShare} f) ∗ (∃ f, (rwV).view.loc (V d (cV L) (jV L)) ↦{fullShare} f)
        ∗ semVal (sem cc1_scratch3 d L) 0 ∗ semVal (sem cc1_scratch4 d L) 0 ∗ semVal (sem cc1_scratch5 d L) 0 ∗ semVal (sem cc1_scratch6 d L) 0 ∗ semVal (sem cc1_scratch7 d L) 0 ∗ semVal (sem cc1_scratch8 d L) 0 ∗ semVal (sem cc1_scratch9 d L) 0 ∗ semVal (sem cc1_scratch10 d L) 0 ∗ semVal (sem cc1_scratch11 d L) 0 ∗ semVal (sem cc1_scratch12 d L) 0 ∗ semVal (sem cc1_scoped0 d L) 0 ∗ semVal (sem cc1_scoped1 d L) 0
        ∗ owes (V d (cV L) (jV L)) (O + oxV d (cV L)) W
        ∗ (∀ v2, iprop((iLoc d ↦[idxSet (wid (L 0) (L 1))]{fullShare} ival m d) ∗ (yLoc d ↦[stageSet (L 1).val]{qY (L 0)} yval m d)
              ∗ SlotGath m d L (fixVal m d L) (fixOk m d L hR) cc1_scratch3 cc1_scratch8 sl0 0 (s5 fullShare 0) (s5 (q16 (L 1)) 0)
              ∗ SlotGath m d L (fixVal m d L) (fixOk m d L hR) cc1_scratch4 cc1_scratch9 sl1 1 (s5 fullShare 1) (s5 (q16 (L 1)) 1)
              ∗ SlotGath m d L (fixVal m d L) (fixOk m d L hR) cc1_scratch5 cc1_scratch10 sl2 2 (s5 fullShare 2) (s5 (q16 (L 1)) 2)
              ∗ SlotFree m d L (fixVal m d L) cc1_scratch6 cc1_scratch11 sl3 (s5 fullShare 3) (s5 (q16 (L 1)) 3)
              ∗ SlotFree m d L (fixVal m d L) cc1_scratch7 cc1_scratch12 sl4 (s5 fullShare 4) (s5 (q16 (L 1)) 4)
              ∗ semVal (sem cc1_scoped0 d L) 0 ∗ semVal (sem cc1_scoped1 d L) 0
              ∗ (∃ W', ⌜∀ p ∈ W', p ∈ W ∨ p.2 = none ∨ p.2 = some (0 : Fin 1)⌝ ∗ owes (V d (cV L) (jV L)) O W')) -∗ Φ v2))
      ⊢ wp frame (wpE (defs₀ (F := F)) 𝒱₀ (V d (cV L) (jV L)) none) Set.univ
          (k1_part4 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1) Φ := by
  rw [k1_part4_eq_skeleton]; unfold k1_part4_skel
  unfold bkit
  iintro ⟨#Hlv, ⟨⟨%κ, #Hinv⟩, Htoks, #Hrch, Hat, Hcred⟩, Hi, Hy, -, ⟨%fix0, Hix⟩, ⟨%frw, Hrw⟩, Hg0, Hg1, Hg2, Hg3, Hg4, Ht0, Ht1, Ht2, Ht3, Ht4, Hs0, Hs1, HO, Hk⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the sliced index window and the row buffer's slots, as the kernel addresses them
  ihave Hi := (Entails.of_eq (pts_iSl (F := F) d L fullShare (ival m d)).symm) $$ Hi
  ihave Hrw := (Entails.of_eq (rw_slots (F := F) d L frw)) $$ Hrw
  icases Hrw with ⟨Hrw0, Hrw1, Hrw2, Hrw3, Hrw4⟩
  sl_exec
  -- nothing staged: nothing to hand over
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]
    · rw [bigSep_sep', bigSep_sep']
      isplitl [Htoks]; · iexact Htoks
      isplitr
      · iapply (pays_intro_idle m d L h1); iempintro
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hshw := (pays_elim m d L) $$ Hgot
  ihave Hshw := (Entails.of_eq (show ((shV).view.loc (V d (cV L) (jV L)) ↦{q16 (Fin.cast nSub_eq (jV L))} shval m d (cV L) : sProp 𝕄)
      = ((shV).view.loc (V d (cV L) (jV L)) ↦{q16 (L 1)} shval m d (cV L)) from rfl)) $$ Hshw
  -- the index copy holds the worker's window of the list
  ihave Hix := (Entails.of_eq (show ((ixV).view.loc (V d (cV L) (jV L)) ↦{fullShare}
        View.write (Elt F) (ixV).view fix0 (pre4_idle.sl.dma0 m d L) Finset.univ : sProp 𝕄)
      = ((ixV).view.loc (V d (cV L) (jV L)) ↦{fullShare} fixVal m d L) from congrArg (fun f => ((ixV).view.loc (V d (cV L) (jV L)) ↦{fullShare} f : sProp 𝕄)) (fix_write_eq m d L fix0))) $$ Hix
  have hin : ∀ (off : Fin 1 → ℕ) (hinb : ∀ a, off a + S40.size a ≤ S10000.size a) (hst) (x : S40.Idx),
      ((((ixV).slice (Rect.unit (s := S10000) off S40.size hinb) hst).view.read (Elt F) (fixVal m d L)) x).toNat < 10000 :=
    hin' d L (fixVal m d L) (fixOk m d L hR)
  -- the shared copy's share and the index list's, cut in five: one piece per slot
  ihave H := (pointsTo_share (PosShare.mem_left_op_right _)).1 $$ Hshw; icases H with ⟨Hsh0, H⟩
  ihave H := (pointsTo_share (PosShare.mem_left_op_right _)).1 $$ H; icases H with ⟨Hsh1, H⟩
  ihave H := (pointsTo_share (PosShare.mem_left_op_right _)).1 $$ H; icases H with ⟨Hsh2, H⟩
  ihave H := (pointsTo_share (PosShare.mem_left_op_right _)).1 $$ H; icases H with ⟨Hsh3, Hsh4⟩
  ihave H := (pointsTo_share (PosShare.mem_left_op_right _)).1 $$ Hix; icases H with ⟨Hix0, H⟩
  ihave H := (pointsTo_share (PosShare.mem_left_op_right _)).1 $$ H; icases H with ⟨Hix1, H⟩
  ihave H := (pointsTo_share (PosShare.mem_left_op_right _)).1 $$ H; icases H with ⟨Hix2, H⟩
  ihave H := (pointsTo_share (PosShare.mem_left_op_right _)).1 $$ H; icases H with ⟨Hix3, Hix4⟩
  -- slots 0, 1, 2 as the program slices them
  ihave Hrw0 := (Entails.of_eq (show ((sl0).view.loc (V d (cV L) (jV L)) ↦[(sl0).view.set]{fullShare} frw : sProp 𝕄)
      = ((((rwV).slice (Rect.unit (s := S5x40x128) ![0, 0, 0] S1x40x128.size inb_S5x40x128_S1x40x128_0_0_0) (fun _ => rfl)).squeeze S40x128 squeezes_S1x40x128_S40x128).view.loc (V d (cV L) (jV L))
          ↦[(((rwV).slice (Rect.unit (s := S5x40x128) ![0, 0, 0] S1x40x128.size inb_S5x40x128_S1x40x128_0_0_0) (fun _ => rfl)).squeeze S40x128 squeezes_S1x40x128_S40x128).view.set]{fullShare} frw) from rfl)) $$ Hrw0
  ihave Hrw1 := (Entails.of_eq (show ((sl1).view.loc (V d (cV L) (jV L)) ↦[(sl1).view.set]{fullShare} frw : sProp 𝕄)
      = ((((rwV).slice (Rect.unit (s := S5x40x128) ![1, 0, 0] S1x40x128.size inb_S5x40x128_S1x40x128_1_0_0) (fun _ => rfl)).squeeze S40x128 squeezes_S1x40x128_S40x128).view.loc (V d (cV L) (jV L))
          ↦[(((rwV).slice (Rect.unit (s := S5x40x128) ![1, 0, 0] S1x40x128.size inb_S5x40x128_S1x40x128_1_0_0) (fun _ => rfl)).squeeze S40x128 squeezes_S1x40x128_S40x128).view.set]{fullShare} frw) from rfl)) $$ Hrw1
  ihave Hrw2 := (Entails.of_eq (show ((sl2).view.loc (V d (cV L) (jV L)) ↦[(sl2).view.set]{fullShare} frw : sProp 𝕄)
      = ((((rwV).slice (Rect.unit (s := S5x40x128) ![2, 0, 0] S1x40x128.size inb_S5x40x128_S1x40x128_2_0_0) (fun _ => rfl)).squeeze S40x128 squeezes_S1x40x128_S40x128).view.loc (V d (cV L) (jV L))
          ↦[(((rwV).slice (Rect.unit (s := S5x40x128) ![2, 0, 0] S1x40x128.size inb_S5x40x128_S1x40x128_2_0_0) (fun _ => rfl)).squeeze S40x128 squeezes_S1x40x128_S40x128).view.set]{fullShare} frw) from rfl)) $$ Hrw2
  sl_exec
  sl_step
  iapply Hk
  unfold SlotGath SlotFree Shares
  isplitl [Hi]; · iapply (Entails.of_eq (pts_iSl (F := F) d L fullShare (ival m d))); iexact Hi
  isplitl [Hy]; · iexact Hy
  -- slot 0: chunk 0 being gathered
  isplitl [Hg0 Hix0 Ht0]
  · isplitl [Hg0]
    · iapply (gath_canon m d L (fixVal m d L) (fixOk m d L hR) cc1_scratch3 sl0 0 (s5 fullShare 0) (s5 (q16 (L 1)) 0) ![0] inb_S10000_S40_0 rfl frw (pre4_idle.sl.gather0 m d L hin) (fun _ => rfl))
      iexact Hg0
    isplitl [Hix0]
    · iapply (Entails.of_eq (pts_ixRest_gen d L (fixVal m d L) 0 ![0] inb_S10000_S40_0 rfl (s5 fullShare 0))); iexact Hix0
    iexact Ht0
  -- slot 1: chunk 1 being gathered
  isplitl [Hg1 Hix1 Ht1]
  · isplitl [Hg1]
    · iapply (gath_canon m d L (fixVal m d L) (fixOk m d L hR) cc1_scratch4 sl1 1 (s5 fullShare 1) (s5 (q16 (L 1)) 1) ![40] inb_S10000_S40_40 rfl frw (pre4_idle.sl.gather1 m d L hin) (fun _ => rfl))
      iexact Hg1
    isplitl [Hix1]
    · iapply (Entails.of_eq (pts_ixRest_gen d L (fixVal m d L) 1 ![40] inb_S10000_S40_40 rfl (s5 fullShare 1))); iexact Hix1
    iexact Ht1
  -- slot 2: chunk 2 being gathered
  isplitl [Hg2 Hix2 Ht2]
  · isplitl [Hg2]
    · iapply (gath_canon m d L (fixVal m d L) (fixOk m d L hR) cc1_scratch5 sl2 2 (s5 fullShare 2) (s5 (q16 (L 1)) 2) ![80] inb_S10000_S40_80 rfl frw (pre4_idle.sl.gather2 m d L hin) (fun _ => rfl))
      iexact Hg2
    isplitl [Hix2]
    · iapply (Entails.of_eq (pts_ixRest_gen d L (fixVal m d L) 2 ![80] inb_S10000_S40_80 rfl (s5 fullShare 2))); iexact Hix2
    iexact Ht2
  -- slot 3: free
  isplitl [Hrw3 Hsh3 Hix3 Hg3 Ht3]
  · isplitl [Hrw3]; · iexists frw; iexact Hrw3
    isplitl [Hsh3 Hix3]
    · isplitl [Hsh3]; · iexact Hsh3
      iexact Hix3
    isplitl [Hg3]; · iexact Hg3
    iexact Ht3
  -- slot 4: free
  isplitl [Hrw4 Hsh4 Hix4 Hg4 Ht4]
  · isplitl [Hrw4]; · iexists frw; iexact Hrw4
    isplitl [Hsh4 Hix4]
    · isplitl [Hsh4]; · iexact Hsh4
      iexact Hix4
    isplitl [Hg4]; · iexact Hg4
    iexact Ht4
  isplitl [Hs0]; · iexact Hs0
  isplitl [Hs1]; · iexact Hs1
  iexists _; isplitr
  swap; · iexact HO
  ipureintro; intro p hp
  rcases Finset.mem_insert.mp hp with hp | hp; · exact .inr (.inr (hp ▸ rfl))
  rcases Finset.mem_insert.mp hp with hp | hp; · exact .inr (.inl (hp ▸ rfl))
  exact .inl hp

/-- The part before the loop, for every vector subcore. -/
theorem pre4 (hF : (K (F := F)).Facts) (hR : Cert.Spec.RowsInRange (m (eLoc d) : IVec S2x320000 32))
    (O : CellTallies nD τ sig (HIx 1)) (W : Waits sig (HIx 1)) (hO : ∀ g, O g none = 0)
    (hOlev : ∀ g ι, 0 < O g ι → 8 * (0 : Fin 1).val + 6 ≤ (K (F := F)).lev g ι) (Φ : BitVec 32 → sProp 𝕄) :
    iprop(levAts (K (F := F)).L (K (F := F)).lev ∗ bkit m d (cV L) (jV L)
        ∗ (iLoc d ↦[idxSet (wid (L 0) (L 1))]{fullShare} ival m d) ∗ (yLoc d ↦[stageSet (L 1).val]{qY (L 0)} yval m d)
        ∗ (∃ f, shLoc d (cV L) ↦[stageSet (L 1).val]{fullShare} f)
        ∗ (∃ f, (ixV).view.loc (V d (cV L) (jV L)) ↦{fullShare} f) ∗ (∃ f, (rwV).view.loc (V d (cV L) (jV L)) ↦{fullShare} f)
        ∗ semVal (sem cc1_scratch3 d L) 0 ∗ semVal (sem cc1_scratch4 d L) 0 ∗ semVal (sem cc1_scratch5 d L) 0 ∗ semVal (sem cc1_scratch6 d L) 0 ∗ semVal (sem cc1_scratch7 d L) 0 ∗ semVal (sem cc1_scratch8 d L) 0 ∗ semVal (sem cc1_scratch9 d L) 0 ∗ semVal (sem cc1_scratch10 d L) 0 ∗ semVal (sem cc1_scratch11 d L) 0 ∗ semVal (sem cc1_scratch12 d L) 0 ∗ semVal (sem cc1_scoped0 d L) 0 ∗ semVal (sem cc1_scoped1 d L) 0
        ∗ owes (V d (cV L) (jV L)) (O + oxV d (cV L)) W
        ∗ (∀ v2, iprop((iLoc d ↦[idxSet (wid (L 0) (L 1))]{fullShare} ival m d) ∗ (yLoc d ↦[stageSet (L 1).val]{qY (L 0)} yval m d)
              ∗ SlotGath m d L (fixVal m d L) (fixOk m d L hR) cc1_scratch3 cc1_scratch8 sl0 0 (s5 fullShare 0) (s5 (q16 (L 1)) 0)
              ∗ SlotGath m d L (fixVal m d L) (fixOk m d L hR) cc1_scratch4 cc1_scratch9 sl1 1 (s5 fullShare 1) (s5 (q16 (L 1)) 1)
              ∗ SlotGath m d L (fixVal m d L) (fixOk m d L hR) cc1_scratch5 cc1_scratch10 sl2 2 (s5 fullShare 2) (s5 (q16 (L 1)) 2)
              ∗ SlotFree m d L (fixVal m d L) cc1_scratch6 cc1_scratch11 sl3 (s5 fullShare 3) (s5 (q16 (L 1)) 3)
              ∗ SlotFree m d L (fixVal m d L) cc1_scratch7 cc1_scratch12 sl4 (s5 fullShare 4) (s5 (q16 (L 1)) 4)
              ∗ semVal (sem cc1_scoped0 d L) 0 ∗ semVal (sem cc1_scoped1 d L) 0
              ∗ (∃ W', ⌜∀ p ∈ W', p ∈ W ∨ p.2 = none ∨ p.2 = some (0 : Fin 1)⌝ ∗ owes (V d (cV L) (jV L)) O W')) -∗ Φ v2))
      ⊢ wp frame (wpE (defs₀ (F := F)) 𝒱₀ (V d (cV L) (jV L)) none) Set.univ
          (k1_part4 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1) Φ := by
  by_cases h1 : k1_cond1 L = 1#1
  · exact pre4_stage m d L hF hR h1 O W hO hOlev Φ
  · exact pre4_idle m d L hF hR h1 O W hO hOlev Φ

end Cert.KernelIdeal.KRun

end
-- ==== Proof.KStor.lean ====
/-
  Transfers in flight, in the invariant's spelling. A copy of a slot's forty rows out to a chunk's rows of the
  result, in flight — what its landing delivers being the chunk's rows at the written contents and the slot as it
  was — is the invariant's copy in flight once the slot is known to hold the chunk's gathered rows (the rows
  written read back as written); a gather in flight, likewise, with the slot's delivered contents named. And the
  whole shared copy sliced whole is all of it.
-/
import proofs.«205984_g59184649339042_cont_9to1_m_680_25_alg».proof.Proof.KInv
import proofs.«205984_g59184649339042_cont_9to1_m_680_25_alg».proof.Proof.KTripLib

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

/-! ## The shared copy, whole -/

omit [FloatOps F] in
/-- The whole shared copy, sliced whole, is all of it. -/
theorem shAll_set : ((shAll).view.set : Finset S10000x128.Idx) = Finset.univ := by
  show ((View.whole cc1_scratch2).slice (Rect.unit (s := S10000x128) ![0, 0] S10000x128.size inb_S10000x128_S10000x128_0_0)).set = _
  rw [View.set_slice_whole]
  ext i
  rw [Rect.mem_set_unit]
  simp only [Finset.mem_univ, iff_true]
  intro a
  match a with
  | ⟨0, _⟩ => exact ⟨Nat.zero_le _, by have h : (i 0).val < 10000 := (i 0).isLt; show (i 0).val < 0 + 10000; omega⟩
  | ⟨1, _⟩ => exact ⟨Nat.zero_le _, by have h : (i 1).val < 128 := (i 1).isLt; show (i 1).val < 0 + 128; omega⟩

omit [FloatOps F] in
/-- Held on the whole slice, the shared copy is held whole. -/
theorem sh_whole (qs : PosShare TreeShare) (f : Buf (Elt F) ((shV).view.loc (V d (cV L) (jV L)))) :
    ((shAll).view.loc (V d (cV L) (jV L)) ↦[(shAll).view.set]{qs} f : sProp 𝕄) = ((shV).view.loc (V d (cV L) (jV L)) ↦{qs} f) := by
  rw [shAll_set]

/-! ## A copy out in flight -/

/-- A copy out in flight, of a slot that holds chunk k's gathered rows, to the window of the result given by its
    offset, which is chunk k's: the invariant's copy in flight, its pieces named. -/
theorem stor_canon' (s : DmaSems sig S_) (sl : Memref sig .scVector .vmem S40x128 .f32) (k : ℕ)
    (off : Fin 2 → ℕ) (hinb : ∀ a, off a + S40x128.size a ≤ S320000x128.size a)
    (hoff : off = ![20000 * (L 1).val + 10000 * (L 0).val + 40 * (k % 250), 0])
    (fw : Buf (Elt F) ((oV).view.loc (V d (cV L) (jV L)))) (fb : Buf (Elt F) (sl.view.loc (V d (cV L) (jV L))))
    (p : S40x128.Idx → Elt F .f32) (hp : p = GP m d L fix hfix k) :
    (Transfers.Flight countersEmb (V d (cV L) (jV L)) (SemLoc.dma s.sem) (default : HIx 1) 163840
      iprop((((oV).slice (Rect.unit (s := S320000x128) off S40x128.size hinb) (fun _ => rfl)).view.loc (V d (cV L) (jV L))
            ↦[((oV).slice (Rect.unit (s := S320000x128) off S40x128.size hinb) (fun _ => rfl)).view.set]{fullShare}
            ((oV).slice (Rect.unit (s := S320000x128) off S40x128.size hinb) (fun _ => rfl)).view.writes (Elt F) fw [⟨Rect.whole S40x128, p⟩])
        ∗ (sl.view.loc (V d (cV L) (jV L)) ↦[sl.view.set]{fullShare} fb)) : sProp 𝕄)
      ⊢ iprop(∃ fo fb, ⌜(oWin L k).view.read (Elt F) fo = GP m d L fix hfix k⌝ ∗
          Transfers.Flight countersEmb (V d (cV L) (jV L)) (SemLoc.dma s.sem) (default : HIx 1) 163840
            iprop(((oWin L k).view.loc (V d (cV L) (jV L)) ↦[(oWin L k).view.set]{fullShare} fo)
              ∗ (sl.view.loc (V d (cV L) (jV L)) ↦[sl.view.set]{fullShare} fb))) := by
  have hgood := stored_good m d L fix hfix k off hinb hoff fw p hp
  subst hoff
  iintro H
  iexists (((oV).slice (Rect.unit (s := S320000x128) ![20000 * (L 1).val + 10000 * (L 0).val + 40 * (k % 250), 0] S40x128.size hinb) (fun _ => rfl)).view.writes (Elt F) fw [⟨Rect.whole S40x128, p⟩]), fb
  isplitr
  · ipureintro; exact hgood
  · iexact H

/-- The same, as the invariant names it. -/
theorem stor_canon (s : DmaSems sig S_) (sl : Memref sig .scVector .vmem S40x128 .f32) (k : ℕ)
    (off : Fin 2 → ℕ) (hinb : ∀ a, off a + S40x128.size a ≤ S320000x128.size a)
    (hoff : off = ![20000 * (L 1).val + 10000 * (L 0).val + 40 * (k % 250), 0])
    (fw : Buf (Elt F) ((oV).view.loc (V d (cV L) (jV L)))) (fb : Buf (Elt F) (sl.view.loc (V d (cV L) (jV L))))
    (p : S40x128.Idx → Elt F .f32) (hp : p = GP m d L fix hfix k) :
    (Transfers.Flight countersEmb (V d (cV L) (jV L)) (SemLoc.dma s.sem) (default : HIx 1) 163840
      iprop((((oV).slice (Rect.unit (s := S320000x128) off S40x128.size hinb) (fun _ => rfl)).view.loc (V d (cV L) (jV L))
            ↦[((oV).slice (Rect.unit (s := S320000x128) off S40x128.size hinb) (fun _ => rfl)).view.set]{fullShare}
            ((oV).slice (Rect.unit (s := S320000x128) off S40x128.size hinb) (fun _ => rfl)).view.writes (Elt F) fw [⟨Rect.whole S40x128, p⟩])
        ∗ (sl.view.loc (V d (cV L) (jV L)) ↦[sl.view.set]{fullShare} fb)) : sProp 𝕄)
      ⊢ SFl m d L fix hfix s sl k := by
  have h := stor_canon' m d L fix hfix s sl k off hinb hoff fw fb p hp
  unfold SFl
  exact h

namespace Stor

/-- A gather in flight whose index window is given by its offset, which is chunk k's: the invariant's gather in
    flight, its pieces named. -/
theorem gath_canon' (g : DmaSems sig S_) (sl : Memref sig .scVector .vmem S40x128 .f32) (k : ℕ) (qi qs : PosShare TreeShare)
    (off : Fin 1 → ℕ) (hinb : ∀ a, off a + S40.size a ≤ S10000.size a) (hoff : off = ![40 * (k % 250)])
    (fprev : Buf (Elt F) (sl.view.loc (V d (cV L) (jV L)))) (p : S40x128.Idx → Elt F .f32)
    (hp : ∀ hinw, p = SparseCore.gatherPayload gathers_S10000x128_S40x128 ((shAll).view.read (Elt F) (shval m d (cV L)))
      (SparseCore.rows (((ixV).slice (Rect.unit (s := S10000) off S40.size hinb) (fun _ => rfl)).view.read (Elt F) fix) rfl hinw)) :
    (Transfers.Flight countersEmb (V d (cV L) (jV L)) (SemLoc.dma g.sem) (default : HIx 1) 163840
      iprop(((sl.view.loc (V d (cV L) (jV L)) ↦[sl.view.set]{fullShare} sl.view.writes (Elt F) fprev [⟨Rect.whole S40x128, p⟩])
          ∗ ((ixV).view.loc (V d (cV L) (jV L)) ↦[((ixV).slice (Rect.unit (s := S10000) off S40.size hinb) (fun _ => rfl)).view.set]{qi} fix))
        ∗ ((shV).view.loc (V d (cV L) (jV L)) ↦[(shAll).view.set]{qs} shval m d (cV L))) : sProp 𝕄)
      ⊢ iprop(∃ fb, ⌜sl.view.read (Elt F) fb = GP m d L fix hfix k⌝ ∗
          Transfers.Flight countersEmb (V d (cV L) (jV L)) (SemLoc.dma g.sem) (default : HIx 1) 163840
            iprop(((sl.view.loc (V d (cV L) (jV L)) ↦[sl.view.set]{fullShare} fb)
                ∗ ((ixWin k).view.loc (V d (cV L) (jV L)) ↦[(ixWin k).view.set]{qi} fix))
              ∗ ((shAll).view.loc (V d (cV L) (jV L)) ↦[(shAll).view.set]{qs} shval m d (cV L)))) := by
  have h := gath_canon m d L fix hfix g sl k qi qs off hinb hoff fprev p hp
  unfold GFl at h
  exact h

end Stor

end Cert.KernelIdeal.KRun

end
-- ==== Proof.KTrip1.lean ====
/-
  The first part of a trip of the loop, at a trip that is neither the first nor the last: the copy out of the
  previous chunk (slot 4) is waited for and the slot reused for the gather of chunk 5 t + 4; chunk 5 t has landed
  in slot 0, is copied to its rows of the result, the copy waited for, and slot 0 reused for the gather of
  chunk 5 t + 5. The chunks' rows of the result are handed out and taken back one window at a time.
-/
import proofs.«205984_g59184649339042_cont_9to1_m_680_25_alg».proof.Proof.KMem
import proofs.«205984_g59184649339042_cont_9to1_m_680_25_alg».proof.Proof.KTripLib

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

/-- The canonical form of a gather just issued, with the in-flight term spelt out. -/
theorem gath_canon' (g : DmaSems sig S_) (sl : Memref sig .scVector .vmem S40x128 .f32) (k : ℕ) (qi qs : PosShare TreeShare)
    (off : Fin 1 → ℕ) (hinb : ∀ a, off a + S40.size a ≤ S10000.size a) (hoff : off = ![40 * (k % 250)])
    (fprev : Buf (Elt F) (sl.view.loc (V d (cV L) (jV L)))) (p : S40x128.Idx → Elt F .f32)
    (hp : ∀ hinw, p = SparseCore.gatherPayload gathers_S10000x128_S40x128 ((shAll).view.read (Elt F) (shval m d (cV L)))
      (SparseCore.rows (((ixV).slice (Rect.unit (s := S10000) off S40.size hinb) (fun _ => rfl)).view.read (Elt F) fix) rfl hinw)) :
    (Transfers.Flight countersEmb (V d (cV L) (jV L)) (SemLoc.dma g.sem) (default : HIx 1) 163840
      iprop(((sl.view.loc (V d (cV L) (jV L)) ↦[sl.view.set]{fullShare} sl.view.writes (Elt F) fprev [⟨Rect.whole S40x128, p⟩])
          ∗ ((ixV).view.loc (V d (cV L) (jV L)) ↦[((ixV).slice (Rect.unit (s := S10000) off S40.size hinb) (fun _ => rfl)).view.set]{qi} fix))
        ∗ ((shV).view.loc (V d (cV L) (jV L)) ↦[(shAll).view.set]{qs} shval m d (cV L))) : sProp 𝕄)
      ⊢ iprop(∃ fb, ⌜sl.view.read (Elt F) fb = GP m d L fix hfix k⌝ ∗
          Transfers.Flight countersEmb (V d (cV L) (jV L)) (SemLoc.dma g.sem) (default : HIx 1) 163840
            iprop(((sl.view.loc (V d (cV L) (jV L)) ↦[sl.view.set]{fullShare} fb)
                ∗ ((ixWin k).view.loc (V d (cV L) (jV L)) ↦[(ixWin k).view.set]{qi} fix))
              ∗ ((shAll).view.loc (V d (cV L) (jV L)) ↦[(shAll).view.set]{qs} shval m d (cV L)))) := by
  have h := gath_canon m d L fix hfix g sl k qi qs off hinb hoff fprev p hp
  unfold GFl at h
  exact h

set_option maxHeartbeats 8000000 in
theorem part1_mid (t : Fin k1_t1_loop.trips) (ht1 : 1 ≤ t.val) (ht2 : t.val ≤ 48) (v2 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : (Σ' (_ : BitVec 32), BitVec 32) → sProp 𝕄) :
    iprop(Transfers.MayWaits (V d (cV L) (jV L)) (default : HIx 1) O
        ∗ SlotGath m d L fix hfix cc1_scratch3 cc1_scratch8 sl0 (5 * t.val) (s5 fullShare 0) (s5 q 0)
        ∗ SlotStor m d L fix hfix cc1_scratch7 cc1_scratch12 sl4 (5 * t.val - 1) (s5 fullShare 4) (s5 q 4)
        ∗ OutRes m d L fix hfix (5 * t.val - 1) {5 * t.val - 1}
        ∗ owes (V d (cV L) (jV L)) O W
        ∗ (∀ r, iprop(SlotGath m d L fix hfix cc1_scratch3 cc1_scratch8 sl0 (5 * t.val + 5) (s5 fullShare 0) (s5 q 0)
              ∗ SlotGath m d L fix hfix cc1_scratch7 cc1_scratch12 sl4 (5 * t.val + 4) (s5 fullShare 4) (s5 q 4)
              ∗ OutRes m d L fix hfix (5 * t.val + 1) ∅
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part1 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 0#32 1#32 t) Φ := by
  have h2 : k1_cond2 t = 1#1 := by revert t; decide +kernel
  have h3 : k1_cond3 t = 1#1 := by
    have : ∀ t : Fin k1_t1_loop.trips, 1 ≤ t.val → k1_cond3 t = 1#1 := by decide +kernel
    exact this t ht1
  have h4 : k1_cond4 t = 1#1 := by
    have : ∀ t : Fin k1_t1_loop.trips, t.val ≤ 48 → k1_cond4 t = 1#1 := by decide +kernel
    exact this t ht2
  have h5 : k1_cond5 t = 1#1 := by revert t; decide +kernel
  rw [k1_part1_eq_skeleton]; unfold k1_part1_skel
  unfold SlotGath SlotStor GFl SFl Shares
  iintro ⟨#Hmw, ⟨⟨%fb0, %hfb0, Hfg0⟩, Hixr0, Ht0⟩, ⟨⟨%fo4, %fb4, %hfo4, Hfs4⟩, ⟨Hsh4, Hix4⟩, Hg4⟩, Hout, HO, Hk⟩
  sl_exec
  icases Hfg0_dst with ⟨Hslot0, Hixw0⟩
  -- the index list's share 0 is whole again
  ihave Hix0 := (ix_rejoin d L fix (5 * t.val) (s5 fullShare 0)) $$ [Hixw0 Hixr0]
  · isplitl [Hixw0] <;> iassumption
  -- the previous chunk's rows are back: every chunk below 5 t is copied
  ihave Hout := (out_put m d L fix hfix (5 * t.val - 1) (5 * t.val) (5 * t.val - 1) {5 * t.val - 1} (Finset.mem_singleton_self _) (by omega)
      (fun k hk hlt => by
        have := (Finset.mem_sdiff.mp hk).2; rw [Finset.mem_singleton] at this; omega)) $$ [Hfs4_dst Hout]
  · isplitl [Hfs4_dst]
    · iexists fo4; isplitr; · ipureintro; exact hfo4
      iexact Hfs4_dst
    iexact Hout
  rw [Finset.erase_singleton]
  -- chunk 5 t's rows of the result, for the copy out of slot 0
  ihave H := (out_take m d L fix hfix (5 * t.val) (5 * t.val) ∅ (Finset.notMem_empty _) (by omega)) $$ Hout
  icases H with ⟨⟨%fw0, Hw0⟩, Hout⟩
  ihave Hw0' := (Entails.of_eq (pts_oWin5 d L t 0 fullShare fw0)) $$ Hw0
  sl_exec
  sl_step
  iapply Hk
  -- slot 0: chunk 5 t + 5 being gathered
  isplitl [Hfg0 Hix0 Ht0]
  · isplitl [Hfg0]
    · iapply (gath_canon' m d L fix hfix cc1_scratch3 sl0 (5 * t.val + 5) (s5 fullShare 0) (s5 q 0) (k1_off7 t) (k1_off7_inb t h4) (k1_off7_canon t h4) fb0 (part1_mid.sl.gather1 m d L fix t hin h4) (fun _ => rfl))
      iexact Hfg0
    isplitl [Hix0]
    · iapply (Entails.of_eq (pts_ixRest7 d L fix t h4 (s5 fullShare 0) _ rfl)); iexact Hix0
    iexact Ht0
  -- slot 4: chunk 5 t + 4 being gathered
  isplitl [Hg4 Hix4 Hfs4]
  · isplitl [Hg4]
    · iapply (gath_canon' m d L fix hfix cc1_scratch7 sl4 (5 * t.val + 4) (s5 fullShare 4) (s5 q 4) (k1_off4 t) (k1_off4_inb t h2) (k1_off4_canon t) fb4 (part1_mid.sl.gather0 m d L fix t hin h2) (fun _ => rfl))
      iexact Hg4
    isplitl [Hix4]
    · iapply (Entails.of_eq (pts_ixRest4 d L fix t h2 (s5 fullShare 4) _ rfl)); iexact Hix4
    iexact Hfs4
  -- the result: chunk 5 t copied as well
  isplitl [Hout Hw0']
  · ihave Hw0 := (Entails.of_eq (pts_oWin5 d L t 0 fullShare _).symm) $$ Hw0'
    ihave Hout' := (out_put m d L fix hfix (5 * t.val) (5 * t.val + 1) (5 * t.val) (insert (5 * t.val) ∅) (Finset.mem_insert_self _ _) (by omega)
        (fun k hk hlt => by
          have := (Finset.mem_sdiff.mp hk).2; rw [Finset.mem_insert] at this; omega)) $$ [Hw0 Hout]
    · isplitl [Hw0]
      · iexists _; isplitr
        swap; · iexact Hw0
        ipureintro
        exact stored_good m d L fix hfix (5 * t.val) (k1_off5 L t 0#32) (k1_off5_inb L t 0) (k1_off5_canon L t 0) fw0 _ hfb0
      iexact Hout
    rw [Finset.erase_insert (Finset.notMem_empty _)]
    iexact Hout'
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.KRun

end
-- ==== Proof.KTrip2.lean ====
/-
  The second part of a trip of the loop: chunk 5 t + 1 lands in slot 1 and is copied out to its rows of the result;
  once that copy has landed the slot takes the gather of chunk 5 t + 6; chunk 5 t + 2 lands in slot 2 and its copy
  out is started and left in flight.
-/
import proofs.«205984_g59184649339042_cont_9to1_m_680_25_alg».proof.Proof.KInv
import proofs.«205984_g59184649339042_cont_9to1_m_680_25_alg».proof.Proof.KTripLib
import proofs.«205984_g59184649339042_cont_9to1_m_680_25_alg».proof.Proof.KStor

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

open Stor

set_option maxHeartbeats 8000000 in
theorem part2_mid (t : Fin k1_t1_loop.trips) (ht2 : t.val ≤ 48) (v2 v54 v72 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : BitVec 32 → sProp 𝕄) :
    iprop(Transfers.MayWaits (V d (cV L) (jV L)) (default : HIx 1) O
        ∗ SlotGath m d L fix hfix cc1_scratch4 cc1_scratch9 sl1 (5 * t.val + 1) (s5 fullShare 1) (s5 q 1)
        ∗ SlotGath m d L fix hfix cc1_scratch5 cc1_scratch10 sl2 (5 * t.val + 2) (s5 fullShare 2) (s5 q 2)
        ∗ OutRes m d L fix hfix (5 * t.val + 1) ∅
        ∗ owes (V d (cV L) (jV L)) O W
        ∗ (∀ r, iprop(SlotGath m d L fix hfix cc1_scratch4 cc1_scratch9 sl1 (5 * t.val + 6) (s5 fullShare 1) (s5 q 1)
              ∗ SlotStor m d L fix hfix cc1_scratch5 cc1_scratch10 sl2 (5 * t.val + 2) (s5 fullShare 2) (s5 q 2)
              ∗ OutRes m d L fix hfix (5 * t.val + 2) {5 * t.val + 2}
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part2 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t v54 v72) Φ := by
  have h6 : k1_cond6 t = 1#1 := by
    have : ∀ t : Fin k1_t1_loop.trips, t.val ≤ 48 → k1_cond6 t = 1#1 := by decide +kernel
    exact this t ht2
  have h7 : k1_cond7 t = 1#1 := by revert t; decide +kernel
  rw [k1_part2_eq_skeleton]; unfold k1_part2_skel
  unfold SlotGath SlotStor GFl SFl Shares
  iintro ⟨#Hmw, ⟨⟨%fb1, %hfb1, Hfg1⟩, Hixr1, Hs1⟩, ⟨⟨%fb2, %hfb2, Hfg2⟩, Hixr2, Hs2⟩, Hout, HO, Hk⟩
  sl_exec
  icases Hfg1_dst with ⟨Hslot1, Hixw1⟩
  ihave Hix1 := (ix_rejoin d L fix (5 * t.val + 1) (s5 fullShare 1)) $$ [Hixw1 Hixr1]
  · isplitl [Hixw1] <;> iassumption
  -- chunks 5 t + 1 and 5 t + 2: their rows of the result, for the two copies out
  ihave H := (out_take m d L fix hfix (5 * t.val + 1) (5 * t.val + 1) ∅ (Finset.notMem_empty _) (by omega)) $$ Hout
  icases H with ⟨⟨%fw1, Hw1⟩, Hout⟩
  ihave Hw1' := (Entails.of_eq (pts_oWin5 d L t 1 fullShare fw1)) $$ Hw1
  ihave H := (out_take m d L fix hfix (5 * t.val + 1) (5 * t.val + 2) (insert (5 * t.val + 1) ∅) (by simp) (by omega)) $$ Hout
  icases H with ⟨⟨%fw2, Hw2⟩, Hout⟩
  ihave Hw2' := (Entails.of_eq (pts_oWin5 d L t 2 fullShare fw2)) $$ Hw2
  sl_exec
  icases Hfg2_dst with ⟨Hslot2, Hixw2⟩
  ihave Hix2 := (ix_rejoin d L fix (5 * t.val + 2) (s5 fullShare 2)) $$ [Hixw2 Hixr2]
  · isplitl [Hixw2] <;> iassumption
  sl_exec
  sl_step
  iapply Hk
  -- slot 1: chunk 5 t + 6 being gathered
  isplitl [Hfg1 Hix1 Hs1]
  · isplitl [Hfg1]
    · iapply (gath_canon' m d L fix hfix cc1_scratch4 sl1 (5 * t.val + 6) (s5 fullShare 1) (s5 q 1) (k1_off9 t) (k1_off9_inb t h6) (k1_off9_canon t h6) fb1 (part2_mid.sl.gather1 m d L fix t hin h6) (fun _ => rfl))
      iexact Hfg1
    isplitl [Hix1]
    · iapply (Entails.of_eq (pts_ixRest9 d L fix t h6 (s5 fullShare 1) (5 * t.val + 6) rfl)); iexact Hix1
    iexact Hs1
  -- slot 2: chunk 5 t + 2 being copied out
  isplitl [Hs2 Hfg2_src Hix2 Hfg2]
  · isplitl [Hs2]
    · iapply (stor_canon' m d L fix hfix cc1_scratch10 sl2 (5 * t.val + 2) (k1_off5 L t 2#32) (k1_off5_inb L t 2) (k1_off5_canon L t 2) fw2 fb2 _ hfb2)
      iexact Hs2
    isplitl [Hfg2_src Hix2]
    · isplitl [Hfg2_src]
      · iapply (Entails.of_eq (sh_whole d L (s5 q 2) (shval m d (cV L)))); iexact Hfg2_src
      iexact Hix2
    iexact Hfg2
  -- the result: chunk 5 t + 1 copied as well, chunk 5 t + 2's rows with the copy in flight
  isplitl [Hout Hw1']
  · ihave Hw1 := (Entails.of_eq (pts_oWin5 d L t 1 fullShare _).symm) $$ Hw1'
    ihave Hout' := (out_put m d L fix hfix (5 * t.val + 1) (5 * t.val + 2) (5 * t.val + 1) (insert (5 * t.val + 2) (insert (5 * t.val + 1) ∅))
        (Finset.mem_insert_of_mem (Finset.mem_insert_self _ _)) (by omega)
        (fun k hk hlt => by
          have := (Finset.mem_sdiff.mp hk).2; simp only [Finset.mem_insert, Finset.notMem_empty, _root_.or_false, not_or] at this; omega)) $$ [Hw1 Hout]
    · isplitl [Hw1]
      · iexists _; isplitr
        swap; · iexact Hw1
        ipureintro
        exact stored_good m d L fix hfix (5 * t.val + 1) (k1_off5 L t 1#32) (k1_off5_inb L t 1) (k1_off5_canon L t 1) fw1 _ hfb1
      iexact Hout
    rw [show ({5 * t.val + 2} : Finset ℕ) = Finset.erase (insert (5 * t.val + 2) (insert (5 * t.val + 1) (∅ : Finset ℕ))) (5 * t.val + 1) from by
      ext x; simp only [Finset.mem_erase, Finset.mem_insert, Finset.notMem_empty, _root_.or_false, Finset.mem_singleton]; omega]
    iexact Hout'
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.KRun

end
-- ==== Proof.KTrip3.lean ====
/-
  The third part of a trip of the loop, and the copy that ends the trip. Once the copy of chunk 5 t + 2 out of slot 2
  has landed the slot takes the gather of chunk 5 t + 7; chunk 5 t + 3 lands in slot 3, is copied out to its rows
  of the result, and once that copy has landed the slot takes the gather of chunk 5 t + 8; chunk 5 t + 4 lands in
  slot 4. The trip ends by starting the copy of chunk 5 t + 4 out of slot 4, left in flight.
-/
import proofs.«205984_g59184649339042_cont_9to1_m_680_25_alg».proof.Proof.KInv
import proofs.«205984_g59184649339042_cont_9to1_m_680_25_alg».proof.Proof.KTripLib
import proofs.«205984_g59184649339042_cont_9to1_m_680_25_alg».proof.Proof.KStor

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

open Stor

set_option maxHeartbeats 8000000 in
theorem part3_mid (t : Fin k1_t1_loop.trips) (ht2 : t.val ≤ 48) (v2 v54 c3 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : BitVec 32 → sProp 𝕄) :
    iprop(Transfers.MayWaits (V d (cV L) (jV L)) (default : HIx 1) O
        ∗ SlotStor m d L fix hfix cc1_scratch5 cc1_scratch10 sl2 (5 * t.val + 2) (s5 fullShare 2) (s5 q 2)
        ∗ SlotGath m d L fix hfix cc1_scratch6 cc1_scratch11 sl3 (5 * t.val + 3) (s5 fullShare 3) (s5 q 3)
        ∗ SlotGath m d L fix hfix cc1_scratch7 cc1_scratch12 sl4 (5 * t.val + 4) (s5 fullShare 4) (s5 q 4)
        ∗ OutRes m d L fix hfix (5 * t.val + 2) {5 * t.val + 2}
        ∗ owes (V d (cV L) (jV L)) O W
        ∗ (∀ r, iprop(SlotGath m d L fix hfix cc1_scratch5 cc1_scratch10 sl2 (5 * t.val + 7) (s5 fullShare 2) (s5 q 2)
              ∗ SlotGath m d L fix hfix cc1_scratch6 cc1_scratch11 sl3 (5 * t.val + 8) (s5 fullShare 3) (s5 q 3)
              ∗ SlotLanded m d L fix hfix cc1_scratch7 cc1_scratch12 sl4 (5 * t.val + 4) (s5 fullShare 4) (s5 q 4)
              ∗ OutRes m d L fix hfix (5 * t.val + 4) ∅
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part3 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t v54 c3) Φ := by
  have h8 : k1_cond8 t = 1#1 := by
    have : ∀ t : Fin k1_t1_loop.trips, t.val ≤ 48 → k1_cond8 t = 1#1 := by decide +kernel
    exact this t ht2
  have h9 : k1_cond9 t = 1#1 := by revert t; decide +kernel
  have h10 : k1_cond10 t = 1#1 := by
    have : ∀ t : Fin k1_t1_loop.trips, t.val ≤ 48 → k1_cond10 t = 1#1 := by decide +kernel
    exact this t ht2
  have h11 : k1_cond11 t = 1#1 := by revert t; decide +kernel
  rw [k1_part3_eq_skeleton]; unfold k1_part3_skel
  unfold SlotGath SlotStor SlotLanded GFl SFl Shares
  iintro ⟨#Hmw, ⟨⟨%fo2, %fb2, %hfo2, Hfs2⟩, ⟨Hsh2, Hix2⟩, Hg2⟩, ⟨⟨%fb3, %hfb3, Hfg3⟩, Hixr3, Hs3⟩, ⟨⟨%fb4, %hfb4, Hfg4⟩, Hixr4, Hs4⟩, Hout, HO, Hk⟩
  -- chunk 5 t + 3's rows of the result, for the copy out of slot 3
  ihave H := (out_take m d L fix hfix (5 * t.val + 2) (5 * t.val + 3) {5 * t.val + 2} (by simp) (by omega)) $$ Hout
  icases H with ⟨⟨%fw3, Hw3⟩, Hout⟩
  ihave Hw3' := (Entails.of_eq (pts_oWin5 d L t 3 fullShare fw3)) $$ Hw3
  sl_exec
  icases Hfg3_dst with ⟨Hslot3, Hixw3⟩
  ihave Hix3 := (ix_rejoin d L fix (5 * t.val + 3) (s5 fullShare 3)) $$ [Hixw3 Hixr3]
  · isplitl [Hixw3] <;> iassumption
  sl_exec
  icases Hfg4_dst with ⟨Hslot4, Hixw4⟩
  ihave Hix4 := (ix_rejoin d L fix (5 * t.val + 4) (s5 fullShare 4)) $$ [Hixw4 Hixr4]
  · isplitl [Hixw4] <;> iassumption
  sl_step
  iapply Hk
  -- slot 2: chunk 5 t + 7 being gathered
  isplitl [Hg2 Hix2 Hfs2]
  · isplitl [Hg2]
    · iapply (gath_canon' m d L fix hfix cc1_scratch5 sl2 (5 * t.val + 7) (s5 fullShare 2) (s5 q 2) (k1_off11 t) (k1_off11_inb t h8) (k1_off11_canon t h8) fb2 (part3_mid.sl.gather0 m d L fix t hin h8) (fun _ => rfl))
      iexact Hg2
    isplitl [Hix2]
    · iapply (Entails.of_eq (pts_ixRest11 d L fix t h8 (s5 fullShare 2) (5 * t.val + 7) rfl)); iexact Hix2
    iexact Hfs2
  -- slot 3: chunk 5 t + 8 being gathered
  isplitl [Hfg3 Hix3 Hs3]
  · isplitl [Hfg3]
    · iapply (gath_canon' m d L fix hfix cc1_scratch6 sl3 (5 * t.val + 8) (s5 fullShare 3) (s5 q 3) (k1_off13 t) (k1_off13_inb t h10) (k1_off13_canon t h10) fb3 (part3_mid.sl.gather1 m d L fix t hin h10) (fun _ => rfl))
      iexact Hfg3
    isplitl [Hix3]
    · iapply (Entails.of_eq (pts_ixRest13 d L fix t h10 (s5 fullShare 3) (5 * t.val + 8) rfl)); iexact Hix3
    iexact Hs3
  -- slot 4: chunk 5 t + 4 landed
  isplitl [Hslot4 Hfg4_src Hix4 Hfg4 Hs4]
  · isplitl [Hslot4]
    · iexists fb4; isplitr; · ipureintro; exact hfb4
      iexact Hslot4
    isplitl [Hfg4_src Hix4]
    · isplitl [Hfg4_src]
      · iapply (Entails.of_eq (sh_whole d L (s5 q 4) (shval m d (cV L)))); iexact Hfg4_src
      iexact Hix4
    isplitl [Hfg4]; · iexact Hfg4
    iexact Hs4
  -- the result: chunks 5 t + 2 and 5 t + 3 copied as well
  isplitl [Hout Hfs2_dst Hw3']
  · ihave Hout1 := (out_put m d L fix hfix (5 * t.val + 2) (5 * t.val + 3) (5 * t.val + 2) (insert (5 * t.val + 3) {5 * t.val + 2})
        (Finset.mem_insert_of_mem (Finset.mem_singleton_self _)) (by omega)
        (fun k hk hlt => by
          have := (Finset.mem_sdiff.mp hk).2; simp only [Finset.mem_insert, Finset.mem_singleton, not_or] at this; omega)) $$ [Hfs2_dst Hout]
    · isplitl [Hfs2_dst]
      · iexists fo2; isplitr; · ipureintro; exact hfo2
        iexact Hfs2_dst
      iexact Hout
    ihave Hw3 := (Entails.of_eq (pts_oWin5 d L t 3 fullShare _).symm) $$ Hw3'
    ihave Hout2 := (out_put m d L fix hfix (5 * t.val + 3) (5 * t.val + 4) (5 * t.val + 3) (Finset.erase (insert (5 * t.val + 3) {5 * t.val + 2}) (5 * t.val + 2))
        (by simp) (by omega)
        (fun k hk hlt => by
          have := (Finset.mem_sdiff.mp hk).2; simp only [Finset.mem_erase, Finset.mem_insert, Finset.mem_singleton, not_and, not_or] at this; omega)) $$ [Hw3 Hout1]
    · isplitl [Hw3]
      · iexists _; isplitr
        swap; · iexact Hw3
        ipureintro
        exact stored_good m d L fix hfix (5 * t.val + 3) (k1_off5 L t 3#32) (k1_off5_inb L t 3) (k1_off5_canon L t 3) fw3 _ hfb3
      iexact Hout1
    rw [show (∅ : Finset ℕ) = Finset.erase (Finset.erase (insert (5 * t.val + 3) {5 * t.val + 2}) (5 * t.val + 2)) (5 * t.val + 3) from by
      ext x; simp only [Finset.mem_erase, Finset.mem_insert, Finset.mem_singleton, Finset.notMem_empty, false_iff]; omega]
    iexact Hout2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The copy that ends the trip -/

/-- The trip's last statement: the copy of slot 4 out to the rows of chunk 5 t + 4, started and left in flight. -/
abbrev restProg (L : grid1.Coords) (t : Fin k1_t1_loop.trips) : Prog (TpuEff nD τ sig (Elt F) Λ₀ (.scVector (cV L) (jV L))) Unit := do
  Prog.lift (.enqueueDma sl4 (.here ((oV).slice (Rect.unit (s := S320000x128) (k1_off5 L t 4#32) S40x128.size (k1_off5_inb L t 4)) (fun _ => rfl)))
    (.dma cc1_scratch12.sem) ((View.wordExact_bits rfl).reshape _ _) (View.wordExact_bits rfl) ⟨Or.inl rfl, trivial⟩)
  pure ⟨⟩

/-- A trip is its three parts and that copy. -/
theorem body_eq (v2 : BitVec 32) (t : Fin k1_t1_loop.trips) (u : Unit) :
    k1_t1_body (F := F) L yV (Memref.isWhole_whole _) iV (Memref.isWhole_whole _) oV (Memref.isWhole_whole _) ixV (Memref.isWhole_whole _) rwV (Memref.isWhole_whole _) shV (Memref.isWhole_whole _)
        cc1_scratch3 cc1_scratch4 cc1_scratch5 cc1_scratch6 cc1_scratch7 cc1_scratch8 cc1_scratch9 cc1_scratch10 cc1_scratch11 cc1_scratch12 cc1_scoped0 cc1_scoped1 v2 t u
      = (do
          let r1 ← k1_part1 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 0#32 1#32 t
          let c3 ← k1_part2 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t r1.1 r1.2
          let _v132 ← k1_part3 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t r1.1 c3
          restProg L t) := rfl

set_option maxHeartbeats 8000000 in
/-- The copy out of slot 4, at any trip: the slot's landed rows go out to chunk 5 t + 4's rows of the result. -/
theorem rest_mid (t : Fin k1_t1_loop.trips) (Φ : Unit → sProp 𝕄) :
    iprop(SlotLanded m d L fix hfix cc1_scratch7 cc1_scratch12 sl4 (5 * t.val + 4) (s5 fullShare 4) (s5 q 4)
        ∗ OutRes m d L fix hfix (5 * t.val + 4) ∅
        ∗ (iprop(SlotStor m d L fix hfix cc1_scratch7 cc1_scratch12 sl4 (5 * t.val + 4) (s5 fullShare 4) (s5 q 4)
              ∗ OutRes m d L fix hfix (5 * t.val + 4) {5 * t.val + 4}) -∗ Φ ⟨⟩))
      ⊢ wp frame (wpE (defs₀ (F := F)) 𝒱₀ (V d (cV L) (jV L)) none) Set.univ (restProg (F := F) L t) Φ := by
  have ht := trips_le t
  unfold SlotLanded SlotStor SFl Shares
  iintro ⟨⟨⟨%fb4, %hfb4, Hslot4⟩, ⟨Hsh4, Hix4⟩, Hg4, Hs4⟩, Hout, Hk⟩
  ihave H := (out_take m d L fix hfix (5 * t.val + 4) (5 * t.val + 4) ∅ (Finset.notMem_empty _) (by omega)) $$ Hout
  icases H with ⟨⟨%fw4, Hw4⟩, Hout⟩
  ihave Hw4' := (Entails.of_eq (pts_oWin5 d L t 4 fullShare fw4)) $$ Hw4
  sl_exec
  sl_step
  iapply Hk
  isplitr [Hout]
  · isplitl [Hs4]
    · iapply (stor_canon' m d L fix hfix cc1_scratch12 sl4 (5 * t.val + 4) (k1_off5 L t 4#32) (k1_off5_inb L t 4) (k1_off5_canon L t 4) fw4 fb4 _ hfb4)
      iexact Hs4
    isplitl [Hsh4 Hix4]
    · isplitl [Hsh4]; · iexact Hsh4
      iexact Hix4
    iexact Hg4
  rw [show ({5 * t.val + 4} : Finset ℕ) = insert (5 * t.val + 4) ∅ from by
    ext x; simp only [Finset.mem_singleton, Finset.mem_insert, Finset.notMem_empty, _root_.or_false]]
  iexact Hout

end Cert.KernelIdeal.KRun

end
-- ==== Proof.KTripMid.lean ====
/-
  A whole trip of the loop, away from its two ends: from the state before trip t (chunks 5 t … 5 t + 3 being
  gathered into slots 0 … 3, chunk 5 t − 1 being copied out of slot 4) to the state before trip t + 1, by the trip's
  three parts and its closing copy, each framed to the slots it touches.
-/
import proofs.«205984_g59184649339042_cont_9to1_m_680_25_alg».proof.Proof.KInv
import proofs.«205984_g59184649339042_cont_9to1_m_680_25_alg».proof.Proof.KTripLib
import proofs.«205984_g59184649339042_cont_9to1_m_680_25_alg».proof.Proof.KStor
import proofs.«205984_g59184649339042_cont_9to1_m_680_25_alg».proof.Proof.KTrip1
import proofs.«205984_g59184649339042_cont_9to1_m_680_25_alg».proof.Proof.KTrip2
import proofs.«205984_g59184649339042_cont_9to1_m_680_25_alg».proof.Proof.KTrip3
import proofs.«205984_g59184649339042_cont_9to1_m_680_25_alg».proof.Proof.KPost

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

open Post

set_option maxHeartbeats 8000000 in
theorem trip_mid (t : Fin k1_t1_loop.trips) (ht1 : 1 ≤ t.val) (ht2 : t.val ≤ 48) (v2 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : Unit → sProp 𝕄) :
    iprop(Transfers.MayWaits (V d (cV L) (jV L)) (default : HIx 1) O
        ∗ InvMid m d L fix hfix q t.val ∗ owesW d L O W
        ∗ (iprop(InvMid m d L fix hfix q (t.val + 1) ∗ owesW d L O W) -∗ Φ ⟨⟩))
      ⊢ wp frame (wpE (defs₀ (F := F)) 𝒱₀ (V d (cV L) (jV L)) none) Set.univ
          (k1_t1_body L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t ⟨⟩) Φ := by
  rw [body_eq]
  simp only [wp_bind]
  unfold InvMid owesW
  rw [show 5 * (t.val + 1) + 1 = 5 * t.val + 6 from by omega, show 5 * (t.val + 1) + 2 = 5 * t.val + 7 from by omega,
    show 5 * (t.val + 1) + 3 = 5 * t.val + 8 from by omega, show 5 * (t.val + 1) - 1 = 5 * t.val + 4 from by omega,
    show 5 * (t.val + 1) = 5 * t.val + 5 from by omega]
  iintro ⟨#Hmw, ⟨G0, G1, G2, G3, S4, Hout⟩, ⟨%W0, %hW0, HO⟩, Hk⟩
  -- part 1: slots 0 and 4
  iapply (part1_mid m d L fix hfix q t ht1 ht2 v2 O W0 hin _)
  isplitr; · iexact Hmw
  isplitl [G0]; · iexact G0
  isplitl [S4]; · iexact S4
  isplitl [Hout]; · iexact Hout
  isplitl [HO]; · iexact HO
  iintro %r1 ⟨G0, G4, Hout, ⟨%W1, %hW1, HO⟩⟩
  -- part 2: slots 1 and 2
  iapply (part2_mid m d L fix hfix q t ht2 v2 r1.1 r1.2 O W1 hin _)
  isplitr; · iexact Hmw
  isplitl [G1]; · iexact G1
  isplitl [G2]; · iexact G2
  isplitl [Hout]; · iexact Hout
  isplitl [HO]; · iexact HO
  iintro %c3 ⟨G1, S2, Hout, ⟨%W2, %hW2, HO⟩⟩
  -- part 3: slots 2, 3 and 4
  iapply (part3_mid m d L fix hfix q t ht2 v2 r1.1 c3 O W2 hin _)
  isplitr; · iexact Hmw
  isplitl [S2]; · iexact S2
  isplitl [G3]; · iexact G3
  isplitl [G4]; · iexact G4
  isplitl [Hout]; · iexact Hout
  isplitl [HO]; · iexact HO
  iintro %v132 ⟨G2, G3, L4, Hout, ⟨%W3, %hW3, HO⟩⟩
  -- the closing copy: slot 4
  iapply (rest_mid m d L fix hfix q t _)
  isplitl [L4]; · iexact L4
  isplitl [Hout]; · iexact Hout
  iintro ⟨S4, Hout⟩
  rw [wp_pure]; imodintro
  iapply Hk
  isplitr [HO]
  · isplitl [G0]; · iexact G0
    isplitl [G1]; · iexact G1
    isplitl [G2]; · iexact G2
    isplitl [G3]; · iexact G3
    isplitl [S4]; · iexact S4
    iexact Hout
  iexists W3
  isplitr
  swap; · iexact HO
  ipureintro
  intro p hp
  rcases hW3 p hp with h | h; swap; · exact .inr (.inl h)
  rcases hW2 p h with h | h; swap; · exact .inr (.inl h)
  rcases hW1 p h with h | h; swap; · exact .inr (.inl h)
  exact hW0 p h

end Cert.KernelIdeal.KRun

end
-- ==== Proof.KTripStart.lean ====
/-
  The first trip of a vector subcore's loop of gathers and copies out.

  It differs from the later trips in that no copy out of slot 4 is in flight when it starts: slot 4 is free, and
  nothing has been copied yet.
-/
import proofs.«205984_g59184649339042_cont_9to1_m_680_25_alg».proof.Proof.KInv
import proofs.«205984_g59184649339042_cont_9to1_m_680_25_alg».proof.Proof.KVal
import proofs.«205984_g59184649339042_cont_9to1_m_680_25_alg».proof.Proof.KTripLib
import proofs.«205984_g59184649339042_cont_9to1_m_680_25_alg».proof.Proof.KPre5

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable (d : Dev nD) (L : grid1.Coords)
variable (fix : Buf (Elt F) ((ixV).view.loc (V d (cV L) (jV L)))) (hfix : FixOk d L fix) (q : PosShare TreeShare)

/-- A gather that has been issued, as its transfer in flight is recorded, in canonical form, the in-flight term spelt out. -/
theorem gath_spelt (g : DmaSems sig S_) (sl : Memref sig .scVector .vmem S40x128 .f32) (k : ℕ) (qi qs : PosShare TreeShare)
    (off : Fin 1 → ℕ) (hinb : ∀ a, off a + S40.size a ≤ S10000.size a) (hoff : off = ![40 * (k % 250)])
    (fprev : Buf (Elt F) (sl.view.loc (V d (cV L) (jV L)))) (p : S40x128.Idx → Elt F .f32)
    (hp : ∀ hinw, p = SparseCore.gatherPayload gathers_S10000x128_S40x128 ((shAll).view.read (Elt F) (shval m d (cV L)))
      (SparseCore.rows (((ixV).slice (Rect.unit (s := S10000) off S40.size hinb) (fun _ => rfl)).view.read (Elt F) fix) rfl hinw)) :
    (Transfers.Flight countersEmb (V d (cV L) (jV L)) (SemLoc.dma g.sem) (default : HIx 1) 163840
      iprop(((sl.view.loc (V d (cV L) (jV L)) ↦[sl.view.set]{fullShare} sl.view.writes (Elt F) fprev [⟨Rect.whole S40x128, p⟩])
          ∗ ((ixV).view.loc (V d (cV L) (jV L)) ↦[((ixV).slice (Rect.unit (s := S10000) off S40.size hinb) (fun _ => rfl)).view.set]{qi} fix))
        ∗ ((shV).view.loc (V d (cV L) (jV L)) ↦[(shAll).view.set]{qs} shval m d (cV L))) : sProp 𝕄)
      ⊢ iprop(∃ fb, ⌜sl.view.read (Elt F) fb = GP m d L fix hfix k⌝ ∗
          Transfers.Flight countersEmb (V d (cV L) (jV L)) (SemLoc.dma g.sem) (default : HIx 1) 163840
            iprop(((sl.view.loc (V d (cV L) (jV L)) ↦[sl.view.set]{fullShare} fb)
                ∗ ((ixWin k).view.loc (V d (cV L) (jV L)) ↦[(ixWin k).view.set]{qi} fix))
              ∗ ((shAll).view.loc (V d (cV L) (jV L)) ↦[(shAll).view.set]{qs} shval m d (cV L)))) := by
  have h := gath_canon m d L fix hfix g sl k qi qs off hinb hoff fprev p hp
  unfold GFl at h
  exact h

set_option maxHeartbeats 8000000 in
/-- Part 1 of the first trip: chunk 4 is gathered into the free slot 4; chunk 0 lands in slot 0, is copied out and the
    copy waited for; chunk 5 is gathered into slot 0. -/
theorem part1_start (t : Fin k1_t1_loop.trips) (ht : t.val = 0) (v2 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : (Σ' (_ : BitVec 32), BitVec 32) → sProp 𝕄) :
    iprop(Transfers.MayWaits (V d (cV L) (jV L)) (default : HIx 1) O
        ∗ SlotGath m d L fix hfix cc1_scratch3 cc1_scratch8 sl0 (5 * t.val) (s5 fullShare 0) (s5 q 0)
        ∗ SlotFree m d L fix cc1_scratch7 cc1_scratch12 sl4 (s5 fullShare 4) (s5 q 4)
        ∗ OutRes m d L fix hfix 0 ∅
        ∗ owes (V d (cV L) (jV L)) O W
        ∗ (∀ r, iprop(SlotGath m d L fix hfix cc1_scratch3 cc1_scratch8 sl0 (5 * t.val + 5) (s5 fullShare 0) (s5 q 0)
              ∗ SlotGath m d L fix hfix cc1_scratch7 cc1_scratch12 sl4 (5 * t.val + 4) (s5 fullShare 4) (s5 q 4)
              ∗ OutRes m d L fix hfix (5 * t.val + 1) ∅
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part1 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 0#32 1#32 t) Φ := by
  have h2 : k1_cond2 t = 1#1 := by revert t; decide +kernel
  have h3 : ¬ k1_cond3 t = 1#1 := by
    have : ∀ t : Fin k1_t1_loop.trips, t.val = 0 → ¬ k1_cond3 t = 1#1 := by decide +kernel
    exact this t ht
  have h4 : k1_cond4 t = 1#1 := by
    have : ∀ t : Fin k1_t1_loop.trips, t.val ≤ 48 → k1_cond4 t = 1#1 := by decide +kernel
    exact this t (by omega)
  have h5 : k1_cond5 t = 1#1 := by revert t; decide +kernel
  rw [k1_part1_eq_skeleton]; unfold k1_part1_skel
  unfold SlotGath SlotFree GFl Shares
  iintro ⟨#Hmw, ⟨⟨%fb0, %hfb0, Hfg0⟩, Hixr0, Ht0⟩, ⟨⟨%fb4, Hslot4⟩, ⟨Hsh4, Hix4⟩, Hg4, Hs4⟩, Hout, HO, Hk⟩
  sl_exec
  icases Hfg0_dst with ⟨Hslot0, Hixw0⟩
  -- the index list's share 0 is whole again
  ihave Hix0 := (ix_rejoin d L fix (5 * t.val) (s5 fullShare 0)) $$ [Hixw0 Hixr0]
  · isplitl [Hixw0] <;> iassumption
  -- chunk 5 t's rows of the result, for the copy out of slot 0
  ihave H := (out_take m d L fix hfix 0 (5 * t.val) ∅ (Finset.notMem_empty _) (by omega)) $$ Hout
  icases H with ⟨⟨%fw0, Hw0⟩, Hout⟩
  ihave Hw0' := (Entails.of_eq (pts_oWin5 d L t 0 fullShare fw0)) $$ Hw0
  sl_exec
  sl_step
  iapply Hk
  -- slot 0: chunk 5 t + 5 being gathered
  isplitl [Hfg0 Hix0 Ht0]
  · isplitl [Hfg0]
    · iapply (gath_spelt m d L fix hfix cc1_scratch3 sl0 (5 * t.val + 5) (s5 fullShare 0) (s5 q 0) (k1_off7 t) (k1_off7_inb t h4) (k1_off7_canon t h4) fb0 (part1_start.sl.gather1 m d L fix t hin h4) (fun _ => rfl))
      iexact Hfg0
    isplitl [Hix0]
    · iapply (Entails.of_eq (pts_ixRest7 d L fix t h4 (s5 fullShare 0) _ rfl)); iexact Hix0
    iexact Ht0
  -- slot 4: chunk 5 t + 4 being gathered
  isplitl [Hg4 Hix4 Hs4]
  · isplitl [Hg4]
    · iapply (gath_spelt m d L fix hfix cc1_scratch7 sl4 (5 * t.val + 4) (s5 fullShare 4) (s5 q 4) (k1_off4 t) (k1_off4_inb t h2) (k1_off4_canon t) fb4 (part1_start.sl.gather0 m d L fix t hin h2) (fun _ => rfl))
      iexact Hg4
    isplitl [Hix4]
    · iapply (Entails.of_eq (pts_ixRest4 d L fix t h2 (s5 fullShare 4) _ rfl)); iexact Hix4
    iexact Hs4
  -- the result: chunk 5 t copied
  isplitl [Hout Hw0']
  · ihave Hw0 := (Entails.of_eq (pts_oWin5 d L t 0 fullShare _).symm) $$ Hw0'
    ihave Hout' := (out_put m d L fix hfix 0 (5 * t.val + 1) (5 * t.val) (insert (5 * t.val) ∅) (Finset.mem_insert_self _ _) (by omega)
        (fun k hk hlt => by
          have := (Finset.mem_sdiff.mp hk).2; rw [Finset.mem_insert] at this; omega)) $$ [Hw0 Hout]
    · isplitl [Hw0]
      · iexists _; isplitr
        swap; · iexact Hw0
        ipureintro
        exact stored_good m d L fix hfix (5 * t.val) (k1_off5 L t 0#32) (k1_off5_inb L t 0) (k1_off5_canon L t 0) fw0 _ hfb0
      iexact Hout
    rw [Finset.erase_insert (Finset.notMem_empty _)]
    iexact Hout'
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.KernelIdeal.KRun

end
-- ==== Proof.KTripStartTrip.lean ====
/-
  The first trip, whole: its three parts and the copy out of slot 4, composed.

  From the state the program's head leaves — chunks 0 to 3 being gathered, slot 4 free, nothing copied — to the
  state before the second trip.
-/
import proofs.«205984_g59184649339042_cont_9to1_m_680_25_alg».proof.Proof.KInv
import proofs.«205984_g59184649339042_cont_9to1_m_680_25_alg».proof.Proof.KVal
import proofs.«205984_g59184649339042_cont_9to1_m_680_25_alg».proof.Proof.KTripLib
import proofs.«205984_g59184649339042_cont_9to1_m_680_25_alg».proof.Proof.KPre5
import proofs.«205984_g59184649339042_cont_9to1_m_680_25_alg».proof.Proof.KTripStart
import proofs.«205984_g59184649339042_cont_9to1_m_680_25_alg».proof.Proof.KTrip2
import proofs.«205984_g59184649339042_cont_9to1_m_680_25_alg».proof.Proof.KTrip3
import proofs.«205984_g59184649339042_cont_9to1_m_680_25_alg».proof.Proof.KPost

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable (d : Dev nD) (L : grid1.Coords)
variable (fix : Buf (Elt F) ((ixV).view.loc (V d (cV L) (jV L)))) (hfix : FixOk d L fix) (q : PosShare TreeShare)

open Post

set_option maxHeartbeats 4000000 in
/-- The first trip: from the state the program's head leaves to the loop's state before the second trip. -/
theorem trip_start (t : Fin k1_t1_loop.trips) (ht : t.val = 0) (v2 : BitVec 32) (u : Unit)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : Unit → sProp 𝕄) :
    iprop(Transfers.MayWaits (V d (cV L) (jV L)) (default : HIx 1) O ∗ InvStart m d L fix hfix q ∗ owesW d L O W
        ∗ (iprop(InvMid m d L fix hfix q 1 ∗ owesW d L O W) -∗ Φ ⟨⟩))
      ⊢ wp frame (wpE (defs₀ (F := F)) 𝒱₀ (V d (cV L) (jV L)) none) Set.univ
          (k1_t1_body L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t u) Φ := by
  obtain ⟨tv, htv⟩ := t
  obtain rfl : tv = 0 := ht
  rw [body_eq]
  simp only [wp_bind]
  unfold InvStart InvMid owesW
  iintro ⟨#Hmw, ⟨G0, G1, G2, G3, F4, Hout⟩, ⟨%W0, %hW0, HO⟩, Hk⟩
  -- part 1: slots 0 and 4
  iapply (part1_start m d L fix hfix q ⟨0, htv⟩ rfl v2 O W0 hin _)
  isplitr; · iexact Hmw
  isplitl [G0]; · iexact G0
  isplitl [F4]; · iexact F4
  isplitl [Hout]; · iexact Hout
  isplitl [HO]; · iexact HO
  iintro %r1 ⟨G0, G4, Hout, ⟨%W1, %hW1, HO⟩⟩
  -- part 2: slots 1 and 2
  iapply (part2_mid m d L fix hfix q ⟨0, htv⟩ (Nat.zero_le 48) v2 r1.1 r1.2 O W1 hin _)
  isplitr; · iexact Hmw
  isplitl [G1]; · iexact G1
  isplitl [G2]; · iexact G2
  isplitl [Hout]; · iexact Hout
  isplitl [HO]; · iexact HO
  iintro %c3 ⟨G1, S2, Hout, ⟨%W2, %hW2, HO⟩⟩
  -- part 3: slots 2, 3 and 4
  iapply (part3_mid m d L fix hfix q ⟨0, htv⟩ (Nat.zero_le 48) v2 r1.1 c3 O W2 hin _)
  isplitr; · iexact Hmw
  isplitl [S2]; · iexact S2
  isplitl [G3]; · iexact G3
  isplitl [G4]; · iexact G4
  isplitl [Hout]; · iexact Hout
  isplitl [HO]; · iexact HO
  iintro %v132 ⟨G2, G3, L4, Hout, ⟨%W3, %hW3, HO⟩⟩
  -- the closing copy: slot 4
  iapply (rest_mid m d L fix hfix q ⟨0, htv⟩ _)
  isplitl [L4]; · iexact L4
  isplitl [Hout]; · iexact Hout
  iintro ⟨S4, Hout⟩
  simp only [wp_pure]
  imodintro
  iapply Hk
  isplitr [HO]
  · isplitl [G0]; · iexact G0
    isplitl [G1]; · iexact G1
    isplitl [G2]; · iexact G2
    isplitl [G3]; · iexact G3
    isplitl [S4]; · iexact S4
    iexact Hout
  iexists W3
  isplitr
  swap; · iexact HO
  ipureintro
  intro p hp
  rcases hW3 p hp with h | h; swap; · exact .inr (.inl h)
  rcases hW2 p h with h | h; swap; · exact .inr (.inl h)
  rcases hW1 p h with h | h; swap; · exact .inr (.inl h)
  exact hW0 p h

end Cert.KernelIdeal.KRun

end
-- ==== Proof.KTripEnd.lean ====
/-
  The last trip of a vector subcore's loop of gathers and copies out.

  It differs from the earlier trips in that no chunk is left to gather: each slot's copy out is left in flight, to
  be waited for after the loop.
-/
import proofs.«205984_g59184649339042_cont_9to1_m_680_25_alg».proof.Proof.KInv
import proofs.«205984_g59184649339042_cont_9to1_m_680_25_alg».proof.Proof.KVal
import proofs.«205984_g59184649339042_cont_9to1_m_680_25_alg».proof.Proof.KTripLib
import proofs.«205984_g59184649339042_cont_9to1_m_680_25_alg».proof.Proof.KPre5
import proofs.«205984_g59184649339042_cont_9to1_m_680_25_alg».proof.Proof.KStor
import proofs.«205984_g59184649339042_cont_9to1_m_680_25_alg».proof.Proof.KTripStart

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable (d : Dev nD) (L : grid1.Coords)
variable (fix : Buf (Elt F) ((ixV).view.loc (V d (cV L) (jV L)))) (hfix : FixOk d L fix) (q : PosShare TreeShare)

set_option maxHeartbeats 8000000 in
/-- Part 1 of the last trip: the copy of chunk 5 t − 1 out of slot 4 is waited for and the last chunk gathered into
    slot 4; chunk 5 t lands in slot 0 and its copy out is left in flight. -/
theorem part1_end (t : Fin k1_t1_loop.trips) (ht : t.val = 49) (v2 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : (Σ' (_ : BitVec 32), BitVec 32) → sProp 𝕄) :
    iprop(Transfers.MayWaits (V d (cV L) (jV L)) (default : HIx 1) O
        ∗ SlotGath m d L fix hfix cc1_scratch3 cc1_scratch8 sl0 (5 * t.val) (s5 fullShare 0) (s5 q 0)
        ∗ SlotStor m d L fix hfix cc1_scratch7 cc1_scratch12 sl4 (5 * t.val - 1) (s5 fullShare 4) (s5 q 4)
        ∗ OutRes m d L fix hfix (5 * t.val - 1) {5 * t.val - 1}
        ∗ owes (V d (cV L) (jV L)) O W
        ∗ (∀ r, iprop(SlotStor m d L fix hfix cc1_scratch3 cc1_scratch8 sl0 (5 * t.val) (s5 fullShare 0) (s5 q 0)
              ∗ SlotGath m d L fix hfix cc1_scratch7 cc1_scratch12 sl4 (5 * t.val + 4) (s5 fullShare 4) (s5 q 4)
              ∗ OutRes m d L fix hfix (5 * t.val) {5 * t.val}
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part1 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 0#32 1#32 t) Φ := by
  have h2 : k1_cond2 t = 1#1 := by revert t; decide +kernel
  have h3 : k1_cond3 t = 1#1 := by
    have : ∀ t : Fin k1_t1_loop.trips, 1 ≤ t.val → k1_cond3 t = 1#1 := by decide +kernel
    exact this t (by omega)
  have h4 : ¬ k1_cond4 t = 1#1 := by
    have : ∀ t : Fin k1_t1_loop.trips, t.val = 49 → ¬ k1_cond4 t = 1#1 := by decide +kernel
    exact this t ht
  rw [k1_part1_eq_skeleton]; unfold k1_part1_skel
  unfold SlotGath SlotStor GFl SFl Shares
  iintro ⟨#Hmw, ⟨⟨%fb0, %hfb0, Hfg0⟩, Hixr0, Ht0⟩, ⟨⟨%fo4, %fb4, %hfo4, Hfs4⟩, ⟨Hsh4, Hix4⟩, Hg4⟩, Hout, HO, Hk⟩
  sl_exec
  icases Hfg0_dst with ⟨Hslot0, Hixw0⟩
  -- the index list's share 0 is whole again
  ihave Hix0 := (ix_rejoin d L fix (5 * t.val) (s5 fullShare 0)) $$ [Hixw0 Hixr0]
  · isplitl [Hixw0] <;> iassumption
  -- the previous chunk's rows are back: every chunk below 5 t is copied
  ihave Hout := (out_put m d L fix hfix (5 * t.val - 1) (5 * t.val) (5 * t.val - 1) {5 * t.val - 1} (Finset.mem_singleton_self _) (by omega)
      (fun k hk hlt => by
        have := (Finset.mem_sdiff.mp hk).2; rw [Finset.mem_singleton] at this; omega)) $$ [Hfs4_dst Hout]
  · isplitl [Hfs4_dst]
    · iexists fo4; isplitr; · ipureintro; exact hfo4
      iexact Hfs4_dst
    iexact Hout
  rw [Finset.erase_singleton]
  -- chunk 5 t's rows of the result, for the copy out of slot 0
  ihave H := (out_take m d L fix hfix (5 * t.val) (5 * t.val) ∅ (Finset.notMem_empty _) (by omega)) $$ Hout
  icases H with ⟨⟨%fw0, Hw0⟩, Hout⟩
  ihave Hw0' := (Entails.of_eq (pts_oWin5 d L t 0 fullShare fw0)) $$ Hw0
  sl_exec
  sl_step
  iapply Hk
  -- slot 0: the copy of chunk 5 t out of it in flight; its shares are whole again
  isplitl [Ht0 Hfg0_src Hix0 Hfg0]
  · isplitl [Ht0]
    · iapply (stor_canon' m d L fix hfix cc1_scratch8 sl0 (5 * t.val) (k1_off5 L t 0#32) (k1_off5_inb L t 0) (k1_off5_canon L t 0) fw0 fb0 _ hfb0)
      iexact Ht0
    isplitl [Hfg0_src Hix0]
    · isplitl [Hfg0_src]
      · iapply (Entails.of_eq (sh_whole d L (s5 q 0) _)); iexact Hfg0_src
      iexact Hix0
    iexact Hfg0
  -- slot 4: the last chunk being gathered
  isplitl [Hg4 Hix4 Hfs4]
  · isplitl [Hg4]
    · iapply (gath_spelt m d L fix hfix cc1_scratch7 sl4 (5 * t.val + 4) (s5 fullShare 4) (s5 q 4) (k1_off4 t) (k1_off4_inb t h2) (k1_off4_canon t) fb4 (part1_end.sl.gather0 m d L fix t hin h2) (fun _ => rfl))
      iexact Hg4
    isplitl [Hix4]
    · iapply (Entails.of_eq (pts_ixRest4 d L fix t h2 (s5 fullShare 4) _ rfl)); iexact Hix4
    iexact Hfs4
  -- the result: chunk 5 t's rows travel with the copy
  isplitl [Hout]
  · rw [Finset.insert_empty]
    iexact Hout
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

set_option maxHeartbeats 8000000 in
/-- Part 2 of the last trip: chunks 5 t + 1 and 5 t + 2 land in slots 1 and 2 and their copies out are left in flight. -/
theorem part2_end (t : Fin k1_t1_loop.trips) (ht : t.val = 49) (v2 v54 v72 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : BitVec 32 → sProp 𝕄) :
    iprop(Transfers.MayWaits (V d (cV L) (jV L)) (default : HIx 1) O
        ∗ SlotGath m d L fix hfix cc1_scratch4 cc1_scratch9 sl1 (5 * t.val + 1) (s5 fullShare 1) (s5 q 1)
        ∗ SlotGath m d L fix hfix cc1_scratch5 cc1_scratch10 sl2 (5 * t.val + 2) (s5 fullShare 2) (s5 q 2)
        ∗ OutRes m d L fix hfix (5 * t.val) {5 * t.val}
        ∗ owes (V d (cV L) (jV L)) O W
        ∗ (∀ r, iprop(SlotStor m d L fix hfix cc1_scratch4 cc1_scratch9 sl1 (5 * t.val + 1) (s5 fullShare 1) (s5 q 1)
              ∗ SlotStor m d L fix hfix cc1_scratch5 cc1_scratch10 sl2 (5 * t.val + 2) (s5 fullShare 2) (s5 q 2)
              ∗ OutRes m d L fix hfix (5 * t.val) {5 * t.val, 5 * t.val + 1, 5 * t.val + 2}
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part2 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t v54 v72) Φ := by
  have h6 : ¬ k1_cond6 t = 1#1 := by
    have : ∀ t : Fin k1_t1_loop.trips, t.val = 49 → ¬ k1_cond6 t = 1#1 := by decide +kernel
    exact this t ht
  rw [k1_part2_eq_skeleton]; unfold k1_part2_skel
  unfold SlotGath SlotStor GFl SFl Shares
  iintro ⟨#Hmw, ⟨⟨%fb1, %hfb1, Hfg1⟩, Hixr1, Hs1⟩, ⟨⟨%fb2, %hfb2, Hfg2⟩, Hixr2, Hs2⟩, Hout, HO, Hk⟩
  sl_exec
  icases Hfg1_dst with ⟨Hslot1, Hixw1⟩
  ihave Hix1 := (ix_rejoin d L fix (5 * t.val + 1) (s5 fullShare 1)) $$ [Hixw1 Hixr1]
  · isplitl [Hixw1] <;> iassumption
  -- chunks 5 t + 1 and 5 t + 2: their rows of the result, for the two copies out
  ihave H := (out_take m d L fix hfix (5 * t.val) (5 * t.val + 1) {5 * t.val} (by simp) (by omega)) $$ Hout
  icases H with ⟨⟨%fw1, Hw1⟩, Hout⟩
  ihave Hw1' := (Entails.of_eq (pts_oWin5 d L t 1 fullShare fw1)) $$ Hw1
  ihave H := (out_take m d L fix hfix (5 * t.val) (5 * t.val + 2) (insert (5 * t.val + 1) {5 * t.val}) (by simp) (by omega)) $$ Hout
  icases H with ⟨⟨%fw2, Hw2⟩, Hout⟩
  ihave Hw2' := (Entails.of_eq (pts_oWin5 d L t 2 fullShare fw2)) $$ Hw2
  sl_exec
  icases Hfg2_dst with ⟨Hslot2, Hixw2⟩
  ihave Hix2 := (ix_rejoin d L fix (5 * t.val + 2) (s5 fullShare 2)) $$ [Hixw2 Hixr2]
  · isplitl [Hixw2] <;> iassumption
  sl_exec
  sl_step
  iapply Hk
  -- slot 1: chunk 5 t + 1 being copied out
  isplitl [Hs1 Hfg1_src Hix1 Hfg1]
  · isplitl [Hs1]
    · iapply (stor_canon' m d L fix hfix cc1_scratch9 sl1 (5 * t.val + 1) (k1_off5 L t 1#32) (k1_off5_inb L t 1) (k1_off5_canon L t 1) fw1 fb1 _ hfb1)
      iexact Hs1
    isplitl [Hfg1_src Hix1]
    · isplitl [Hfg1_src]
      · iapply (Entails.of_eq (sh_whole d L (s5 q 1) (shval m d (cV L)))); iexact Hfg1_src
      iexact Hix1
    iexact Hfg1
  -- slot 2: chunk 5 t + 2 being copied out
  isplitl [Hs2 Hfg2_src Hix2 Hfg2]
  · isplitl [Hs2]
    · iapply (stor_canon' m d L fix hfix cc1_scratch10 sl2 (5 * t.val + 2) (k1_off5 L t 2#32) (k1_off5_inb L t 2) (k1_off5_canon L t 2) fw2 fb2 _ hfb2)
      iexact Hs2
    isplitl [Hfg2_src Hix2]
    · isplitl [Hfg2_src]
      · iapply (Entails.of_eq (sh_whole d L (s5 q 2) (shval m d (cV L)))); iexact Hfg2_src
      iexact Hix2
    iexact Hfg2
  -- the result: the three chunks' rows travel with the copies
  isplitl [Hout]
  · rw [show ({5 * t.val, 5 * t.val + 1, 5 * t.val + 2} : Finset ℕ) = insert (5 * t.val + 2) (insert (5 * t.val + 1) {5 * t.val}) from by
      ext x; simp only [Finset.mem_insert, Finset.mem_singleton]; omega]
    iexact Hout
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

set_option maxHeartbeats 8000000 in
/-- Part 3 of the last trip: chunk 5 t + 3 lands in slot 3 and its copy out is left in flight; the last chunk lands
    in slot 4. -/
theorem part3_end (t : Fin k1_t1_loop.trips) (ht : t.val = 49) (v2 v54 c3 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : BitVec 32 → sProp 𝕄) :
    iprop(Transfers.MayWaits (V d (cV L) (jV L)) (default : HIx 1) O
        ∗ SlotGath m d L fix hfix cc1_scratch6 cc1_scratch11 sl3 (5 * t.val + 3) (s5 fullShare 3) (s5 q 3)
        ∗ SlotGath m d L fix hfix cc1_scratch7 cc1_scratch12 sl4 (5 * t.val + 4) (s5 fullShare 4) (s5 q 4)
        ∗ OutRes m d L fix hfix (5 * t.val) {5 * t.val, 5 * t.val + 1, 5 * t.val + 2}
        ∗ owes (V d (cV L) (jV L)) O W
        ∗ (∀ r, iprop(SlotStor m d L fix hfix cc1_scratch6 cc1_scratch11 sl3 (5 * t.val + 3) (s5 fullShare 3) (s5 q 3)
              ∗ SlotLanded m d L fix hfix cc1_scratch7 cc1_scratch12 sl4 (5 * t.val + 4) (s5 fullShare 4) (s5 q 4)
              ∗ OutRes m d L fix hfix (5 * t.val) {5 * t.val, 5 * t.val + 1, 5 * t.val + 2, 5 * t.val + 3}
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part3 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t v54 c3) Φ := by
  have h8 : ¬ k1_cond8 t = 1#1 := by
    have : ∀ t : Fin k1_t1_loop.trips, t.val = 49 → ¬ k1_cond8 t = 1#1 := by decide +kernel
    exact this t ht
  have h10 : ¬ k1_cond10 t = 1#1 := by
    have : ∀ t : Fin k1_t1_loop.trips, t.val = 49 → ¬ k1_cond10 t = 1#1 := by decide +kernel
    exact this t ht
  rw [k1_part3_eq_skeleton]; unfold k1_part3_skel
  unfold SlotGath SlotStor SlotLanded GFl SFl Shares
  iintro ⟨#Hmw, ⟨⟨%fb3, %hfb3, Hfg3⟩, Hixr3, Hs3⟩, ⟨⟨%fb4, %hfb4, Hfg4⟩, Hixr4, Hs4⟩, Hout, HO, Hk⟩
  -- chunk 5 t + 3's rows of the result, for the copy out of slot 3
  ihave H := (out_take m d L fix hfix (5 * t.val) (5 * t.val + 3) {5 * t.val, 5 * t.val + 1, 5 * t.val + 2} (by simp) (by omega)) $$ Hout
  icases H with ⟨⟨%fw3, Hw3⟩, Hout⟩
  ihave Hw3' := (Entails.of_eq (pts_oWin5 d L t 3 fullShare fw3)) $$ Hw3
  sl_exec
  icases Hfg3_dst with ⟨Hslot3, Hixw3⟩
  ihave Hix3 := (ix_rejoin d L fix (5 * t.val + 3) (s5 fullShare 3)) $$ [Hixw3 Hixr3]
  · isplitl [Hixw3] <;> iassumption
  sl_exec
  icases Hfg4_dst with ⟨Hslot4, Hixw4⟩
  ihave Hix4 := (ix_rejoin d L fix (5 * t.val + 4) (s5 fullShare 4)) $$ [Hixw4 Hixr4]
  · isplitl [Hixw4] <;> iassumption
  sl_step
  iapply Hk
  -- slot 3: chunk 5 t + 3 being copied out
  isplitl [Hs3 Hfg3_src Hix3 Hfg3]
  · isplitl [Hs3]
    · iapply (stor_canon' m d L fix hfix cc1_scratch11 sl3 (5 * t.val + 3) (k1_off5 L t 3#32) (k1_off5_inb L t 3) (k1_off5_canon L t 3) fw3 fb3 _ hfb3)
      iexact Hs3
    isplitl [Hfg3_src Hix3]
    · isplitl [Hfg3_src]
      · iapply (Entails.of_eq (sh_whole d L (s5 q 3) (shval m d (cV L)))); iexact Hfg3_src
      iexact Hix3
    iexact Hfg3
  -- slot 4: the last chunk landed
  isplitl [Hslot4 Hfg4_src Hix4 Hfg4 Hs4]
  · isplitl [Hslot4]
    · iexists fb4; isplitr; · ipureintro; exact hfb4
      iexact Hslot4
    isplitl [Hfg4_src Hix4]
    · isplitl [Hfg4_src]
      · iapply (Entails.of_eq (sh_whole d L (s5 q 4) (shval m d (cV L)))); iexact Hfg4_src
      iexact Hix4
    isplitl [Hfg4]; · iexact Hfg4
    iexact Hs4
  -- the result: the four chunks' rows travel with the copies
  isplitl [Hout]
  · rw [show ({5 * t.val, 5 * t.val + 1, 5 * t.val + 2, 5 * t.val + 3} : Finset ℕ) = insert (5 * t.val + 3) {5 * t.val, 5 * t.val + 1, 5 * t.val + 2} from by
      ext x; simp only [Finset.mem_insert, Finset.mem_singleton]; omega]
    iexact Hout
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.KernelIdeal.KRun

end
-- ==== Proof.KTripEndTrip.lean ====
/-
  The last trip, whole: its three parts and the copy out of slot 4, composed.

  After it every slot's copy out is in flight, one per slot, holding the rows of the last five chunks of the result.
-/
import proofs.«205984_g59184649339042_cont_9to1_m_680_25_alg».proof.Proof.KInv
import proofs.«205984_g59184649339042_cont_9to1_m_680_25_alg».proof.Proof.KVal
import proofs.«205984_g59184649339042_cont_9to1_m_680_25_alg».proof.Proof.KTripLib
import proofs.«205984_g59184649339042_cont_9to1_m_680_25_alg».proof.Proof.KPre5
import proofs.«205984_g59184649339042_cont_9to1_m_680_25_alg».proof.Proof.KStor
import proofs.«205984_g59184649339042_cont_9to1_m_680_25_alg».proof.Proof.KTripEnd
import proofs.«205984_g59184649339042_cont_9to1_m_680_25_alg».proof.Proof.KPost

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable (d : Dev nD) (L : grid1.Coords)
variable (fix : Buf (Elt F) ((ixV).view.loc (V d (cV L) (jV L)))) (hfix : FixOk d L fix) (q : PosShare TreeShare)

open Post

/-- A trip's last statement: the copy of slot 4 out to the rows of chunk 5 t + 4, started and left in flight. -/
abbrev restProgE (L : grid1.Coords) (t : Fin k1_t1_loop.trips) : Prog (TpuEff nD τ sig (Elt F) Λ₀ (.scVector (cV L) (jV L))) Unit := do
  Prog.lift (.enqueueDma sl4 (.here ((oV).slice (Rect.unit (s := S320000x128) (k1_off5 L t 4#32) S40x128.size (k1_off5_inb L t 4)) (fun _ => rfl)))
    (.dma cc1_scratch12.sem) ((View.wordExact_bits rfl).reshape _ _) (View.wordExact_bits rfl) ⟨Or.inl rfl, trivial⟩)
  pure ⟨⟩

/-- A trip is its three parts and that copy. -/
theorem body_eqE (v2 : BitVec 32) (t : Fin k1_t1_loop.trips) (u : Unit) :
    k1_t1_body (F := F) L yV (Memref.isWhole_whole _) iV (Memref.isWhole_whole _) oV (Memref.isWhole_whole _) ixV (Memref.isWhole_whole _) rwV (Memref.isWhole_whole _) shV (Memref.isWhole_whole _)
        cc1_scratch3 cc1_scratch4 cc1_scratch5 cc1_scratch6 cc1_scratch7 cc1_scratch8 cc1_scratch9 cc1_scratch10 cc1_scratch11 cc1_scratch12 cc1_scoped0 cc1_scoped1 v2 t u
      = (do
          let r1 ← k1_part1 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 0#32 1#32 t
          let c3 ← k1_part2 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t r1.1 r1.2
          let _v132 ← k1_part3 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t r1.1 c3
          restProgE L t) := rfl

set_option maxHeartbeats 8000000 in
/-- The copy out of slot 4, at any trip and whatever part of the result is held: the slot's landed rows go out to chunk
    5 t + 4's rows of the result. -/
theorem rest_end (t : Fin k1_t1_loop.trips) (n : ℕ) (excl : Finset ℕ) (hex : 5 * t.val + 4 ∉ excl) (Φ : Unit → sProp 𝕄) :
    iprop(SlotLanded m d L fix hfix cc1_scratch7 cc1_scratch12 sl4 (5 * t.val + 4) (s5 fullShare 4) (s5 q 4)
        ∗ OutRes m d L fix hfix n excl
        ∗ (iprop(SlotStor m d L fix hfix cc1_scratch7 cc1_scratch12 sl4 (5 * t.val + 4) (s5 fullShare 4) (s5 q 4)
              ∗ OutRes m d L fix hfix n (insert (5 * t.val + 4) excl)) -∗ Φ ⟨⟩))
      ⊢ wp frame (wpE (defs₀ (F := F)) 𝒱₀ (V d (cV L) (jV L)) none) Set.univ (restProgE (F := F) L t) Φ := by
  have ht := trips_le t
  unfold SlotLanded SlotStor SFl Shares
  iintro ⟨⟨⟨%fb4, %hfb4, Hslot4⟩, ⟨Hsh4, Hix4⟩, Hg4, Hs4⟩, Hout, Hk⟩
  ihave H := (out_take m d L fix hfix n (5 * t.val + 4) excl hex (by omega)) $$ Hout
  icases H with ⟨⟨%fw4, Hw4⟩, Hout⟩
  ihave Hw4' := (Entails.of_eq (pts_oWin5 d L t 4 fullShare fw4)) $$ Hw4
  sl_exec
  sl_step
  iapply Hk
  isplitr [Hout]
  · isplitl [Hs4]
    · iapply (stor_canon' m d L fix hfix cc1_scratch12 sl4 (5 * t.val + 4) (k1_off5 L t 4#32) (k1_off5_inb L t 4) (k1_off5_canon L t 4) fw4 fb4 _ hfb4)
      iexact Hs4
    isplitl [Hsh4 Hix4]
    · isplitl [Hsh4]; · iexact Hsh4
      iexact Hix4
    iexact Hg4
  iexact Hout

set_option maxHeartbeats 4000000 in
/-- The last trip: from the loop's state before it to every slot's copy out in flight. -/
theorem trip_end (t : Fin k1_t1_loop.trips) (ht : t.val = 49) (v2 : BitVec 32) (u : Unit)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : Unit → sProp 𝕄) :
    iprop(Transfers.MayWaits (V d (cV L) (jV L)) (default : HIx 1) O ∗ InvMid m d L fix hfix q t.val ∗ owesW d L O W
        ∗ (iprop(InvEnd m d L fix hfix q ∗ owesW d L O W) -∗ Φ ⟨⟩))
      ⊢ wp frame (wpE (defs₀ (F := F)) 𝒱₀ (V d (cV L) (jV L)) none) Set.univ
          (k1_t1_body L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t u) Φ := by
  rw [body_eqE]
  simp only [wp_bind]
  unfold InvMid owesW
  iintro ⟨#Hmw, ⟨Hs0, Hs1, Hs2, Hs3, Hs4, Hout⟩, ⟨%W0, %hW0, HO⟩, Hk⟩
  iapply (part1_end m d L fix hfix q t ht v2 O W0 hin _)
  isplitr; · iexact Hmw
  isplitl [Hs0]; · iexact Hs0
  isplitl [Hs4]; · iexact Hs4
  isplitl [Hout]; · iexact Hout
  isplitl [HO]; · iexact HO
  iintro %r1 ⟨Hs0, Hs4, Hout, ⟨%W1, %hW1, HO⟩⟩
  iapply (part2_end m d L fix hfix q t ht v2 r1.1 r1.2 O W1 hin _)
  isplitr; · iexact Hmw
  isplitl [Hs1]; · iexact Hs1
  isplitl [Hs2]; · iexact Hs2
  isplitl [Hout]; · iexact Hout
  isplitl [HO]; · iexact HO
  iintro %c3 ⟨Hs1, Hs2, Hout, ⟨%W2, %hW2, HO⟩⟩
  iapply (part3_end m d L fix hfix q t ht v2 r1.1 c3 O W2 hin _)
  isplitr; · iexact Hmw
  isplitl [Hs3]; · iexact Hs3
  isplitl [Hs4]; · iexact Hs4
  isplitl [Hout]; · iexact Hout
  isplitl [HO]; · iexact HO
  iintro %r3 ⟨Hs3, Hs4, Hout, ⟨%W3, %hW3, HO⟩⟩
  iapply (rest_end m d L fix hfix q t (5 * t.val) {5 * t.val, 5 * t.val + 1, 5 * t.val + 2, 5 * t.val + 3} (by simp) _)
  isplitl [Hs4]; · iexact Hs4
  isplitl [Hout]; · iexact Hout
  iintro ⟨Hs4, Hout⟩
  simp only [wp_pure]
  imodintro
  iapply Hk
  rw [ht]
  unfold InvEnd
  isplitr [HO]
  · isplitl [Hs0]; · iexact Hs0
    isplitl [Hs1]; · iexact Hs1
    isplitl [Hs2]; · iexact Hs2
    isplitl [Hs3]; · iexact Hs3
    isplitl [Hs4]; · iexact Hs4
    rw [show ({245, 246, 247, 248, 249} : Finset ℕ) = insert (5 * 49 + 4) {5 * 49, 5 * 49 + 1, 5 * 49 + 2, 5 * 49 + 3} from by decide]
    iexact Hout
  iexists W3; isplitr
  swap; · iexact HO
  ipureintro; intro p hp
  rcases hW3 p hp with h | h; swap; · exact .inr (.inl h)
  rcases hW2 p h with h | h; swap; · exact .inr (.inl h)
  rcases hW1 p h with h | h; swap; · exact .inr (.inl h)
  exact hW0 p h

end Cert.KernelIdeal.KRun

end
-- ==== Proof.KTripEnds.lean ====
/-
  Every trip of the loop keeps its invariant.

  The first trip starts from the state the program's head leaves, the last one ends with every slot's copy out in
  flight, and the trips between them go from the state before trip t to the state before trip t + 1.
-/
import proofs.«205984_g59184649339042_cont_9to1_m_680_25_alg».proof.Proof.KInv
import proofs.«205984_g59184649339042_cont_9to1_m_680_25_alg».proof.Proof.KVal
import proofs.«205984_g59184649339042_cont_9to1_m_680_25_alg».proof.Proof.KTripLib
import proofs.«205984_g59184649339042_cont_9to1_m_680_25_alg».proof.Proof.KLoop
import proofs.«205984_g59184649339042_cont_9to1_m_680_25_alg».proof.Proof.KTripMid
import proofs.«205984_g59184649339042_cont_9to1_m_680_25_alg».proof.Proof.KTripStartTrip
import proofs.«205984_g59184649339042_cont_9to1_m_680_25_alg».proof.Proof.KTripEndTrip

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.KernelIdeal.main_v2_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S320000 EltTy.i32)
local notation "oV" => (Memref.whole Cert.KernelIdeal.main_v3_scv : Memref Cert.KernelIdeal.sig Kind.scVector Space.hbm Cert.KernelIdeal.S320000x128 EltTy.f32)
local notation "ixV" => (Memref.whole Cert.KernelIdeal.cc1_scratch0 : Memref Cert.KernelIdeal.sig Kind.scVector Space.vmem Cert.KernelIdeal.S10000 EltTy.i32)
local notation "rwV" => (Memref.whole Cert.KernelIdeal.cc1_scratch1 : Memref Cert.KernelIdeal.sig Kind.scVector Space.vmem Cert.KernelIdeal.S5x40x128 EltTy.f32)
local notation "shV" => (Memref.whole Cert.KernelIdeal.cc1_scratch2 : Memref Cert.KernelIdeal.sig Kind.scVector Space.shared Cert.KernelIdeal.S10000x128 EltTy.f32)

variable (d : Dev nD) (L : grid1.Coords)
variable (fix : Buf (Elt F) ((ixV).view.loc (V d (cV L) (jV L)))) (hfix : FixOk d L fix) (q : PosShare TreeShare)

open Post

variable (O : CellTallies nD τ sig (HIx 1)) (W : Waits sig (HIx 1))

set_option maxHeartbeats 4000000 in
/-- One trip, whichever: the loop's invariant before it gives the invariant after it. -/
theorem tripOk (v2 : BitVec 32)
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000) :
    TripOk m d L fix hfix q O W v2 := by
  intro t acc
  unfold LInv
  have ht := trips_le t
  by_cases h0 : t.val = 0
  · have e : InvAt m d L fix hfix q t.val = InvStart m d L fix hfix q := by unfold InvAt; rw [if_pos h0]
    have e1 : InvAt m d L fix hfix q (t.val + 1) = InvMid m d L fix hfix q 1 := by
      unfold InvAt; rw [h0, if_neg (by decide), if_pos (by decide)]
    rw [e, e1]
    iintro ⟨#Hmw, Hinv, HO⟩
    iapply (trip_start m d L fix hfix q t h0 v2 acc O W hin _)
    isplitr; · iexact Hmw
    isplitl [Hinv]; · iexact Hinv
    isplitl [HO]; · iexact HO
    iintro ⟨Hinv, HO⟩
    isplitr; · iexact Hmw
    isplitl [Hinv]; · iexact Hinv
    iexact HO
  · by_cases h49 : t.val = 49
    · have e : InvAt m d L fix hfix q t.val = InvMid m d L fix hfix q t.val := by
        unfold InvAt; rw [if_neg h0, if_pos (by omega)]
      have e1 : InvAt m d L fix hfix q (t.val + 1) = InvEnd m d L fix hfix q := by
        unfold InvAt; rw [if_neg (by omega), if_neg (by omega)]
      rw [e, e1]
      iintro ⟨#Hmw, Hinv, HO⟩
      iapply (trip_end m d L fix hfix q t h49 v2 acc O W hin _)
      isplitr; · iexact Hmw
      isplitl [Hinv]; · iexact Hinv
      isplitl [HO]; · iexact HO
      iintro ⟨Hinv, HO⟩
      isplitr; · iexact Hmw
      isplitl [Hinv]; · iexact Hinv
      iexact HO
    · have e : InvAt m d L fix hfix q t.val = InvMid m d L fix hfix q t.val := by
        unfold InvAt; rw [if_neg h0, if_pos (by omega)]
      have e1 : InvAt m d L fix hfix q (t.val + 1) = InvMid m d L fix hfix q (t.val + 1) := by
        unfold InvAt; rw [if_neg (by omega), if_pos (by omega)]
      rw [e, e1]
      iintro ⟨#Hmw, Hinv, HO⟩
      iapply (trip_mid m d L fix hfix q t (by omega) (by omega) v2 O W hin _)
      isplitr; · iexact Hmw
      isplitl [Hinv]; · iexact Hinv
      isplitl [HO]; · iexact HO
      iintro ⟨Hinv, HO⟩
      isplitr; · iexact Hmw
      isplitl [Hinv]; · iexact Hinv
      iexact HO

end Cert.KernelIdeal.KRun

end
-- ==== Proof.KTileMain.lean ====
/-
  The vector subcore's whole task, from its two ingredients: the part before the loop (the staging copy, the index
  copy, the barrier, the first gathers), proved for every subcore under the range of the row numbers, and the fifty
  trips of the loop — the first, the forty-eight between, the last —, each taking the slots and the result from
  their state before the trip to their state before the next. The range of the row numbers enters twice: the
  subcore's copy of its entries of the list holds row numbers of the node table, so that every gather names rows of
  the shared copy, and the gathered rows are then the expected result's rows.
-/
import proofs.«205984_g59184649339042_cont_9to1_m_680_25_alg».proof.Proof.KTile
import proofs.«205984_g59184649339042_cont_9to1_m_680_25_alg».proof.Proof.KPre4
import proofs.«205984_g59184649339042_cont_9to1_m_680_25_alg».proof.Proof.KTripEnds

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-- The vector subcores' task, for every device, SparseCore and subcore, under the range of the row numbers. -/
theorem tile_body (hR : ∀ d, Cert.Spec.RowsInRange (m (eLoc d) : IVec S2x320000 32)) : TileBody (F := F) m :=
  tile_body_of m hR (fun d L O W hO hOlev Φ => pre4 m d L facts (hR d) O W hO hOlev Φ)
    (fun d L O W v2 => tripOk m d L (fixVal m d L) (fixOk m d L (hR d)) (q16 (L 1)) O W v2 (hin' d L (fixVal m d L) (fixOk m d L (hR d))))

end Cert.KernelIdeal.KRun

end
-- ==== Proof.KRun.lean ====
/-
  The whole program's run, from its parts: the vector subcores' task, how a SparseCore's operands split among its
  tasks, @main on the TensorCore, the launch element, and how the TensorCores' final assertions read the final
  memory. The conclusion: every fair run of the thirty-five threads per device terminates, and the result holds, for
  each edge, the transformed feature row of the edge's source node, the four arguments unchanged.
-/
import proofs.«205984_g59184649339042_cont_9to1_m_680_25_alg».proof.Proof.KMain
import proofs.«205984_g59184649339042_cont_9to1_m_680_25_alg».proof.Proof.KPay
import proofs.«205984_g59184649339042_cont_9to1_m_680_25_alg».proof.Proof.KVecSplit
import proofs.«205984_g59184649339042_cont_9to1_m_680_25_alg».proof.Proof.KEnds
import proofs.«205984_g59184649339042_cont_9to1_m_680_25_alg».proof.Proof.KLaunch
import proofs.«205984_g59184649339042_cont_9to1_m_680_25_alg».proof.Proof.KObl
import proofs.«205984_g59184649339042_cont_9to1_m_680_25_alg».proof.Proof.KTileMain

noncomputable section

namespace Cert.KernelIdeal.KRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

local notation "𝕄" => MT nD τ sig (HIx 1) (Elt F) ℕ UU ℕ

/-- What the run leaves: the result at the looked-up rows, the four arguments as launched. -/
def QC : PUnit.{1} × MemSt nD τ sig (Elt F) → Prop := fun r => ∀ c : Dev nD,
  r.2.mem (oLoc c) = oval m c ∧ r.2.mem (xLoc c) = m (xLoc c) ∧ r.2.mem (eLoc c) = m (eLoc c)
    ∧ r.2.mem (w1Loc c) = m (w1Loc c) ∧ r.2.mem (w2Loc c) = m (w2Loc c)

/-- The run from its parts, each taken as stated by the launch theorem. -/
theorem run_main_of [∀ e, Nonempty (Elt F e)]
    (htile : (K (F := F)).TileObl (D (F := F)) 𝒱 (P m) v₀ 0)
    (hvec : (K (F := F)).VecSplit (P m) 0)
    (Rest FIN : Dev nD → sProp 𝕄)
    (hst : ∀ d, Mid m d ⊢ iprop((bigSep Finset.univ fun c : Fin ((K (F := F)).nCore 0) => (P m).st 0 d c) ∗ Rest d))
    (hdn : ∀ d, iprop(Rest d ∗ bigSep Finset.univ fun c : Fin ((K (F := F)).nCore 0) => (P m).dn 0 d c) ⊢ FIN d)
    (u₀ : UU)
    (hu₀ : iprop(ownU u₀ ∗ (P m).oxCred ∗ (K (F := F)).freeSems0) ⊢ |={Set.univ}=> iprop(BI.own (EH (initOf (K (F := F)).hsCells (K (F := F)).hsToks))
      ∗ bigSep Finset.univ (Gd (F := F)) ∗ bigSep Finset.univ fun thr : Thread nD τ => bigSep Finset.univ fun q : Fin 1 => (P m).x q thr))
    (fq : Dev nD → Phys nD τ sig (Elt F) → Prop) (hfin : ∀ d s', iprop(FIN d ∗ SI s') ⊢ (⌜fq d s'⌝ : sProp 𝕄))
    (hQ : ∀ s' : Phys nD τ sig (Elt F), (∀ d, fq d s') → QC m (⟨⟩, s'.mem)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => hvec)
    m ρ main (Gd (F := F)) FIN u₀ hu₀ (hmain_of m ρ (P m) Rest FIN hst hdn) fq hfin (QC m) hQ

/-- The run, under the range of the row numbers: what the vector subcores' lookups need (each gathered row number
    names a row of the transformed features). Every part is proved. -/
theorem run_main [∀ e, Nonempty (Elt F e)] (hR : ∀ d, Cert.Spec.RowsInRange (m (eLoc d) : IVec S2x320000 32)) :
    θ_run (Cert.KernelIdeal.defs (F := F)) (Cert.KernelIdeal.threads (F := F)) ⟨m, fun _ => 0, ρ⟩ (QC m) :=
  run_main_of m ρ (tileObl m (tile_body m hR) facts) (vecSplit m) (Rest m) (FIN m) (hst m) (hdn m) (u₀ (F := F)) (hu₀ m) (fq m) (hfin m) (fun _ h => h)

end Cert.KernelIdeal.KRun

end
-- ==== Proof.BSetup.lean ====
/-
  The kernel program as the SparseCore launch theorem sees it, and the resource algebra its proof
  runs in. The program is @main on the TensorCore (two host operations that cut row 0 out of the edge list, one
  TensorCore kernel that multiplies the node features by the product of the two weight matrices, and one
  SparseCore call) beside the two sequencers and the thirty-two vector subcores. The algebra has four parts:
  the rounds of the launch handshakes, the rounds of the subcore barrier's cells (one cell per vector subcore),
  the rounds of the TensorCore kernel's staging cells, and the counters of the vector subcores' own copies.
-/
import proofs.«205984_g59184649339042_cont_9to1_m_680_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205984_g59184649339042_cont_9to1_m_680_25_alg».proof.Proof.Gen.Kernel
import proofs.«205984_g59184649339042_cont_9to1_m_680_25_alg».proof.Proof.Gen.Kernel.Skeleton

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The kernels' labels, lifted through the one TensorCore pipeline. -/
abbrev ΛP : Labels := Pipeline.Sig Λ₀ (Fin 1) fun p => (pcfgs (F := F) p).Adm
/-- The one SparseCore call: the gather, on both SparseCores, sixteen vector subcores each. -/
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number c. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

/-- The handshakes' rounds: the left factor. -/
abbrev EH : Emb UH (MT nD τ sig (HIx 1) (Elt F) ℕ UU ℕ) := embL
/-- The barrier cells' rounds. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore kernel's staging cells' rounds. -/
def EP : Emb UP (MT nD τ sig (HIx 1) (Elt F) ℕ UU ℕ) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

/-- Node features, edge list, the two weight matrices; row 0 of the edge list cut out and flattened; the
    transformed node features; the result. As locations of device d. -/
abbrev xLoc (d : Dev nD) : Loc nD τ sig := (SparseCore.T d).loc main_arg0
abbrev eLoc (d : Dev nD) : Loc nD τ sig := (SparseCore.T d).loc main_arg1
abbrev w1Loc (d : Dev nD) : Loc nD τ sig := (SparseCore.T d).loc main_arg2
abbrev w2Loc (d : Dev nD) : Loc nD τ sig := (SparseCore.T d).loc main_arg3
abbrev r0Loc (d : Dev nD) : Loc nD τ sig := (SparseCore.T d).loc main_v0
abbrev iLoc (d : Dev nD) : Loc nD τ sig := (SparseCore.T d).loc main_v1
abbrev yLoc (d : Dev nD) : Loc nD τ sig := (SparseCore.T d).loc main_v2
abbrev oLoc (d : Dev nD) : Loc nD τ sig := (SparseCore.T d).loc main_v3

end Cert.Kernel.KRun

end
-- ==== Proof.BVals.lean ====
/-
  What the program's arrays hold at each point, as pure functions of the launch memory: row 0 of the edge list
  cut out (a [1, 320000] array), the same flattened (the list of source-node numbers, one per edge), the node
  features multiplied by the product of the two weight matrices (one row per node), and the result: for edge e
  and channel o, entry o of the transformed row of e's source node.
-/
import proofs.«205984_g59184649339042_cont_9to1_m_680_25_alg».proof.Proof.BSetup
import proofs.«205984_g59184649339042_cont_9to1_m_680_25_alg».proof.Proof.Spec

noncomputable section

namespace Cert.Kernel.KRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

local notation "𝕄" => MT nD τ sig (HIx 1) (Elt F) ℕ UU ℕ

/-- Row 0 of the edge list. -/
def r0val (d : Dev nD) : Buf (Elt F) (r0Loc d) :=
  (extractStridedSlice S1x320000 ![0, 0] (m (eLoc d) : IVec S2x320000 32) slices_S2x320000_S1x320000_0_0 : IVec S1x320000 32)

/-- The same flattened: the source node's number, per edge. -/
def ival (d : Dev nD) : Buf (Elt F) (iLoc d) :=
  (fun i => shapeCast S320000 (r0val m d : IVec S1x320000 32) shapeCasts_S1x320000_S320000 i : IVec S320000 32)

/-- The node features times the product of the two weight matrices: what the TensorCore kernel stores. -/
def yval (d : Dev nD) : Buf (Elt F) (yLoc d) :=
  (k0_pay1 (m (w2Loc d) : FVec F S128x128 .f32) (m (w1Loc d) : FVec F S128x128 .f32) (m (xLoc d) : FVec F S10000x128 .f32) : FVec F S10000x128 .f32)

/-- The result: row (source node of edge e) of the transformed features, at row e. -/
def oval (d : Dev nD) : Buf (Elt F) (oLoc d) :=
  (fun j => (yval m d : FVec F S10000x128 .f32) (ix2 (Cert.Spec.rowIx (m (eLoc d) : IVec S2x320000 32) (j 0)) (j 1 : Fin 128)) : FVec F S320000x128 .f32)

/-- @main's arrays after its two host operations and the TensorCore kernel, before the SparseCore call. -/
abbrev Mid (d : Dev nD) : sProp 𝕄 :=
  iprop((xLoc d ↦{fullShare} m (xLoc d)) ∗ (eLoc d ↦{fullShare} m (eLoc d)) ∗ (w1Loc d ↦{fullShare} m (w1Loc d)) ∗ (w2Loc d ↦{fullShare} m (w2Loc d))
    ∗ (r0Loc d ↦{fullShare} r0val m d) ∗ (iLoc d ↦{fullShare} ival m d) ∗ (yLoc d ↦{fullShare} yval m d) ∗ (oLoc d ↦{fullShare} m (oLoc d)))

end Cert.Kernel.KRun

end
-- ==== Proof.BMainReg.lean ====
/-
  The TensorCore kernel's region inside @main: the pipeline's proof data (four whole-array windows at the one
  grid point: the node features and the two weight matrices fetched, the transformed features written back), the
  body's triple (four loads and one store of the payload the generated skeleton names), and the region's step: from
  the four arrays at their launch contents to the transformed-features array holding that payload of the two weight
  matrices and the node features (the value the set-up module names yval), the three inputs unchanged, while the
  thread goes on owing its start signals.
-/
import proofs.«205984_g59184649339042_cont_9to1_m_680_25_alg».proof.Proof.BSetup
import proofs.«205984_g59184649339042_cont_9to1_m_680_25_alg».proof.Proof.BVals
import proofs.«205984_g59184649339042_cont_9to1_m_680_25_alg».proof.Proof.Gen.Kernel.Launch
import proofs.«205984_g59184649339042_cont_9to1_m_680_25_alg».proof.Proof.Gen.Kernel.Points
import proofs.«205984_g59184649339042_cont_9to1_m_680_25_alg».proof.Proof.Gen.Kernel.Skeleton
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.Kernel.KRun

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig (HIx 1) (Elt F) ℕ UU ℕ

/-! ## What the region entry needs from the launch -/

/-- The staging cells' launch ghost state and the transfers' duty tokens of the one pipeline, on device d. -/
def Gd (d : Dev nD) : sProp 𝕄 :=
  iprop(Pipeline.cellsGhost cfgs (EP (F := F)) 0 d ∗ Pipeline.toksInit cfgs (EP (F := F)) 0 d)

/-- The launch element of the staging cells' rounds. -/
def uP₀ : UP := initOf (Pipeline.cells (nD := nD) (τ := τ) cfgs cellOf_inj) (Pipeline.launchToks (nD := nD) (τ := τ) cfgs cellOf_inj)

omit [FloatOps F] in
theorem fund_Gd : BI.own ((EP (F := F)) uP₀) ⊢ |==> bigSep Finset.univ (Gd (F := F)) := by
  unfold uP₀ Gd
  iintro Hu
  imod (Pipeline.fund_ghost cfgs (EP (F := F)) cellOf_inj) $$ Hu with ⟨Hg, Ht⟩
  imodintro
  rw [bigSep_sep']
  have h1 : (bigSep Finset.univ fun c : Dev nD => bigSep Finset.univ fun p : Fin 1 => (Pipeline.cellsGhost cfgs (EP (F := F)) p c : sProp 𝕄))
      ⊢ bigSep Finset.univ fun c : Dev nD => (Pipeline.cellsGhost cfgs (EP (F := F)) 0 c : sProp 𝕄) :=
    bigSep_mono fun c _ => Entails.of_eq (BI.bigSep_univ_of_subsingleton (0 : Fin 1) (Φ := fun p => Pipeline.cellsGhost cfgs (EP (F := F)) p c))
  have h2 : (bigSep Finset.univ fun c : Dev nD => bigSep Finset.univ fun p : Fin 1 => (Pipeline.toksInit cfgs (EP (F := F)) p c : sProp 𝕄))
      ⊢ bigSep Finset.univ fun c : Dev nD => (Pipeline.toksInit cfgs (EP (F := F)) 0 c : sProp 𝕄) :=
    bigSep_mono fun c _ => Entails.of_eq (BI.bigSep_univ_of_subsingleton (0 : Fin 1) (Φ := fun p => Pipeline.toksInit cfgs (EP (F := F)) p c))
  isplitl [Hg]
  · iapply h1; iexact Hg
  · iapply h2; iexact Ht

namespace Tc

/-- The thread's debt at the region, its recorded pairs at level zero. -/
abbrev owesTc (d : Dev nD) : sProp 𝕄 :=
  iprop(∃ W, ⌜(K (F := F)).WBelow (T d) W 0⌝ ∗ owes (T d) ((K (F := F)).Otc d 0) W)

/-! ## The windows' blocks and what the body stores -/

/-- Device d's TensorCore buffers when the region is entered: as launched. -/
abbrev Vr (d : Dev nD) (b : Ref sig .tc) : Buf (Elt F) ((d : Thread nD τ).loc b) := m ((d : Thread nD τ).loc b)

/-- Window w's block at point t, read off its array. -/
def iblk (d : Dev nD) (w : Fin cfg0.W) (t : Fin cfg0.N) : ((cfg0.win w).xblock (cfg0.grid.coords t)).Idx → Elt F (cfg0.win w).elt :=
  ((cfg0.win w).blk t).view.read (Elt F) (Vr m d (Pipeline.arrRef spec0 w))

abbrev rS : Rect S128x128 := Rect.unit (s := S128x128) ![0, 0] S128x128.size inb_S128x128_S128x128_0_0
abbrev rB : Rect S10000x128 := Rect.unit (s := S10000x128) ![0, 0] S10000x128.size inb_S10000x128_S10000x128_0_0

/-- The output window's staging buffer after the body: its one store as a piece. -/
def out3 (x0 : Vec F S10000x128 .f32) (x1 : Vec F S128x128 .f32) (x2 : Vec F S128x128 .f32) : Vec F S10000x128 .f32 :=
  View.canon [⟨rB, k0_pay1 (View.ld x2 rS) (View.ld x1 rS) (View.ld x0 rB)⟩]

/-- The store covers the buffer. -/
theorem cover3 (p0 : Vec F S10000x128 .f32) (y : S10000x128.Idx) :
    ∃ pc ∈ ([⟨rB, p0⟩] : List (View.Piece (Elt F) S10000x128 .f32)), y ∈ pc.1.set :=
  View.cover_of_tiled [⟨rB, p0⟩] S10000x128.size (by rfl) y

/-! ## The body's triple -/

set_option maxHeartbeats 1000000 in
/-- The kernel body on whole staging memrefs, the three inputs' at given contents and the output's at anything, runs
    to the continuation holding the inputs' as they were and the output's at the stored product. -/
theorem sound_kernel (c : Dev nD) (E : Set ℕ) (arg0 : Memref sig .tc .vmem S10000x128 .f32) (harg0 : arg0.IsWhole) (arg1 : Memref sig .tc .vmem S128x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (x2 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ (∃ dd, owns (c : Thread nD τ) arg3 fullShare dd)
        ∗ (iprop(owns (c : Thread nD τ) arg0 fullShare x0 ∗ owns (c : Thread nD τ) arg1 fullShare x1 ∗ owns (c : Thread nD τ) arg2 fullShare x2 ∗ owns (c : Thread nD τ) arg3 fullShare (out3 x0 x1 x2)) -∗ Kc ⟨⟩))
      ⊢ wp frame (wpE (defs₀ (F := F)) Variants.none c none) E (cc0__dense_body arg0 harg0 arg1 harg1 arg2 harg2 arg3 harg3) Kc := by
  simp only [cc0__dense_body_eq_skeleton]; unfold cc0__dense_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data of the one pipeline on device d: the arrays as the region finds them; after the body each input's
    buffer at its block and the output's at the stored product; the invariant the scoped rest (nothing); full shares;
    the thread owing its start signals throughout, its recorded pairs at level zero. -/
def dats (_ : Fin 1) (d : Dev nD) : Dat τ (Elt F) (HIx 1) ℕ UU ℕ cfg0 d where
  A w := Vr m d (Pipeline.arrRef spec0 w)
  after w t := match w with
    | ⟨0, _⟩ => iblk m d 0 t
    | ⟨1, _⟩ => iblk m d 1 t
    | ⟨2, _⟩ => iblk m d 2 t
    | ⟨3, _⟩ => out3 (iblk m d 0 t) (iblk m d 1 t) (iblk m d 2 t)
  Φ _ := Pipeline.scopedRest spec0 d
  q _ := fullShare
  owed _ := (K (F := F)).Otc d 0
  recorded _ := {p | (K (F := F)).lev ((d : Thread nD τ), p.1) p.2 ≤ 0}

theorem A_eq (d : Dev nD) (w : Fin cfg0.W) : (dats m 0 d).A w = Vr m d (Pipeline.arrRef spec0 w) := by
  dsimp only [dats]

theorem after0_0 (d : Dev nD) (t : Fin cfg0.N) : (dats m 0 d).after 0 t = iblk m d 0 t := by dsimp only [dats]
theorem after0_1 (d : Dev nD) (t : Fin cfg0.N) : (dats m 0 d).after 1 t = iblk m d 1 t := by dsimp only [dats]
theorem after0_2 (d : Dev nD) (t : Fin cfg0.N) : (dats m 0 d).after 2 t = iblk m d 2 t := by dsimp only [dats]
theorem after0_3 (d : Dev nD) (t : Fin cfg0.N) : (dats m 0 d).after 3 t = out3 (iblk m d 0 t) (iblk m d 1 t) (iblk m d 2 t) := by dsimp only [dats]

/-- Each input's current staging buffer holds its block when the body runs. -/
theorem before0_0 (d : Dev nD) (t : Fin cfg0.N) (dd) : (dats m 0 d).before 0 t dd = iblk m d 0 t :=
  ((dats m 0 d).before_in_eq_fetched 0 rfl (fun _ => rfl) (fun _ _ _ => rfl) (fun t => by rw [after0_0]; unfold Dat.blockOf iblk; rw [A_eq]; try rfl) t dd).trans
    (by unfold Dat.fetched Dat.blockOf iblk; rw [A_eq]; try rfl)
theorem before0_1 (d : Dev nD) (t : Fin cfg0.N) (dd) : (dats m 0 d).before 1 t dd = iblk m d 1 t :=
  ((dats m 0 d).before_in_eq_fetched 1 rfl (fun _ => rfl) (fun _ _ _ => rfl) (fun t => by rw [after0_1]; unfold Dat.blockOf iblk; rw [A_eq]; try rfl) t dd).trans
    (by unfold Dat.fetched Dat.blockOf iblk; rw [A_eq]; try rfl)
theorem before0_2 (d : Dev nD) (t : Fin cfg0.N) (dd) : (dats m 0 d).before 2 t dd = iblk m d 2 t :=
  ((dats m 0 d).before_in_eq_fetched 2 rfl (fun _ => rfl) (fun _ _ _ => rfl) (fun t => by rw [after0_2]; unfold Dat.blockOf iblk; rw [A_eq]; try rfl) t dd).trans
    (by unfold Dat.fetched Dat.blockOf iblk; rw [A_eq]; try rfl)

/-! ## The body obligation -/

/-- What the body is called with at point t, the windows one by one, -/
def bodyPre (d : Dev nD) (t : Fin cfg0.N) : sProp 𝕄 :=
  iprop((dats m 0 d).Φ t.castSucc ∗ (dats m 0 d).owesAt none t.castSucc
    ∗ (∃ dd, owns (d : Thread nD τ) (st0_0 t) fullShare ((dats m 0 d).before 0 t dd))
    ∗ (∃ dd, owns (d : Thread nD τ) (st0_1 t) fullShare ((dats m 0 d).before 1 t dd))
    ∗ (∃ dd, owns (d : Thread nD τ) (st0_2 t) fullShare ((dats m 0 d).before 2 t dd))
    ∗ (∃ dd, owns (d : Thread nD τ) (st0_3 t) fullShare ((dats m 0 d).before 3 t dd)))

/-- and what it returns. -/
def bodyPost (d : Dev nD) (t : Fin cfg0.N) : sProp 𝕄 :=
  iprop((dats m 0 d).Φ t.succ ∗ (dats m 0 d).owesAt none t.succ
    ∗ owns (d : Thread nD τ) (st0_0 t) fullShare ((dats m 0 d).after 0 t)
    ∗ owns (d : Thread nD τ) (st0_1 t) fullShare ((dats m 0 d).after 1 t)
    ∗ owns (d : Thread nD τ) (st0_2 t) fullShare ((dats m 0 d).after 2 t)
    ∗ owns (d : Thread nD τ) (st0_3 t) fullShare ((dats m 0 d).after 3 t))

/-- The body at any point: the inputs' memrefs hold their blocks, so the body's triple applies; the invariant and the
    thread's debt pass through unread. -/
theorem sound_body (d : Dev nD) (t : Fin cfg0.N) :
    bodyPre m d t ⊢ wp frame (wpE (defs₀ (F := F)) Variants.none d none) Set.univ (bodyAt0 t) (fun _ => bodyPost m d t) := by
  unfold bodyPre bodyPost bodyAt0
  simp only [before0_0, before0_1, before0_2]
  rw [show (dats m 0 d).Φ t.succ = (dats m 0 d).Φ t.castSucc from rfl,
    show (dats m 0 d).owesAt none t.succ = (dats m 0 d).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel d Set.univ _ _ _ _ _ _ _ _ (iblk m d 0 t) (iblk m d 1 t) (iblk m d 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (d : Dev nD) : BodyObligation (dats (F := F) m 0 d) (defs₀ (F := F)) Variants.none none Set.univ := fun t => by
  rw [bigSep_W0, bigSep_W0]
  exact sound_body m d t

/-! ## What the region leaves in the arrays -/

section Final

variable [∀ e, Nonempty (Elt F e)]

theorem hz : (![0, 0] : Fin 2 → Nat) = fun _ => 0 := funext fun a => by fin_cases a <;> rfl

/-- A whole-array window's block, read off an array's contents, is the contents. -/
theorem read_blk0 (t : Fin cfg0.N) (A : FVec F S10000x128 .f32) : ((cfg0.win 0).blk t).view.read (Elt F) A = A := by
  funext j
  show A (((cfg0.win 0).blk t).view.emb j) = A j
  congr 1
  funext a; apply Fin.ext
  match a with
  | ⟨0, _⟩ => show 0 * 10000 + 1 * (j 0).val = (j 0).val; omega
  | ⟨1, _⟩ => show 0 * 128 + 1 * (j 1).val = (j 1).val; omega
theorem read_blk1 (t : Fin cfg0.N) (A : FVec F S128x128 .f32) : ((cfg0.win 1).blk t).view.read (Elt F) A = A := by
  funext j
  show A (((cfg0.win 1).blk t).view.emb j) = A j
  congr 1
  funext a; apply Fin.ext
  match a with
  | ⟨0, _⟩ => show 0 * 128 + 1 * (j 0).val = (j 0).val; omega
  | ⟨1, _⟩ => show 0 * 128 + 1 * (j 1).val = (j 1).val; omega
theorem read_blk2 (t : Fin cfg0.N) (A : FVec F S128x128 .f32) : ((cfg0.win 2).blk t).view.read (Elt F) A = A := by
  funext j
  show A (((cfg0.win 2).blk t).view.emb j) = A j
  congr 1
  funext a; apply Fin.ext
  match a with
  | ⟨0, _⟩ => show 0 * 128 + 1 * (j 0).val = (j 0).val; omega
  | ⟨1, _⟩ => show 0 * 128 + 1 * (j 1).val = (j 1).val; omega
theorem read_blk3 (t : Fin cfg0.N) (A : FVec F S10000x128 .f32) : ((cfg0.win 3).blk t).view.read (Elt F) A = A := by
  funext j
  show A (((cfg0.win 3).blk t).view.emb j) = A j
  congr 1
  funext a; apply Fin.ext
  match a with
  | ⟨0, _⟩ => show 0 * 10000 + 1 * (j 0).val = (j 0).val; omega
  | ⟨1, _⟩ => show 0 * 128 + 1 * (j 1).val = (j 1).val; omega

theorem iblk0_eq (d : Dev nD) (t : Fin cfg0.N) : iblk m d 0 t = (m (xLoc d) : FVec F S10000x128 .f32) := read_blk0 t _
theorem iblk1_eq (d : Dev nD) (t : Fin cfg0.N) : iblk m d 1 t = (m (w1Loc d) : FVec F S128x128 .f32) := read_blk1 t _
theorem iblk2_eq (d : Dev nD) (t : Fin cfg0.N) : iblk m d 2 t = (m (w2Loc d) : FVec F S128x128 .f32) := read_blk2 t _

/-- What the one point writes back is the product, read through the window. -/
theorem flushed3_eq (d : Dev nD) (t : Fin cfg0.N) :
    (dats m 0 d).flushed 3 t = ((cfg0.win 3).blk t).view.read (Elt F) (yval m d) := by
  show (cfg0.win 3).cut (grid0.coords t) ((dats m 0 d).after 3 t) = _
  rw [after0_3, read_blk3]
  unfold out3
  rw [View.canon_unit_zero hz]
  simp only [View.ld_unit_zero (S := S128x128) hz, View.ld_unit_zero (S := S10000x128) hz]
  rw [iblk0_eq, iblk1_eq, iblk2_eq]
  rfl

/-- The one point's block is the whole array. -/
theorem cover_blk3 (i : S10000x128.Idx) : ∃ t : Fin cfg0.N, (cfg0.win 3).flush t = true ∧ i ∈ ((cfg0.win 3).blk t).view.set := by
  refine ⟨t0_0, flush0_3 t0_0, ?_⟩
  show i ∈ ((View.whole main_v2).slice (win0_3.rect t0_0)).set
  rw [View.set_slice_whole, Rect.mem_set_unit]
  intro a
  match a with
  | ⟨0, _⟩ => show 0 * 10000 ≤ (i 0).val ∧ (i 0).val < 0 * 10000 + 10000; have h0 : (i 0).val < 10000 := (i 0).isLt; omega
  | ⟨1, _⟩ => show 0 * 128 ≤ (i 1).val ∧ (i 1).val < 0 * 128 + 128; have h1 : (i 1).val < 128 := (i 1).isLt; omega

/-- The transformed-features array after the region. -/
theorem final3 (d : Dev nD) : (dats m 0 d).arrAt 3 cfg0.N = yval m d :=
  (dats m 0 d).arrAt_eq_of_cover 3 _ (fun t _ => flushed3_eq m d t) cover_blk3

end Final

/-! ## The region's step -/

section Region

variable [∀ e, Nonempty (Elt F e)]

/-- No prefetched table. -/
abbrev adm : (p : Fin 1) → (pcfgs (F := F) p).Adm := fun p => (cfgs p).toPCfg_adm

/-- The start signals the thread owes are all at a call's index: nothing at the kernels' own index. -/
theorem Otc_none (d : Dev nD) (g : GSem nD τ sig) : (K (F := F)).Otc d 0 g none = 0 := by
  by_contra h
  have h' := SparseCore.Cfg.lev_of_Otc_pos (K := K (F := F)) (d := d) (n := 0) (g := g) (ι := none) (Nat.pos_of_ne_zero h)
  rw [SparseCore.Cfg.lev_none] at h'
  omega

/-- The four windows' arrays at the region's entry, -/
abbrev regIn (d : Dev nD) : sProp 𝕄 :=
  iprop((xLoc d ↦{fullShare} m (xLoc d)) ∗ (w1Loc d ↦{fullShare} m (w1Loc d)) ∗ (w2Loc d ↦{fullShare} m (w2Loc d)) ∗ (yLoc d ↦{fullShare} m (yLoc d)))
/-- and after it. -/
abbrev regOut (d : Dev nD) : sProp 𝕄 :=
  iprop((xLoc d ↦{fullShare} m (xLoc d)) ∗ (w1Loc d ↦{fullShare} m (w1Loc d)) ∗ (w2Loc d ↦{fullShare} m (w2Loc d)) ∗ (yLoc d ↦{fullShare} yval m d))

theorem arrays_entry (d : Dev nD) : regIn m d ⊢ (dats m 0 d).arrays ((dats m 0 d).arrAt · 0) := by
  rw [Pipeline.arrays_eq cfgs (dats m) 0 d launch0.arr_whole ((dats m 0 d).share_full fun _ => rfl), bigSep_W0]
  exact .rfl

theorem arrays_exit (d : Dev nD) : (dats m 0 d).arrays ((dats m 0 d).arrAt · cfg0.N) ⊢ regOut m d := by
  rw [Pipeline.arrays_eq cfgs (dats m) 0 d launch0.arr_whole ((dats m 0 d).share_full fun _ => rfl), bigSep_W0,
    (dats m 0 d).arrAt_in 0 rfl, (dats m 0 d).arrAt_in 1 rfl, (dats m 0 d).arrAt_in 2 rfl, final3]
  exact .rfl

/-- The region's thread states: the thread's debt beside the four arrays. -/
abbrev regPre (d : Dev nD) : sProp 𝕄 := iprop(owesTc (F := F) d ∗ regIn m d)
abbrev regPost (d : Dev nD) : sProp 𝕄 := iprop(owesTc (F := F) d ∗ regOut m d)

set_option backward.isDefEq.respectTransparency.types false in
/-- The region: the windows' decided layout, no semaphore of the kernel's own, the body obligation; the staging cells'
    waits sit at the kernels' own index, below every start signal the thread owes. -/
def reg0 : Pipeline.RegionSeg (pcfgs (F := F)) adm (dats m) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody d := (body_obligation m d).loose
  hwaits d := Pipeline.cellsWaits_intro (Pipeline.pin (pcfgs (F := F)) adm) (dats m) none 0 d fun w s t =>
    (K (F := F)).mayWait_none _ (Otc_none d)
  pre := regPre m
  post := regPost m
  X _ := iprop(emp)
  Y _ := iprop(emp)
  Z _ := iprop(emp)
  hentry d := by
    rw [Pipeline.ownSems0_none]
    iintro ⟨⟨HO, Ha⟩, -, -⟩
    imodintro
    isplitl [Ha]; · iapply (arrays_entry m d); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin d := by
    rw [show (dats m 0 d).Φ 0 = Pipeline.scopedRest spec0 d from rfl]
    iintro ⟨-, -, Hr⟩
    iexact Hr
  hout d := by
    rw [Pipeline.ownSems0_none, show (dats m 0 d).Φ (Fin.last cfg0.N) = Pipeline.scopedRest spec0 d from rfl]
    iintro Hr
    isplitr; · iempintro
    isplitr; · iempintro
    iexact Hr
  hexit d := by
    iintro ⟨Ha, HO, -, -⟩
    imodintro
    isplitl [HO]
    · unfold Pipeline.Dat.owesAt Pipeline.owesWithin
      icases HO with ⟨%W, %hW, HO⟩; iexists W; isplitr
      · ipureintro
        intro p hp
        rcases hW hp with h | ⟨w, s, rfl⟩
        · exact h
        · exact le_of_eq (SparseCore.Cfg.lev_none _ _)
      iexact HO
    iapply (arrays_exit m d); iexact Ha

set_option backward.isDefEq.respectTransparency.types false in
/-- The TensorCore kernel's call in @main: from the boundary, the thread's debt, the four arrays and the staging
    cells' launch ghost state to the boundary, the debt and the arrays after the kernel. -/
theorem region_step (P : (K (F := F)).Pay (nD := nD) (Val := Elt F) (Name := ℕ) (U := UU)) (κ : GSem nD τ sig → ℕ) (d : Dev nD) (Φ : PUnit → sProp 𝕄) :
    iprop((K (F := F)).ctx EH P κ ∗ boundary (T d) ∗ regPre m d ∗ Gd (F := F) d
        ∗ ((boundary (T d) ∗ regPost m d) -∗ Φ ⟨⟩))
      ⊢ wp frame (wpE ((K (F := F)).defs (D (F := F))) 𝒱 (SparseCore.T d) none) Set.univ
          (Prog.lift (.customCall (SparseCore.inner (Pipeline.entry 0)) ())) Φ := by
  refine BIBase.Entails.trans ?_ (show wp frame (wpE (D (F := F)) 𝒱 (SparseCore.T d) none) Set.univ (Prog.lift (.customCall (Pipeline.entry 0) ())) Φ
      ⊢ wp frame (wpE ((K (F := F)).defs (D (F := F))) 𝒱 (SparseCore.T d) none) Set.univ (Prog.lift (.customCall (SparseCore.inner (Pipeline.entry 0)) ())) Φ
      from (K (F := F)).wp_liftProg (D (F := F)) 𝒱 (SparseCore.T d) Set.univ none _ Φ)
  refine BIBase.Entails.trans ?_ (Pipeline.RegionSeg.wp (pcfgs (F := F)) adm (dats m) none cellOf_inj (EP (F := F)) defs₀ 𝒱₀ (K (F := F)).L (K (F := F)).lev (reg0 m) d none
      (fun u h => nomatch h) (fun x => .ret x) Φ)
  show _ ⊢ iprop((iprop(boundary (T d) ∗ regPost m d) -∗ wp frame (wpE (D (F := F)) 𝒱 (SparseCore.T d) none) Set.univ (.ret ⟨⟩) Φ)
    ∗ boundary (T d) ∗ regPre m d ∗ levAts (K (F := F)).L (K (F := F)).lev ∗ Gd (F := F) d)
  iintro ⟨#Hctx, Hb, Hpre, HG, Hk⟩
  ihave Hlev := (SparseCore.Cfg.ctx_levAts κ) $$ Hctx
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitr; · iexact Hlev
  iexact HG

end Region

end Tc

end Cert.Kernel.KRun

end
-- ==== Proof.BMain.lean ====
/-
  @main on the TensorCore: the two host operations that cut row 0 out of the edge list and flatten it, the
  TensorCore kernel's region (which leaves the transformed-features array at the value the set-up module names yval),
  and the SparseCore call. Stated for any payload record whose call-0 operands are
  carved out of the arrays as they stand after the region.
-/
import proofs.«205984_g59184649339042_cont_9to1_m_680_25_alg».proof.Proof.BSetup
import proofs.«205984_g59184649339042_cont_9to1_m_680_25_alg».proof.Proof.BVals
import proofs.«205984_g59184649339042_cont_9to1_m_680_25_alg».proof.Proof.Gen.Kernel.Launch
import proofs.«205984_g59184649339042_cont_9to1_m_680_25_alg».proof.Proof.Gen.Kernel.Points
import proofs.«205984_g59184649339042_cont_9to1_m_680_25_alg».proof.Proof.BMainReg

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]
variable (m : (ℓ : Loc nD τ sig) → Buf (Elt F) ℓ) (ρ : Dev nD → PrngReg)

local notation "𝕄" => MT nD τ sig (HIx 1) (Elt F) ℕ UU ℕ

namespace Tc

/-! ## @main's arrays -/

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (eLoc d ↦{fullShare} W main_arg1) ∗ (w1Loc d ↦{fullShare} W main_arg2) ∗ (w2Loc d ↦{fullShare} W main_arg3)
          ∗ (r0Loc d ↦{fullShare} W main_v0) ∗ (iLoc d ↦{fullShare} W main_v1) ∗ (yLoc d ↦{fullShare} W main_v2) ∗ (oLoc d ↦{fullShare} W main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The two host operations -/

abbrev e' : DevRef τ sig := Proc.devRef .tc (main_arg1 : Ref sig .tc)
abbrev r0' : DevRef τ sig := Proc.devRef .tc (main_v0 : Ref sig .tc)
abbrev i' : DevRef τ sig := Proc.devRef .tc (main_v1 : Ref sig .tc)
/-- Row 0 of the edge list cut out; -/
abbrev opSlice : HloOp τ sig (Elt F) :=
  StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F))
/-- and flattened. -/
abbrev opFlat : HloOp τ sig (Elt F) := StableHlo.reshape main_v0 main_v1 rfl shapeCasts_S1x320000_S320000

abbrev S1 : Finset (DevRef τ sig) := {e', r0'}
abbrev S2 : Finset (DevRef τ sig) := {r0', i'}

/-- The launch valuation, and the one after the slice. -/
def V0 (d : Dev nD) : Valuation τ sig (Elt F) := fun b => m (d, b)
abbrev V1 (d : Dev nD) : Valuation τ sig (Elt F) := (opSlice (F := F)).result (V0 m d)

omit [FloatOps F] in
theorem held_S1 (d : Dev nD) (W : Valuation τ sig (Elt F)) :
    (held (T d) S1 W : sProp 𝕄) = iprop((eLoc d ↦{fullShare} W e') ∗ (r0Loc d ↦{fullShare} W r0')) := by
  unfold held S1
  rw [SparseCore.bigSep_insert' (by decide), bigSep_singleton]
omit [FloatOps F] in
theorem held_S2 (d : Dev nD) (W : Valuation τ sig (Elt F)) :
    (held (T d) S2 W : sProp 𝕄) = iprop((r0Loc d ↦{fullShare} W r0') ∗ (iLoc d ↦{fullShare} W i')) := by
  unfold held S2
  rw [SparseCore.bigSep_insert' (by decide), bigSep_singleton]

theorem hS1 : (opSlice (F := F)).bufs ⊆ S1 := show ({e', r0'} : Finset (DevRef τ sig)) ⊆ S1 by decide
theorem hS2 : (opFlat (F := F)).bufs ⊆ S2 := show ({r0', i'} : Finset (DevRef τ sig)) ⊆ S2 by decide

theorem V1_e (d : Dev nD) : (opSlice (F := F)).result (V0 m d) e' = m (eLoc d) :=
  StableHlo.unary_result_ne _ _ _ _ _ (V0 m d) (show (main_arg1 : Ref sig .tc) ≠ main_v0 by decide)
theorem V1_r0 (d : Dev nD) : (opSlice (F := F)).result (V0 m d) r0' = r0val m d := StableHlo.unary_result _ _ _ _ _ (V0 m d)
theorem V1_i (d : Dev nD) : (opSlice (F := F)).result (V0 m d) i' = m (iLoc d) :=
  StableHlo.unary_result_ne _ _ _ _ _ (V0 m d) (show (main_v1 : Ref sig .tc) ≠ main_v0 by decide)
theorem V2_r0 (d : Dev nD) : (opFlat (F := F)).result (V1 m d) r0' = r0val m d :=
  (StableHlo.reshape_result_ne _ _ _ _ _ _ (V1 m d) (show (main_v0 : Ref sig .tc) ≠ main_v1 by decide)).trans (V1_r0 m d)
theorem V2_i (d : Dev nD) : (opFlat (F := F)).result (V1 m d) i' = ival m d := by
  refine (StableHlo.reshape_result _ _ _ _ _ _ (V1 m d)).trans ?_
  unfold ival; rw [← V1_r0]; rfl

/-! ## The thread's state around the region -/

/-- The rest of the TensorCore's state before call 0: its positions, rounds, tokens and credit. -/
abbrev tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom (Q := 1) 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt0_eq (d : Dev nD) : (K (F := F)).tcSt EH d 0 = iprop(owesTc (F := F) d ∗ tcRest (F := F) d) := rfl

end Tc

open Tc

/-! ## @main -/

theorem hmain_of [∀ e, Nonempty (Elt F e)] (P : (K (F := F)).Pay (nD := nD) (Val := Elt F) (Name := ℕ) (U := UU)) (Rest FIN : Dev nD → sProp 𝕄)
    (hst : ∀ d, Mid m d ⊢ iprop((bigSep Finset.univ fun c : Fin ((K (F := F)).nCore 0) => P.st 0 d c) ∗ Rest d))
    (hdn : ∀ d, iprop(Rest d ∗ bigSep Finset.univ fun c : Fin ((K (F := F)).nCore 0) => P.dn 0 d c) ⊢ FIN d)
    (κ : GSem nD τ sig → ℕ) (d : Dev nD) :
    iprop((K (F := F)).ctx EH P κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN d) := by
  unfold SparseCore.Cfg.tcRes
  rw [unscopedBufs_eq, tcSt0_eq]
  simp only [main, wp_bind, wp_pure]
  iintro ⟨#Hctx, ⟨HO, Hrest⟩, ⟨Hb, ⟨Hx, He, Hw1, Hw2, Hr0, Hi, Hy, Ho⟩, -, -⟩, HG⟩
  -- row 0 of the edge list
  iapply (wp_hlo_within 𝒱 (SparseCore.T d) none Set.univ (op := opSlice) (S := S1) hS1 (V := V0 m d)) $$ [Hb He Hr0]
  · isplitl [Hb]; · iexact Hb
    rw [held_S1]
    isplitl [He]; · iexact He
    iexact Hr0
  iintro ⟨Hb, Hheld⟩
  rw [wp_ret]; imodintro
  ihave Hh := (Entails.of_eq (held_S1 (F := F) d _)) $$ Hheld
  icases Hh with ⟨He, Hr0⟩
  -- flattened
  iapply (wp_hlo_within 𝒱 (SparseCore.T d) none Set.univ (op := opFlat) (S := S2) hS2 (V := (opSlice (F := F)).result (V0 m d))) $$ [Hb Hr0 Hi]
  · isplitl [Hb]; · iexact Hb
    rw [held_S2, V1_i]
    isplitl [Hr0]; · iexact Hr0
    iexact Hi
  iintro ⟨Hb, Hheld⟩
  rw [wp_ret]; imodintro
  ihave Hh := (Entails.of_eq (held_S2 (F := F) d _)) $$ Hheld
  rw [V2_r0, V2_i, V1_e]
  icases Hh with ⟨Hr0, Hi⟩
  -- the TensorCore kernel
  iapply (region_step m P κ d) $$ [HO Hb Hx Hw1 Hw2 Hy HG Hrest He Hr0 Hi Ho]
  isplitr; · iexact Hctx
  isplitl [Hb]; · iexact Hb
  isplitl [HO Hx Hw1 Hw2 Hy]
  · isplitl [HO]; · iexact HO
    isplitl [Hx]; · iexact Hx
    isplitl [Hw1]; · iexact Hw1
    isplitl [Hw2]; · iexact Hw2
    iexact Hy
  isplitl [HG]; · iexact HG
  iintro ⟨Hb, HO, Hx, Hw1, Hw2, Hy⟩
  -- the SparseCore call
  ihave Hmid := (hst d) $$ [Hx He Hw1 Hw2 Hr0 Hi Hy Ho]
  · isplitl [Hx]; · iexact Hx
    isplitl [He]; · iexact He
    isplitl [Hw1]; · iexact Hw1
    isplitl [Hw2]; · iexact Hw2
    isplitl [Hr0]; · iexact Hr0
    isplitl [Hi]; · iexact Hi
    isplitl [Hy]; · iexact Hy
    iexact Ho
  icases Hmid with ⟨Hst0, HR⟩
  iapply ((K (F := F)).wp_run (D (F := F)) 𝒱 (EH := EH) (P := P) κ d 0) $$ [HO Hrest Hst0 HR]
  isplitr; · iexact Hctx
  isplitl [HO Hrest]
  · ihave Hst' := (Entails.of_eq (tcSt0_eq (F := F) d).symm) $$ [HO Hrest]
    · isplitl [HO]; · iexact HO
      iexact Hrest
    iexact Hst'
  isplitl [Hst0]; · iexact Hst0
  iintro ⟨Hst, Hdn⟩
  imodintro
  ihave Hst' := (Entails.of_eq (show (K (F := F)).tcSt EH d ((0 : Fin 1).val + 1) = (K (F := F)).tcSt EH d 1 from rfl)) $$ Hst
  isplitl [Hst']; · iexact Hst'
  iapply (hdn d)
  isplitl [HR]; · iexact HR
  iexact Hdn

end Cert.Kernel.KRun

end
-- ==== Proof.BCells.lean ====
/-
  The blocks the vector subcores work on, and the subcore barrier's cells.

  Of the sixteen vector subcores of a SparseCore the first ten each copy a block of 1000 rows of the transformed
  node features into the SparseCore's shared memory; all sixteen then meet at the barrier, after which every one
  of them reads the whole shared copy. So the barrier carries ownership: arriving, subcore n (n < 10) hands to
  every subcore j of its SparseCore a read share of its block, at the contents it copied; leaving, subcore j has
  collected a read share of all ten blocks, that is, of the whole shared array.
  Subcore i of SparseCore c is worker 2 i + c of thirty-two: it owns entries [10000 w, 10000 (w + 1)) of the list
  of source nodes and the same rows of the result.
-/
import proofs.«205984_g59184649339042_cont_9to1_m_680_25_alg».proof.Proof.BVals

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Blocks -/

theorem hdiv10 : 10 ∣ S10000x128.size 0 := ⟨1000, rfl⟩
theorem hdiv32i : 32 ∣ S320000.size 0 := ⟨10000, rfl⟩
theorem hdiv32o : 32 ∣ S320000x128.size 0 := ⟨10000, rfl⟩
/-- Rows [1000 n, 1000 (n + 1)) of the node table. -/
abbrev stageRect (n : Fin 10) : Rect S10000x128 := Rect.part (s := S10000x128) (a₀ := 0) hdiv10 n
/-- Entries [10000 w, 10000 (w + 1)) of the list of source nodes. -/
abbrev idxRect (w : Fin 32) : Rect S320000 := Rect.part (s := S320000) (a₀ := 0) hdiv32i w
/-- Rows [10000 w, 10000 (w + 1)) of the result. -/
abbrev outRect (w : Fin 32) : Rect S320000x128 := Rect.part (s := S320000x128) (a₀ := 0) hdiv32o w
/-- Block n of the node table as a set of elements; nothing for n ≥ 10. -/
def stageSet (n : ℕ) : Finset S10000x128.Idx := if h : n < 10 then (stageRect ⟨n, h⟩).set else ∅
/-- The worker number of vector subcore i of SparseCore c. -/
def wid (c : Fin 2) (i : Fin 16) : Fin 32 := ⟨2 * i.val + c.val, by omega⟩

theorem nSub_eq : τ.nSub = 16 := rfl
theorem nSC_eq : τ.nSC = 2 := rfl

/-- SparseCore c's shared copy of the transformed node features, as every vector subcore of it addresses it. -/
abbrev shRef (c : Fin τ.nSC) : DevRef τ sig := ⟨.shared, ⟨0, by decide⟩, c⟩
abbrev shLoc (d : Dev nD) (c : Fin τ.nSC) : Loc nD τ sig := (d, shRef c)

/-! ## Sixteen read shares of the whole -/

/-- The full share halved k times to the right. -/
def rk (k : ℕ) : PosShare TreeShare := (PosShare.right)^[k] fullShare
/-- The share of the shared copy that vector subcore j ends with: the left half of what is left after j halvings,
    the last subcore taking all that is left. The sixteen make up the full share. -/
def q16 (j : Fin 16) : PosShare TreeShare := if j.val < 15 then (rk j.val).left else rk 15

variable [FloatOps F]
variable (m : (ℓ : Loc nD τ sig) → Buf (Elt F) ℓ)

/-- The shared copy's contents once staged: the transformed node features. -/
def shval (d : Dev nD) (c : Fin τ.nSC) : Buf (Elt F) (shLoc d c) := (yval m d : FVec F S10000x128 .f32)

/-! ## The barrier cells -/

/-- Vector subcore (c, j)'s barrier semaphore of device d. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What subcore n's arrival hands subcore j's round: a read share of block n of the shared copy, at the staged
    contents (nothing from the six subcores that stage no block). -/
def bPay (g : GSem nD τ sig) (n : ℕ) : sProp 𝕄 :=
  match g with
  | ((d, .scVector c j), _) => if n < 10 then iprop(shLoc d c ↦[stageSet n]{q16 (Fin.cast nSub_eq j)} shval m d c) else iprop(emp)
  | _ => iprop(emp)

/-- The barrier cells' schedule: one round on each, one unit duty per vector subcore of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a vector subcore of SparseCore c owe for the barrier: a unit on every subcore's cell. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A vector subcore's barrier kit: every cell's invariant of its SparseCore and that each has reached round 0, its
    duty token in every cell's round 0, its own position at the origin of round 0, and the credit for the sixteen
    units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) m) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

end Cert.Kernel.KRun

end
-- ==== Proof.BPay.lean ====
/-
  What the launch handshakes carry. The TensorCore hands each SparseCore, for the one call: a read share of
  the transformed node features (each SparseCore half), and for each of its sixteen workers the worker's
  entries of the list of source nodes and the worker's rows of the result. The sequencer hands each vector
  subcore its worker's entries and rows, and — to the ten that stage — its block of the features (in HBM, at
  the SparseCore's share) and the same block of the SparseCore's shared memory, to be overwritten. A vector
  subcore hands back its entries unchanged, its rows of the result holding the looked-up rows, its HBM block,
  and a sixteenth read share of the WHOLE shared copy, which now holds the features; the sixteen shares make
  the shared array whole again for the sequencer.
-/
import proofs.«205984_g59184649339042_cont_9to1_m_680_25_alg».proof.Proof.BCells

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-- The elements of worker w's entries of the list of source nodes, and of its rows of the result. -/
abbrev idxSet (w : Fin 32) : Finset S320000.Idx := (idxRect w).set
abbrev outSet (w : Fin 32) : Finset S320000x128.Idx := (outRect w).set

/-- SparseCore c's read share of the transformed features in HBM: a half each. -/
def qY (c : Fin 2) : PosShare TreeShare := if c.val = 0 then fullShare.left else fullShare.right

/-- The SparseCore and the worker of the call's core number c and subcore number i. -/
abbrev c2 (c : Fin ((K (F := F)).nCore 0)) : Fin 2 := Fin.cast nCore_zero c
abbrev i16 (i : Fin ((K (F := F)).nSub 0)) : Fin 16 := Fin.cast nSub_zero i

/-- A worker's rows of the result hold the looked-up rows. -/
def GoodRows (d : Dev nD) (w : Fin 32) (f : Buf (Elt F) (oLoc d)) : Prop := ∀ j ∈ outSet w, (f : FVec F S320000x128 .f32) j = (oval m d : FVec F S320000x128 .f32) j

def P : (K (F := F)).Pay (nD := nD) (Val := Elt F) (Name := ℕ) (U := UU) where
  st := fun q d c => match q with
    | 0 => iprop((yLoc d ↦{qY (c2 c)} yval m d)
        ∗ bigSep Finset.univ fun i : Fin 16 => iprop((iLoc d ↦[idxSet (wid (c2 c) i)]{fullShare} ival m d) ∗ (oLoc d ↦[outSet (wid (c2 c) i)]{fullShare} m (oLoc d))))
  dn := fun q d c => match q with
    | 0 => iprop((yLoc d ↦{qY (c2 c)} yval m d)
        ∗ bigSep Finset.univ fun i : Fin 16 => iprop((iLoc d ↦[idxSet (wid (c2 c) i)]{fullShare} ival m d)
            ∗ ∃ f, ⌜GoodRows m d (wid (c2 c) i) f⌝ ∗ (oLoc d ↦[outSet (wid (c2 c) i)]{fullShare} f)))
  go := fun q d c i => match q with
    | 0 => iprop((iLoc d ↦[idxSet (wid (c2 c) (i16 i))]{fullShare} ival m d) ∗ (oLoc d ↦[outSet (wid (c2 c) (i16 i))]{fullShare} m (oLoc d))
        ∗ (yLoc d ↦[stageSet i.val]{qY (c2 c)} yval m d) ∗ ∃ f, shLoc d (coreOf c) ↦[stageSet i.val]{fullShare} f)
  td := fun q d c i => match q with
    | 0 => iprop((iLoc d ↦[idxSet (wid (c2 c) (i16 i))]{fullShare} ival m d)
        ∗ (∃ f, ⌜GoodRows m d (wid (c2 c) (i16 i)) f⌝ ∗ (oLoc d ↦[outSet (wid (c2 c) (i16 i))]{fullShare} f))
        ∗ (yLoc d ↦[stageSet i.val]{qY (c2 c)} yval m d) ∗ (shLoc d (coreOf c) ↦{q16 (i16 i)} shval m d (coreOf c)))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => by unfold P; dsimp only; infer_instance
  dn q d c := match q with
    | 0 => by unfold P; dsimp only; infer_instance
  go q d c i := match q with
    | 0 => by unfold P; dsimp only; infer_instance
  td q d c i := match q with
    | 0 => by unfold P; dsimp only; infer_instance

end Cert.Kernel.KRun

end
-- ==== Proof.BShares.lean ====
/-
  The full share as sixteen read shares.

  Halving the full share to the right again and again, and keeping each left half, cuts it into the pieces
  L₀, L₁, …, L₁₄ and the remainder R₁₅, where R₀ is the full share, R_k = L_k + R_{k+1}. A points-to assertion at
  the full share is therefore the separating conjunction of the sixteen points-to assertions at these pieces.
-/
import proofs.«205984_g59184649339042_cont_9to1_m_680_25_alg».proof.Proof.BCells
import Idealize.ShloMosaic.Lib.Ring

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- One more halving: the remainder after k + 1 halvings is the right half of the remainder after k. -/
theorem rk_succ (k : ℕ) : rk (k + 1) = (rk k).right := by
  unfold rk; exact Function.iterate_succ_apply' _ _ _

/-- The remainder after k halvings is its left half together with the remainder after k + 1. -/
theorem pointsTo_rk_split {ℓ : Loc nD τ sig} (I : Finset (Idx ℓ)) (f : Buf (Elt F) ℓ) (k : ℕ) :
    (ℓ ↦[I]{rk k} f : sProp 𝕄) = iprop((ℓ ↦[I]{(rk k).left} f) ∗ ℓ ↦[I]{rk (k + 1)} f) := by
  rw [rk_succ]
  have h : (ℓ ↦[I]{rk k} f : sProp 𝕄) ⊣⊢ iprop((ℓ ↦[I]{(rk k).left} f) ∗ ℓ ↦[I]{(rk k).right} f) :=
    pointsTo_share (PosShare.mem_left_op_right (rk k))
  exact BI.equiv_iff.mp ⟨h.1, h.2⟩

/-- The full share is the first n left halves together with the remainder after n halvings. -/
theorem pointsTo_rk_chain {ℓ : Loc nD τ sig} (I : Finset (Idx ℓ)) (f : Buf (Elt F) ℓ) (n : ℕ) :
    (ℓ ↦[I]{fullShare} f : sProp 𝕄)
      = iprop(bigSep (Finset.range n) (fun j => (ℓ ↦[I]{(rk j).left} f : sProp 𝕄)) ∗ ℓ ↦[I]{rk n} f) := by
  induction n with
  | zero =>
    rw [Finset.range_zero, bigSep_empty]
    exact (BI.equiv_iff.mp BI.emp_sep).symm
  | succ n ih =>
    rw [ih, pointsTo_rk_split I f n, Finset.range_add_one, bigSep_insert Finset.notMem_range_self]
    exact BI.equiv_iff.mp ⟨BI.sep_assoc'.trans (BI.sep_mono BI.sep_comm (.refl _)),
      (BI.sep_mono BI.sep_comm (.refl _)).trans BI.sep_assoc⟩

/-- A points-to assertion at the full share is the sixteen points-to assertions at the shares q16. -/
theorem pointsTo_q16 {ℓ : Loc nD τ sig} (I : Finset (Idx ℓ)) (f : Buf (Elt F) ℓ) :
    (ℓ ↦[I]{fullShare} f : sProp 𝕄) = bigSep Finset.univ fun j : Fin 16 => (ℓ ↦[I]{q16 j} f : sProp 𝕄) := by
  rw [Ring.bigSep_fin_eq_range 16 _ (fun t => (ℓ ↦[I]{if t < 15 then (rk t).left else rk 15} f : sProp 𝕄)) (fun t h => rfl),
    show Finset.range 16 = insert 15 (Finset.range 15) from Finset.range_add_one,
    bigSep_insert Finset.notMem_range_self,
    bigSep_congr (Ψ := fun j => (ℓ ↦[I]{(rk j).left} f : sProp 𝕄)) (fun t ht => by rw [if_pos (Finset.mem_range.mp ht)]),
    pointsTo_rk_chain I f 15]
  exact BI.equiv_iff.mp ⟨BI.sep_comm, BI.sep_comm⟩

end Cert.Kernel.KRun

end
-- ==== Proof.BStage.lean ====
/-
  The ten staged blocks tile the node table.

  Block n (n < 10) is rows [1000 n, 1000 (n + 1)) of the 10000-row table: different blocks share no element and
  together they are the whole table. So a points-to assertion on the whole shared copy, at any share, is the
  separating conjunction of the ten points-to assertions on its blocks.
-/
import proofs.«205984_g59184649339042_cont_9to1_m_680_25_alg».proof.Proof.BCells

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Below ten, block n is the n-th of the ten equal parts of the table along its rows. -/
theorem stageSet_of_lt {n : ℕ} (h : n < 10) : stageSet n = (stageRect ⟨n, h⟩).set := dif_pos h

/-- From ten on there is no block. -/
theorem stageSet_of_ge {n : ℕ} (h : 10 ≤ n) : stageSet n = ∅ := dif_neg (by omega)

/-- Different blocks share no element. -/
theorem stageSet_disjoint : ∀ n ∈ Finset.range 10, ∀ n' ∈ Finset.range 10, n ≠ n' → Disjoint (stageSet n) (stageSet n') := by
  intro n hn n' hn' hne
  rw [stageSet_of_lt (Finset.mem_range.mp hn), stageSet_of_lt (Finset.mem_range.mp hn')]
  exact Rect.part_disjoint hdiv10 (fun e => hne (congrArg Fin.val e))

/-- The ten blocks are the whole table. -/
theorem stageSet_cover : (Finset.range 10).biUnion stageSet = Finset.univ := by
  ext i
  refine ⟨fun _ => Finset.mem_univ i, fun _ => ?_⟩
  obtain ⟨j, hj⟩ := Rect.exists_mem_part hdiv10 i
  refine Finset.mem_biUnion.mpr ⟨j.val, Finset.mem_range.mpr j.isLt, ?_⟩
  rw [stageSet_of_lt j.isLt]
  exact hj

/-- The whole shared copy, at any share and any contents, is its ten blocks. -/
theorem pointsTo_stages (d : Dev nD) (c : Fin τ.nSC) (q : PosShare TreeShare) (f : Buf (Elt F) (shLoc d c)) :
    (shLoc d c ↦{q} f : sProp 𝕄) = bigSep (Finset.range 10) fun n => (shLoc d c ↦[stageSet n]{q} f : sProp 𝕄) := by
  rw [← pointsTo_biUnion (Finset.range 10) (ℓ := shLoc d c) stageSet stageSet_disjoint, stageSet_cover]

end Cert.Kernel.KRun

end
-- ==== Proof.BVecSplit.lean ====
/-
  How a SparseCore's operands split among its sixteen vector subcores, and how their results gather.

  The SparseCore holds a read share of the transformed node features, and for each of its sixteen workers the
  worker's entries of the list of source nodes and its rows of the result; among the sequencer's own buffers is
  the SparseCore's shared array. Going out, the features' share and the shared array are each cut into the
  sixteen blocks of the node table (ten blocks of 1000 rows that tile it, and six empty ones), one per subcore;
  the entries and rows are already dealt per worker. Coming back, the features' blocks make the share whole
  again, the entries and rows are as the workers left them, and the sixteen read shares of the whole shared
  array, one from each subcore, add up to the full share: the shared array is the sequencer's again.
-/
import proofs.«205984_g59184649339042_cont_9to1_m_680_25_alg».proof.Proof.BPay
import proofs.«205984_g59184649339042_cont_9to1_m_680_25_alg».proof.Proof.BShares
import proofs.«205984_g59184649339042_cont_9to1_m_680_25_alg».proof.Proof.BStage

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-! ## The pieces, and the payload's fields written over them -/

/-- Worker (c, i)'s entries of the list of source nodes. -/
abbrev idxPts (d : Dev nD) (c : Fin 2) (i : Fin 16) : sProp 𝕄 := iLoc d ↦[idxSet (wid c i)]{fullShare} ival m d
/-- Its rows of the result, before the call. -/
abbrev outPts (d : Dev nD) (c : Fin 2) (i : Fin 16) : sProp 𝕄 := oLoc d ↦[outSet (wid c i)]{fullShare} m (oLoc d)
/-- Its rows of the result, holding the looked-up rows. -/
abbrev outDone (d : Dev nD) (c : Fin 2) (i : Fin 16) : sProp 𝕄 :=
  iprop(∃ f, ⌜GoodRows m d (wid c i) f⌝ ∗ (oLoc d ↦[outSet (wid c i)]{fullShare} f))
/-- Block n of the transformed features, at SparseCore c's share. -/
abbrev yBlk (d : Dev nD) (c : Fin 2) (n : ℕ) : sProp 𝕄 := yLoc d ↦[stageSet n]{qY c} yval m d
/-- Block n of the shared array, at some contents. -/
abbrev shBlk (d : Dev nD) (c : Fin τ.nSC) (n : ℕ) : sProp 𝕄 := iprop(∃ f, shLoc d c ↦[stageSet n]{fullShare} f)
/-- Subcore j's read share of the whole shared array, holding the features. -/
abbrev shShare (d : Dev nD) (c : Fin τ.nSC) (j : Fin 16) : sProp 𝕄 := shLoc d c ↦{q16 j} shval m d c

/-- What a task is handed, and what it hands back, by the task's number below sixteen. -/
abbrev goOf (d : Dev nD) (c : Fin 2) (cc : Fin τ.nSC) (j : Fin 16) : sProp 𝕄 :=
  iprop(idxPts m d c j ∗ outPts m d c j ∗ yBlk m d c j.val ∗ shBlk (F := F) d cc j.val)
abbrev tdOf (d : Dev nD) (c : Fin 2) (cc : Fin τ.nSC) (j : Fin 16) : sProp 𝕄 :=
  iprop(idxPts m d c j ∗ outDone m d c j ∗ yBlk m d c j.val ∗ shShare m d cc j)

theorem P_st0 (d : Dev nD) (c : Fin ((K (F := F)).nCore 0)) :
    (P m).st 0 d c = iprop((yLoc d ↦{qY (c2 c)} yval m d)
      ∗ bigSep Finset.univ fun i : Fin 16 => iprop(idxPts m d (c2 c) i ∗ outPts m d (c2 c) i)) := rfl
theorem P_dn0 (d : Dev nD) (c : Fin ((K (F := F)).nCore 0)) :
    (P m).dn 0 d c = iprop((yLoc d ↦{qY (c2 c)} yval m d)
      ∗ bigSep Finset.univ fun i : Fin 16 => iprop(idxPts m d (c2 c) i ∗ outDone m d (c2 c) i)) := rfl
theorem P_go0 (d : Dev nD) (c : Fin ((K (F := F)).nCore 0)) (i : Fin ((K (F := F)).nSub 0)) :
    (P m).go 0 d c i = goOf m d (c2 c) (coreOf c) (i16 i) := rfl
theorem P_td0 (d : Dev nD) (c : Fin ((K (F := F)).nCore 0)) (i : Fin ((K (F := F)).nSub 0)) :
    (P m).td 0 d c i = tdOf m d (c2 c) (coreOf c) (i16 i) := rfl

/-! ## Sixteen blocks that tile the node table -/

omit [FloatOps F] in
/-- Any two different blocks share no element: below ten by the tiling, from ten on a block is empty. -/
theorem stageSet_disjoint' (n n' : ℕ) (h : n ≠ n') : Disjoint (stageSet n) (stageSet n') := by
  by_cases hn : n < 10
  · by_cases hn' : n' < 10
    · exact stageSet_disjoint n (Finset.mem_range.mpr hn) n' (Finset.mem_range.mpr hn') h
    · rw [stageSet_of_ge (by omega : 10 ≤ n')]; exact Finset.disjoint_empty_right _
  · rw [stageSet_of_ge (by omega : 10 ≤ n)]; exact Finset.disjoint_empty_left _

omit [FloatOps F] in
/-- The sixteen blocks are the whole table. -/
theorem stageSet_cover16 : (Finset.univ : Finset (Fin 16)).biUnion (fun i => stageSet i.val) = Finset.univ := by
  ext x
  refine ⟨fun _ => Finset.mem_univ x, fun _ => ?_⟩
  have hx : x ∈ (Finset.range 10).biUnion stageSet := by rw [stageSet_cover]; exact Finset.mem_univ x
  obtain ⟨n, hn, hxn⟩ := Finset.mem_biUnion.mp hx
  exact Finset.mem_biUnion.mpr ⟨⟨n, by have := Finset.mem_range.mp hn; omega⟩, Finset.mem_univ _, hxn⟩

omit [FloatOps F] in
/-- An array of the table's shape, whole at any share and contents, is its sixteen blocks. -/
theorem pointsTo_blocks16 {ℓ : Loc nD τ sig} (B : ℕ → Finset (Idx ℓ)) (hd : ∀ n n', n ≠ n' → Disjoint (B n) (B n'))
    (hc : (Finset.univ : Finset (Fin 16)).biUnion (fun i => B i.val) = Finset.univ) (q : PosShare TreeShare) (f : Buf (Elt F) ℓ) :
    (ℓ ↦{q} f : sProp 𝕄) = bigSep Finset.univ fun i : Fin 16 => (ℓ ↦[B i.val]{q} f : sProp 𝕄) := by
  rw [← pointsTo_biUnion Finset.univ (ℓ := ℓ) (fun i : Fin 16 => B i.val) (fun i _ j _ h => hd _ _ (fun e => h (Fin.ext e))), hc]

omit [FloatOps F] in
theorem yPts_blocks (d : Dev nD) (q : PosShare TreeShare) (f : Buf (Elt F) (yLoc d)) :
    (yLoc d ↦{q} f : sProp 𝕄) = bigSep Finset.univ fun i : Fin 16 => (yLoc d ↦[stageSet i.val]{q} f : sProp 𝕄) :=
  pointsTo_blocks16 (ℓ := yLoc d) stageSet stageSet_disjoint' stageSet_cover16 q f

omit [FloatOps F] in
theorem shPts_blocks (d : Dev nD) (c : Fin τ.nSC) (q : PosShare TreeShare) (f : Buf (Elt F) (shLoc d c)) :
    (shLoc d c ↦{q} f : sProp 𝕄) = bigSep Finset.univ fun i : Fin 16 => (shLoc d c ↦[stageSet i.val]{q} f : sProp 𝕄) :=
  pointsTo_blocks16 (ℓ := shLoc d c) stageSet stageSet_disjoint' stageSet_cover16 q f

omit [FloatOps F] in
/-- The shared array whole, at some contents, is its sixteen blocks, each at some contents. -/
theorem shBlk_intro (d : Dev nD) (c : Fin τ.nSC) (f : Buf (Elt F) (shLoc d c)) :
    (shLoc d c ↦{fullShare} f : sProp 𝕄) ⊢ bigSep Finset.univ fun i : Fin 16 => shBlk (F := F) d c i.val :=
  (Entails.of_eq (shPts_blocks d c fullShare f)).trans (SparseCore.ent (bigSep_mono
    (Φ := fun i : Fin 16 => (shLoc d c ↦[stageSet i.val]{fullShare} f : sProp 𝕄))
    (Ψ := fun i : Fin 16 => shBlk (F := F) d c i.val)
    fun i _ => BI.BIClass.exists_intro (Φ := fun g => (shLoc d c ↦[stageSet i.val]{fullShare} g : sProp 𝕄)) f))

/-- The sixteen subcores' read shares of the whole shared array add up to the full share. -/
theorem shShare_join (d : Dev nD) (c : Fin τ.nSC) :
    (bigSep Finset.univ fun j : Fin 16 => shShare m d c j) ⊢ (iprop(∃ f, shLoc d c ↦{fullShare} f) : sProp 𝕄) := by
  unfold shShare
  rw [← pointsTo_q16 (ℓ := shLoc d c) Finset.univ (shval m d c)]
  iintro H
  iexists (shval m d c)
  iexact H

omit [FloatOps F] in
/-- Re-indexing the sixteen tasks by the numbers below sixteen. -/
theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

omit [FloatOps F] in
/-- The shared array is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## The split -/

theorem vecSplit : (K (F := F)).VecSplit (P m) 0 := by
  intro d c
  have hgo : (fun i : Fin ((K (F := F)).nSub 0) => (P m).go 0 d c i) = fun i => goOf m d (c2 c) (coreOf c) (i16 i) :=
    funext fun i => P_go0 m d c i
  have htd : (fun i : Fin ((K (F := F)).nSub 0) => (P m).td 0 d c i) = fun i => tdOf m d (c2 c) (coreOf c) (i16 i) :=
    funext fun i => P_td0 m d c i
  rw [hgo, htd, P_st0, P_dn0, bigSep_tasks (F := F) (goOf m d (c2 c) (coreOf c)), bigSep_tasks (F := F) (tdOf m d (c2 c) (coreOf c))]
  simp only [goOf, tdOf, bigSep_sep']
  rw [ownBufs_S, yPts_blocks]
  iintro ⟨⟨Hy, Hi, Ho⟩, ⟨%fsh, Hsh⟩, Hrest⟩; imodintro
  isplitl [Hy Hi Ho Hsh]
  · isplitl [Hi]; · iexact Hi
    isplitl [Ho]; · iexact Ho
    isplitl [Hy]; · iexact Hy
    iapply (shBlk_intro d (coreOf c) fsh); iexact Hsh
  iintro ⟨Hi, Ho, Hy, Hsh⟩
  isplitl [Hi Ho Hy]
  · isplitl [Hy]; · iexact Hy
    isplitl [Hi]; · iexact Hi
    iexact Ho
  isplitl [Hsh]; · iapply (shShare_join m d (coreOf c)); iexact Hsh
  iexact Hrest

end Cert.Kernel.KRun

end
-- ==== Proof.BEnds.lean ====
/-
  The two ends of the SparseCore call on the TensorCore's side, and how the final memory reads the claim.

  Before the call the TensorCore holds its arrays whole. What it hands the two SparseCores is cut out of three
  of them: the transformed node features' full share is the two halves, one per SparseCore; the list of source
  nodes and the result are each the thirty-two workers' blocks of 10000 entries or rows, and worker 2 i + c is
  subcore i of SparseCore c, so the blocks regroup as two families of sixteen. Coming back, the thirty-two
  blocks of the result, each holding the looked-up rows on its own rows, join into the whole result at one
  contents that agrees with the looked-up rows everywhere. Against the final memory each whole array then
  reads as its contents.
-/
import proofs.«205984_g59184649339042_cont_9to1_m_680_25_alg».proof.Proof.BPay
import proofs.«205984_g59184649339042_cont_9to1_m_680_25_alg».proof.Proof.BShares
import proofs.«205984_g59184649339042_cont_9to1_m_680_25_alg».proof.Proof.BVecSplit

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

/-! ## What stays with the TensorCore, and what it ends with -/

/-- The arrays the call does not touch. -/
abbrev Rest (d : Dev nD) : sProp 𝕄 :=
  iprop((xLoc d ↦{fullShare} m (xLoc d)) ∗ (eLoc d ↦{fullShare} m (eLoc d)) ∗ (w1Loc d ↦{fullShare} m (w1Loc d)) ∗ (w2Loc d ↦{fullShare} m (w2Loc d))
    ∗ (r0Loc d ↦{fullShare} r0val m d))

/-- The arguments unchanged and the result whole, at contents that are the looked-up rows. -/
abbrev FIN (d : Dev nD) : sProp 𝕄 :=
  iprop((xLoc d ↦{fullShare} m (xLoc d)) ∗ (eLoc d ↦{fullShare} m (eLoc d)) ∗ (w1Loc d ↦{fullShare} m (w1Loc d)) ∗ (w2Loc d ↦{fullShare} m (w2Loc d))
    ∗ ∃ f, ⌜∀ j, (f : FVec F S320000x128 .f32) j = (oval m d : FVec F S320000x128 .f32) j⌝ ∗ (oLoc d ↦{fullShare} f))

/-! ## Thirty-two workers as two families of sixteen -/

/-- Worker 2 i + c is subcore i of SparseCore c: a bijection. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, i⟩
    refine Prod.ext (Fin.ext ?_) (Fin.ext ?_)
    · show (2 * i.val + c.val) % 2 = c.val
      have := c.isLt; omega
    · show (2 * i.val + c.val) / 2 = i.val
      have := c.isLt; omega
  right_inv w := Fin.ext (by show 2 * (w.val / 2) + w.val % 2 = w.val; omega)

omit [FloatOps F] in
/-- A separating conjunction over the thirty-two workers, regrouped by SparseCore and subcore. -/
theorem bigSep_workers (Φ : Fin 32 → sProp 𝕄) :
    bigSep Finset.univ Φ = iprop((bigSep Finset.univ fun i : Fin 16 => Φ (wid 0 i)) ∗ bigSep Finset.univ fun i : Fin 16 => Φ (wid 1 i)) := by
  rw [bigSep_univ_equiv widEquiv Φ, ← Finset.univ_product_univ, SparseCore.bigSep_product, bigSep_univ_two]
  rfl

omit [FloatOps F] in
/-- Re-indexing the two SparseCores by the numbers below two. -/
theorem bigSep_cores (Φ : Fin 2 → sProp 𝕄) :
    (bigSep Finset.univ fun c : Fin ((K (F := F)).nCore 0) => Φ (c2 c)) = iprop(Φ 0 ∗ Φ 1) := by
  rw [← bigSep_univ_two Φ]
  exact bigSep_congr fun _ _ => congrArg Φ (Fin.ext rfl)

/-! ## The blocks of the list of source nodes and of the result -/

omit [FloatOps F] in
theorem idx_disjoint : ∀ w ∈ (Finset.univ : Finset (Fin 32)), ∀ w' ∈ (Finset.univ : Finset (Fin 32)), w ≠ w' → Disjoint (idxSet w) (idxSet w') :=
  fun _ _ _ _ h => Rect.part_disjoint hdiv32i h
omit [FloatOps F] in
theorem idx_cover : (Finset.univ : Finset (Fin 32)).biUnion idxSet = Finset.univ := Rect.biUnion_part hdiv32i
omit [FloatOps F] in
theorem out_disjoint : ∀ w ∈ (Finset.univ : Finset (Fin 32)), ∀ w' ∈ (Finset.univ : Finset (Fin 32)), w ≠ w' → Disjoint (outSet w) (outSet w') :=
  fun _ _ _ _ h => Rect.part_disjoint hdiv32o h
omit [FloatOps F] in
theorem out_cover : (Finset.univ : Finset (Fin 32)).biUnion outSet = Finset.univ := Rect.biUnion_part hdiv32o

omit [FloatOps F] in
/-- The list of source nodes whole is the thirty-two workers' entries. -/
theorem iPts_parts (d : Dev nD) (f : Buf (Elt F) (iLoc d)) :
    (iLoc d ↦{fullShare} f : sProp 𝕄) = bigSep Finset.univ fun w : Fin 32 => (iLoc d ↦[idxSet w]{fullShare} f : sProp 𝕄) := by
  rw [← pointsTo_biUnion Finset.univ (ℓ := iLoc d) idxSet idx_disjoint, idx_cover]

omit [FloatOps F] in
/-- The result whole is the thirty-two workers' rows. -/
theorem oPts_parts (d : Dev nD) (f : Buf (Elt F) (oLoc d)) :
    (oLoc d ↦{fullShare} f : sProp 𝕄) = bigSep Finset.univ fun w : Fin 32 => (oLoc d ↦[outSet w]{fullShare} f : sProp 𝕄) := by
  rw [← pointsTo_biUnion Finset.univ (ℓ := oLoc d) outSet out_disjoint, out_cover]

omit [FloatOps F] in
theorem qY_zero : qY 0 = fullShare.left := rfl
omit [FloatOps F] in
theorem qY_one : qY 1 = fullShare.right := rfl

/-- The transformed features' full share is the two SparseCores' halves. -/
theorem yPts_halves (d : Dev nD) :
    (yLoc d ↦{fullShare} yval m d : sProp 𝕄) ⊢ iprop((yLoc d ↦{qY 0} yval m d) ∗ (yLoc d ↦{qY 1} yval m d)) := by
  rw [qY_zero, qY_one]
  exact (pointsTo_share (PosShare.mem_left_op_right fullShare)).1

/-! ## Into the call -/

/-- What SparseCore c is handed, by its number below two. -/
abbrev stOf (d : Dev nD) (c : Fin 2) : sProp 𝕄 :=
  iprop((yLoc d ↦{qY c} yval m d) ∗ bigSep Finset.univ fun i : Fin 16 => iprop(idxPts m d c i ∗ outPts m d c i))
/-- What it hands back. -/
abbrev dnOf (d : Dev nD) (c : Fin 2) : sProp 𝕄 :=
  iprop((yLoc d ↦{qY c} yval m d) ∗ bigSep Finset.univ fun i : Fin 16 => iprop(idxPts m d c i ∗ outDone m d c i))

theorem hst (d : Dev nD) : Mid m d ⊢ iprop((bigSep Finset.univ fun c : Fin ((K (F := F)).nCore 0) => (P m).st 0 d c) ∗ Rest m d) := by
  have e : (fun c : Fin ((K (F := F)).nCore 0) => (P m).st 0 d c) = fun c => stOf m d (c2 c) := funext fun c => P_st0 m d c
  rw [e, bigSep_cores (F := F) (stOf m d)]
  simp only [stOf, bigSep_sep']
  unfold Mid Rest
  rw [iPts_parts, oPts_parts, bigSep_workers (fun w => (iLoc d ↦[idxSet w]{fullShare} ival m d : sProp 𝕄)),
    bigSep_workers (fun w => (oLoc d ↦[outSet w]{fullShare} m (oLoc d) : sProp 𝕄))]
  iintro ⟨Hx, He, Hw1, Hw2, Hr0, ⟨Hi0, Hi1⟩, Hy, ⟨Ho0, Ho1⟩⟩
  ihave Hy' := (yPts_halves m d) $$ Hy
  icases Hy' with ⟨Hy0, Hy1⟩
  isplitl [Hy0 Hy1 Hi0 Hi1 Ho0 Ho1]
  · isplitl [Hy0 Hi0 Ho0]
    · isplitl [Hy0]; · iexact Hy0
      isplitl [Hi0]; · iexact Hi0
      iexact Ho0
    · isplitl [Hy1]; · iexact Hy1
      isplitl [Hi1]; · iexact Hi1
      iexact Ho1
  isplitl [Hx]; · iexact Hx
  isplitl [He]; · iexact He
  isplitl [Hw1]; · iexact Hw1
  isplitl [Hw2]; · iexact Hw2
  iexact Hr0

/-! ## Out of the call -/

/-- Worker w's rows of the result, holding the looked-up rows. -/
abbrev doneW (d : Dev nD) (w : Fin 32) : sProp 𝕄 :=
  iprop(∃ f, ⌜GoodRows m d w f⌝ ∗ (oLoc d ↦[outSet w]{fullShare} f))

/-- The thirty-two workers' rows, each holding the looked-up rows, are the whole result at one contents that
    agrees with the looked-up rows everywhere. -/
theorem out_join (d : Dev nD) :
    (bigSep Finset.univ fun w : Fin 32 => doneW m d w)
      ⊢ (iprop(∃ f, ⌜∀ j, (f : FVec F S320000x128 .f32) j = (oval m d : FVec F S320000x128 .f32) j⌝ ∗ (oLoc d ↦{fullShare} f)) : sProp 𝕄) := by
  refine (bigSep_exists_pi Finset.univ (fun w (f : Buf (Elt F) (oLoc d)) => (iprop(⌜GoodRows m d w f⌝ ∗ (oLoc d ↦[outSet w]{fullShare} f)) : sProp 𝕄))).trans ?_
  iintro ⟨%fs, H⟩
  ihave H2 := (bigSep_pure_sep Finset.univ (fun w => GoodRows m d w (fs w)) (fun w => (oLoc d ↦[outSet w]{fullShare} fs w : sProp 𝕄))) $$ H
  icases H2 with ⟨%hg, H3⟩
  ihave H4 := (pointsTo_biUnion_join Finset.univ outSet fs (fs 0) out_disjoint) $$ H3
  icases H4 with ⟨%g, %hgf, Hg⟩
  rw [out_cover]
  iexists g
  isplitr
  · ipureintro
    intro j
    obtain ⟨w, hw⟩ := Rect.exists_mem_part hdiv32o j
    exact (hgf w (Finset.mem_univ _) j hw).trans (hg w (Finset.mem_univ _) j hw)
  · iexact Hg

theorem hdn (d : Dev nD) : iprop(Rest m d ∗ bigSep Finset.univ fun c : Fin ((K (F := F)).nCore 0) => (P m).dn 0 d c) ⊢ FIN m d := by
  have e : (fun c : Fin ((K (F := F)).nCore 0) => (P m).dn 0 d c) = fun c => dnOf m d (c2 c) := funext fun c => P_dn0 m d c
  rw [e, bigSep_cores (F := F) (dnOf m d)]
  simp only [dnOf, bigSep_sep']
  unfold Rest FIN
  iintro ⟨⟨Hx, He, Hw1, Hw2, -⟩, ⟨-, -, Ho0⟩, ⟨-, -, Ho1⟩⟩
  isplitl [Hx]; · iexact Hx
  isplitl [He]; · iexact He
  isplitl [Hw1]; · iexact Hw1
  isplitl [Hw2]; · iexact Hw2
  iapply (out_join m d)
  rw [bigSep_workers (doneW m d)]
  isplitl [Ho0]; · iexact Ho0
  iexact Ho1

/-! ## The final memory -/

/-- What the final memory holds on device d: the result is the looked-up rows, the arguments are unchanged. -/
def fq (d : Dev nD) (s' : Phys nD τ sig (Elt F)) : Prop :=
  s'.mem.mem (oLoc d) = oval m d ∧ s'.mem.mem (xLoc d) = m (xLoc d) ∧ s'.mem.mem (eLoc d) = m (eLoc d)
    ∧ s'.mem.mem (w1Loc d) = m (w1Loc d) ∧ s'.mem.mem (w2Loc d) = m (w2Loc d)

/-- A whole array held at the full share reads as its contents in the memory. -/
theorem agree_whole {ℓ : Loc nD τ sig} (s' : Phys nD τ sig (Elt F)) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have ho : iprop(FIN m d ∗ SI s') ⊢ (⌜s'.mem.mem (oLoc d) = oval m d⌝ : sProp 𝕄) := by
    unfold FIN
    iintro ⟨⟨-, -, -, -, ⟨%f, %hf, Ho⟩⟩, HSI⟩
    ihave H := (agree_whole (ℓ := oLoc d) s' f) $$ [Ho HSI]
    · isplitl [Ho]; · iexact Ho
      iexact HSI
    icases H with %h
    ipureintro
    rw [h]; exact funext hf
  have hx : iprop(FIN m d ∗ SI s') ⊢ (⌜s'.mem.mem (xLoc d) = m (xLoc d)⌝ : sProp 𝕄) := by
    unfold FIN
    iintro ⟨⟨Hx, -⟩, HSI⟩
    iapply (agree_whole s' (m (xLoc d)))
    isplitl [Hx]; · iexact Hx
    iexact HSI
  have he : iprop(FIN m d ∗ SI s') ⊢ (⌜s'.mem.mem (eLoc d) = m (eLoc d)⌝ : sProp 𝕄) := by
    unfold FIN
    iintro ⟨⟨-, He, -⟩, HSI⟩
    iapply (agree_whole s' (m (eLoc d)))
    isplitl [He]; · iexact He
    iexact HSI
  have h1 : iprop(FIN m d ∗ SI s') ⊢ (⌜s'.mem.mem (w1Loc d) = m (w1Loc d)⌝ : sProp 𝕄) := by
    unfold FIN
    iintro ⟨⟨-, -, Hw, -⟩, HSI⟩
    iapply (agree_whole s' (m (w1Loc d)))
    isplitl [Hw]; · iexact Hw
    iexact HSI
  have h2 : iprop(FIN m d ∗ SI s') ⊢ (⌜s'.mem.mem (w2Loc d) = m (w2Loc d)⌝ : sProp 𝕄) := by
    unfold FIN
    iintro ⟨⟨-, -, -, Hw, -⟩, HSI⟩
    iapply (agree_whole s' (m (w2Loc d)))
    isplitl [Hw]; · iexact Hw
    iexact HSI
  refine Laws.pure_elim _ ho fun a0 => Laws.pure_elim _ hx fun a1 => Laws.pure_elim _ he fun a2 =>
    Laws.pure_elim _ h1 fun a3 => Laws.pure_elim _ h2 fun a4 => ?_
  iintro -
  ipureintro
  exact ⟨a0, a1, a2, a3, a4⟩

end Cert.Kernel.KRun

end
-- ==== Proof.BLaunch.lean ====
/-
  The launch element of the ghost state, and what the launch hands over.

  The ghost state starts as one element with three parts: the launch handshakes' rounds, the subcore barrier's
  rounds (one cell per vector subcore, each with one round in which every subcore of the same SparseCore has one
  duty), and the TensorCore kernel's staging cells' rounds. From it, from the credit for the vector subcores' own
  debts and from the free semaphores, the launch makes: the handshakes' part as it is, the staging cells' ghost
  state per device, and for every vector subcore its barrier kit — every cell's invariant of its SparseCore and
  that each has reached round 0, its duty tokens, its own position, and the credit for the sixteen units of its
  own round.
-/
import proofs.«205984_g59184649339042_cont_9to1_m_680_25_alg».proof.Proof.BPay
import proofs.«205984_g59184649339042_cont_9to1_m_680_25_alg».proof.Proof.BMainReg

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

abbrev DCI : Type := Dev nD × Fin τ.nSC × Fin τ.nSub
abbrev bcell₃ (x : DCI) : GSem nD τ sig := bcell x.1 x.2.1 x.2.2

/-- Every vector subcore's barrier cell. -/
def bCells : Finset (GSem nD τ sig) := Finset.univ.image bcell₃
/-- Subcore i's token in subcore j's cell, for every pair of subcores of a SparseCore. -/
def bToks : Finset (GSem nD τ sig × ℕ × ℕ) :=
  Finset.univ.image fun x : DCI × Fin (grid1.bound 1) => (bcell x.1.1 x.1.2.1 (x.2.castLE hsub1), 0, x.1.2.2.val)
/-- The launch element: the three parts' initial elements and the unit of the counters. -/
def u₀ : UU := (initOf (K (F := F)).hsCells (K (F := F)).hsToks, (initOf bCells bToks, (uP₀, 1)))

omit [FloatOps F] in
theorem bigSep_emp' {I : Type} (s : Finset I) : (bigSep s fun _ => iprop(emp)) = (iprop(emp) : sProp 𝕄) := bigSep_emp_const s

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element with the unit at the counters is its three parts, each embedded. -/
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄)
      ⊢ iprop(BI.own (EH a) ∗ BI.own ((uEmb (nD := nD) (sig := sig) (Ix := HIx 1) (Val := Elt F) (Name := ℕ) (U := UU) (Lvl := ℕ)).toEmb
          ((1, (b, (p, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (BI.own ((uEmb (nD := nD) (sig := sig) (Ix := HIx 1) (Val := Elt F) (Name := ℕ) (U := UU) (Lvl := ℕ)).toEmb
          ((1, (b, (p, 1))) : UU)) : sProp 𝕄) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  iintro Hu
  ihave H := h1 $$ Hu
  icases H with ⟨HH, HR⟩
  ihave H2 := h2 $$ HR
  icases H2 with ⟨HB, HP⟩
  isplitl [HH]; · iexact HH
  isplitl [HB]; · iexact HB
  iexact HP

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each vector subcore the sixteen units of its own cell. -/
theorem creds_b : ((P (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every vector subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One vector subcore's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each vector subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- What the launch makes of the launch element, the credit and the free semaphores. -/
theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => Gd (F := F) d)
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod (fund_Gd (F := F)) $$ HP with HG
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal m)
  isplitr
  · isplitl; · iexists κ; iexact Hinv'
    iexact Hr'
  isplitl [Hat']; · iexact Hat'
  isplitl [Htok']; · iexact Htok'
  iexact Hcred'

end Cert.Kernel.KRun

end
-- ==== Proof.BMem.lean ====
/-
  A vector subcore's arrays as the kernel addresses them: the three HBM arrays and its three scratch arrays
  whole, and the pieces it slices out of them — its entries of the list of source nodes, a staging subcore's
  block of the node table (in HBM and in the shared memory), and the five slots of its row buffer, each a
  window of forty rows.
-/
import proofs.«205984_g59184649339042_cont_9to1_m_680_25_alg».proof.Proof.BCells

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

abbrev cV (L : grid1.Coords) : Fin τ.nSC := (L 0).castLE hcore1
abbrev jV (L : grid1.Coords) : Fin τ.nSub := (L 1).castLE hsub1

/-- The worker's entries of the list of source nodes, as the kernel slices them. -/
abbrev iSl (L : grid1.Coords) : Memref sig .scVector .hbm S10000 .i32 :=
  (iV).slice (Rect.unit (s := S320000) (k1_off2 L) S10000.size (k1_off2_inb L)) (fun _ => rfl)
/-- A staging subcore's block of the transformed features, in HBM and in the shared memory, as the kernel slices them. -/
abbrev ySl (L : grid1.Coords) (h1 : k1_cond1 L = 1#1) : Memref sig .scVector .hbm S1000x128 .f32 :=
  (yV).slice (Rect.unit (s := S10000x128) (k1_off1 L) S1000x128.size (k1_off1_inb L h1)) (fun _ => rfl)
abbrev shSl (L : grid1.Coords) (h1 : k1_cond1 L = 1#1) : Memref sig .scVector .shared S1000x128 .f32 :=
  (shV).slice (Rect.unit (s := S10000x128) (k1_off1 L) S1000x128.size (k1_off1_inb L h1)) (fun _ => rfl)

/-- Slot b of the row buffer: forty rows of 128, as the kernel slices and squeezes it. -/
abbrev rwSl (b : Fin 5) (hb : ∀ a, (![b.val, 0, 0] : Fin 3 → Nat) a + S1x40x128.size a ≤ S5x40x128.size a) : Memref sig .scVector .vmem S40x128 .f32 :=
  ((rwV).slice (Rect.unit (s := S5x40x128) ![b.val, 0, 0] S1x40x128.size hb) (fun _ => rfl)).squeeze S40x128 squeezes_S1x40x128_S40x128

/-- The twelve DMA semaphores of a vector subcore: one per slot for the gathers, one per slot for the copies out,
    and the two of the staging copy and of the index copy. -/
abbrev sem (a : DmaSems sig S_) (d : Dev nD) (L : grid1.Coords) : GSem nD τ sig := (V d (cV L) (jV L), .dma a.sem)

end Cert.Kernel.KRun

end
-- ==== Proof.BSplit.lean ====
/-
  A vector subcore's own storage, opened.

  At its start a vector subcore owns its scoped cells, all at zero, and its own buffers, each whole at some
  contents. Here the twelve DMA semaphores the kernel uses are taken out of the cells one after the other, the
  two scratch buffers (the copy of the source-node numbers and the row buffer) out of the buffers, and the row
  buffer is cut into its five slots of forty rows.
-/
import proofs.«205984_g59184649339042_cont_9to1_m_680_25_alg».proof.Proof.BMem

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

/-! ## Taking a list of distinct members out of a separating conjunction -/

section Peel
variable {M : Type} [URA M] {I : Type}

/-- Φ at each member of the list, in order, and then R. -/
def sepList (Φ : I → sProp M) : List I → sProp M → sProp M
  | [], R => R
  | i :: l, R => iprop(Φ i ∗ sepList Φ l R)

/-- A separating conjunction over a finite set is Φ at each of a list of distinct members, in order, and the
    conjunction over the set with those members removed. -/
theorem bigSep_peel [DecidableEq I] (Φ : I → sProp M) :
    ∀ (l : List I) (s : Finset I), l.Nodup → (∀ i ∈ l, i ∈ s) → bigSep s Φ = sepList Φ l (bigSep (l.foldl Finset.erase s) Φ)
  | [], s, _, _ => rfl
  | i :: l, s, hn, hm => by
    rw [SparseCore.bigSep_erase' (hm i List.mem_cons_self)]
    show _ = iprop(Φ i ∗ sepList Φ l (bigSep (l.foldl Finset.erase (s.erase i)) Φ))
    rw [← bigSep_peel Φ l (s.erase i) (List.nodup_cons.mp hn).2 (fun j hj =>
      Finset.mem_erase.mpr ⟨fun e => (List.nodup_cons.mp hn).1 (e ▸ hj), hm j (List.mem_cons_of_mem _ hj)⟩)]

end Peel

variable (d : Dev nD) (L : grid1.Coords)

/-! ## The twelve DMA semaphores -/

/-- The DMA semaphores the kernel names, in the order of its parameters. -/
abbrev semIds : List (DmaSem sig) :=
  [cc1_scratch3.sem, cc1_scratch4.sem, cc1_scratch5.sem, cc1_scratch6.sem, cc1_scratch7.sem, cc1_scratch8.sem, cc1_scratch9.sem,
    cc1_scratch10.sem, cc1_scratch11.sem, cc1_scratch12.sem, cc1_scoped0.sem, cc1_scoped1.sem]

theorem semIds_nodup : semIds.Nodup := by decide

theorem semIds_scoped : ∀ s ∈ semIds, (SemLoc.dma s : SemLoc sig).isScoped .scVector = true := by decide

/-- The subcore's cells of those semaphores. -/
abbrev semCells (d : Dev nD) (L : grid1.Coords) : List (GSem nD τ sig) :=
  semIds.map fun s => ((V d (cV L) (jV L), SemLoc.dma s) : GSem nD τ sig)

/-- The subcore's other scoped cells. -/
abbrev semRest (d : Dev nD) (L : grid1.Coords) : Finset (GSem nD τ sig) :=
  (semCells d L).foldl Finset.erase (ownCells (V d (cV L) (jV L)))

/-- The subcore's scoped cells at zero: the twelve DMA semaphores' cells, in the order of the kernel's parameters,
    and the rest. -/
theorem ownSems0_V :
    (ownSems0 (V d (cV L) (jV L)) : sProp 𝕄)
      = iprop(semVal (sem cc1_scratch3 d L) 0 ∗ semVal (sem cc1_scratch4 d L) 0 ∗ semVal (sem cc1_scratch5 d L) 0
          ∗ semVal (sem cc1_scratch6 d L) 0 ∗ semVal (sem cc1_scratch7 d L) 0 ∗ semVal (sem cc1_scratch8 d L) 0
          ∗ semVal (sem cc1_scratch9 d L) 0 ∗ semVal (sem cc1_scratch10 d L) 0 ∗ semVal (sem cc1_scratch11 d L) 0
          ∗ semVal (sem cc1_scratch12 d L) 0 ∗ semVal (sem cc1_scoped0 d L) 0 ∗ semVal (sem cc1_scoped1 d L) 0
          ∗ bigSep (semRest d L) fun g => semVal g 0) := by
  unfold SparseCore.Cfg.ownSems0
  exact bigSep_peel (fun g => (semVal g 0 : sProp 𝕄)) (semCells d L) (ownCells (V d (cV L) (jV L)))
    (semIds_nodup.map fun a b e => SemLoc.dma.inj (Prod.mk.inj e).2)
    (fun g hg => by
      obtain ⟨s, hs, rfl⟩ := List.mem_map.mp hg
      exact mem_ownCells.mpr ⟨rfl, semIds_scoped s hs⟩)

/-! ## The two scratch buffers -/

/-- The subcore's two scratch buffers, as buffers of its device. -/
abbrev bufRefs (L : grid1.Coords) : List (DevRef τ sig) :=
  [cc1_scratch0, cc1_scratch1].map (Proc.scVector (cV L) (jV L) : Proc τ).devRef

/-- Its other own buffers. -/
abbrev bufRest (L : grid1.Coords) : Finset (DevRef τ sig) :=
  (bufRefs L).foldl Finset.erase (ownRefs (τ := τ) (.scVector (cV L) (jV L)))

/-- The subcore's own buffers, each whole at some contents: the copy of the source-node numbers, the row buffer, and
    the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (bufRest L) fun b => iprop(∃ f, ((d, b) : Loc nD τ sig) ↦{fullShare} f)) := by
  unfold SparseCore.Cfg.ownBufs
  exact bigSep_peel (fun b => (iprop(∃ f, ((d, b) : Loc nD τ sig) ↦{fullShare} f) : sProp 𝕄)) (bufRefs L)
    (ownRefs (τ := τ) (.scVector (cV L) (jV L)))
    ((by decide : [cc1_scratch0, cc1_scratch1].Nodup).map (Proc.devRef_injective _))
    (fun b hb => by
      obtain ⟨r, hr, rfl⟩ := List.mem_map.mp hb
      rcases List.mem_pair.mp hr with rfl | rfl <;>
        exact SparseCore.Cfg.mem_ownRefs_of_owner (p := Proc.scVector (cV L) (jV L)) rfl)

theorem pts_ixV (f : Buf (Elt F) ((V d (cV L) (jV L)).loc cc1_scratch0)) :
    ((ixV).view.loc (V d (cV L) (jV L)) ↦{fullShare} f : sProp 𝕄) = (V d (cV L) (jV L)).loc cc1_scratch0 ↦{fullShare} f := rfl

theorem pts_rwV (f : Buf (Elt F) ((V d (cV L) (jV L)).loc cc1_scratch1)) :
    ((rwV).view.loc (V d (cV L) (jV L)) ↦{fullShare} f : sProp 𝕄) = (V d (cV L) (jV L)).loc cc1_scratch1 ↦{fullShare} f := rfl

/-! ## The row buffer's five slots -/

theorem hdiv5 : 5 ∣ S5x40x128.size 0 := ⟨1, rfl⟩
/-- Slot b: the b-th of the five equal parts of the row buffer along its first axis. -/
abbrev slotRect (b : Fin 5) : Rect S5x40x128 := Rect.part (s := S5x40x128) (a₀ := 0) hdiv5 b

/-- The rectangle the kernel slices for slot b is that part. -/
theorem slotRect_eq (b : Fin 5) (hb : ∀ a, (![b.val, 0, 0] : Fin 3 → Nat) a + S1x40x128.size a ≤ S5x40x128.size a) :
    Rect.unit (s := S5x40x128) ![b.val, 0, 0] S1x40x128.size hb = slotRect b := by
  unfold slotRect Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The elements of the row buffer under slot b, squeezed or not. -/
theorem set_rwSl (b : Fin 5) (hb : ∀ a, (![b.val, 0, 0] : Fin 3 → Nat) a + S1x40x128.size a ≤ S5x40x128.size a) :
    (rwSl b hb).view.set = (slotRect b).set := by
  have e : (rwSl b hb).view.set = ((rwV).view.slice (Rect.unit (s := S5x40x128) ![b.val, 0, 0] S1x40x128.size hb)).set :=
    View.set_reshape _ _
  rw [e, slotRect_eq b hb]
  exact View.set_slice_whole _ _

/-- The row buffer whole is its five slots. -/
theorem rw_slots (f : Buf (Elt F) ((rwV).view.loc (V d (cV L) (jV L)))) :
    ((rwV).view.loc (V d (cV L) (jV L)) ↦{fullShare} f : sProp 𝕄)
      = iprop(((rwSl 0 inb_S5x40x128_S1x40x128_0_0_0).view.loc (V d (cV L) (jV L)) ↦[(rwSl 0 inb_S5x40x128_S1x40x128_0_0_0).view.set]{fullShare} f)
          ∗ ((rwSl 1 inb_S5x40x128_S1x40x128_1_0_0).view.loc (V d (cV L) (jV L)) ↦[(rwSl 1 inb_S5x40x128_S1x40x128_1_0_0).view.set]{fullShare} f)
          ∗ ((rwSl 2 inb_S5x40x128_S1x40x128_2_0_0).view.loc (V d (cV L) (jV L)) ↦[(rwSl 2 inb_S5x40x128_S1x40x128_2_0_0).view.set]{fullShare} f)
          ∗ ((rwSl 3 inb_S5x40x128_S1x40x128_3_0_0).view.loc (V d (cV L) (jV L)) ↦[(rwSl 3 inb_S5x40x128_S1x40x128_3_0_0).view.set]{fullShare} f)
          ∗ ((rwSl 4 inb_S5x40x128_S1x40x128_4_0_0).view.loc (V d (cV L) (jV L)) ↦[(rwSl 4 inb_S5x40x128_S1x40x128_4_0_0).view.set]{fullShare} f)) := by
  rw [set_rwSl 0, set_rwSl 1, set_rwSl 2, set_rwSl 3, set_rwSl 4]
  have hcov : (Finset.univ : Finset (Fin 5)).biUnion (fun b => (slotRect b).set) = Finset.univ := Rect.biUnion_part hdiv5
  rw [← hcov, pointsTo_biUnion Finset.univ (ℓ := (rwV).view.loc (V d (cV L) (jV L))) (fun b => (slotRect b).set)
    (fun b _ b' _ h => Rect.part_disjoint hdiv5 h)]
  exact BI.bigSep_univ_eq_bigSepL [0, 1, 2, 3, 4] (by decide) (by decide) _

end Cert.Kernel.KRun

end
-- ==== Proof.BSlices.lean ====
/-
  The pieces a vector subcore slices out of the shared arrays, as parts of those arrays.

  Subcore (c, i) is worker w = 2 i + c: the window of the list of source nodes it slices, at offset
  20000 i + 10000 c, is part w of the thirty-two equal parts of the list. A staging subcore (i < 10) slices rows
  [1000 i, 1000 (i + 1)) of the transformed node features and of the shared copy: part i of the ten equal parts
  of the table along its rows.
-/
import proofs.«205984_g59184649339042_cont_9to1_m_680_25_alg».proof.Proof.BMem
import proofs.«205984_g59184649339042_cont_9to1_m_680_25_alg».proof.Proof.BStage

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable (d : Dev nD) (L : grid1.Coords)

/-! ## The staging condition -/

/-- The kernel's staging condition holds exactly on the first ten vector subcores. -/
theorem cond1_iff : ∀ L : grid1.Coords, k1_cond1 L = 1#1 ↔ (L 1).val < 10 := by decide +kernel

/-! ## The window of the list of source nodes -/

/-- The rectangle the kernel slices out of the list is the worker's part. -/
theorem iRect_eq : Rect.unit (s := S320000) (k1_off2 L) S10000.size (k1_off2_inb L) = idxRect (wid (L 0) (L 1)) := by
  unfold idxRect Rect.part Rect.block
  congr 1 <;> funext a
  · rw [k1_off2_eq]
    match a with
    | 0 => simp [Shape.partIx, Shape.partSize, wid]; omega
  · match a with
    | 0 => simp [Shape.partSize]

theorem set_iSl : (iSl L).view.set = ((iV).view.slice (idxRect (wid (L 0) (L 1)))).set := by
  show ((iV).view.slice (Rect.unit (s := S320000) (k1_off2 L) S10000.size (k1_off2_inb L))).set = _
  rw [iRect_eq L]

/-! ## A staging subcore's block -/

/-- The rectangle a staging subcore slices out of the table is its block. -/
theorem yRect_eq (h1 : k1_cond1 L = 1#1) :
    Rect.unit (s := S10000x128) (k1_off1 L) S1000x128.size (k1_off1_inb L h1) = stageRect ⟨(L 1).val, (cond1_iff L).mp h1⟩ := by
  unfold stageRect Rect.part Rect.block
  congr 1 <;> funext a
  · rw [k1_off1_eq]
    match a with
    | 0 => simp [Shape.partIx, Shape.partSize]; omega
    | 1 => simp [Shape.partIx, Shape.partSize]
  · match a with
    | 0 => simp [Shape.partSize]
    | 1 => simp [Shape.partSize]

theorem set_ySl (h1 : k1_cond1 L = 1#1) :
    (ySl L h1).view.set = ((yV).view.slice (stageRect ⟨(L 1).val, (cond1_iff L).mp h1⟩)).set := by
  show ((yV).view.slice (Rect.unit (s := S10000x128) (k1_off1 L) S1000x128.size (k1_off1_inb L h1))).set = _
  rw [yRect_eq L h1]

theorem set_shSl (h1 : k1_cond1 L = 1#1) :
    (shSl L h1).view.set = ((shV).view.slice (stageRect ⟨(L 1).val, (cond1_iff L).mp h1⟩)).set := by
  show ((shV).view.slice (Rect.unit (s := S10000x128) (k1_off1 L) S1000x128.size (k1_off1_inb L h1))).set = _
  rw [yRect_eq L h1]

/-- A block of the shared copy, and of the transformed features in HBM, as a set of elements. -/
theorem set_shV_stage (n : Fin 10) : ((shV).view.slice (stageRect n)).set = stageSet n.val := by
  rw [stageSet_of_lt n.isLt]
  exact View.set_slice_whole _ _
theorem set_yV_stage (n : Fin 10) : ((yV).view.slice (stageRect n)).set = stageSet n.val := by
  rw [stageSet_of_lt n.isLt]
  exact View.set_slice_whole _ _

theorem set_iV_idx (w : Fin 32) : ((iV).view.slice (idxRect w)).set = (idxRect w).set := View.set_slice_whole _ _

/-! ## The same, as points-to assertions on the device's arrays -/

/-- The worker's window of the list, as the kernel addresses it, is its part of the device's list. -/
theorem pts_iSl (q : PosShare TreeShare) (f : Buf (Elt F) (iLoc d)) :
    ((iSl L).view.loc (V d (cV L) (jV L)) ↦[(iSl L).view.set]{q} f : sProp 𝕄) = iLoc d ↦[(idxRect (wid (L 0) (L 1))).set]{q} f := by
  rw [set_iSl, set_iV_idx]

/-- A staging subcore's block of the transformed features, as the kernel addresses it, is block (L 1) of the device's. -/
theorem pts_ySl (h1 : k1_cond1 L = 1#1) (q : PosShare TreeShare) (f : Buf (Elt F) (yLoc d)) :
    ((ySl L h1).view.loc (V d (cV L) (jV L)) ↦[(ySl L h1).view.set]{q} f : sProp 𝕄) = yLoc d ↦[stageSet (L 1).val]{q} f := by
  rw [set_ySl, set_yV_stage]

/-- A staging subcore's block of the shared copy, as the kernel addresses it, is block (L 1) of its SparseCore's. -/
theorem pts_shSl (h1 : k1_cond1 L = 1#1) (q : PosShare TreeShare) (f : Buf (Elt F) (shLoc d (cV L))) :
    ((shSl L h1).view.loc (V d (cV L) (jV L)) ↦[(shSl L h1).view.set]{q} f : sProp 𝕄) = shLoc d (cV L) ↦[stageSet (L 1).val]{q} f := by
  rw [set_shSl, set_shV_stage]
  rfl

end Cert.Kernel.KRun

end
-- ==== Proof.BObl.lean ====
/-
  The vector subcores' obligation to the launch.

  The launch asks, of the task of vector subcore i of SparseCore c: from the launch's level table, its barrier
  kit, what the sequencer hands it (its entries of the list of source nodes, its rows of the result, and — if it
  stages — its block of the transformed features and of the shared copy) and its scoped storage, the kernel run
  at the subcore's grid point returns the entries unchanged, the rows holding the looked-up rows, the block, a
  sixteenth read share of the whole shared copy holding the features, and the scoped storage. The kernel's
  triple at a grid point is taken as a hypothesis here; this module only transports it to the launch's spelling.
-/
import proofs.«205984_g59184649339042_cont_9to1_m_680_25_alg».proof.Proof.BPay
import proofs.«205984_g59184649339042_cont_9to1_m_680_25_alg».proof.Proof.BSplit
import proofs.«205984_g59184649339042_cont_9to1_m_680_25_alg».proof.Proof.BSlices
import proofs.«205984_g59184649339042_cont_9to1_m_680_25_alg».proof.Proof.BMem

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

/-- The grid point of vector subcore s of SparseCore c. -/
def coordsV (c : Fin (grid1.bound 0)) (s : Fin (grid1.bound 1)) : grid1.Coords :=
  fun | 0 => c | 1 => s | ⟨_ + 2, h⟩ => absurd h (Nat.not_lt.2 (Nat.le_add_left _ _))

set_option maxRecDepth 16384 in
/-- The kernel's label on a vector subcore runs the kernel at the subcore's grid point, on the whole arrays, its
    scratch and its twelve DMA semaphores. -/
theorem defs₀_vector (c : Fin τ.nSC) (s : Fin τ.nSub) :
    defs₀ (F := F) (.scVector c s) 1 ()
      = SparseCore.onTile hcore1 hsub1 (fun c s => cc1_gather (coordsV c s)
          yV (Memref.isWhole_whole _) iV (Memref.isWhole_whole _) oV (Memref.isWhole_whole _) ixV (Memref.isWhole_whole _) rwV (Memref.isWhole_whole _) shV (Memref.isWhole_whole _)
          cc1_scratch3 cc1_scratch4 cc1_scratch5 cc1_scratch6 cc1_scratch7 cc1_scratch8 cc1_scratch9 cc1_scratch10 cc1_scratch11 cc1_scratch12 cc1_scoped0 cc1_scoped1) ⟨⟩ c s := rfl

/-- The kernel's triple at a grid point L, for worker w = wid (L 0) (L 1): what the obligation needs. -/
def TileBody : Prop :=
  ∀ (d : Dev nD) (L : grid1.Coords) (O : CellTallies nD τ sig (HIx 1)) (W : Waits sig (HIx 1)), (∀ g, O g none = 0) →
    (∀ g ι, 0 < O g ι → 8 * (0 : Fin 1).val + 6 ≤ (K (F := F)).lev g ι) →
    iprop(levAts (K (F := F)).L (K (F := F)).lev ∗ bkit m d (cV L) (jV L)
        ∗ ((iLoc d ↦[idxSet (wid (L 0) (L 1))]{fullShare} ival m d) ∗ (oLoc d ↦[outSet (wid (L 0) (L 1))]{fullShare} m (oLoc d))
            ∗ (yLoc d ↦[stageSet (L 1).val]{qY (L 0)} yval m d) ∗ ∃ f, shLoc d (cV L) ↦[stageSet (L 1).val]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1_gather L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1)
          fun _ => iprop(((iLoc d ↦[idxSet (wid (L 0) (L 1))]{fullShare} ival m d) ∗ (∃ f, ⌜GoodRows m d (wid (L 0) (L 1)) f⌝ ∗ (oLoc d ↦[outSet (wid (L 0) (L 1))]{fullShare} f))
              ∗ (yLoc d ↦[stageSet (L 1).val]{qY (L 0)} yval m d) ∗ (shLoc d (cV L) ↦{q16 (L 1)} shval m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

set_option maxRecDepth 16384 in
/-- The obligation, from the kernel's triple. -/
theorem tileObl (hbody : TileBody (F := F) m) (hF : (K (F := F)).Facts) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) O W hO hOlev

end Cert.Kernel.KRun

end
-- ==== Proof.BInv.lean ====
/-
  The state of a vector subcore inside its loop of gathers and copies out.

  The subcore's 10000 entries of the list of source nodes are cut into 250 chunks of forty; chunk k is gathered
  (forty rows of the shared copy of the transformed features, the rows the chunk's entries name) into slot
  k mod 5 of the row buffer and copied from there to rows [40 k, 40 k + 40) of the worker's rows of the result.
  A slot is in one of four states: free; a gather of chunk k in flight into it; chunk k landed in it; a copy of
  chunk k out of it in flight. A gather in flight holds, until it is waited for, the slot, the chunk's forty
  entries of the index list (at the slot's read share of the list) and the slot's read share of the shared copy;
  a copy out in flight holds the slot and the chunk's rows of the result. The result is held one chunk's rows at a
  time; the rows of the chunks copied so far hold the gathered rows.
-/
import proofs.«205984_g59184649339042_cont_9to1_m_680_25_alg».proof.Proof.BMem
import proofs.«205984_g59184649339042_cont_9to1_m_680_25_alg».proof.Proof.BSplit

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

/-! ## Canonical windows -/

theorem ixWin_inb (k : ℕ) : ∀ a, (![40 * (k % 250)] : Fin 1 → ℕ) a + S40.size a ≤ S10000.size a := by
  intro a
  have : k % 250 < 250 := Nat.mod_lt _ (by decide)
  match a with
  | ⟨0, _⟩ => show 40 * (k % 250) + 40 ≤ 10000; omega
/-- Chunk k's forty entries of the subcore's copy of its index list. -/
abbrev ixWin (k : ℕ) : Memref sig .scVector .vmem S40 .i32 :=
  (ixV).slice (Rect.unit (s := S10000) ![40 * (k % 250)] S40.size (ixWin_inb k)) (fun _ => rfl)

theorem oWin_inb (L : grid1.Coords) (k : ℕ) : ∀ a, (![20000 * (L 1).val + 10000 * (L 0).val + 40 * (k % 250), 0] : Fin 2 → ℕ) a + S40x128.size a ≤ S320000x128.size a := by
  intro a
  have : k % 250 < 250 := Nat.mod_lt _ (by decide)
  have h1 : (L 1).val < 16 := (L 1).isLt
  have h0 : (L 0).val < 2 := (L 0).isLt
  match a with
  | ⟨0, _⟩ => show 20000 * (L 1).val + 10000 * (L 0).val + 40 * (k % 250) + 40 ≤ 320000; omega
  | ⟨1, _⟩ => show 0 + 128 ≤ 128; omega
/-- Chunk k's forty rows of the worker's rows of the result. -/
abbrev oWin (L : grid1.Coords) (k : ℕ) : Memref sig .scVector .hbm S40x128 .f32 :=
  (oV).slice (Rect.unit (s := S320000x128) ![20000 * (L 1).val + 10000 * (L 0).val + 40 * (k % 250), 0] S40x128.size (oWin_inb L k)) (fun _ => rfl)
/-- The whole shared copy, as the kernel slices it for a gather's source. -/
abbrev shAll : Memref sig .scVector .shared S10000x128 .f32 :=
  (shV).slice (Rect.unit (s := S10000x128) ![0, 0] S10000x128.size inb_S10000x128_S10000x128_0_0) (fun _ => rfl)

local notation "thr" => V d (cV L) (jV L)

/-- An in-flight transfer that delivers more delivers less. -/
theorem flight_mono {c : Thread nD τ} {sm : SemLoc sig} {ι : HIx 1} {N : ℕ} {D D' : sProp 𝕄} (h : D ⊢ D') :
    (Transfers.Flight (countersEmb (nD := nD) (τ := τ) (sig := sig) (Ix := HIx 1) (Val := Elt F) (Name := ℕ) (U := UU) (Lvl := ℕ)) c sm ι N D : sProp 𝕄)
      ⊢ Transfers.Flight countersEmb c sm ι N D' := by
  unfold Transfers.Flight
  iintro ⟨⟨%R, HR, %h1, %h2⟩, Hc⟩
  isplitr [Hc]
  · iexists R
    isplitl [HR]; · iexact HR
    isplitr
    · ipureintro
      intro K
      have e : iprop(R ∗ ((iprop(semVal (c, sm) 0 ∗ D')) -∗ K ⟨⟩)) ⊢ iprop(R ∗ ((iprop(semVal (c, sm) 0 ∗ D)) -∗ K ⟨⟩)) := by
        iintro ⟨HR, Hk⟩
        isplitl [HR]; · iexact HR
        iintro ⟨Hs, HD⟩
        iapply Hk
        isplitl [Hs]; · iexact Hs
        iapply h; iexact HD
      exact e.trans (h1 K)
    · ipureintro; exact h2
  · iexact Hc

variable (fix : Buf (Elt F) ((ixV).view.loc (V d (cV L) (jV L))))

/-- Every entry of the subcore's copy of its index list names a row of the node table. -/
def FixOk : Prop := ∀ i, ((fix : IVec S10000 32) i).toNat < 10000

theorem hinWin (hfix : FixOk d L fix) (k : ℕ) : ∀ x, ((ixWin k).view.read (Elt F) fix x).toNat < S10000x128.size gathers_S10000x128_S40x128.axis := by
  intro x
  rw [show (ixWin k).view.read (Elt F) fix x = fix ((ixWin k).view.emb x) from (View.read_apply _ _).trans (cast_eq _ _)]
  exact hfix _

/-- The rows chunk k's gather delivers: row r is the shared copy's row named by entry 40 k + r of the index list. -/
def GP (hfix : FixOk d L fix) (k : ℕ) : S40x128.Idx → Elt F .f32 :=
  SparseCore.gatherPayload gathers_S10000x128_S40x128 ((shAll).view.read (Elt F) (shval m d (cV L)))
    (SparseCore.rows ((ixWin k).view.read (Elt F) fix) rfl (hinWin d L fix hfix k))

variable (hfix : FixOk d L fix)

/-- A gather of chunk k into the slot sl in flight on the semaphore g, at the slot's shares qi of the index list
    and qs of the shared copy: what its wait hands back (the slot's contents once landed are fixed when the gather is issued). -/
def GFl (g : DmaSems sig S_) (sl : Memref sig .scVector .vmem S40x128 .f32) (k : ℕ) (qi qs : PosShare TreeShare) : sProp 𝕄 :=
  iprop(∃ fb, ⌜sl.view.read (Elt F) fb = GP m d L fix hfix k⌝ ∗
    Transfers.Flight countersEmb (V d (cV L) (jV L)) (SemLoc.dma g.sem) (default : HIx 1) 163840
      iprop(((sl.view.loc (V d (cV L) (jV L)) ↦[sl.view.set]{fullShare} fb)
          ∗ ((ixWin k).view.loc (V d (cV L) (jV L)) ↦[(ixWin k).view.set]{qi} fix))
        ∗ ((shAll).view.loc (V d (cV L) (jV L)) ↦[(shAll).view.set]{qs} shval m d (cV L))))

/-- A copy of chunk k out of the slot sl in flight on the semaphore s. -/
def SFl (s : DmaSems sig S_) (sl : Memref sig .scVector .vmem S40x128 .f32) (k : ℕ) : sProp 𝕄 :=
  iprop(∃ fo fb, ⌜(oWin L k).view.read (Elt F) fo = GP m d L fix hfix k⌝ ∗
    Transfers.Flight countersEmb (V d (cV L) (jV L)) (SemLoc.dma s.sem) (default : HIx 1) 163840
      iprop(((oWin L k).view.loc (V d (cV L) (jV L)) ↦[(oWin L k).view.set]{fullShare} fo)
        ∗ (sl.view.loc (V d (cV L) (jV L)) ↦[sl.view.set]{fullShare} fb)))

/-- The slot's read shares of the shared copy and of the index list, both whole. -/
def Shares (qi qs : PosShare TreeShare) : sProp 𝕄 :=
  iprop(((shV).view.loc (V d (cV L) (jV L)) ↦{qs} shval m d (cV L)) ∗ ((ixV).view.loc (V d (cV L) (jV L)) ↦{qi} fix))

def SlotFree (g s : DmaSems sig S_) (sl : Memref sig .scVector .vmem S40x128 .f32) (qi qs : PosShare TreeShare) : sProp 𝕄 :=
  iprop((∃ fb, sl.view.loc (V d (cV L) (jV L)) ↦[sl.view.set]{fullShare} fb) ∗ Shares m d L fix qi qs
    ∗ semVal (V d (cV L) (jV L), SemLoc.dma g.sem) 0 ∗ semVal (V d (cV L) (jV L), SemLoc.dma s.sem) 0)

def SlotGath (g s : DmaSems sig S_) (sl : Memref sig .scVector .vmem S40x128 .f32) (k : ℕ) (qi qs : PosShare TreeShare) : sProp 𝕄 :=
  iprop(GFl m d L fix hfix g sl k qi qs ∗ ((ixV).view.loc (V d (cV L) (jV L)) ↦[Finset.univ \ (ixWin k).view.set]{qi} fix)
    ∗ semVal (V d (cV L) (jV L), SemLoc.dma s.sem) 0)

def SlotLanded (g s : DmaSems sig S_) (sl : Memref sig .scVector .vmem S40x128 .f32) (k : ℕ) (qi qs : PosShare TreeShare) : sProp 𝕄 :=
  iprop((∃ fb, ⌜sl.view.read (Elt F) fb = GP m d L fix hfix k⌝ ∗ (sl.view.loc (V d (cV L) (jV L)) ↦[sl.view.set]{fullShare} fb)) ∗ Shares m d L fix qi qs
    ∗ semVal (V d (cV L) (jV L), SemLoc.dma g.sem) 0 ∗ semVal (V d (cV L) (jV L), SemLoc.dma s.sem) 0)

def SlotStor (g s : DmaSems sig S_) (sl : Memref sig .scVector .vmem S40x128 .f32) (k : ℕ) (qi qs : PosShare TreeShare) : sProp 𝕄 :=
  iprop(SFl m d L fix hfix s sl k ∗ Shares m d L fix qi qs ∗ semVal (V d (cV L) (jV L), SemLoc.dma g.sem) 0)

/-- The worker's rows of the result, chunk by chunk, but the chunks in excl (whose rows copies in flight hold):
    the chunks below n hold the gathered rows. -/
def OutRes (n : ℕ) (excl : Finset ℕ) : sProp 𝕄 :=
  bigSep (Finset.range 250 \ excl) fun k => iprop(∃ fo, ⌜k < n → (oWin L k).view.read (Elt F) fo = GP m d L fix hfix k⌝
    ∗ ((oWin L k).view.loc (V d (cV L) (jV L)) ↦[(oWin L k).view.set]{fullShare} fo))

/-- A share cut in five, one piece per slot. -/
def s5 (q : PosShare TreeShare) : Fin 5 → PosShare TreeShare
  | 0 => q.left | 1 => q.right.left | 2 => q.right.right.left | 3 => q.right.right.right.left | 4 => q.right.right.right.right

/-- The five slots' states, each at its piece of the index list's full share and of the subcore's share q of the shared copy. -/
abbrev sl0 : Memref sig .scVector .vmem S40x128 .f32 := rwSl 0 inb_S5x40x128_S1x40x128_0_0_0
abbrev sl1 : Memref sig .scVector .vmem S40x128 .f32 := rwSl 1 inb_S5x40x128_S1x40x128_1_0_0
abbrev sl2 : Memref sig .scVector .vmem S40x128 .f32 := rwSl 2 inb_S5x40x128_S1x40x128_2_0_0
abbrev sl3 : Memref sig .scVector .vmem S40x128 .f32 := rwSl 3 inb_S5x40x128_S1x40x128_3_0_0
abbrev sl4 : Memref sig .scVector .vmem S40x128 .f32 := rwSl 4 inb_S5x40x128_S1x40x128_4_0_0

variable (q : PosShare TreeShare)

/-- Before the first trip: chunks 0 … 3 being gathered, slot 4 free, nothing copied out. -/
def InvStart : sProp 𝕄 :=
  iprop(SlotGath m d L fix hfix cc1_scratch3 cc1_scratch8 sl0 0 (s5 fullShare 0) (s5 q 0) ∗ SlotGath m d L fix hfix cc1_scratch4 cc1_scratch9 sl1 1 (s5 fullShare 1) (s5 q 1)
    ∗ SlotGath m d L fix hfix cc1_scratch5 cc1_scratch10 sl2 2 (s5 fullShare 2) (s5 q 2) ∗ SlotGath m d L fix hfix cc1_scratch6 cc1_scratch11 sl3 3 (s5 fullShare 3) (s5 q 3)
    ∗ SlotFree m d L fix cc1_scratch7 cc1_scratch12 sl4 (s5 fullShare 4) (s5 q 4) ∗ OutRes m d L fix hfix 0 ∅)

/-- Before trip t, 1 ≤ t ≤ 49: chunks 5 t … 5 t + 3 being gathered, chunk 5 t − 1 being copied out of slot 4, the
    chunks before it copied. -/
def InvMid (t : ℕ) : sProp 𝕄 :=
  iprop(SlotGath m d L fix hfix cc1_scratch3 cc1_scratch8 sl0 (5 * t) (s5 fullShare 0) (s5 q 0) ∗ SlotGath m d L fix hfix cc1_scratch4 cc1_scratch9 sl1 (5 * t + 1) (s5 fullShare 1) (s5 q 1)
    ∗ SlotGath m d L fix hfix cc1_scratch5 cc1_scratch10 sl2 (5 * t + 2) (s5 fullShare 2) (s5 q 2) ∗ SlotGath m d L fix hfix cc1_scratch6 cc1_scratch11 sl3 (5 * t + 3) (s5 fullShare 3) (s5 q 3)
    ∗ SlotStor m d L fix hfix cc1_scratch7 cc1_scratch12 sl4 (5 * t - 1) (s5 fullShare 4) (s5 q 4) ∗ OutRes m d L fix hfix (5 * t - 1) {5 * t - 1})

/-- After the last trip: the last five chunks being copied out, one per slot. -/
def InvEnd : sProp 𝕄 :=
  iprop(SlotStor m d L fix hfix cc1_scratch3 cc1_scratch8 sl0 245 (s5 fullShare 0) (s5 q 0) ∗ SlotStor m d L fix hfix cc1_scratch4 cc1_scratch9 sl1 246 (s5 fullShare 1) (s5 q 1)
    ∗ SlotStor m d L fix hfix cc1_scratch5 cc1_scratch10 sl2 247 (s5 fullShare 2) (s5 q 2) ∗ SlotStor m d L fix hfix cc1_scratch6 cc1_scratch11 sl3 248 (s5 fullShare 3) (s5 q 3)
    ∗ SlotStor m d L fix hfix cc1_scratch7 cc1_scratch12 sl4 249 (s5 fullShare 4) (s5 q 4) ∗ OutRes m d L fix hfix 245 {245, 246, 247, 248, 249})

/-- The slots and the result before trip t (t = 50: after the loop). -/
def InvAt (t : ℕ) : sProp 𝕄 :=
  if t = 0 then InvStart m d L fix hfix q else if t < 50 then InvMid m d L fix hfix q t else InvEnd m d L fix hfix q

end Cert.Kernel.KRun

end
-- ==== Proof.BPost.lean ====
/-
  After the loop of gathers and copies out: the last five copies out, one per slot, are waited for; then every slot
  is free again, every semaphore reads zero, and every chunk's rows of the result hold the gathered rows. The 250
  windows of forty rows tile the worker's rows of the result, so the worker's rows are held whole again, each
  window reading as its chunk's gathered rows.
-/
import proofs.«205984_g59184649339042_cont_9to1_m_680_25_alg».proof.Proof.BInv
import proofs.«205984_g59184649339042_cont_9to1_m_680_25_alg».proof.Proof.BSplit
import proofs.«205984_g59184649339042_cont_9to1_m_680_25_alg».proof.Proof.BSlices
import proofs.«205984_g59184649339042_cont_9to1_m_680_25_alg».proof.Proof.BPay

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

local notation "thr" => V d (cV L) (jV L)

namespace Post

/-- The window the closing waits name as their destination: the first forty of the worker's rows (a wait reads
    only its semaphore and the size of the transfer). -/
abbrev waitWin (L : grid1.Coords) : Memref sig .scVector .hbm S40x128 .f32 :=
  (oV).slice (Rect.unit (s := S320000x128) (k1_off14 L) S40x128.size (k1_off14_inb L)) (fun _ => rfl)

/-- The three waits that end the loop's part of the kernel, -/
abbrev waits3 (L : grid1.Coords) : Prog (TpuEff nD τ sig (Elt F) Λ₀ (.scVector (cV L) (jV L))) PUnit := do
  Prog.lift (.waitDma2 cc1_scratch8.sem sl0 (waitWin L) ((View.wordExact_bits rfl).reshape _ _) (View.wordExact_bits rfl))
  Prog.lift (.waitDma2 cc1_scratch9.sem sl1 (waitWin L) ((View.wordExact_bits rfl).reshape _ _) (View.wordExact_bits rfl))
  Prog.lift (.waitDma2 cc1_scratch10.sem sl2 (waitWin L) ((View.wordExact_bits rfl).reshape _ _) (View.wordExact_bits rfl))
  pure ⟨⟩
/-- and the two that end the kernel. -/
abbrev waits2 (L : grid1.Coords) : Prog (TpuEff nD τ sig (Elt F) Λ₀ (.scVector (cV L) (jV L))) PUnit := do
  Prog.lift (.waitDma2 cc1_scratch11.sem sl3 (waitWin L) ((View.wordExact_bits rfl).reshape _ _) (View.wordExact_bits rfl))
  Prog.lift (.waitDma2 cc1_scratch12.sem sl4 (waitWin L) ((View.wordExact_bits rfl).reshape _ _) (View.wordExact_bits rfl))
  pure ⟨⟩

/-- The two closing stretches are the printed functions' own text after the loop. -/
theorem part5_tail (v2 : BitVec 32) :
    k1_part5_skel (F := F) L yV (Memref.isWhole_whole _) iV (Memref.isWhole_whole _) oV (Memref.isWhole_whole _) ixV (Memref.isWhole_whole _) rwV (Memref.isWhole_whole _) shV (Memref.isWhole_whole _)
        cc1_scratch3 cc1_scratch4 cc1_scratch5 cc1_scratch6 cc1_scratch7 cc1_scratch8 cc1_scratch9 cc1_scratch10 cc1_scratch11 cc1_scratch12 cc1_scoped0 cc1_scoped1 v2
      = (do
          SparseCore.enqueueIndirectGather rfl shAll sl3 gathers_S10000x128_S40x128 (ixWin 3) rfl cc1_scratch6.sem (View.wordExact_bits rfl) rfl (Or.inr rfl)
          Scf.Loop.for k1_t1_loop k1_t1_ok ⟨⟩ (k1_t1_body L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2)
          waits3 L) := rfl

variable (fix : Buf (Elt F) ((ixV).view.loc (V d (cV L) (jV L)))) (hfix : FixOk d L fix) (q : PosShare TreeShare)

/-- The closing stretch of the kernel's own function is its text after the two parts. -/
theorem gather_tail :
    cc1_gather_skel (F := F) L yV (Memref.isWhole_whole _) iV (Memref.isWhole_whole _) oV (Memref.isWhole_whole _) ixV (Memref.isWhole_whole _) rwV (Memref.isWhole_whole _) shV (Memref.isWhole_whole _)
        cc1_scratch3 cc1_scratch4 cc1_scratch5 cc1_scratch6 cc1_scratch7 cc1_scratch8 cc1_scratch9 cc1_scratch10 cc1_scratch11 cc1_scratch12 cc1_scoped0 cc1_scoped1
      = (do
          let v2 : BitVec 32 ← k1_part4 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1
          k1_part5 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2
          waits2 L) := rfl

/-! ## The result's windows -/

/-- Knowing more chunks copied than are held changes nothing: the bound only speaks of the chunks held. -/
theorem OutRes_mono {n n' : ℕ} {excl : Finset ℕ} (h : ∀ k ∈ Finset.range 250 \ excl, k < n' → k < n) :
    OutRes m d L fix hfix n excl ⊢ OutRes m d L fix hfix n' excl :=
  bigSep_mono fun k hk =>
    (show iprop(∃ fo, ⌜k < n → (oWin L k).view.read (Elt F) fo = GP m d L fix hfix k⌝ ∗ ((oWin L k).view.loc (V d (cV L) (jV L)) ↦[(oWin L k).view.set]{fullShare} fo))
        ⊢ (iprop(∃ fo, ⌜k < n' → (oWin L k).view.read (Elt F) fo = GP m d L fix hfix k⌝ ∗ ((oWin L k).view.loc (V d (cV L) (jV L)) ↦[(oWin L k).view.set]{fullShare} fo)) : sProp 𝕄) from by
      iintro ⟨%fo, %hfo, H⟩
      iexists fo
      isplitr; · ipureintro; exact fun hlt => hfo (h k hk hlt)
      iexact H)

theorem sdiff_erase {excl : Finset ℕ} {k : ℕ} (hk : k ∈ excl) (hk' : k < 250) :
    Finset.range 250 \ excl.erase k = insert k (Finset.range 250 \ excl) := by
  ext x
  simp only [Finset.mem_sdiff, Finset.mem_erase, Finset.mem_insert, Finset.mem_range, not_and]
  constructor
  · rintro ⟨hx, hne⟩
    by_cases e : x = k
    · exact Or.inl e
    · exact Or.inr ⟨hx, fun hm => hne e hm⟩
  · rintro (rfl | ⟨hx, hn⟩)
    · exact ⟨hk', fun e => absurd rfl e⟩
    · exact ⟨hx, fun _ hm => hn hm⟩

/-- A chunk's window, holding the gathered rows, joins the windows held. -/
theorem OutRes_add {n : ℕ} {excl : Finset ℕ} (k : ℕ) (hk : k ∈ excl) (hk' : k < 250)
    (fo : Buf (Elt F) ((oWin L k).view.loc (V d (cV L) (jV L)))) (hfo : (oWin L k).view.read (Elt F) fo = GP m d L fix hfix k) :
    iprop(OutRes m d L fix hfix n excl ∗ ((oWin L k).view.loc (V d (cV L) (jV L)) ↦[(oWin L k).view.set]{fullShare} fo))
      ⊢ OutRes m d L fix hfix n (excl.erase k) := by
  unfold OutRes
  rw [sdiff_erase hk hk', SparseCore.bigSep_insert' (by simp [hk])]
  iintro ⟨Hres, Hw⟩
  isplitl [Hw]
  · iexists fo
    isplitr; · ipureintro; exact fun _ => hfo
    iexact Hw
  iexact Hres

/-- The last five chunks, and the last two. -/
abbrev last5 : Finset ℕ := {245, 246, 247, 248, 249}
abbrev last2 : Finset ℕ := {248, 249}

/-- With all but the last five chunks held, each holding its gathered rows, the bound may be the whole count. -/
theorem OutRes_close : OutRes m d L fix hfix 245 last5 ⊢ OutRes m d L fix hfix 250 last5 :=
  OutRes_mono m d L fix hfix fun k hk _ => by
    simp only [last5, Finset.mem_sdiff, Finset.mem_range, Finset.mem_insert, Finset.mem_singleton, not_or] at hk; omega

/-! ## The closing waits -/

variable (O : CellTallies nD τ sig (HIx 1)) (W : Waits sig (HIx 1))

/-- The thread's debt, its recorded pairs the given ones and pairs at the kernel's own index or the call's. -/
def owesW : sProp 𝕄 :=
  iprop(∃ W', ⌜∀ p ∈ W', p ∈ W ∨ p.2 = none ∨ p.2 = some (0 : Fin 1)⌝ ∗ owes (V d (cV L) (jV L)) O W')

/-- After the first three waits: slots 0, 1, 2 free, the copies out of slots 3 and 4 still in flight. -/
def Mid3 : sProp 𝕄 :=
  iprop(SlotFree m d L fix cc1_scratch3 cc1_scratch8 sl0 (s5 fullShare 0) (s5 q 0) ∗ SlotFree m d L fix cc1_scratch4 cc1_scratch9 sl1 (s5 fullShare 1) (s5 q 1)
    ∗ SlotFree m d L fix cc1_scratch5 cc1_scratch10 sl2 (s5 fullShare 2) (s5 q 2) ∗ SlotStor m d L fix hfix cc1_scratch6 cc1_scratch11 sl3 248 (s5 fullShare 3) (s5 q 3)
    ∗ SlotStor m d L fix hfix cc1_scratch7 cc1_scratch12 sl4 249 (s5 fullShare 4) (s5 q 4) ∗ OutRes m d L fix hfix 250 last2
    ∗ owesW d L O W)

/-- After all five: every slot free, every chunk's rows holding the gathered rows. -/
def AfterAll : sProp 𝕄 :=
  iprop(SlotFree m d L fix cc1_scratch3 cc1_scratch8 sl0 (s5 fullShare 0) (s5 q 0) ∗ SlotFree m d L fix cc1_scratch4 cc1_scratch9 sl1 (s5 fullShare 1) (s5 q 1)
    ∗ SlotFree m d L fix cc1_scratch5 cc1_scratch10 sl2 (s5 fullShare 2) (s5 q 2) ∗ SlotFree m d L fix cc1_scratch6 cc1_scratch11 sl3 (s5 fullShare 3) (s5 q 3)
    ∗ SlotFree m d L fix cc1_scratch7 cc1_scratch12 sl4 (s5 fullShare 4) (s5 q 4) ∗ OutRes m d L fix hfix 250 ∅
    ∗ owesW d L O W)

set_option maxHeartbeats 8000000 in
/-- The three waits that end the loop's part. -/
theorem post_waits3 (Φ : PUnit → sProp 𝕄) :
    iprop(Transfers.MayWaits (V d (cV L) (jV L)) (default : HIx 1) O ∗ InvEnd m d L fix hfix q ∗ owesW d L O W
        ∗ (Mid3 m d L fix hfix q O W -∗ Φ ⟨⟩))
      ⊢ wp frame (wpE (defs₀ (F := F)) 𝒱₀ (V d (cV L) (jV L)) none) Set.univ (waits3 (F := F) L) Φ := by
  unfold InvEnd SlotStor SFl Shares owesW
  iintro ⟨#Hmw, ⟨⟨⟨%fo0, %fb0, %hfo0, Hf0⟩, ⟨Hsh0, Hix0⟩, Hg0⟩, ⟨⟨%fo1, %fb1, %hfo1, Hf1⟩, ⟨Hsh1, Hix1⟩, Hg1⟩, ⟨⟨%fo2, %fb2, %hfo2, Hf2⟩, ⟨Hsh2, Hix2⟩, Hg2⟩, S3, S4, Hout⟩, ⟨%W', %hW', HO⟩, Hk⟩
  sl_exec
  rw [wp_ret]; imodintro
  iapply Hk
  unfold Mid3 SlotFree SlotStor SFl Shares owesW
  isplitl [Hf0_src Hsh0 Hix0 Hg0 Hf0]
  · isplitl [Hf0_src]; · iexists fb0; iexact Hf0_src
    isplitl [Hsh0 Hix0]; · isplitl [Hsh0]; · iexact Hsh0
                           iexact Hix0
    isplitl [Hg0]; · iexact Hg0
    iexact Hf0
  isplitl [Hf1_src Hsh1 Hix1 Hg1 Hf1]
  · isplitl [Hf1_src]; · iexists fb1; iexact Hf1_src
    isplitl [Hsh1 Hix1]; · isplitl [Hsh1]; · iexact Hsh1
                           iexact Hix1
    isplitl [Hg1]; · iexact Hg1
    iexact Hf1
  isplitl [Hf2_src Hsh2 Hix2 Hg2 Hf2]
  · isplitl [Hf2_src]; · iexists fb2; iexact Hf2_src
    isplitl [Hsh2 Hix2]; · isplitl [Hsh2]; · iexact Hsh2
                           iexact Hix2
    isplitl [Hg2]; · iexact Hg2
    iexact Hf2
  isplitl [S3]; · iexact S3
  isplitl [S4]; · iexact S4
  isplitl [Hout Hf0_dst Hf1_dst Hf2_dst]
  · ihave H0 := (OutRes_close m d L fix hfix) $$ Hout
    ihave H1 := (OutRes_add m d L fix hfix (n := 250) (excl := last5) 245 (by decide) (by decide) fo0 hfo0) $$ [H0 Hf0_dst]
    · isplitl [H0]; · iexact H0
      iexact Hf0_dst
    ihave H2 := (OutRes_add m d L fix hfix (n := 250) (excl := last5.erase 245) 246 (by decide) (by decide) fo1 hfo1) $$ [H1 Hf1_dst]
    · isplitl [H1]; · iexact H1
      iexact Hf1_dst
    ihave H3 := (OutRes_add m d L fix hfix (n := 250) (excl := (last5.erase 245).erase 246) 247 (by decide) (by decide) fo2 hfo2) $$ [H2 Hf2_dst]
    · isplitl [H2]; · iexact H2
      iexact Hf2_dst
    rw [show last2 = ((last5.erase 245).erase 246).erase 247 by decide]
    iexact H3
  iexists _
  isplitr
  swap; · iexact HO
  ipureintro
  intro p hp
  simp only [Finset.mem_insert] at hp
  rcases hp with rfl | rfl | rfl | hp
  · exact Or.inr (Or.inl rfl)
  · exact Or.inr (Or.inl rfl)
  · exact Or.inr (Or.inl rfl)
  · exact hW' p hp

set_option maxHeartbeats 8000000 in
/-- The two waits that end the kernel. -/
theorem post_waits2 (Φ : PUnit → sProp 𝕄) :
    iprop(Transfers.MayWaits (V d (cV L) (jV L)) (default : HIx 1) O ∗ Mid3 m d L fix hfix q O W
        ∗ (AfterAll m d L fix hfix q O W -∗ Φ ⟨⟩))
      ⊢ wp frame (wpE (defs₀ (F := F)) 𝒱₀ (V d (cV L) (jV L)) none) Set.univ (waits2 (F := F) L) Φ := by
  unfold Mid3 SlotFree SlotStor SFl Shares owesW
  iintro ⟨#Hmw, ⟨F0, F1, F2, ⟨⟨%fo3, %fb3, %hfo3, Hf3⟩, ⟨Hsh3, Hix3⟩, Hg3⟩, ⟨⟨%fo4, %fb4, %hfo4, Hf4⟩, ⟨Hsh4, Hix4⟩, Hg4⟩, Hout, ⟨%W', %hW', HO⟩⟩, Hk⟩
  sl_exec
  rw [wp_ret]; imodintro
  iapply Hk
  unfold AfterAll SlotFree Shares owesW
  isplitl [F0]; · iexact F0
  isplitl [F1]; · iexact F1
  isplitl [F2]; · iexact F2
  isplitl [Hf3_src Hsh3 Hix3 Hg3 Hf3]
  · isplitl [Hf3_src]; · iexists fb3; iexact Hf3_src
    isplitl [Hsh3 Hix3]; · isplitl [Hsh3]; · iexact Hsh3
                           iexact Hix3
    isplitl [Hg3]; · iexact Hg3
    iexact Hf3
  isplitl [Hf4_src Hsh4 Hix4 Hg4 Hf4]
  · isplitl [Hf4_src]; · iexists fb4; iexact Hf4_src
    isplitl [Hsh4 Hix4]; · isplitl [Hsh4]; · iexact Hsh4
                           iexact Hix4
    isplitl [Hg4]; · iexact Hg4
    iexact Hf4
  isplitl [Hout Hf3_dst Hf4_dst]
  · ihave H1 := (OutRes_add m d L fix hfix (n := 250) (excl := last2) 248 (by decide) (by decide) fo3 hfo3) $$ [Hout Hf3_dst]
    · isplitl [Hout]; · iexact Hout
      iexact Hf3_dst
    ihave H2 := (OutRes_add m d L fix hfix (n := 250) (excl := last2.erase 248) 249 (by decide) (by decide) fo4 hfo4) $$ [H1 Hf4_dst]
    · isplitl [H1]; · iexact H1
      iexact Hf4_dst
    rw [show (∅ : Finset ℕ) = (last2.erase 248).erase 249 by decide]
    iexact H2
  iexists _
  isplitr
  swap; · iexact HO
  ipureintro
  intro p hp
  simp only [Finset.mem_insert] at hp
  rcases hp with rfl | rfl | hp
  · exact Or.inr (Or.inl rfl)
  · exact Or.inr (Or.inl rfl)
  · exact hW' p hp

/-! ## The worker's rows, whole again -/

omit [FloatOps F] in
/-- A chunk's window, as a set of elements of the result: the forty rows from the chunk's first. -/
theorem mem_oWin (k : ℕ) (i : S320000x128.Idx) :
    i ∈ (oWin L k).view.set ↔ 20000 * (L 1).val + 10000 * (L 0).val + 40 * (k % 250) ≤ (i 0).val
      ∧ (i 0).val < 20000 * (L 1).val + 10000 * (L 0).val + 40 * (k % 250) + 40 := by
  show i ∈ ((View.whole main_v3_scv).slice (Rect.unit (s := S320000x128) ![20000 * (L 1).val + 10000 * (L 0).val + 40 * (k % 250), 0] S40x128.size (oWin_inb L k))).set ↔ _
  rw [View.set_slice_whole, Rect.mem_set_unit]
  constructor
  · intro h; exact h 0
  · intro h a
    match a with
    | ⟨0, _⟩ => exact h
    | ⟨1, _⟩ => exact ⟨Nat.zero_le _, by have h1 : (i 1).val < 128 := (i 1).isLt; show (i 1).val < 0 + 128; omega⟩

omit [FloatOps F] in
/-- A worker's rows of the result, as a set of elements: the ten thousand rows from the worker's first. -/
theorem mem_outSet (w : Fin 32) (i : S320000x128.Idx) : i ∈ outSet w ↔ 10000 * w.val ≤ (i 0).val ∧ (i 0).val < 10000 * w.val + 10000 := by
  unfold outSet outRect Rect.part Rect.block
  rw [Rect.mem_set_unit]
  constructor
  · intro h
    have h0 := h 0
    simp [Shape.partIx, Shape.partSize] at h0
    omega
  · intro h a
    match a with
    | ⟨0, _⟩ => simp [Shape.partIx, Shape.partSize]; omega
    | ⟨1, _⟩ => simp [Shape.partIx, Shape.partSize]; exact (i 1).isLt

omit [FloatOps F] in
theorem oWin_disjoint : ∀ k ∈ Finset.range 250, ∀ k' ∈ Finset.range 250, k ≠ k' → Disjoint (oWin L k).view.set (oWin L k').view.set := by
  intro k hk k' hk' hne
  rw [Finset.mem_range] at hk hk'
  rw [Finset.disjoint_left]
  intro i hi hi'
  rw [mem_oWin, Nat.mod_eq_of_lt hk] at hi
  rw [mem_oWin, Nat.mod_eq_of_lt hk'] at hi'
  omega

omit [FloatOps F] in
/-- The 250 windows tile the worker's rows. -/
theorem oWin_cover : (Finset.range 250).biUnion (fun k => (oWin L k).view.set) = outSet (wid (L 0) (L 1)) := by
  ext i
  rw [Finset.mem_biUnion, mem_outSet]
  have h1 : (L 1).val < 16 := (L 1).isLt
  have h0 : (L 0).val < 2 := (L 0).isLt
  show _ ↔ 10000 * (2 * (L 1).val + (L 0).val) ≤ (i 0).val ∧ (i 0).val < 10000 * (2 * (L 1).val + (L 0).val) + 10000
  constructor
  · rintro ⟨k, hk, hi⟩
    rw [Finset.mem_range] at hk
    rw [mem_oWin, Nat.mod_eq_of_lt hk] at hi
    omega
  · intro h
    refine ⟨((i 0).val - (20000 * (L 1).val + 10000 * (L 0).val)) / 40, ?_, ?_⟩
    · rw [Finset.mem_range]; omega
    · rw [mem_oWin, Nat.mod_eq_of_lt (by omega)]; omega

/-- The worker's rows whole again, each chunk's window reading as its gathered rows. -/
theorem out_join :
    OutRes m d L fix hfix 250 ∅
      ⊢ (iprop(∃ f : Buf (Elt F) (oLoc d), ⌜∀ k < 250, (oWin L k).view.read (Elt F) f = GP m d L fix hfix k⌝ ∗ (oLoc d ↦[outSet (wid (L 0) (L 1))]{fullShare} f)) : sProp 𝕄) := by
  unfold OutRes
  rw [Finset.sdiff_empty]
  refine (bigSep_exists_pi (Finset.range 250) (fun k (fo : Buf (Elt F) (oLoc d)) =>
    (iprop(⌜k < 250 → (oWin L k).view.read (Elt F) fo = GP m d L fix hfix k⌝ ∗ (oLoc d ↦[(oWin L k).view.set]{fullShare} fo)) : sProp 𝕄))).trans ?_
  iintro ⟨%fs, H⟩
  ihave H2 := (bigSep_pure_sep (Finset.range 250) (fun k => k < 250 → (oWin L k).view.read (Elt F) (fs k) = GP m d L fix hfix k)
    (fun k => (oLoc d ↦[(oWin L k).view.set]{fullShare} fs k : sProp 𝕄))) $$ H
  icases H2 with ⟨%hg, H3⟩
  ihave H4 := (pointsTo_biUnion_join (Finset.range 250) (fun k => (oWin L k).view.set) fs (fs 0) (oWin_disjoint L)) $$ H3
  icases H4 with ⟨%g, %hgf, Hg⟩
  rw [oWin_cover]
  iexists g
  isplitr
  · ipureintro
    intro k hk
    rw [← hg k (Finset.mem_range.mpr hk) hk]
    funext x
    rw [View.read_apply, View.read_apply, hgf k (Finset.mem_range.mpr hk) _ ((oWin L k).view.emb_mem_set x)]
  · iexact Hg

end Post

end Cert.Kernel.KRun

end
-- ==== Proof.BLoop.lean ====
/-
  The loop of fifty trips: each trip takes the slots and the result from their state before the trip to
  their state before the next, so the fifty take them from the start state to the end state, after which
  the first three of the five closing waits run.
-/
import proofs.«205984_g59184649339042_cont_9to1_m_680_25_alg».proof.Proof.BMem
import proofs.«205984_g59184649339042_cont_9to1_m_680_25_alg».proof.Proof.BPost

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

open Post

local notation "thr" => V d (cV L) (jV L)

variable (fix : Buf (Elt F) ((ixV).view.loc (V d (cV L) (jV L)))) (hfix : FixOk d L fix) (q : PosShare TreeShare)
variable (O : CellTallies nD τ sig (HIx 1)) (W : Waits sig (HIx 1))

/-- The loop's invariant: before trip k the slots and the result are as InvAt k says. -/
def LInv (k : ℕ) (_ : Unit) : sProp 𝕄 :=
  iprop(Transfers.MayWaits (V d (cV L) (jV L)) (default : HIx 1) O ∗ InvAt m d L fix hfix q k ∗ owesW d L O W)

/-- One trip. -/
def TripOk (v2 : BitVec 32) : Prop :=
  ∀ (t : Fin k1_t1_loop.trips) (acc : Unit), LInv m d L fix hfix q O W t.val acc
    ⊢ wp frame (wpE (defs₀ (F := F)) 𝒱₀ (V d (cV L) (jV L)) none) Set.univ
        (k1_t1_body L yV (Memref.isWhole_whole _) iV (Memref.isWhole_whole _) oV (Memref.isWhole_whole _) ixV (Memref.isWhole_whole _) rwV (Memref.isWhole_whole _) shV (Memref.isWhole_whole _)
          cc1_scratch3 cc1_scratch4 cc1_scratch5 cc1_scratch6 cc1_scratch7 cc1_scratch8 cc1_scratch9 cc1_scratch10 cc1_scratch11 cc1_scratch12 cc1_scoped0 cc1_scoped1 v2 t acc)
        (LInv m d L fix hfix q O W (t.val + 1))

set_option maxHeartbeats 4000000 in
/-- The fifty trips, then the three waits that end the part. -/
theorem loop_run (v2 : BitVec 32) (htrip : TripOk m d L fix hfix q O W v2) (Φ : PUnit → sProp 𝕄) :
    iprop(Transfers.MayWaits (V d (cV L) (jV L)) (default : HIx 1) O ∗ InvStart m d L fix hfix q ∗ owesW d L O W
        ∗ (Mid3 m d L fix hfix q O W -∗ Φ ⟨⟩))
      ⊢ wp frame (wpE (defs₀ (F := F)) 𝒱₀ (V d (cV L) (jV L)) none) Set.univ
          (do Scf.Loop.for k1_t1_loop k1_t1_ok ⟨⟩ (k1_t1_body L yV (Memref.isWhole_whole _) iV (Memref.isWhole_whole _) oV (Memref.isWhole_whole _) ixV (Memref.isWhole_whole _) rwV (Memref.isWhole_whole _) shV (Memref.isWhole_whole _)
                cc1_scratch3 cc1_scratch4 cc1_scratch5 cc1_scratch6 cc1_scratch7 cc1_scratch8 cc1_scratch9 cc1_scratch10 cc1_scratch11 cc1_scratch12 cc1_scoped0 cc1_scoped1 v2)
              waits3 L) Φ := by
  iintro ⟨#Hmw, Hinv, HO, Hk⟩
  sl_for (LInv m d L fix hfix q O W) $$ [Hinv HO]
  case region => exact htrip
  · unfold LInv InvAt
    rw [if_pos rfl]
    isplitr; · iexact Hmw
    isplitl [Hinv]; · iexact Hinv
    iexact HO
  iintro %acc HI
  have h50 : Scf.trips k1_t1_loop.lb k1_t1_loop.ub k1_t1_loop.st = 50 := by decide
  rw [h50]
  unfold LInv InvAt
  rw [if_neg (by decide), if_neg (by decide)]
  icases HI with ⟨-, Hinv, HO⟩
  unfold loop_run.sl.prog.cont_1
  iapply (post_waits3 m d L fix hfix q O W Φ)
  isplitr; · iexact Hmw
  isplitl [Hinv]; · iexact Hinv
  isplitl [HO]; · iexact HO
  iexact Hk

end Cert.Kernel.KRun

end
-- ==== Proof.BIdx.lean ====
/-
  The list of source nodes read at an entry.

  The list is row 0 of the edge list cut out (a [1, 320000] block) and flattened: entry e of the list is word
  (0, e) of the edge list. Under the input range every entry is a row number of the node table, and it is the
  row the specification looks up for edge e.
-/
import proofs.«205984_g59184649339042_cont_9to1_m_680_25_alg».proof.Proof.BVals
import proofs.«205984_g59184649339042_cont_9to1_m_680_25_alg».proof.Proof.Spec
import Idealize.ShloMosaic.Lib.Pipeline.Value

noncomputable section

namespace Cert.Kernel.KRun

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-- Entry e of the list of source nodes is word (0, e) of the edge list: the flattening keeps the row-major
    position, and the cut-out block starts at the origin. -/
theorem ival_apply (d : Dev nD) (e : Fin 320000) :
    (ival m d : IVec S320000 32) (ValueIdx.ix1 e) = (m (eLoc d) : IVec S2x320000 32) (ValueIdx.ix2 (0 : Fin 2) e) := by
  unfold ival r0val
  refine (shapeCast_apply _ _ (ix1 e) (ix2 (0 : Fin 1) e) ?_).trans ?_
  · rw [Shape.rowMajor_val_two, Shape.rowMajor_val_one]
    show 0 * 320000 + e.val = e.val
    omega
  · exact extractStridedSlice_apply _ _ _ _ _ (fun a => match a with
      | ⟨0, _⟩ => rfl
      | ⟨1, _⟩ => by show e.val = 0 + e.val; omega)

/-- Under the input range every entry of the list is a row number of the node table. -/
theorem ival_le (d : Dev nD) (h : Cert.Spec.RowsInRange (m (eLoc d) : IVec S2x320000 32)) (i : S320000.Idx) :
    ((ival m d : IVec S320000 32) i).toNat ≤ 9999 := by
  obtain ⟨e, rfl⟩ : ∃ e : Fin 320000, i = ix1 e := ⟨i 0, eq_ix1 i⟩
  rw [ival_apply]
  exact h e

/-- Under the input range the row the specification looks up for edge e is entry e of the list. -/
theorem rowIx_eq_ival (d : Dev nD) (h : Cert.Spec.RowsInRange (m (eLoc d) : IVec S2x320000 32)) (e : Fin 320000) :
    (Cert.Spec.rowIx (m (eLoc d) : IVec S2x320000 32) e).val = ((ival m d : IVec S320000 32) (ValueIdx.ix1 e)).toNat := by
  rw [Cert.Spec.rowIx_val h, ival_apply]

end Cert.Kernel.KRun

end
-- ==== Proof.BVal.lean ====
/-
  The rows a chunk's gather delivers are the expected result's rows.

  The subcore's copy of its entries of the list of source nodes holds, at entry i, the list's entry 10000 w + i
  (w the worker's number). Chunk k's gather reads, for its row r, the row of the shared copy — the transformed
  node features — that entry 40 k + r of the copy names; the expected result's row 10000 w + 40 k + r is the
  transformed features' row named by the list's entry 10000 w + 40 k + r: the same row. So a result array
  whose 250 windows of forty rows each read as the gathers' payloads holds the looked-up rows on all of the
  worker's rows.
-/
import proofs.«205984_g59184649339042_cont_9to1_m_680_25_alg».proof.Proof.BInv
import proofs.«205984_g59184649339042_cont_9to1_m_680_25_alg».proof.Proof.BIdx
import proofs.«205984_g59184649339042_cont_9to1_m_680_25_alg».proof.Proof.BSlices
import proofs.«205984_g59184649339042_cont_9to1_m_680_25_alg».proof.Proof.BPay

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

open Idealize.ShloMosaic.ValueIdx

variable (d : Dev nD) (L : grid1.Coords)

/-! ## The subcore's copy of its index entries -/

/-- What the copy holds: the worker's window of the list of source nodes. -/
def fixVal : Buf (Elt F) ((ixV).view.loc (V d (cV L) (jV L))) := (iSl L).view.read (Elt F) (ival m d)

/-- Copying the window into the whole scratch leaves exactly the window's contents. -/
theorem fix_write_eq (g : Buf (Elt F) ((ixV).view.loc (V d (cV L) (jV L)))) :
    View.write (Elt F) (ixV).view g (ReadAs.same.apply (View.read (Elt F) (iSl L).view (ival m d))) Finset.univ = fixVal m d L :=
  View.write_whole_univ _ _ _

/-- Entry i of the copy is the list's entry under i in the worker's window. -/
theorem fixVal_eq (i : S10000.Idx) : (fixVal m d L : IVec S10000 32) i = (ival m d : IVec S320000 32) ((iSl L).view.emb i) :=
  (View.read_apply _ _).trans (cast_eq _ _)

omit [FloatOps F] in
/-- The worker's window starts at entry 10000 w = 20000 i + 10000 c. -/
theorem iSl_emb_val (i : S10000.Idx) : (((iSl L).view.emb i) 0 : ℕ) = 20000 * (L 1).val + 10000 * (L 0).val + (i 0).val := by
  show (k1_off2 L) 0 + 1 * (i 0).val = _
  rw [k1_off2_eq]
  show 20000 * (L 1).val + 10000 * (L 0).val + 1 * (i 0).val = _
  omega

theorem fixOk (hR : Cert.Spec.RowsInRange (m (eLoc d) : IVec S2x320000 32)) : FixOk d L (fixVal m d L) := by
  intro i
  rw [fixVal_eq]
  have := ival_le m d hR ((iSl L).view.emb i)
  omega

/-! ## Where the windows sit -/

omit [FloatOps F] in
/-- The kernel's slice of the whole shared copy is the whole of it. -/
theorem shAll_emb (y : S10000x128.Idx) : (shAll).view.emb y = y := by
  funext b
  refine Fin.ext ?_
  match b with
  | ⟨0, _⟩ => show 0 + 1 * (y 0).val = (y 0).val; omega
  | ⟨1, _⟩ => show 0 + 1 * (y 1).val = (y 1).val; omega

omit [FloatOps F] in
/-- Chunk k's window of the copy starts at entry 40 k. -/
theorem ixWin_emb_val (k : ℕ) (z : S40.Idx) : (((ixWin k).view.emb z) 0 : ℕ) = 40 * (k % 250) + (z 0).val := by
  show 40 * (k % 250) + 1 * (z 0).val = _
  omega

omit [FloatOps F] in
/-- Chunk k's window of the result starts at row 10000 w + 40 k, column 0. -/
theorem oWin_emb_val0 (k : ℕ) (x : S40x128.Idx) :
    (((oWin L k).view.emb x) 0 : ℕ) = 20000 * (L 1).val + 10000 * (L 0).val + 40 * (k % 250) + (x 0).val := by
  show 20000 * (L 1).val + 10000 * (L 0).val + 40 * (k % 250) + 1 * (x 0).val = _
  omega
omit [FloatOps F] in
theorem oWin_emb_val1 (k : ℕ) (x : S40x128.Idx) : (((oWin L k).view.emb x) 1 : ℕ) = (x 1).val := by
  show 0 + 1 * (x 1).val = _
  omega

variable (fix : Buf (Elt F) ((ixV).view.loc (V d (cV L) (jV L)))) (hfix : FixOk d L fix)

/-- Chunk k's payload at (r, c) is the expected result at row 10000 w + 40 k + r, column c: both are the
    transformed features' row named by the list's entry 10000 w + 40 k + r. -/
theorem GP_eq (hR : Cert.Spec.RowsInRange (m (eLoc d) : IVec S2x320000 32)) (hfx : fix = fixVal m d L) (k : ℕ) (x : S40x128.Idx) :
    GP m d L fix hfix k x = (oval m d : FVec F S320000x128 .f32) ((oWin L k).view.emb x) := by
  subst hfx
  unfold GP SparseCore.gatherPayload
  refine ((View.read_apply _ _).trans (cast_eq _ _)).trans ?_
  rw [shAll_emb]
  unfold shval oval
  refine congrArg (yval m d : FVec F S10000x128 .f32) ?_
  funext b
  refine Fin.ext ?_
  match b with
  | ⟨0, _⟩ =>
    have hz : ∀ r : Fin S40.numel, ((S40.rowMajor.symm r) 0 : ℕ) = r.val := fun r => by
      have h := Shape.rowMajor_val_one (S40.rowMajor.symm r)
      rw [Equiv.apply_symm_apply] at h
      exact h.symm
    have e2 : ∀ z : S40.Idx, (ixWin k).view.read (Elt F) (fixVal m d L) z
        = (ival m d : IVec S320000 32) ((iSl L).view.emb ((ixWin k).view.emb z)) :=
      fun z => ((View.read_apply _ _).trans (cast_eq _ _)).trans (fixVal_eq m d L _)
    refine (congrArg Fin.val (Shape.Gathers.idx_axis gathers_S10000x128_S40x128 _ x)).trans ?_
    unfold SparseCore.rows
    show ((ixWin k).view.read (Elt F) (fixVal m d L) _).toNat = (Cert.Spec.rowIx (m (eLoc d) : IVec S2x320000 32) ((oWin L k).view.emb x 0)).val
    rw [e2]
    refine Eq.trans ?_ (rowIx_eq_ival m d hR _).symm
    refine congrArg (fun i => ((ival m d : IVec S320000 32) i).toNat) ?_
    funext a
    refine Fin.ext ?_
    match a with
    | ⟨0, _⟩ =>
      refine (iSl_emb_val L _).trans ?_
      rw [ixWin_emb_val, hz]
      show _ = ((oWin L k).view.emb x 0 : ℕ)
      rw [oWin_emb_val0]
      show 20000 * (L 1).val + 10000 * (L 0).val + (40 * (k % 250) + (x 0).val)
        = 20000 * (L 1).val + 10000 * (L 0).val + 40 * (k % 250) + (x 0).val
      omega
  | ⟨1, _⟩ =>
    refine (Shape.Gathers.idx_of_ne gathers_S10000x128_S40x128 _ x ⟨1, _⟩ Nat.one_ne_zero).trans ?_
    show (x 1).val = ((oWin L k).view.emb x 1).val
    exact (oWin_emb_val1 L k x).symm

/-- A result array whose 250 windows read as the gathers' payloads holds the looked-up rows on all of the worker's rows:
    row 10000 w + n lies in window n / 40, at its row n mod 40. -/
theorem good_of_windows (hR : Cert.Spec.RowsInRange (m (eLoc d) : IVec S2x320000 32)) (hfx : fix = fixVal m d L)
    (f : Buf (Elt F) (oLoc d)) (h : ∀ k < 250, (oWin L k).view.read (Elt F) f = GP m d L fix hfix k) :
    GoodRows m d (wid (L 0) (L 1)) f := by
  intro j hj
  have hb := (Rect.mem_set_unit.mp hj) 0
  have hlo : 20000 * (L 1).val + 10000 * (L 0).val ≤ (j 0).val := by
    have := hb.1; simp [Shape.partIx, Shape.partSize, wid] at this; omega
  have hhi : (j 0).val < 20000 * (L 1).val + 10000 * (L 0).val + 10000 := by
    have := hb.2; simp [Shape.partIx, Shape.partSize, wid] at this; omega
  have hk : ((j 0).val - (20000 * (L 1).val + 10000 * (L 0).val)) / 40 < 250 := by omega
  have hx : (oWin L (((j 0).val - (20000 * (L 1).val + 10000 * (L 0).val)) / 40)).view.emb
      (ix2 (⟨((j 0).val - (20000 * (L 1).val + 10000 * (L 0).val)) % 40, Nat.mod_lt _ (by decide)⟩ : Fin 40) (j 1)) = j := by
    funext a
    refine Fin.ext ?_
    match a with
    | ⟨0, _⟩ =>
      refine (oWin_emb_val0 L _ _).trans ?_
      rw [Nat.mod_eq_of_lt hk]
      show 20000 * (L 1).val + 10000 * (L 0).val + 40 * (((j 0).val - (20000 * (L 1).val + 10000 * (L 0).val)) / 40)
        + ((j 0).val - (20000 * (L 1).val + 10000 * (L 0).val)) % 40 = (j 0).val
      omega
    | ⟨1, _⟩ => exact oWin_emb_val1 L _ _
  have e := congrFun (h _ hk) (ix2 (⟨((j 0).val - (20000 * (L 1).val + 10000 * (L 0).val)) % 40, Nat.mod_lt _ (by decide)⟩ : Fin 40) (j 1))
  rw [GP_eq m d L fix hfix hR hfx, hx] at e
  refine Eq.trans ?_ e
  refine Eq.trans ?_ ((View.read_apply _ _).trans (cast_eq _ _)).symm
  rw [hx]

end Cert.Kernel.KRun

end
-- ==== Proof.BTripLib.lean ====
/-
  Bookkeeping lemmas for a trip of the loop of gathers and copies out.

  The worker's rows of the result are held one chunk's rows at a time: a chunk's rows can be taken out of the
  collection and put back (with the fact that they now hold the gathered rows). The windows the kernel slices at
  trip t — entries [40 k, 40 k + 40) of the index list and rows [40 k, 40 k + 40) of the worker's rows, for
  k = 5 t + r — are the canonical windows of chunk k. A gather or a copy out, as it stands while in
  flight, is the in-flight state of the invariant.
-/
import proofs.«205984_g59184649339042_cont_9to1_m_680_25_alg».proof.Proof.BInv
import proofs.«205984_g59184649339042_cont_9to1_m_680_25_alg».proof.Proof.BSlices
import Idealize.ShloMosaic.Lib.Writes

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

/-! ## Bookkeeping of the result's windows -/

theorem out_put (n n' k0 : ℕ) (excl : Finset ℕ) (hk0 : k0 ∈ excl) (hk : k0 < 250)
    (hmono : ∀ k ∈ Finset.range 250 \ excl, k < n' → k < n) :
    iprop((∃ fo, ⌜(oWin L k0).view.read (Elt F) fo = GP m d L fix hfix k0⌝ ∗ ((oWin L k0).view.loc (V d (cV L) (jV L)) ↦[(oWin L k0).view.set]{fullShare} fo))
        ∗ OutRes m d L fix hfix n excl) ⊢ OutRes m d L fix hfix n' (excl.erase k0) := by
  unfold OutRes
  rw [Finset.sdiff_erase (Finset.mem_range.mpr hk), SparseCore.bigSep_insert' (fun h => (Finset.mem_sdiff.mp h).2 hk0)]
  have hstep : ∀ k ∈ Finset.range 250 \ excl, (iprop(∃ fo, ⌜k < n → (oWin L k).view.read (Elt F) fo = GP m d L fix hfix k⌝
        ∗ ((oWin L k).view.loc (V d (cV L) (jV L)) ↦[(oWin L k).view.set]{fullShare} fo)) : sProp 𝕄)
      ⊢ iprop(∃ fo, ⌜k < n' → (oWin L k).view.read (Elt F) fo = GP m d L fix hfix k⌝
        ∗ ((oWin L k).view.loc (V d (cV L) (jV L)) ↦[(oWin L k).view.set]{fullShare} fo)) := fun k hk' => by
    iintro ⟨%fo, %h, H⟩
    iexists fo
    isplitr
    · ipureintro; exact fun hlt => h (hmono k hk' hlt)
    · iexact H
  have hm : (bigSep (Finset.range 250 \ excl) fun k => (iprop(∃ fo, ⌜k < n → (oWin L k).view.read (Elt F) fo = GP m d L fix hfix k⌝
        ∗ ((oWin L k).view.loc (V d (cV L) (jV L)) ↦[(oWin L k).view.set]{fullShare} fo)) : sProp 𝕄))
      ⊢ bigSep (Finset.range 250 \ excl) fun k => (iprop(∃ fo, ⌜k < n' → (oWin L k).view.read (Elt F) fo = GP m d L fix hfix k⌝
        ∗ ((oWin L k).view.loc (V d (cV L) (jV L)) ↦[(oWin L k).view.set]{fullShare} fo)) : sProp 𝕄) :=
    bigSep_mono hstep
  iintro ⟨⟨%fo, %hfo, H⟩, Hr⟩
  isplitl [H]
  · iexists fo
    isplitr
    · ipureintro; exact fun _ => hfo
    · iexact H
  · iapply hm; iexact Hr

theorem out_take (n k0 : ℕ) (excl : Finset ℕ) (hk0 : k0 ∉ excl) (hk : k0 < 250) :
    OutRes m d L fix hfix n excl ⊢ iprop((∃ fo, (oWin L k0).view.loc (V d (cV L) (jV L)) ↦[(oWin L k0).view.set]{fullShare} fo)
        ∗ OutRes m d L fix hfix n (insert k0 excl)) := by
  unfold OutRes
  rw [SparseCore.bigSep_erase' (i := k0) (Finset.mem_sdiff.mpr ⟨Finset.mem_range.mpr hk, hk0⟩), ← Finset.sdiff_insert]
  iintro ⟨⟨%fo, -, H⟩, Hr⟩
  isplitl [H]
  · iexists fo; iexact H
  · iexact Hr

/-! ## The kernel's windows are the canonical ones -/

/-- Slices through rectangles of the same sizes at equal offsets are equal, whatever their in-bounds evidence. -/
theorem slice_unit_eq {κ : Kind} {sp : Space} {s : Shape} {e : EltTy} (mm : Memref sig κ sp s e) {off off' size : Fin s.rank → ℕ}
    (h : off = off') (p : ∀ a, off a + size a ≤ s.size a) (p' : ∀ a, off' a + size a ≤ s.size a) :
    mm.slice (Rect.unit off size p) (fun _ => rfl) = mm.slice (Rect.unit off' size p') (fun _ => rfl) := by
  subst h; rfl

theorem trips_le (t : Fin k1_t1_loop.trips) : t.val < 50 := Nat.lt_of_lt_of_le t.isLt k1_t1_abs.2.1
theorem cond4_le : ∀ t : Fin k1_t1_loop.trips, k1_cond4 t = 1#1 → t.val ≤ 48 := by decide +kernel
theorem cond6_le : ∀ t : Fin k1_t1_loop.trips, k1_cond6 t = 1#1 → t.val ≤ 48 := by decide +kernel
theorem cond8_le : ∀ t : Fin k1_t1_loop.trips, k1_cond8 t = 1#1 → t.val ≤ 48 := by decide +kernel
theorem cond10_le : ∀ t : Fin k1_t1_loop.trips, k1_cond10 t = 1#1 → t.val ≤ 48 := by decide +kernel

theorem oWin_off5 (t : Fin k1_t1_loop.trips) (r : Fin 5) :
    (oV).slice (Rect.unit (s := S320000x128) (k1_off5 L t (BitVec.ofNat 32 r.val)) S40x128.size (k1_off5_inb L t r)) (fun _ => rfl) = oWin L (5 * t.val + r.val) := by
  refine slice_unit_eq (oV) ?_ _ _
  have ht := trips_le t
  have hr := r.isLt
  rw [k1_off5_eq, Nat.mod_eq_of_lt (show 5 * t.val + r.val < 250 by omega),
    show 20000 * (L 1).val + 10000 * (L 0).val + 200 * t.val + 40 * r.val = 20000 * (L 1).val + 10000 * (L 0).val + 40 * (5 * t.val + r.val) by omega]

theorem ixWin_off4 (t : Fin k1_t1_loop.trips) (h : k1_cond2 t = 1#1) :
    (ixV).slice (Rect.unit (s := S10000) (k1_off4 t) S40.size (k1_off4_inb t h)) (fun _ => rfl) = ixWin (5 * t.val + 4) := by
  refine slice_unit_eq (ixV) ?_ _ _
  have ht := trips_le t
  rw [k1_off4_eq, Nat.mod_eq_of_lt (show 5 * t.val + 4 < 250 by omega), show 200 * t.val + 160 = 40 * (5 * t.val + 4) by omega]

theorem ixWin_off7 (t : Fin k1_t1_loop.trips) (h : k1_cond4 t = 1#1) :
    (ixV).slice (Rect.unit (s := S10000) (k1_off7 t) S40.size (k1_off7_inb t h)) (fun _ => rfl) = ixWin (5 * t.val + 5) := by
  refine slice_unit_eq (ixV) ?_ _ _
  have ht := cond4_le t h
  rw [k1_off7_eq, Nat.mod_eq_of_lt (show 5 * t.val + 5 < 250 by omega), show 200 * t.val + 200 = 40 * (5 * t.val + 5) by omega]

theorem ixWin_off9 (t : Fin k1_t1_loop.trips) (h : k1_cond6 t = 1#1) :
    (ixV).slice (Rect.unit (s := S10000) (k1_off9 t) S40.size (k1_off9_inb t h)) (fun _ => rfl) = ixWin (5 * t.val + 6) := by
  refine slice_unit_eq (ixV) ?_ _ _
  have ht := cond6_le t h
  rw [k1_off9_eq, Nat.mod_eq_of_lt (show 5 * t.val + 6 < 250 by omega), show 200 * t.val + 240 = 40 * (5 * t.val + 6) by omega]

theorem ixWin_off11 (t : Fin k1_t1_loop.trips) (h : k1_cond8 t = 1#1) :
    (ixV).slice (Rect.unit (s := S10000) (k1_off11 t) S40.size (k1_off11_inb t h)) (fun _ => rfl) = ixWin (5 * t.val + 7) := by
  refine slice_unit_eq (ixV) ?_ _ _
  have ht := cond8_le t h
  rw [k1_off11_eq, Nat.mod_eq_of_lt (show 5 * t.val + 7 < 250 by omega), show 200 * t.val + 280 = 40 * (5 * t.val + 7) by omega]

theorem ixWin_off13 (t : Fin k1_t1_loop.trips) (h : k1_cond10 t = 1#1) :
    (ixV).slice (Rect.unit (s := S10000) (k1_off13 t) S40.size (k1_off13_inb t h)) (fun _ => rfl) = ixWin (5 * t.val + 8) := by
  refine slice_unit_eq (ixV) ?_ _ _
  have ht := cond10_le t h
  rw [k1_off13_eq, Nat.mod_eq_of_lt (show 5 * t.val + 8 < 250 by omega), show 200 * t.val + 320 = 40 * (5 * t.val + 8) by omega]

/-- The waits' destination operand: the first forty rows of the worker's rows. -/
theorem oWin_base (off : Fin 2 → ℕ) (hoff : off = ![20000 * (L 1).val + 10000 * (L 0).val, 0]) (p : ∀ a, off a + S40x128.size a ≤ S320000x128.size a) :
    (oV).slice (Rect.unit (s := S320000x128) off S40x128.size p) (fun _ => rfl) = oWin L 0 := by
  refine slice_unit_eq (oV) ?_ _ _
  rw [hoff]
  simp
theorem oWin_off3 (t : Fin k1_t1_loop.trips) (h2 : k1_cond2 t = 1#1) (h3 : k1_cond3 t = 1#1) :
    (oV).slice (Rect.unit (s := S320000x128) (k1_off3 L) S40x128.size (k1_off3_inb L t h2 h3)) (fun _ => rfl) = oWin L 0 := oWin_base L _ (k1_off3_eq L) _
theorem oWin_off6 (t : Fin k1_t1_loop.trips) (h4 : k1_cond4 t = 1#1) (h5 : k1_cond5 t = 1#1) :
    (oV).slice (Rect.unit (s := S320000x128) (k1_off6 L) S40x128.size (k1_off6_inb L t h4 h5)) (fun _ => rfl) = oWin L 0 := oWin_base L _ (k1_off6_eq L) _
theorem oWin_off8 (t : Fin k1_t1_loop.trips) (h6 : k1_cond6 t = 1#1) (h7 : k1_cond7 t = 1#1) :
    (oV).slice (Rect.unit (s := S320000x128) (k1_off8 L) S40x128.size (k1_off8_inb L t h6 h7)) (fun _ => rfl) = oWin L 0 := oWin_base L _ (k1_off8_eq L) _
theorem oWin_off10 (t : Fin k1_t1_loop.trips) (h8 : k1_cond8 t = 1#1) (h9 : k1_cond9 t = 1#1) :
    (oV).slice (Rect.unit (s := S320000x128) (k1_off10 L) S40x128.size (k1_off10_inb L t h8 h9)) (fun _ => rfl) = oWin L 0 := oWin_base L _ (k1_off10_eq L) _
theorem oWin_off12 (t : Fin k1_t1_loop.trips) (h10 : k1_cond10 t = 1#1) (h11 : k1_cond11 t = 1#1) :
    (oV).slice (Rect.unit (s := S320000x128) (k1_off12 L) S40x128.size (k1_off12_inb L t h10 h11)) (fun _ => rfl) = oWin L 0 := oWin_base L _ (k1_off12_eq L) _
theorem oWin_off14 :
    (oV).slice (Rect.unit (s := S320000x128) (k1_off14 L) S40x128.size (k1_off14_inb L)) (fun _ => rfl) = oWin L 0 := oWin_base L _ (k1_off14_eq L) _

/-! ## Transfers in flight, in the invariant's spelling -/

theorem k1_off4_canon (t : Fin k1_t1_loop.trips) : k1_off4 t = ![40 * ((5 * t.val + 4) % 250)] := by
  have ht := trips_le t
  rw [k1_off4_eq, Nat.mod_eq_of_lt (show 5 * t.val + 4 < 250 by omega), show 200 * t.val + 160 = 40 * (5 * t.val + 4) by omega]
theorem k1_off7_canon (t : Fin k1_t1_loop.trips) (h : k1_cond4 t = 1#1) : k1_off7 t = ![40 * ((5 * t.val + 5) % 250)] := by
  have ht := cond4_le t h
  rw [k1_off7_eq, Nat.mod_eq_of_lt (show 5 * t.val + 5 < 250 by omega), show 200 * t.val + 200 = 40 * (5 * t.val + 5) by omega]
theorem k1_off9_canon (t : Fin k1_t1_loop.trips) (h : k1_cond6 t = 1#1) : k1_off9 t = ![40 * ((5 * t.val + 6) % 250)] := by
  have ht := cond6_le t h
  rw [k1_off9_eq, Nat.mod_eq_of_lt (show 5 * t.val + 6 < 250 by omega), show 200 * t.val + 240 = 40 * (5 * t.val + 6) by omega]
theorem k1_off11_canon (t : Fin k1_t1_loop.trips) (h : k1_cond8 t = 1#1) : k1_off11 t = ![40 * ((5 * t.val + 7) % 250)] := by
  have ht := cond8_le t h
  rw [k1_off11_eq, Nat.mod_eq_of_lt (show 5 * t.val + 7 < 250 by omega), show 200 * t.val + 280 = 40 * (5 * t.val + 7) by omega]
theorem k1_off13_canon (t : Fin k1_t1_loop.trips) (h : k1_cond10 t = 1#1) : k1_off13 t = ![40 * ((5 * t.val + 8) % 250)] := by
  have ht := cond10_le t h
  rw [k1_off13_eq, Nat.mod_eq_of_lt (show 5 * t.val + 8 < 250 by omega), show 200 * t.val + 320 = 40 * (5 * t.val + 8) by omega]

/-- A gather just issued, in canonical form: the window of the index list it reads is given by its
    offset, which is chunk k's. -/
theorem gath_canon (g : DmaSems sig S_) (sl : Memref sig .scVector .vmem S40x128 .f32) (k : ℕ) (qi qs : PosShare TreeShare)
    (off : Fin 1 → ℕ) (hinb : ∀ a, off a + S40.size a ≤ S10000.size a) (hoff : off = ![40 * (k % 250)])
    (fprev : Buf (Elt F) (sl.view.loc (V d (cV L) (jV L)))) (p : S40x128.Idx → Elt F .f32)
    (hp : ∀ hinw, p = SparseCore.gatherPayload gathers_S10000x128_S40x128 ((shAll).view.read (Elt F) (shval m d (cV L)))
      (SparseCore.rows (((ixV).slice (Rect.unit (s := S10000) off S40.size hinb) (fun _ => rfl)).view.read (Elt F) fix) rfl hinw)) :
    (Transfers.Flight countersEmb (V d (cV L) (jV L)) (SemLoc.dma g.sem) (default : HIx 1) 163840
      iprop(((sl.view.loc (V d (cV L) (jV L)) ↦[sl.view.set]{fullShare} sl.view.writes (Elt F) fprev [⟨Rect.whole S40x128, p⟩])
          ∗ ((ixV).view.loc (V d (cV L) (jV L)) ↦[((ixV).slice (Rect.unit (s := S10000) off S40.size hinb) (fun _ => rfl)).view.set]{qi} fix))
        ∗ ((shV).view.loc (V d (cV L) (jV L)) ↦[(shAll).view.set]{qs} shval m d (cV L))) : sProp 𝕄)
      ⊢ GFl m d L fix hfix g sl k qi qs := by
  subst hoff
  unfold GFl
  iintro H
  iexists (sl.view.writes (Elt F) fprev [⟨Rect.whole S40x128, p⟩])
  isplitr
  · ipureintro
    funext x
    have e := View.read_writes_cons_emb sl.view fprev (Rect.whole S40x128) p [] x
    rw [Rect.emb_whole_apply] at e
    rw [e, hp (hinWin d L fix hfix k)]
    rfl
  · iexact H

/-! ## The kernel's windows, as points-to assertions -/

theorem k1_off5_canon (t : Fin k1_t1_loop.trips) (r : Fin 5) :
    k1_off5 L t (BitVec.ofNat 32 r.val) = ![20000 * (L 1).val + 10000 * (L 0).val + 40 * ((5 * t.val + r.val) % 250), 0] := by
  have ht := trips_le t
  have hr := r.isLt
  rw [k1_off5_eq, Nat.mod_eq_of_lt (show 5 * t.val + r.val < 250 by omega),
    show 20000 * (L 1).val + 10000 * (L 0).val + 200 * t.val + 40 * r.val = 20000 * (L 1).val + 10000 * (L 0).val + 40 * (5 * t.val + r.val) by omega]

/-- A window of the worker's rows given by its offset, which is chunk k's, is chunk k's canonical window. -/
theorem pts_oWin_gen (k : ℕ) (off : Fin 2 → ℕ) (p : ∀ a, off a + S40x128.size a ≤ S320000x128.size a)
    (hoff : off = ![20000 * (L 1).val + 10000 * (L 0).val + 40 * (k % 250), 0]) (q : PosShare TreeShare)
    (f : Buf (Elt F) ((oWin L k).view.loc (V d (cV L) (jV L)))) :
    ((oWin L k).view.loc (V d (cV L) (jV L)) ↦[(oWin L k).view.set]{q} f : sProp 𝕄)
      = (((oV).slice (Rect.unit (s := S320000x128) off S40x128.size p) (fun _ => rfl)).view.loc (V d (cV L) (jV L))
          ↦[((oV).slice (Rect.unit (s := S320000x128) off S40x128.size p) (fun _ => rfl)).view.set]{q} f) := by
  subst hoff; rfl

theorem pts_oWin5 (t : Fin k1_t1_loop.trips) (r : Fin 5) (q : PosShare TreeShare) (f : Buf (Elt F) ((oWin L (5 * t.val + r.val)).view.loc (V d (cV L) (jV L)))) :
    ((oWin L (5 * t.val + r.val)).view.loc (V d (cV L) (jV L)) ↦[(oWin L (5 * t.val + r.val)).view.set]{q} f : sProp 𝕄)
      = (((oV).slice (Rect.unit (s := S320000x128) (k1_off5 L t (BitVec.ofNat 32 r.val)) S40x128.size (k1_off5_inb L t r)) (fun _ => rfl)).view.loc (V d (cV L) (jV L))
          ↦[((oV).slice (Rect.unit (s := S320000x128) (k1_off5 L t (BitVec.ofNat 32 r.val)) S40x128.size (k1_off5_inb L t r)) (fun _ => rfl)).view.set]{q} f) :=
  pts_oWin_gen d L (5 * t.val + r.val) _ _ (k1_off5_canon L t r) q f

/-- The five instances in the program's literal spelling. -/
theorem pts_oWin5_0 (t : Fin k1_t1_loop.trips) (q : PosShare TreeShare) (f : Buf (Elt F) ((oWin L (5 * t.val)).view.loc (V d (cV L) (jV L)))) :
    ((oWin L (5 * t.val)).view.loc (V d (cV L) (jV L)) ↦[(oWin L (5 * t.val)).view.set]{q} f : sProp 𝕄)
      = (((oV).slice (Rect.unit (s := S320000x128) (k1_off5 L t 0#32) S40x128.size (k1_off5_inb L t 0)) (fun _ => rfl)).view.loc (V d (cV L) (jV L))
          ↦[((oV).slice (Rect.unit (s := S320000x128) (k1_off5 L t 0#32) S40x128.size (k1_off5_inb L t 0)) (fun _ => rfl)).view.set]{q} f) :=
  pts_oWin5 d L t 0 q f
theorem pts_oWin5_1 (t : Fin k1_t1_loop.trips) (q : PosShare TreeShare) (f : Buf (Elt F) ((oWin L (5 * t.val + 1)).view.loc (V d (cV L) (jV L)))) :
    ((oWin L (5 * t.val + 1)).view.loc (V d (cV L) (jV L)) ↦[(oWin L (5 * t.val + 1)).view.set]{q} f : sProp 𝕄)
      = (((oV).slice (Rect.unit (s := S320000x128) (k1_off5 L t 1#32) S40x128.size (k1_off5_inb L t 1)) (fun _ => rfl)).view.loc (V d (cV L) (jV L))
          ↦[((oV).slice (Rect.unit (s := S320000x128) (k1_off5 L t 1#32) S40x128.size (k1_off5_inb L t 1)) (fun _ => rfl)).view.set]{q} f) :=
  pts_oWin5 d L t 1 q f
theorem pts_oWin5_2 (t : Fin k1_t1_loop.trips) (q : PosShare TreeShare) (f : Buf (Elt F) ((oWin L (5 * t.val + 2)).view.loc (V d (cV L) (jV L)))) :
    ((oWin L (5 * t.val + 2)).view.loc (V d (cV L) (jV L)) ↦[(oWin L (5 * t.val + 2)).view.set]{q} f : sProp 𝕄)
      = (((oV).slice (Rect.unit (s := S320000x128) (k1_off5 L t 2#32) S40x128.size (k1_off5_inb L t 2)) (fun _ => rfl)).view.loc (V d (cV L) (jV L))
          ↦[((oV).slice (Rect.unit (s := S320000x128) (k1_off5 L t 2#32) S40x128.size (k1_off5_inb L t 2)) (fun _ => rfl)).view.set]{q} f) :=
  pts_oWin5 d L t 2 q f
theorem pts_oWin5_3 (t : Fin k1_t1_loop.trips) (q : PosShare TreeShare) (f : Buf (Elt F) ((oWin L (5 * t.val + 3)).view.loc (V d (cV L) (jV L)))) :
    ((oWin L (5 * t.val + 3)).view.loc (V d (cV L) (jV L)) ↦[(oWin L (5 * t.val + 3)).view.set]{q} f : sProp 𝕄)
      = (((oV).slice (Rect.unit (s := S320000x128) (k1_off5 L t 3#32) S40x128.size (k1_off5_inb L t 3)) (fun _ => rfl)).view.loc (V d (cV L) (jV L))
          ↦[((oV).slice (Rect.unit (s := S320000x128) (k1_off5 L t 3#32) S40x128.size (k1_off5_inb L t 3)) (fun _ => rfl)).view.set]{q} f) :=
  pts_oWin5 d L t 3 q f
theorem pts_oWin5_4 (t : Fin k1_t1_loop.trips) (q : PosShare TreeShare) (f : Buf (Elt F) ((oWin L (5 * t.val + 4)).view.loc (V d (cV L) (jV L)))) :
    ((oWin L (5 * t.val + 4)).view.loc (V d (cV L) (jV L)) ↦[(oWin L (5 * t.val + 4)).view.set]{q} f : sProp 𝕄)
      = (((oV).slice (Rect.unit (s := S320000x128) (k1_off5 L t 4#32) S40x128.size (k1_off5_inb L t 4)) (fun _ => rfl)).view.loc (V d (cV L) (jV L))
          ↦[((oV).slice (Rect.unit (s := S320000x128) (k1_off5 L t 4#32) S40x128.size (k1_off5_inb L t 4)) (fun _ => rfl)).view.set]{q} f) :=
  pts_oWin5 d L t 4 q f

/-- A window of the index list given by its offset, which is chunk k's, is chunk k's canonical window; so is what is left
    of the list beside it. -/
theorem pts_ixWin_gen (k : ℕ) (off : Fin 1 → ℕ) (p : ∀ a, off a + S40.size a ≤ S10000.size a) (hoff : off = ![40 * (k % 250)]) (qi : PosShare TreeShare) :
    ((ixV).view.loc (V d (cV L) (jV L)) ↦[((ixV).slice (Rect.unit (s := S10000) off S40.size p) (fun _ => rfl)).view.set]{qi} fix : sProp 𝕄)
      = ((ixWin k).view.loc (V d (cV L) (jV L)) ↦[(ixWin k).view.set]{qi} fix) := by
  subst hoff; rfl
theorem pts_ixRest_gen (k : ℕ) (off : Fin 1 → ℕ) (p : ∀ a, off a + S40.size a ≤ S10000.size a) (hoff : off = ![40 * (k % 250)]) (qi : PosShare TreeShare) :
    ((ixV).view.loc (V d (cV L) (jV L)) ↦[Finset.univ \ ((ixV).slice (Rect.unit (s := S10000) off S40.size p) (fun _ => rfl)).view.set]{qi} fix : sProp 𝕄)
      = ((ixV).view.loc (V d (cV L) (jV L)) ↦[Finset.univ \ (ixWin k).view.set]{qi} fix) := by
  subst hoff; rfl

theorem pts_ixWin4 (t : Fin k1_t1_loop.trips) (h : k1_cond2 t = 1#1) (qi : PosShare TreeShare) :
    ((ixV).view.loc (V d (cV L) (jV L)) ↦[((ixV).slice (Rect.unit (s := S10000) (k1_off4 t) S40.size (k1_off4_inb t h)) (fun _ => rfl)).view.set]{qi} fix : sProp 𝕄)
      = ((ixWin (5 * t.val + 4)).view.loc (V d (cV L) (jV L)) ↦[(ixWin (5 * t.val + 4)).view.set]{qi} fix) :=
  pts_ixWin_gen d L fix (5 * t.val + 4) _ _ (k1_off4_canon t) qi
theorem pts_ixWin7 (t : Fin k1_t1_loop.trips) (h : k1_cond4 t = 1#1) (qi : PosShare TreeShare) :
    ((ixV).view.loc (V d (cV L) (jV L)) ↦[((ixV).slice (Rect.unit (s := S10000) (k1_off7 t) S40.size (k1_off7_inb t h)) (fun _ => rfl)).view.set]{qi} fix : sProp 𝕄)
      = ((ixWin (5 * t.val + 5)).view.loc (V d (cV L) (jV L)) ↦[(ixWin (5 * t.val + 5)).view.set]{qi} fix) :=
  pts_ixWin_gen d L fix (5 * t.val + 5) _ _ (k1_off7_canon t h) qi
theorem pts_ixWin9 (t : Fin k1_t1_loop.trips) (h : k1_cond6 t = 1#1) (qi : PosShare TreeShare) :
    ((ixV).view.loc (V d (cV L) (jV L)) ↦[((ixV).slice (Rect.unit (s := S10000) (k1_off9 t) S40.size (k1_off9_inb t h)) (fun _ => rfl)).view.set]{qi} fix : sProp 𝕄)
      = ((ixWin (5 * t.val + 6)).view.loc (V d (cV L) (jV L)) ↦[(ixWin (5 * t.val + 6)).view.set]{qi} fix) :=
  pts_ixWin_gen d L fix (5 * t.val + 6) _ _ (k1_off9_canon t h) qi
theorem pts_ixWin11 (t : Fin k1_t1_loop.trips) (h : k1_cond8 t = 1#1) (qi : PosShare TreeShare) :
    ((ixV).view.loc (V d (cV L) (jV L)) ↦[((ixV).slice (Rect.unit (s := S10000) (k1_off11 t) S40.size (k1_off11_inb t h)) (fun _ => rfl)).view.set]{qi} fix : sProp 𝕄)
      = ((ixWin (5 * t.val + 7)).view.loc (V d (cV L) (jV L)) ↦[(ixWin (5 * t.val + 7)).view.set]{qi} fix) :=
  pts_ixWin_gen d L fix (5 * t.val + 7) _ _ (k1_off11_canon t h) qi
theorem pts_ixWin13 (t : Fin k1_t1_loop.trips) (h : k1_cond10 t = 1#1) (qi : PosShare TreeShare) :
    ((ixV).view.loc (V d (cV L) (jV L)) ↦[((ixV).slice (Rect.unit (s := S10000) (k1_off13 t) S40.size (k1_off13_inb t h)) (fun _ => rfl)).view.set]{qi} fix : sProp 𝕄)
      = ((ixWin (5 * t.val + 8)).view.loc (V d (cV L) (jV L)) ↦[(ixWin (5 * t.val + 8)).view.set]{qi} fix) :=
  pts_ixWin_gen d L fix (5 * t.val + 8) _ _ (k1_off13_canon t h) qi

theorem pts_ixRest4 (t : Fin k1_t1_loop.trips) (h : k1_cond2 t = 1#1) (qi : PosShare TreeShare) (k : ℕ) (hk : k = 5 * t.val + 4) :
    ((ixV).view.loc (V d (cV L) (jV L)) ↦[Finset.univ \ ((ixV).slice (Rect.unit (s := S10000) (k1_off4 t) S40.size (k1_off4_inb t h)) (fun _ => rfl)).view.set]{qi} fix : sProp 𝕄)
      = ((ixV).view.loc (V d (cV L) (jV L)) ↦[Finset.univ \ (ixWin k).view.set]{qi} fix) :=
  pts_ixRest_gen d L fix k _ _ (hk ▸ k1_off4_canon t) qi
theorem pts_ixRest7 (t : Fin k1_t1_loop.trips) (h : k1_cond4 t = 1#1) (qi : PosShare TreeShare) (k : ℕ) (hk : k = 5 * t.val + 5) :
    ((ixV).view.loc (V d (cV L) (jV L)) ↦[Finset.univ \ ((ixV).slice (Rect.unit (s := S10000) (k1_off7 t) S40.size (k1_off7_inb t h)) (fun _ => rfl)).view.set]{qi} fix : sProp 𝕄)
      = ((ixV).view.loc (V d (cV L) (jV L)) ↦[Finset.univ \ (ixWin k).view.set]{qi} fix) :=
  pts_ixRest_gen d L fix k _ _ (hk ▸ k1_off7_canon t h) qi
theorem pts_ixRest9 (t : Fin k1_t1_loop.trips) (h : k1_cond6 t = 1#1) (qi : PosShare TreeShare) (k : ℕ) (hk : k = 5 * t.val + 6) :
    ((ixV).view.loc (V d (cV L) (jV L)) ↦[Finset.univ \ ((ixV).slice (Rect.unit (s := S10000) (k1_off9 t) S40.size (k1_off9_inb t h)) (fun _ => rfl)).view.set]{qi} fix : sProp 𝕄)
      = ((ixV).view.loc (V d (cV L) (jV L)) ↦[Finset.univ \ (ixWin k).view.set]{qi} fix) :=
  pts_ixRest_gen d L fix k _ _ (hk ▸ k1_off9_canon t h) qi
theorem pts_ixRest11 (t : Fin k1_t1_loop.trips) (h : k1_cond8 t = 1#1) (qi : PosShare TreeShare) (k : ℕ) (hk : k = 5 * t.val + 7) :
    ((ixV).view.loc (V d (cV L) (jV L)) ↦[Finset.univ \ ((ixV).slice (Rect.unit (s := S10000) (k1_off11 t) S40.size (k1_off11_inb t h)) (fun _ => rfl)).view.set]{qi} fix : sProp 𝕄)
      = ((ixV).view.loc (V d (cV L) (jV L)) ↦[Finset.univ \ (ixWin k).view.set]{qi} fix) :=
  pts_ixRest_gen d L fix k _ _ (hk ▸ k1_off11_canon t h) qi
theorem pts_ixRest13 (t : Fin k1_t1_loop.trips) (h : k1_cond10 t = 1#1) (qi : PosShare TreeShare) (k : ℕ) (hk : k = 5 * t.val + 8) :
    ((ixV).view.loc (V d (cV L) (jV L)) ↦[Finset.univ \ ((ixV).slice (Rect.unit (s := S10000) (k1_off13 t) S40.size (k1_off13_inb t h)) (fun _ => rfl)).view.set]{qi} fix : sProp 𝕄)
      = ((ixV).view.loc (V d (cV L) (jV L)) ↦[Finset.univ \ (ixWin k).view.set]{qi} fix) :=
  pts_ixRest_gen d L fix k _ _ (hk ▸ k1_off13_canon t h) qi

/-- A chunk's window of the index list and the rest of the list make the list whole again. -/
theorem ix_rejoin (k : ℕ) (qi : PosShare TreeShare) :
    iprop(((ixWin k).view.loc (V d (cV L) (jV L)) ↦[(ixWin k).view.set]{qi} fix) ∗ ((ixV).view.loc (V d (cV L) (jV L)) ↦[Finset.univ \ (ixWin k).view.set]{qi} fix))
      ⊢ ((ixV).view.loc (V d (cV L) (jV L)) ↦{qi} fix : sProp 𝕄) :=
  (pointsTo_split_subset (Finset.subset_univ _)).2

/-- Rows written with the gathered rows read back the gathered rows. -/
theorem stored_good (k : ℕ) (off : Fin 2 → ℕ) (hinb : ∀ a, off a + S40x128.size a ≤ S320000x128.size a)
    (hoff : off = ![20000 * (L 1).val + 10000 * (L 0).val + 40 * (k % 250), 0]) (fw : Buf (Elt F) ((oV).view.loc (V d (cV L) (jV L))))
    (p : S40x128.Idx → Elt F .f32) (hp : p = GP m d L fix hfix k) :
    (oWin L k).view.read (Elt F) (((oV).slice (Rect.unit (s := S320000x128) off S40x128.size hinb) (fun _ => rfl)).view.writes (Elt F) fw [⟨Rect.whole S40x128, p⟩])
      = GP m d L fix hfix k := by
  subst hoff
  subst hp
  funext x
  have e := View.read_writes_cons_emb (oWin L k).view fw (Rect.whole S40x128) (GP m d L fix hfix k) [] x
  rw [Rect.emb_whole_apply] at e
  exact e

end Cert.Kernel.KRun

end
-- ==== Proof.BPre5.lean ====
/-
  The head of the last part of a vector subcore's program, up to its loop: the gather of chunk 3 into slot 3.

  From slot 3 free — the slot at some contents, its read shares of the shared copy and of the index list whole,
  its two semaphores at zero — the gather is issued: the slot, chunk 3's forty entries of the index list and the
  share of the shared copy travel with it, and what its wait will hand back is the slot holding the rows those
  entries name, which is chunk 3's payload.
-/
import proofs.«205984_g59184649339042_cont_9to1_m_680_25_alg».proof.Proof.BInv
import proofs.«205984_g59184649339042_cont_9to1_m_680_25_alg».proof.Proof.BVal
import proofs.«205984_g59184649339042_cont_9to1_m_680_25_alg».proof.Proof.BTripLib

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable (d : Dev nD) (L : grid1.Coords)
variable (fix : Buf (Elt F) ((ixV).view.loc (V d (cV L) (jV L)))) (hfix : FixOk d L fix)

omit [FloatOps F] in
/-- An in-flight transfer on a semaphore, the semaphore spelt another way. -/
theorem flight_sem {c : Thread nD τ} {sm sm' : DmaSem sig} (h : sm = sm') {ι : HIx 1} {N : ℕ} {D : sProp 𝕄} :
    (Transfers.Flight (countersEmb (nD := nD) (τ := τ) (sig := sig) (Ix := HIx 1) (Val := Elt F) (Name := ℕ) (U := UU) (Lvl := ℕ)) c (SemLoc.dma sm) ι N D : sProp 𝕄)
      ⊢ Transfers.Flight countersEmb c (SemLoc.dma sm') ι N D := by
  subst h
  all_goals exact .rfl

set_option maxHeartbeats 8000000 in
/-- The gather of chunk 3 into slot 3, before any continuation: from the slot free to the gather in flight. -/
theorem pre5_gather {α : Type} (k : PUnit → Prog (TpuEff nD τ sig (Elt F) Λ₀ (.scVector (cV L) (jV L))) α) (Φ : α → sProp 𝕄)
    (O : CellTallies nD τ sig (HIx 1)) (W : Waits sig (HIx 1)) (qi qs : PosShare TreeShare)
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000) :
    iprop(Transfers.MayWaits (V d (cV L) (jV L)) (default : HIx 1) O
        ∗ SlotFree m d L fix cc1_scratch6 cc1_scratch11 sl3 qi qs
        ∗ owes (V d (cV L) (jV L)) O W
        ∗ (iprop(SlotGath m d L fix hfix cc1_scratch6 cc1_scratch11 sl3 3 qi qs ∗ owes (V d (cV L) (jV L)) O W)
            -∗ wp frame (wpE (defs₀ (F := F)) 𝒱₀ (V d (cV L) (jV L)) none) Set.univ (k ⟨⟩) Φ))
      ⊢ wp frame (wpE (defs₀ (F := F)) 𝒱₀ (V d (cV L) (jV L)) none) Set.univ
          ((SparseCore.enqueueIndirectGather rfl
              ((shV).slice (Rect.unit (s := S10000x128) ![0, 0] S10000x128.size inb_S10000x128_S10000x128_0_0) (fun _ => rfl))
              (((rwV).slice (Rect.unit (s := S5x40x128) ![3, 0, 0] S1x40x128.size inb_S5x40x128_S1x40x128_3_0_0) (fun _ => rfl)).squeeze S40x128 squeezes_S1x40x128_S40x128)
              gathers_S10000x128_S40x128
              ((ixV).slice (Rect.unit (s := S10000) ![120] S40.size inb_S10000_S40_120) (fun _ => rfl))
              rfl cc1_scratch6.sem (View.wordExact_bits rfl) rfl (Or.inr rfl)) >>= k) Φ := by
  unfold SlotFree Shares
  iintro ⟨#Hmw, ⟨⟨%fb, Hslot⟩, ⟨Hsh, Hix⟩, Hg, Hs⟩, HO, Hk⟩
  -- the slot, spelt as the program slices it
  ihave Hslot := (Entails.of_eq (show ((sl3).view.loc (V d (cV L) (jV L)) ↦[(sl3).view.set]{fullShare} fb : sProp 𝕄)
      = ((((rwV).slice (Rect.unit (s := S5x40x128) ![3, 0, 0] S1x40x128.size inb_S5x40x128_S1x40x128_3_0_0) (fun _ => rfl)).squeeze S40x128 squeezes_S1x40x128_S40x128).view.loc (V d (cV L) (jV L)) ↦[(((rwV).slice (Rect.unit (s := S5x40x128) ![3, 0, 0] S1x40x128.size inb_S5x40x128_S1x40x128_3_0_0) (fun _ => rfl)).squeeze S40x128 squeezes_S1x40x128_S40x128).view.set]{fullShare} fb) from rfl)) $$ Hslot
  sl_exec
  -- the gather in flight, in the canonical form: what it delivers into the slot is chunk 3's payload
  ihave Hg := (flight_sem (F := F) (sm := ⟨7, _⟩) (sm' := cc1_scratch6.sem) rfl) $$ Hg
  ihave Hgf := (gath_canon m d L fix hfix cc1_scratch6 (((rwV).slice (Rect.unit (s := S5x40x128) ![3, 0, 0] S1x40x128.size inb_S5x40x128_S1x40x128_3_0_0) (fun _ => rfl)).squeeze S40x128 squeezes_S1x40x128_S40x128) 3 qi qs ![120] inb_S10000_S40_120 rfl fb (pre5_gather.sl.gather0 m d L fix hin) (fun _ => rfl)) $$ Hg
  ihave Hgf := (Entails.of_eq (show GFl m d L fix hfix cc1_scratch6 (((rwV).slice (Rect.unit (s := S5x40x128) ![3, 0, 0] S1x40x128.size inb_S5x40x128_S1x40x128_3_0_0) (fun _ => rfl)).squeeze S40x128 squeezes_S1x40x128_S40x128) 3 qi qs = GFl m d L fix hfix cc1_scratch6 sl3 3 qi qs from rfl)) $$ Hgf
  iapply Hk
  isplitr [HO]
  · unfold SlotGath
    isplitl [Hgf]; · iexact Hgf
    isplitl [Hix]; · iexact Hix
    iexact Hs
  iexact HO

end Cert.Kernel.KRun

end
-- ==== Proof.BBarrier.lean ====
/-
  What the subcore barrier carries, and what the copied index list holds.

  A staging subcore arrives at the barrier having copied its block of the transformed features into the shared
  memory: element by element the block now holds those features, so the subcore can hand every subcore of its
  SparseCore a sixteenth read share of the block at those contents — the payload of its duty in each round. A
  subcore that stages nothing hands nothing. Leaving the barrier, a subcore has collected its sixteenth share
  of each of the ten blocks: a sixteenth read share of the whole shared copy, holding the features.
  The subcore's copy of its window of the list of source nodes holds, under the input range, row numbers of the
  node table.
-/
import proofs.«205984_g59184649339042_cont_9to1_m_680_25_alg».proof.Proof.BSlices
import proofs.«205984_g59184649339042_cont_9to1_m_680_25_alg».proof.Proof.BShares
import proofs.«205984_g59184649339042_cont_9to1_m_680_25_alg».proof.Proof.BStage
import proofs.«205984_g59184649339042_cont_9to1_m_680_25_alg».proof.Proof.BIdx
import proofs.«205984_g59184649339042_cont_9to1_m_680_25_alg».proof.Proof.BMem
import Idealize.ShloMosaic.Lib.Writes

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable (d : Dev nD) (L : grid1.Coords)

/-! ## Arriving -/

/-- An element of the block just copied holds what the copy read at the same place of the block in HBM. -/
theorem staged_at (h1 : k1_cond1 L = 1#1) (fsh : Buf (Elt F) ((shSl L h1).view.loc (V d (cV L) (jV L)))) (x : S1000x128.Idx) :
    ((shSl L h1).view.writes (Elt F) fsh [⟨Rect.whole S1000x128, ReadAs.same.apply (View.read (Elt F) (ySl L h1).view (yval m d))⟩]) ((shSl L h1).view.emb x)
      = (View.read (Elt F) (ySl L h1).view (yval m d)) x := by
  have e := View.read_writes_cons_emb (shSl L h1).view fsh (Rect.whole S1000x128)
    (ReadAs.same.apply (View.read (Elt F) (ySl L h1).view (yval m d))) [] x
  rw [Rect.emb_whole_apply, View.read_apply] at e
  exact (cast_eq _ _).symm.trans e

/-- The block just copied holds, on its own elements, the transformed features: the copy reads the block of the
    features in HBM and writes the block of the shared memory through the same rectangle. -/
theorem staged_agree (h1 : k1_cond1 L = 1#1) (fsh : Buf (Elt F) ((shSl L h1).view.loc (V d (cV L) (jV L)))) :
    ∀ i ∈ (shSl L h1).view.set,
      ((shSl L h1).view.writes (Elt F) fsh [⟨Rect.whole S1000x128, ReadAs.same.apply (View.read (Elt F) (ySl L h1).view (yval m d))⟩]) i
        = (shval m d (cV L) : FVec F S10000x128 .f32) i := by
  intro i hi
  obtain ⟨x, -, rfl⟩ := Finset.mem_map.mp hi
  exact (staged_at m d L h1 fsh x).trans rfl

/-- A staging subcore's payloads: a sixteenth read share of its block, at the features, into every round. -/
theorem pays_intro (h1 : k1_cond1 L = 1#1) (fsh : Buf (Elt F) ((shSl L h1).view.loc (V d (cV L) (jV L)))) :
    ((shSl L h1).view.loc (V d (cV L) (jV L)) ↦[(shSl L h1).view.set]{fullShare}
        (shSl L h1).view.writes (Elt F) fsh [⟨Rect.whole S1000x128, ReadAs.same.apply (View.read (Elt F) (ySl L h1).view (yval m d))⟩] : sProp 𝕄)
      ⊢ bigSep Finset.univ fun j : Fin (grid1.bound 1) => (bRd (F := F) m).payload (bcell d (cV L) (j.castLE hsub1)) 0 (jV L).val := by
  have e1 : ((shSl L h1).view.loc (V d (cV L) (jV L)) ↦[(shSl L h1).view.set]{fullShare}
        (shSl L h1).view.writes (Elt F) fsh [⟨Rect.whole S1000x128, ReadAs.same.apply (View.read (Elt F) (ySl L h1).view (yval m d))⟩] : sProp 𝕄)
      = ((shSl L h1).view.loc (V d (cV L) (jV L)) ↦[(shSl L h1).view.set]{fullShare} shval m d (cV L)) :=
    pointsTo_congr (staged_agree m d L h1 fsh)
  rw [e1, pts_shSl d L h1 fullShare (shval m d (cV L)), pointsTo_q16]
  refine Entails.of_eq (bigSep_congr fun j _ => ?_)
  show _ = bPay m (bcell d (cV L) (j.castLE hsub1)) (jV L).val
  unfold bPay
  dsimp only
  exact ((if_pos (show (jV L).val < 10 from (cond1_iff L).mp h1)).trans rfl).symm

/-- A subcore that stages nothing hands nothing. -/
theorem pays_intro_idle (h1 : ¬ k1_cond1 L = 1#1) :
    (iprop(emp) : sProp 𝕄)
      ⊢ bigSep Finset.univ fun j : Fin (grid1.bound 1) => (bRd (F := F) m).payload (bcell d (cV L) (j.castLE hsub1)) 0 (jV L).val := by
  have hn : ¬ (jV L).val < 10 := fun h => h1 ((cond1_iff L).mpr h)
  have e : (fun j : Fin (grid1.bound 1) => (bRd (F := F) m).payload (bcell d (cV L) (j.castLE hsub1)) 0 (jV L).val)
      = fun _ => (iprop(emp) : sProp 𝕄) := funext fun j => by
    show bPay m (bcell d (cV L) (j.castLE hsub1)) (jV L).val = _
    unfold bPay
    dsimp only
    exact if_neg hn
  rw [e]
  exact Entails.of_eq (bigSep_emp_const Finset.univ).symm

/-! ## Leaving -/

/-- What a subcore's own round collected: a sixteenth read share of the whole shared copy, at the features. -/
theorem pays_elim :
    (bigSep ((bRd (F := F) m).duties (bcell d (cV L) (jV L)) 0 \ ∅) fun n => (bRd (F := F) m).payload (bcell d (cV L) (jV L)) 0 n)
      ⊢ ((shV).view.loc (V d (cV L) (jV L)) ↦{q16 (Fin.cast nSub_eq (jV L))} shval m d (cV L) : sProp 𝕄) := by
  rw [Finset.sdiff_empty, bRd_duties₀]
  have hsub : Finset.range 10 ⊆ (Finset.univ : Finset (Fin τ.nSub)).image Fin.val := fun n hn =>
    Finset.mem_image.mpr ⟨⟨n, by have := Finset.mem_range.mp hn; show n < 16; omega⟩, Finset.mem_univ _, rfl⟩
  have e : (bigSep (Finset.range 10) fun n => (bRd (F := F) m).payload (bcell d (cV L) (jV L)) 0 n)
      = (shLoc d (cV L) ↦{q16 (Fin.cast nSub_eq (jV L))} shval m d (cV L) : sProp 𝕄) := by
    rw [pointsTo_stages d (cV L)]
    refine bigSep_congr fun n hn => ?_
    show bPay m (bcell d (cV L) (jV L)) n = _
    unfold bPay
    dsimp only
    exact if_pos (Finset.mem_range.mp hn)
  show _ ⊢ (shLoc d (cV L) ↦{q16 (Fin.cast nSub_eq (jV L))} shval m d (cV L) : sProp 𝕄)
  rw [← e]
  exact bigSep_subset hsub

/-! ## The copied index list -/

/-- Contents whose every word is below 10000 read, through any forty-entry window, words below 10000. -/
theorem hin' (fix : Buf (Elt F) ((ixV).view.loc (V d (cV L) (jV L)))) (hfix : ∀ i, ((fix : IVec S10000 32) i).toNat < 10000) :
    ∀ (off : Fin 1 → ℕ) (hinb : ∀ a, off a + S40.size a ≤ S10000.size a) (hst) (x : S40.Idx),
      ((((ixV).slice (Rect.unit (s := S10000) off S40.size hinb) hst).view.read (Elt F) fix) x).toNat < 10000 :=
  fun off hinb hst x => hfix _

/-- Under the input range, the subcore's copy of its window of the list holds row numbers of the node table. -/
theorem copied_lt (hR : Cert.Spec.RowsInRange (m (eLoc d) : IVec S2x320000 32)) (g : Buf (Elt F) ((ixV).view.loc (V d (cV L) (jV L)))) :
    ∀ i, ((View.write (Elt F) (ixV).view g (ReadAs.same.apply (View.read (Elt F) (iSl L).view (ival m d))) Finset.univ : IVec S10000 32) i).toNat < 10000 := by
  intro i
  rw [show View.write (Elt F) (ixV).view g (ReadAs.same.apply (View.read (Elt F) (iSl L).view (ival m d))) Finset.univ
      = ReadAs.same.apply (View.read (Elt F) (iSl L).view (ival m d)) from View.write_whole_univ _ _ _]
  exact Nat.lt_succ_of_le (ival_le m d hR ((iSl L).view.emb i))

theorem hin (hR : Cert.Spec.RowsInRange (m (eLoc d) : IVec S2x320000 32)) :
    ∀ (g : Buf (Elt F) ((ixV).view.loc (V d (cV L) (jV L)))) (off : Fin 1 → ℕ) (hinb : ∀ a, off a + S40.size a ≤ S10000.size a) (hst) (x : S40.Idx),
      ((((ixV).slice (Rect.unit (s := S10000) off S40.size hinb) hst).view.read (Elt F)
        (View.write (Elt F) (ixV).view g (ReadAs.same.apply (View.read (Elt F) (iSl L).view (ival m d))) Finset.univ)) x).toNat < 10000 :=
  fun g off hinb hst x => hin' d L _ (copied_lt m d L hR g) off hinb hst x

end Cert.Kernel.KRun

end
-- ==== Proof.BTile.lean ====
/-
  The vector subcore's whole task, assembled: the staging copy, the index copy and the barrier, the first four
  gathers, the fifty trips of the loop, the five closing waits. Entering, the subcore's storage is opened into
  its index buffer, the five slots of its row buffer and its twelve semaphores, and its rows of the result are
  cut into the 250 chunks' windows; leaving, the windows — each now holding its chunk's gathered rows, that is
  the expected result's rows — are joined again, the five pieces of each read share rejoined, and the storage
  closed.
-/
import proofs.«205984_g59184649339042_cont_9to1_m_680_25_alg».proof.Proof.BMem
import proofs.«205984_g59184649339042_cont_9to1_m_680_25_alg».proof.Proof.BLoop
import proofs.«205984_g59184649339042_cont_9to1_m_680_25_alg».proof.Proof.BPre5
import proofs.«205984_g59184649339042_cont_9to1_m_680_25_alg».proof.Proof.BVal
import proofs.«205984_g59184649339042_cont_9to1_m_680_25_alg».proof.Proof.BObl
import proofs.«205984_g59184649339042_cont_9to1_m_680_25_alg».proof.Proof.BBarrier

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

open Post

set_option maxHeartbeats 4000000 in
/-- The five slots, at contents of their own, are the row buffer at some contents: the slots are the buffer's
    five parts along its first axis, pairwise disjoint, so the five contents glue into one. -/
theorem rw_slots_join :
    iprop((∃ f, (sl0).view.loc (V d (cV L) (jV L)) ↦[(sl0).view.set]{fullShare} f) ∗ (∃ f, (sl1).view.loc (V d (cV L) (jV L)) ↦[(sl1).view.set]{fullShare} f)
        ∗ (∃ f, (sl2).view.loc (V d (cV L) (jV L)) ↦[(sl2).view.set]{fullShare} f) ∗ (∃ f, (sl3).view.loc (V d (cV L) (jV L)) ↦[(sl3).view.set]{fullShare} f)
        ∗ (∃ f, (sl4).view.loc (V d (cV L) (jV L)) ↦[(sl4).view.set]{fullShare} f))
      ⊢ (iprop(∃ f, (rwV).view.loc (V d (cV L) (jV L)) ↦{fullShare} f) : sProp 𝕄) := by
  classical
  iintro ⟨⟨%f0, H0⟩, ⟨%f1, H1⟩, ⟨%f2, H2⟩, ⟨%f3, H3⟩, ⟨%f4, H4⟩⟩
  have hd : ∀ (b b' : Fin 5) (hb) (hb'), b ≠ b' → ∀ j, j ∈ (rwSl b hb).view.set → j ∉ (rwSl b' hb').view.set := by
    intro b b' hb hb' hne j hj hj'
    rw [set_rwSl] at hj hj'
    exact Finset.disjoint_left.mp (Rect.part_disjoint hdiv5 hne) hj hj'
  let g : Buf (Elt F) ((rwV).view.loc (V d (cV L) (jV L))) := fun j =>
    if j ∈ (sl0).view.set then f0 j else if j ∈ (sl1).view.set then f1 j else if j ∈ (sl2).view.set then f2 j
    else if j ∈ (sl3).view.set then f3 j else f4 j
  iexists g
  rw [rw_slots d L g]
  isplitl [H0]
  · rw [← pointsTo_congr (f := f0) (g := g) (fun j hj => by simp only [g, if_pos hj])]; iexact H0
  isplitl [H1]
  · rw [← pointsTo_congr (f := f1) (g := g) (fun j hj => by
      simp only [g, if_neg (hd 1 0 _ _ (by decide) j hj), if_pos hj])]; iexact H1
  isplitl [H2]
  · rw [← pointsTo_congr (f := f2) (g := g) (fun j hj => by
      simp only [g, if_neg (hd 2 0 _ _ (by decide) j hj), if_neg (hd 2 1 _ _ (by decide) j hj), if_pos hj])]; iexact H2
  isplitl [H3]
  · rw [← pointsTo_congr (f := f3) (g := g) (fun j hj => by
      simp only [g, if_neg (hd 3 0 _ _ (by decide) j hj), if_neg (hd 3 1 _ _ (by decide) j hj), if_neg (hd 3 2 _ _ (by decide) j hj), if_pos hj])]; iexact H3
  · rw [← pointsTo_congr (f := f4) (g := g) (fun j hj => by
      simp only [g, if_neg (hd 4 0 _ _ (by decide) j hj), if_neg (hd 4 1 _ _ (by decide) j hj), if_neg (hd 4 2 _ _ (by decide) j hj), if_neg (hd 4 3 _ _ (by decide) j hj)])]; iexact H4

/-- The worker's rows of the result, cut into the chunks' windows (no chunk copied yet). -/
theorem out_split' (fix : Buf (Elt F) ((ixV).view.loc (V d (cV L) (jV L)))) (hfix : FixOk d L fix) (f : Buf (Elt F) (oLoc d)) :
    (oLoc d ↦[outSet (wid (L 0) (L 1))]{fullShare} f : sProp 𝕄) ⊢ OutRes m d L fix hfix 0 ∅ := by
  have e : (bigSep (Finset.range 250) fun k => (oLoc d ↦[(oWin L k).view.set]{fullShare} f : sProp 𝕄))
      = (oLoc d ↦[outSet (wid (L 0) (L 1))]{fullShare} f) := by
    rw [← pointsTo_biUnion (Finset.range 250) (ℓ := oLoc d) (fun k => (oWin L k).view.set) (oWin_disjoint L), oWin_cover]
  unfold OutRes
  rw [Finset.sdiff_empty, ← e]
  refine bigSep_mono fun k _ => ?_
  show (oLoc d ↦[(oWin L k).view.set]{fullShare} f : sProp 𝕄)
    ⊢ iprop(∃ fo, ⌜k < 0 → (oWin L k).view.read (Elt F) fo = GP m d L fix hfix k⌝ ∗ ((oWin L k).view.loc (V d (cV L) (jV L)) ↦[(oWin L k).view.set]{fullShare} fo))
  iintro H
  iexists f
  isplitr
  · ipureintro; intro h; exact absurd h (Nat.not_lt_zero k)
  iexact H

/-- Five pieces of a share are the share. -/
theorem s5_join {ℓ : Loc nD τ sig} (I : Finset (Idx ℓ)) (f : Buf (Elt F) ℓ) (q : PosShare TreeShare) :
    iprop((ℓ ↦[I]{s5 q 0} f) ∗ (ℓ ↦[I]{s5 q 1} f) ∗ (ℓ ↦[I]{s5 q 2} f) ∗ (ℓ ↦[I]{s5 q 3} f) ∗ (ℓ ↦[I]{s5 q 4} f)) ⊢ (ℓ ↦[I]{q} f : sProp 𝕄) := by
  unfold s5
  iintro ⟨H0, H1, H2, H3, H4⟩
  ihave H34 := (pointsTo_share (PosShare.mem_left_op_right q.right.right.right)).2 $$ [H3 H4]; · isplitl [H3] <;> iassumption
  ihave H24 := (pointsTo_share (PosShare.mem_left_op_right q.right.right)).2 $$ [H2 H34]; · isplitl [H2] <;> iassumption
  ihave H14 := (pointsTo_share (PosShare.mem_left_op_right q.right)).2 $$ [H1 H24]; · isplitl [H1] <;> iassumption
  iapply (pointsTo_share (PosShare.mem_left_op_right q)).2
  isplitl [H0] <;> iassumption

variable (hR : ∀ d, Cert.Spec.RowsInRange (m (eLoc d) : IVec S2x320000 32))

/-- The pre-loop part, as its lemma states it. -/
def Pre4Ok : Prop :=
  ∀ (d : Dev nD) (L : grid1.Coords) (O : CellTallies nD τ sig (HIx 1)) (W : Waits sig (HIx 1)), (∀ g, O g none = 0) →
    (∀ g ι, 0 < O g ι → 8 * (0 : Fin 1).val + 6 ≤ (K (F := F)).lev g ι) → ∀ (Φ : BitVec 32 → sProp 𝕄),
    iprop(levAts (K (F := F)).L (K (F := F)).lev ∗ bkit m d (cV L) (jV L)
        ∗ (iLoc d ↦[idxSet (wid (L 0) (L 1))]{fullShare} ival m d) ∗ (yLoc d ↦[stageSet (L 1).val]{qY (L 0)} yval m d) ∗ (∃ f, shLoc d (cV L) ↦[stageSet (L 1).val]{fullShare} f)
        ∗ (∃ f, (ixV).view.loc (V d (cV L) (jV L)) ↦{fullShare} f) ∗ (∃ f, (rwV).view.loc (V d (cV L) (jV L)) ↦{fullShare} f)
        ∗ semVal (sem cc1_scratch3 d L) 0 ∗ semVal (sem cc1_scratch4 d L) 0 ∗ semVal (sem cc1_scratch5 d L) 0 ∗ semVal (sem cc1_scratch6 d L) 0 ∗ semVal (sem cc1_scratch7 d L) 0
        ∗ semVal (sem cc1_scratch8 d L) 0 ∗ semVal (sem cc1_scratch9 d L) 0 ∗ semVal (sem cc1_scratch10 d L) 0 ∗ semVal (sem cc1_scratch11 d L) 0 ∗ semVal (sem cc1_scratch12 d L) 0
        ∗ semVal (sem cc1_scoped0 d L) 0 ∗ semVal (sem cc1_scoped1 d L) 0
        ∗ owes (V d (cV L) (jV L)) (O + oxV d (cV L)) W
        ∗ (∀ v2, iprop((iLoc d ↦[idxSet (wid (L 0) (L 1))]{fullShare} ival m d) ∗ (yLoc d ↦[stageSet (L 1).val]{qY (L 0)} yval m d)
              ∗ SlotGath m d L (fixVal m d L) (fixOk m d L (hR d)) cc1_scratch3 cc1_scratch8 sl0 0 (s5 fullShare 0) (s5 (q16 (L 1)) 0)
              ∗ SlotGath m d L (fixVal m d L) (fixOk m d L (hR d)) cc1_scratch4 cc1_scratch9 sl1 1 (s5 fullShare 1) (s5 (q16 (L 1)) 1)
              ∗ SlotGath m d L (fixVal m d L) (fixOk m d L (hR d)) cc1_scratch5 cc1_scratch10 sl2 2 (s5 fullShare 2) (s5 (q16 (L 1)) 2)
              ∗ SlotFree m d L (fixVal m d L) cc1_scratch6 cc1_scratch11 sl3 (s5 fullShare 3) (s5 (q16 (L 1)) 3)
              ∗ SlotFree m d L (fixVal m d L) cc1_scratch7 cc1_scratch12 sl4 (s5 fullShare 4) (s5 (q16 (L 1)) 4)
              ∗ semVal (sem cc1_scoped0 d L) 0 ∗ semVal (sem cc1_scoped1 d L) 0
              ∗ owesW d L O W) -∗ Φ v2))
      ⊢ wp frame (wpE (defs₀ (F := F)) 𝒱₀ (V d (cV L) (jV L)) none) Set.univ
          (k1_part4 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1) Φ

set_option maxHeartbeats 8000000 in
theorem tile_body_of (hpre4 : Pre4Ok m hR)
    (htrip : ∀ (d : Dev nD) (L : grid1.Coords) (O : CellTallies nD τ sig (HIx 1)) (W : Waits sig (HIx 1)) (v2 : BitVec 32),
      TripOk m d L (fixVal m d L) (fixOk m d L (hR d)) (q16 (L 1)) O W v2) : TileBody (F := F) m := by
  intro d L O W hO hOlev
  rw [cc1_gather_eq_skeleton, gather_tail]
  rw [(K (F := F)).scopedBufs_V facts d (cV L) (jV L), SparseCore.Cfg.scopedSems0_V (Val := Elt F) d (cV L) (jV L), ownSems0_V d L, ownBufs_V d L]
  iintro ⟨#Hlv, Hkit, ⟨Hi, Ho, Hy, Hsh⟩, ⟨⟨%fix0, Hix⟩, ⟨%frw, Hrw⟩, Hbufs⟩, ⟨Hg0, Hg1, Hg2, Hg3, Hg4, Ht0, Ht1, Ht2, Ht3, Ht4, Hs0, Hs1, Hsems⟩, HO⟩
  ihave Hmw := ((K (F := F)).mayWaits_none (thr := V d (cV L) (jV L)) hO) $$ Hlv
  ihave Hout := (out_split' m d L (fixVal m d L) (fixOk m d L (hR d)) _) $$ Ho
  rw [wp_bind]
  iapply (hpre4 d L O W hO hOlev _)
  isplitr; · iexact Hlv
  isplitl [Hkit]; · iexact Hkit
  isplitl [Hi]; · iexact Hi
  isplitl [Hy]; · iexact Hy
  isplitl [Hsh]; · iexact Hsh
  isplitl [Hix]; · iexists fix0; iexact Hix
  isplitl [Hrw]; · iexists frw; iexact Hrw
  isplitl [Hg0]; · iexact Hg0
  isplitl [Hg1]; · iexact Hg1
  isplitl [Hg2]; · iexact Hg2
  isplitl [Hg3]; · iexact Hg3
  isplitl [Hg4]; · iexact Hg4
  isplitl [Ht0]; · iexact Ht0
  isplitl [Ht1]; · iexact Ht1
  isplitl [Ht2]; · iexact Ht2
  isplitl [Ht3]; · iexact Ht3
  isplitl [Ht4]; · iexact Ht4
  isplitl [Hs0]; · iexact Hs0
  isplitl [Hs1]; · iexact Hs1
  isplitl [HO]; · iexact HO
  iintro %v2 ⟨Hi, Hy, G0, G1, G2, F3, F4, Hs0, Hs1, HOW⟩
  -- the fourth gather
  rw [k1_part5_eq_skeleton, part5_tail, wp_bind]
  unfold owesW
  icases HOW with ⟨%W1, %hW1, HO⟩
  iapply (pre5_gather m d L (fixVal m d L) (fixOk m d L (hR d)) _ _ O W1 (s5 fullShare 3) (s5 (q16 (L 1)) 3) (hin' d L (fixVal m d L) (fixOk m d L (hR d))))
  isplitr; · iexact Hmw
  isplitl [F3]; · iexact F3
  isplitl [HO]; · iexact HO
  iintro ⟨G3, HO⟩
  -- the loop, and the first three closing waits
  iapply (loop_run m d L (fixVal m d L) (fixOk m d L (hR d)) (q16 (L 1)) O W v2 (htrip d L O W v2) _)
  isplitr; · iexact Hmw
  isplitl [G0 G1 G2 G3 F4 Hout]
  · unfold InvStart
    isplitl [G0]; · iexact G0
    isplitl [G1]; · iexact G1
    isplitl [G2]; · iexact G2
    isplitl [G3]; · iexact G3
    isplitl [F4]; · iexact F4
    iexact Hout
  isplitl [HO]
  · unfold owesW; iexists W1; isplitr; · ipureintro; exact hW1
    iexact HO
  iintro HM3
  -- the last two
  iapply (post_waits2 m d L (fixVal m d L) (fixOk m d L (hR d)) (q16 (L 1)) O W _)
  isplitr; · iexact Hmw
  isplitl [HM3]; · iexact HM3
  iintro HA
  unfold AfterAll SlotFree Shares owesW
  icases HA with ⟨⟨S0, ⟨Hsh0, Hix0⟩, Hg0, Ht0⟩, ⟨S1, ⟨Hsh1, Hix1⟩, Hg1, Ht1⟩, ⟨S2, ⟨Hsh2, Hix2⟩, Hg2, Ht2⟩, ⟨S3, ⟨Hsh3, Hix3⟩, Hg3, Ht3⟩, ⟨S4, ⟨Hsh4, Hix4⟩, Hg4, Ht4⟩, Hout, ⟨%W2, %hW2, HO⟩⟩
  isplitl [Hi Hout Hy Hsh0 Hsh1 Hsh2 Hsh3 Hsh4]
  · isplitl [Hi]; · iexact Hi
    isplitl [Hout]
    · ihave H := (Post.out_join m d L (fixVal m d L) (fixOk m d L (hR d))) $$ Hout
      icases H with ⟨%f, %hf, Hf⟩
      iexists f; isplitr
      · ipureintro; exact good_of_windows m d L (fixVal m d L) (fixOk m d L (hR d)) (hR d) rfl f hf
      iexact Hf
    isplitl [Hy]; · iexact Hy
    iapply (s5_join (F := F) (ℓ := shLoc d (cV L)) Finset.univ (shval m d (cV L)) (q16 (L 1)))
    isplitl [Hsh0]; · iexact Hsh0
    isplitl [Hsh1]; · iexact Hsh1
    isplitl [Hsh2]; · iexact Hsh2
    isplitl [Hsh3]; · iexact Hsh3
    iexact Hsh4
  isplitl [Hix0 Hix1 Hix2 Hix3 Hix4 S0 S1 S2 S3 S4 Hbufs]
  · isplitl [Hix0 Hix1 Hix2 Hix3 Hix4]
    · iexists (fixVal m d L)
      iapply (s5_join (F := F) (ℓ := (V d (cV L) (jV L)).loc cc1_scratch0) Finset.univ (fixVal m d L) fullShare)
      isplitl [Hix0]; · iexact Hix0
      isplitl [Hix1]; · iexact Hix1
      isplitl [Hix2]; · iexact Hix2
      isplitl [Hix3]; · iexact Hix3
      iexact Hix4
    isplitl [S0 S1 S2 S3 S4]
    · iapply (rw_slots_join (F := F) d L)
      isplitl [S0]; · iexact S0
      isplitl [S1]; · iexact S1
      isplitl [S2]; · iexact S2
      isplitl [S3]; · iexact S3
      iexact S4
    iexact Hbufs
  isplitl [Hg0 Hg1 Hg2 Hg3 Hg4 Ht0 Ht1 Ht2 Ht3 Ht4 Hs0 Hs1 Hsems]
  · isplitl [Hg0]; · iexact Hg0
    isplitl [Hg1]; · iexact Hg1
    isplitl [Hg2]; · iexact Hg2
    isplitl [Hg3]; · iexact Hg3
    isplitl [Hg4]; · iexact Hg4
    isplitl [Ht0]; · iexact Ht0
    isplitl [Ht1]; · iexact Ht1
    isplitl [Ht2]; · iexact Ht2
    isplitl [Ht3]; · iexact Ht3
    isplitl [Ht4]; · iexact Ht4
    isplitl [Hs0]; · iexact Hs0
    isplitl [Hs1]; · iexact Hs1
    iexact Hsems
  iexists W2; isplitr
  · ipureintro; exact hW2
  iexact HO

end Cert.Kernel.KRun

end
-- ==== Proof.BPre4.lean ====
/-
  The part of a vector subcore's body before its loop.

  A staging subcore copies its block of the transformed features into the shared memory; every subcore copies its
  window of the list of source nodes into its own memory; all sixteen of a SparseCore meet at the barrier, which
  leaves each a sixteenth read share of the whole shared copy; then the gathers of chunks 0, 1 and 2 into slots
  0, 1 and 2 of the row buffer are issued. What is left is the loop's state before the gather of chunk 3.
-/
import proofs.«205984_g59184649339042_cont_9to1_m_680_25_alg».proof.Proof.BTripLib
import proofs.«205984_g59184649339042_cont_9to1_m_680_25_alg».proof.Proof.BBarrier
import proofs.«205984_g59184649339042_cont_9to1_m_680_25_alg».proof.Proof.BVal
import proofs.«205984_g59184649339042_cont_9to1_m_680_25_alg».proof.Proof.BSlices
import proofs.«205984_g59184649339042_cont_9to1_m_680_25_alg».proof.Proof.BSplit

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable (d : Dev nD) (L : grid1.Coords)

set_option maxHeartbeats 8000000 in
/-- A staging subcore: its block copied into the shared memory and handed over at the barrier. -/
theorem pre4_stage (hF : (K (F := F)).Facts) (hR : Cert.Spec.RowsInRange (m (eLoc d) : IVec S2x320000 32)) (h1 : k1_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) (Φ : BitVec 32 → sProp 𝕄) :
    iprop(levAts (K (F := F)).L (K (F := F)).lev ∗ bkit m d (cV L) (jV L)
        ∗ (iLoc d ↦[idxSet (wid (L 0) (L 1))]{fullShare} ival m d) ∗ (yLoc d ↦[stageSet (L 1).val]{qY (L 0)} yval m d)
        ∗ (∃ f, shLoc d (cV L) ↦[stageSet (L 1).val]{fullShare} f)
        ∗ (∃ f, (ixV).view.loc (V d (cV L) (jV L)) ↦{fullShare} f) ∗ (∃ f, (rwV).view.loc (V d (cV L) (jV L)) ↦{fullShare} f)
        ∗ semVal (sem cc1_scratch3 d L) 0 ∗ semVal (sem cc1_scratch4 d L) 0 ∗ semVal (sem cc1_scratch5 d L) 0 ∗ semVal (sem cc1_scratch6 d L) 0 ∗ semVal (sem cc1_scratch7 d L) 0 ∗ semVal (sem cc1_scratch8 d L) 0 ∗ semVal (sem cc1_scratch9 d L) 0 ∗ semVal (sem cc1_scratch10 d L) 0 ∗ semVal (sem cc1_scratch11 d L) 0 ∗ semVal (sem cc1_scratch12 d L) 0 ∗ semVal (sem cc1_scoped0 d L) 0 ∗ semVal (sem cc1_scoped1 d L) 0
        ∗ owes (V d (cV L) (jV L)) (O + oxV d (cV L)) W
        ∗ (∀ v2, iprop((iLoc d ↦[idxSet (wid (L 0) (L 1))]{fullShare} ival m d) ∗ (yLoc d ↦[stageSet (L 1).val]{qY (L 0)} yval m d)
              ∗ SlotGath m d L (fixVal m d L) (fixOk m d L hR) cc1_scratch3 cc1_scratch8 sl0 0 (s5 fullShare 0) (s5 (q16 (L 1)) 0)
              ∗ SlotGath m d L (fixVal m d L) (fixOk m d L hR) cc1_scratch4 cc1_scratch9 sl1 1 (s5 fullShare 1) (s5 (q16 (L 1)) 1)
              ∗ SlotGath m d L (fixVal m d L) (fixOk m d L hR) cc1_scratch5 cc1_scratch10 sl2 2 (s5 fullShare 2) (s5 (q16 (L 1)) 2)
              ∗ SlotFree m d L (fixVal m d L) cc1_scratch6 cc1_scratch11 sl3 (s5 fullShare 3) (s5 (q16 (L 1)) 3)
              ∗ SlotFree m d L (fixVal m d L) cc1_scratch7 cc1_scratch12 sl4 (s5 fullShare 4) (s5 (q16 (L 1)) 4)
              ∗ semVal (sem cc1_scoped0 d L) 0 ∗ semVal (sem cc1_scoped1 d L) 0
              ∗ (∃ W', ⌜∀ p ∈ W', p ∈ W ∨ p.2 = none ∨ p.2 = some (0 : Fin 1)⌝ ∗ owes (V d (cV L) (jV L)) O W')) -∗ Φ v2))
      ⊢ wp frame (wpE (defs₀ (F := F)) 𝒱₀ (V d (cV L) (jV L)) none) Set.univ
          (k1_part4 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1) Φ := by
  rw [k1_part4_eq_skeleton]; unfold k1_part4_skel
  unfold bkit
  iintro ⟨#Hlv, ⟨⟨%κ, #Hinv⟩, Htoks, #Hrch, Hat, Hcred⟩, Hi, Hy, ⟨%fsh, Hsh⟩, ⟨%fix0, Hix⟩, ⟨%frw, Hrw⟩, Hg0, Hg1, Hg2, Hg3, Hg4, Ht0, Ht1, Ht2, Ht3, Ht4, Hs0, Hs1, HO, Hk⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the three sliced operands and the row buffer's slots, as the kernel addresses them
  ihave Hi := (Entails.of_eq (pts_iSl (F := F) d L fullShare (ival m d)).symm) $$ Hi
  ihave Hy := (Entails.of_eq (pts_ySl (F := F) d L h1 (qY (L 0)) (yval m d)).symm) $$ Hy
  ihave Hsh := (Entails.of_eq (pts_shSl (F := F) d L h1 fullShare fsh).symm) $$ Hsh
  ihave Hrw := (Entails.of_eq (rw_slots (F := F) d L frw)) $$ Hrw
  icases Hrw with ⟨Hrw0, Hrw1, Hrw2, Hrw3, Hrw4⟩
  sl_exec
  have pi : ((shSl L h1).view.loc (V d (cV L) (jV L)) ↦[(shSl L h1).view.set]{fullShare}
        (shSl L h1).view.writes (Elt F) fsh [⟨Rect.whole S1000x128, pre4_stage.sl.dma0 m d L h1⟩] : sProp 𝕄)
      ⊢ bigSep Finset.univ fun j : Fin (grid1.bound 1) => (bRd (F := F) m).payload (bcell d (cV L) (j.castLE hsub1)) 0 (jV L).val :=
    pays_intro m d L h1 fsh
  ihave Hpays := pi $$ Hsh
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hshw := (pays_elim m d L) $$ Hgot
  ihave Hshw := (Entails.of_eq (show ((shV).view.loc (V d (cV L) (jV L)) ↦{q16 (Fin.cast nSub_eq (jV L))} shval m d (cV L) : sProp 𝕄)
      = ((shV).view.loc (V d (cV L) (jV L)) ↦{q16 (L 1)} shval m d (cV L)) from rfl)) $$ Hshw
  -- the index copy holds the worker's window of the list
  ihave Hix := (Entails.of_eq (show ((ixV).view.loc (V d (cV L) (jV L)) ↦{fullShare}
        View.write (Elt F) (ixV).view fix0 (pre4_stage.sl.dma0_1 m d L) Finset.univ : sProp 𝕄)
      = ((ixV).view.loc (V d (cV L) (jV L)) ↦{fullShare} fixVal m d L) from congrArg (fun f => ((ixV).view.loc (V d (cV L) (jV L)) ↦{fullShare} f : sProp 𝕄)) (fix_write_eq m d L fix0))) $$ Hix
  have hin : ∀ (off : Fin 1 → ℕ) (hinb : ∀ a, off a + S40.size a ≤ S10000.size a) (hst) (x : S40.Idx),
      ((((ixV).slice (Rect.unit (s := S10000) off S40.size hinb) hst).view.read (Elt F) (fixVal m d L)) x).toNat < 10000 :=
    hin' d L (fixVal m d L) (fixOk m d L hR)
  -- the shared copy's share and the index list's, cut in five: one piece per slot
  ihave H := (pointsTo_share (PosShare.mem_left_op_right _)).1 $$ Hshw; icases H with ⟨Hsh0, H⟩
  ihave H := (pointsTo_share (PosShare.mem_left_op_right _)).1 $$ H; icases H with ⟨Hsh1, H⟩
  ihave H := (pointsTo_share (PosShare.mem_left_op_right _)).1 $$ H; icases H with ⟨Hsh2, H⟩
  ihave H := (pointsTo_share (PosShare.mem_left_op_right _)).1 $$ H; icases H with ⟨Hsh3, Hsh4⟩
  ihave H := (pointsTo_share (PosShare.mem_left_op_right _)).1 $$ Hix; icases H with ⟨Hix0, H⟩
  ihave H := (pointsTo_share (PosShare.mem_left_op_right _)).1 $$ H; icases H with ⟨Hix1, H⟩
  ihave H := (pointsTo_share (PosShare.mem_left_op_right _)).1 $$ H; icases H with ⟨Hix2, H⟩
  ihave H := (pointsTo_share (PosShare.mem_left_op_right _)).1 $$ H; icases H with ⟨Hix3, Hix4⟩
  -- slots 0, 1, 2 as the program slices them
  ihave Hrw0 := (Entails.of_eq (show ((sl0).view.loc (V d (cV L) (jV L)) ↦[(sl0).view.set]{fullShare} frw : sProp 𝕄)
      = ((((rwV).slice (Rect.unit (s := S5x40x128) ![0, 0, 0] S1x40x128.size inb_S5x40x128_S1x40x128_0_0_0) (fun _ => rfl)).squeeze S40x128 squeezes_S1x40x128_S40x128).view.loc (V d (cV L) (jV L))
          ↦[(((rwV).slice (Rect.unit (s := S5x40x128) ![0, 0, 0] S1x40x128.size inb_S5x40x128_S1x40x128_0_0_0) (fun _ => rfl)).squeeze S40x128 squeezes_S1x40x128_S40x128).view.set]{fullShare} frw) from rfl)) $$ Hrw0
  ihave Hrw1 := (Entails.of_eq (show ((sl1).view.loc (V d (cV L) (jV L)) ↦[(sl1).view.set]{fullShare} frw : sProp 𝕄)
      = ((((rwV).slice (Rect.unit (s := S5x40x128) ![1, 0, 0] S1x40x128.size inb_S5x40x128_S1x40x128_1_0_0) (fun _ => rfl)).squeeze S40x128 squeezes_S1x40x128_S40x128).view.loc (V d (cV L) (jV L))
          ↦[(((rwV).slice (Rect.unit (s := S5x40x128) ![1, 0, 0] S1x40x128.size inb_S5x40x128_S1x40x128_1_0_0) (fun _ => rfl)).squeeze S40x128 squeezes_S1x40x128_S40x128).view.set]{fullShare} frw) from rfl)) $$ Hrw1
  ihave Hrw2 := (Entails.of_eq (show ((sl2).view.loc (V d (cV L) (jV L)) ↦[(sl2).view.set]{fullShare} frw : sProp 𝕄)
      = ((((rwV).slice (Rect.unit (s := S5x40x128) ![2, 0, 0] S1x40x128.size inb_S5x40x128_S1x40x128_2_0_0) (fun _ => rfl)).squeeze S40x128 squeezes_S1x40x128_S40x128).view.loc (V d (cV L) (jV L))
          ↦[(((rwV).slice (Rect.unit (s := S5x40x128) ![2, 0, 0] S1x40x128.size inb_S5x40x128_S1x40x128_2_0_0) (fun _ => rfl)).squeeze S40x128 squeezes_S1x40x128_S40x128).view.set]{fullShare} frw) from rfl)) $$ Hrw2
  sl_exec
  sl_step
  iapply Hk
  unfold SlotGath SlotFree Shares
  isplitl [Hi]; · iapply (Entails.of_eq (pts_iSl (F := F) d L fullShare (ival m d))); iexact Hi
  isplitl [Hy]; · iapply (Entails.of_eq (pts_ySl (F := F) d L h1 (qY (L 0)) (yval m d))); iexact Hy
  -- slot 0: chunk 0 being gathered
  isplitl [Hg0 Hix0 Ht0]
  · isplitl [Hg0]
    · iapply (gath_canon m d L (fixVal m d L) (fixOk m d L hR) cc1_scratch3 sl0 0 (s5 fullShare 0) (s5 (q16 (L 1)) 0) ![0] inb_S10000_S40_0 rfl frw (pre4_stage.sl.gather0 m d L hin) (fun _ => rfl))
      iexact Hg0
    isplitl [Hix0]
    · iapply (Entails.of_eq (pts_ixRest_gen d L (fixVal m d L) 0 ![0] inb_S10000_S40_0 rfl (s5 fullShare 0))); iexact Hix0
    iexact Ht0
  -- slot 1: chunk 1 being gathered
  isplitl [Hg1 Hix1 Ht1]
  · isplitl [Hg1]
    · iapply (gath_canon m d L (fixVal m d L) (fixOk m d L hR) cc1_scratch4 sl1 1 (s5 fullShare 1) (s5 (q16 (L 1)) 1) ![40] inb_S10000_S40_40 rfl frw (pre4_stage.sl.gather1 m d L hin) (fun _ => rfl))
      iexact Hg1
    isplitl [Hix1]
    · iapply (Entails.of_eq (pts_ixRest_gen d L (fixVal m d L) 1 ![40] inb_S10000_S40_40 rfl (s5 fullShare 1))); iexact Hix1
    iexact Ht1
  -- slot 2: chunk 2 being gathered
  isplitl [Hg2 Hix2 Ht2]
  · isplitl [Hg2]
    · iapply (gath_canon m d L (fixVal m d L) (fixOk m d L hR) cc1_scratch5 sl2 2 (s5 fullShare 2) (s5 (q16 (L 1)) 2) ![80] inb_S10000_S40_80 rfl frw (pre4_stage.sl.gather2 m d L hin) (fun _ => rfl))
      iexact Hg2
    isplitl [Hix2]
    · iapply (Entails.of_eq (pts_ixRest_gen d L (fixVal m d L) 2 ![80] inb_S10000_S40_80 rfl (s5 fullShare 2))); iexact Hix2
    iexact Ht2
  -- slot 3: free
  isplitl [Hrw3 Hsh3 Hix3 Hg3 Ht3]
  · isplitl [Hrw3]; · iexists frw; iexact Hrw3
    isplitl [Hsh3 Hix3]
    · isplitl [Hsh3]; · iexact Hsh3
      iexact Hix3
    isplitl [Hg3]; · iexact Hg3
    iexact Ht3
  -- slot 4: free
  isplitl [Hrw4 Hsh4 Hix4 Hg4 Ht4]
  · isplitl [Hrw4]; · iexists frw; iexact Hrw4
    isplitl [Hsh4 Hix4]
    · isplitl [Hsh4]; · iexact Hsh4
      iexact Hix4
    isplitl [Hg4]; · iexact Hg4
    iexact Ht4
  isplitl [Hs0]; · iexact Hs0
  isplitl [Hs1]; · iexact Hs1
  iexists _; isplitr
  swap; · iexact HO
  ipureintro; intro p hp
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  exact .inl hp

set_option maxHeartbeats 8000000 in
/-- A subcore that stages nothing: nothing copied into the shared memory, nothing handed over at the barrier. -/
theorem pre4_idle (hF : (K (F := F)).Facts) (hR : Cert.Spec.RowsInRange (m (eLoc d) : IVec S2x320000 32)) (h1 : ¬ k1_cond1 L = 1#1)
    (O : CellTallies nD τ sig (HIx 1)) (W : Waits sig (HIx 1)) (hO : ∀ g, O g none = 0)
    (hOlev : ∀ g ι, 0 < O g ι → 8 * (0 : Fin 1).val + 6 ≤ (K (F := F)).lev g ι) (Φ : BitVec 32 → sProp 𝕄) :
    iprop(levAts (K (F := F)).L (K (F := F)).lev ∗ bkit m d (cV L) (jV L)
        ∗ (iLoc d ↦[idxSet (wid (L 0) (L 1))]{fullShare} ival m d) ∗ (yLoc d ↦[stageSet (L 1).val]{qY (L 0)} yval m d)
        ∗ (∃ f, shLoc d (cV L) ↦[stageSet (L 1).val]{fullShare} f)
        ∗ (∃ f, (ixV).view.loc (V d (cV L) (jV L)) ↦{fullShare} f) ∗ (∃ f, (rwV).view.loc (V d (cV L) (jV L)) ↦{fullShare} f)
        ∗ semVal (sem cc1_scratch3 d L) 0 ∗ semVal (sem cc1_scratch4 d L) 0 ∗ semVal (sem cc1_scratch5 d L) 0 ∗ semVal (sem cc1_scratch6 d L) 0 ∗ semVal (sem cc1_scratch7 d L) 0 ∗ semVal (sem cc1_scratch8 d L) 0 ∗ semVal (sem cc1_scratch9 d L) 0 ∗ semVal (sem cc1_scratch10 d L) 0 ∗ semVal (sem cc1_scratch11 d L) 0 ∗ semVal (sem cc1_scratch12 d L) 0 ∗ semVal (sem cc1_scoped0 d L) 0 ∗ semVal (sem cc1_scoped1 d L) 0
        ∗ owes (V d (cV L) (jV L)) (O + oxV d (cV L)) W
        ∗ (∀ v2, iprop((iLoc d ↦[idxSet (wid (L 0) (L 1))]{fullShare} ival m d) ∗ (yLoc d ↦[stageSet (L 1).val]{qY (L 0)} yval m d)
              ∗ SlotGath m d L (fixVal m d L) (fixOk m d L hR) cc1_scratch3 cc1_scratch8 sl0 0 (s5 fullShare 0) (s5 (q16 (L 1)) 0)
              ∗ SlotGath m d L (fixVal m d L) (fixOk m d L hR) cc1_scratch4 cc1_scratch9 sl1 1 (s5 fullShare 1) (s5 (q16 (L 1)) 1)
              ∗ SlotGath m d L (fixVal m d L) (fixOk m d L hR) cc1_scratch5 cc1_scratch10 sl2 2 (s5 fullShare 2) (s5 (q16 (L 1)) 2)
              ∗ SlotFree m d L (fixVal m d L) cc1_scratch6 cc1_scratch11 sl3 (s5 fullShare 3) (s5 (q16 (L 1)) 3)
              ∗ SlotFree m d L (fixVal m d L) cc1_scratch7 cc1_scratch12 sl4 (s5 fullShare 4) (s5 (q16 (L 1)) 4)
              ∗ semVal (sem cc1_scoped0 d L) 0 ∗ semVal (sem cc1_scoped1 d L) 0
              ∗ (∃ W', ⌜∀ p ∈ W', p ∈ W ∨ p.2 = none ∨ p.2 = some (0 : Fin 1)⌝ ∗ owes (V d (cV L) (jV L)) O W')) -∗ Φ v2))
      ⊢ wp frame (wpE (defs₀ (F := F)) 𝒱₀ (V d (cV L) (jV L)) none) Set.univ
          (k1_part4 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1) Φ := by
  rw [k1_part4_eq_skeleton]; unfold k1_part4_skel
  unfold bkit
  iintro ⟨#Hlv, ⟨⟨%κ, #Hinv⟩, Htoks, #Hrch, Hat, Hcred⟩, Hi, Hy, -, ⟨%fix0, Hix⟩, ⟨%frw, Hrw⟩, Hg0, Hg1, Hg2, Hg3, Hg4, Ht0, Ht1, Ht2, Ht3, Ht4, Hs0, Hs1, HO, Hk⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the sliced index window and the row buffer's slots, as the kernel addresses them
  ihave Hi := (Entails.of_eq (pts_iSl (F := F) d L fullShare (ival m d)).symm) $$ Hi
  ihave Hrw := (Entails.of_eq (rw_slots (F := F) d L frw)) $$ Hrw
  icases Hrw with ⟨Hrw0, Hrw1, Hrw2, Hrw3, Hrw4⟩
  sl_exec
  -- nothing staged: nothing to hand over
  iapply (SparseCore.wp_subcoreBarrier 𝒱₀ none EB (bRd (F := F) m) d (sc := cV L) (i := jV L) sc_bar0 (grid1.bound 1) hsub1 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]
    · rw [bigSep_sep', bigSep_sep']
      isplitl [Htoks]; · iexact Htoks
      isplitr
      · iapply (pays_intro_idle m d L h1); iempintro
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hshw := (pays_elim m d L) $$ Hgot
  ihave Hshw := (Entails.of_eq (show ((shV).view.loc (V d (cV L) (jV L)) ↦{q16 (Fin.cast nSub_eq (jV L))} shval m d (cV L) : sProp 𝕄)
      = ((shV).view.loc (V d (cV L) (jV L)) ↦{q16 (L 1)} shval m d (cV L)) from rfl)) $$ Hshw
  -- the index copy holds the worker's window of the list
  ihave Hix := (Entails.of_eq (show ((ixV).view.loc (V d (cV L) (jV L)) ↦{fullShare}
        View.write (Elt F) (ixV).view fix0 (pre4_idle.sl.dma0 m d L) Finset.univ : sProp 𝕄)
      = ((ixV).view.loc (V d (cV L) (jV L)) ↦{fullShare} fixVal m d L) from congrArg (fun f => ((ixV).view.loc (V d (cV L) (jV L)) ↦{fullShare} f : sProp 𝕄)) (fix_write_eq m d L fix0))) $$ Hix
  have hin : ∀ (off : Fin 1 → ℕ) (hinb : ∀ a, off a + S40.size a ≤ S10000.size a) (hst) (x : S40.Idx),
      ((((ixV).slice (Rect.unit (s := S10000) off S40.size hinb) hst).view.read (Elt F) (fixVal m d L)) x).toNat < 10000 :=
    hin' d L (fixVal m d L) (fixOk m d L hR)
  -- the shared copy's share and the index list's, cut in five: one piece per slot
  ihave H := (pointsTo_share (PosShare.mem_left_op_right _)).1 $$ Hshw; icases H with ⟨Hsh0, H⟩
  ihave H := (pointsTo_share (PosShare.mem_left_op_right _)).1 $$ H; icases H with ⟨Hsh1, H⟩
  ihave H := (pointsTo_share (PosShare.mem_left_op_right _)).1 $$ H; icases H with ⟨Hsh2, H⟩
  ihave H := (pointsTo_share (PosShare.mem_left_op_right _)).1 $$ H; icases H with ⟨Hsh3, Hsh4⟩
  ihave H := (pointsTo_share (PosShare.mem_left_op_right _)).1 $$ Hix; icases H with ⟨Hix0, H⟩
  ihave H := (pointsTo_share (PosShare.mem_left_op_right _)).1 $$ H; icases H with ⟨Hix1, H⟩
  ihave H := (pointsTo_share (PosShare.mem_left_op_right _)).1 $$ H; icases H with ⟨Hix2, H⟩
  ihave H := (pointsTo_share (PosShare.mem_left_op_right _)).1 $$ H; icases H with ⟨Hix3, Hix4⟩
  -- slots 0, 1, 2 as the program slices them
  ihave Hrw0 := (Entails.of_eq (show ((sl0).view.loc (V d (cV L) (jV L)) ↦[(sl0).view.set]{fullShare} frw : sProp 𝕄)
      = ((((rwV).slice (Rect.unit (s := S5x40x128) ![0, 0, 0] S1x40x128.size inb_S5x40x128_S1x40x128_0_0_0) (fun _ => rfl)).squeeze S40x128 squeezes_S1x40x128_S40x128).view.loc (V d (cV L) (jV L))
          ↦[(((rwV).slice (Rect.unit (s := S5x40x128) ![0, 0, 0] S1x40x128.size inb_S5x40x128_S1x40x128_0_0_0) (fun _ => rfl)).squeeze S40x128 squeezes_S1x40x128_S40x128).view.set]{fullShare} frw) from rfl)) $$ Hrw0
  ihave Hrw1 := (Entails.of_eq (show ((sl1).view.loc (V d (cV L) (jV L)) ↦[(sl1).view.set]{fullShare} frw : sProp 𝕄)
      = ((((rwV).slice (Rect.unit (s := S5x40x128) ![1, 0, 0] S1x40x128.size inb_S5x40x128_S1x40x128_1_0_0) (fun _ => rfl)).squeeze S40x128 squeezes_S1x40x128_S40x128).view.loc (V d (cV L) (jV L))
          ↦[(((rwV).slice (Rect.unit (s := S5x40x128) ![1, 0, 0] S1x40x128.size inb_S5x40x128_S1x40x128_1_0_0) (fun _ => rfl)).squeeze S40x128 squeezes_S1x40x128_S40x128).view.set]{fullShare} frw) from rfl)) $$ Hrw1
  ihave Hrw2 := (Entails.of_eq (show ((sl2).view.loc (V d (cV L) (jV L)) ↦[(sl2).view.set]{fullShare} frw : sProp 𝕄)
      = ((((rwV).slice (Rect.unit (s := S5x40x128) ![2, 0, 0] S1x40x128.size inb_S5x40x128_S1x40x128_2_0_0) (fun _ => rfl)).squeeze S40x128 squeezes_S1x40x128_S40x128).view.loc (V d (cV L) (jV L))
          ↦[(((rwV).slice (Rect.unit (s := S5x40x128) ![2, 0, 0] S1x40x128.size inb_S5x40x128_S1x40x128_2_0_0) (fun _ => rfl)).squeeze S40x128 squeezes_S1x40x128_S40x128).view.set]{fullShare} frw) from rfl)) $$ Hrw2
  sl_exec
  sl_step
  iapply Hk
  unfold SlotGath SlotFree Shares
  isplitl [Hi]; · iapply (Entails.of_eq (pts_iSl (F := F) d L fullShare (ival m d))); iexact Hi
  isplitl [Hy]; · iexact Hy
  -- slot 0: chunk 0 being gathered
  isplitl [Hg0 Hix0 Ht0]
  · isplitl [Hg0]
    · iapply (gath_canon m d L (fixVal m d L) (fixOk m d L hR) cc1_scratch3 sl0 0 (s5 fullShare 0) (s5 (q16 (L 1)) 0) ![0] inb_S10000_S40_0 rfl frw (pre4_idle.sl.gather0 m d L hin) (fun _ => rfl))
      iexact Hg0
    isplitl [Hix0]
    · iapply (Entails.of_eq (pts_ixRest_gen d L (fixVal m d L) 0 ![0] inb_S10000_S40_0 rfl (s5 fullShare 0))); iexact Hix0
    iexact Ht0
  -- slot 1: chunk 1 being gathered
  isplitl [Hg1 Hix1 Ht1]
  · isplitl [Hg1]
    · iapply (gath_canon m d L (fixVal m d L) (fixOk m d L hR) cc1_scratch4 sl1 1 (s5 fullShare 1) (s5 (q16 (L 1)) 1) ![40] inb_S10000_S40_40 rfl frw (pre4_idle.sl.gather1 m d L hin) (fun _ => rfl))
      iexact Hg1
    isplitl [Hix1]
    · iapply (Entails.of_eq (pts_ixRest_gen d L (fixVal m d L) 1 ![40] inb_S10000_S40_40 rfl (s5 fullShare 1))); iexact Hix1
    iexact Ht1
  -- slot 2: chunk 2 being gathered
  isplitl [Hg2 Hix2 Ht2]
  · isplitl [Hg2]
    · iapply (gath_canon m d L (fixVal m d L) (fixOk m d L hR) cc1_scratch5 sl2 2 (s5 fullShare 2) (s5 (q16 (L 1)) 2) ![80] inb_S10000_S40_80 rfl frw (pre4_idle.sl.gather2 m d L hin) (fun _ => rfl))
      iexact Hg2
    isplitl [Hix2]
    · iapply (Entails.of_eq (pts_ixRest_gen d L (fixVal m d L) 2 ![80] inb_S10000_S40_80 rfl (s5 fullShare 2))); iexact Hix2
    iexact Ht2
  -- slot 3: free
  isplitl [Hrw3 Hsh3 Hix3 Hg3 Ht3]
  · isplitl [Hrw3]; · iexists frw; iexact Hrw3
    isplitl [Hsh3 Hix3]
    · isplitl [Hsh3]; · iexact Hsh3
      iexact Hix3
    isplitl [Hg3]; · iexact Hg3
    iexact Ht3
  -- slot 4: free
  isplitl [Hrw4 Hsh4 Hix4 Hg4 Ht4]
  · isplitl [Hrw4]; · iexists frw; iexact Hrw4
    isplitl [Hsh4 Hix4]
    · isplitl [Hsh4]; · iexact Hsh4
      iexact Hix4
    isplitl [Hg4]; · iexact Hg4
    iexact Ht4
  isplitl [Hs0]; · iexact Hs0
  isplitl [Hs1]; · iexact Hs1
  iexists _; isplitr
  swap; · iexact HO
  ipureintro; intro p hp
  rcases Finset.mem_insert.mp hp with hp | hp; · exact .inr (.inr (hp ▸ rfl))
  rcases Finset.mem_insert.mp hp with hp | hp; · exact .inr (.inl (hp ▸ rfl))
  exact .inl hp

/-- The part before the loop, for every vector subcore. -/
theorem pre4 (hF : (K (F := F)).Facts) (hR : Cert.Spec.RowsInRange (m (eLoc d) : IVec S2x320000 32))
    (O : CellTallies nD τ sig (HIx 1)) (W : Waits sig (HIx 1)) (hO : ∀ g, O g none = 0)
    (hOlev : ∀ g ι, 0 < O g ι → 8 * (0 : Fin 1).val + 6 ≤ (K (F := F)).lev g ι) (Φ : BitVec 32 → sProp 𝕄) :
    iprop(levAts (K (F := F)).L (K (F := F)).lev ∗ bkit m d (cV L) (jV L)
        ∗ (iLoc d ↦[idxSet (wid (L 0) (L 1))]{fullShare} ival m d) ∗ (yLoc d ↦[stageSet (L 1).val]{qY (L 0)} yval m d)
        ∗ (∃ f, shLoc d (cV L) ↦[stageSet (L 1).val]{fullShare} f)
        ∗ (∃ f, (ixV).view.loc (V d (cV L) (jV L)) ↦{fullShare} f) ∗ (∃ f, (rwV).view.loc (V d (cV L) (jV L)) ↦{fullShare} f)
        ∗ semVal (sem cc1_scratch3 d L) 0 ∗ semVal (sem cc1_scratch4 d L) 0 ∗ semVal (sem cc1_scratch5 d L) 0 ∗ semVal (sem cc1_scratch6 d L) 0 ∗ semVal (sem cc1_scratch7 d L) 0 ∗ semVal (sem cc1_scratch8 d L) 0 ∗ semVal (sem cc1_scratch9 d L) 0 ∗ semVal (sem cc1_scratch10 d L) 0 ∗ semVal (sem cc1_scratch11 d L) 0 ∗ semVal (sem cc1_scratch12 d L) 0 ∗ semVal (sem cc1_scoped0 d L) 0 ∗ semVal (sem cc1_scoped1 d L) 0
        ∗ owes (V d (cV L) (jV L)) (O + oxV d (cV L)) W
        ∗ (∀ v2, iprop((iLoc d ↦[idxSet (wid (L 0) (L 1))]{fullShare} ival m d) ∗ (yLoc d ↦[stageSet (L 1).val]{qY (L 0)} yval m d)
              ∗ SlotGath m d L (fixVal m d L) (fixOk m d L hR) cc1_scratch3 cc1_scratch8 sl0 0 (s5 fullShare 0) (s5 (q16 (L 1)) 0)
              ∗ SlotGath m d L (fixVal m d L) (fixOk m d L hR) cc1_scratch4 cc1_scratch9 sl1 1 (s5 fullShare 1) (s5 (q16 (L 1)) 1)
              ∗ SlotGath m d L (fixVal m d L) (fixOk m d L hR) cc1_scratch5 cc1_scratch10 sl2 2 (s5 fullShare 2) (s5 (q16 (L 1)) 2)
              ∗ SlotFree m d L (fixVal m d L) cc1_scratch6 cc1_scratch11 sl3 (s5 fullShare 3) (s5 (q16 (L 1)) 3)
              ∗ SlotFree m d L (fixVal m d L) cc1_scratch7 cc1_scratch12 sl4 (s5 fullShare 4) (s5 (q16 (L 1)) 4)
              ∗ semVal (sem cc1_scoped0 d L) 0 ∗ semVal (sem cc1_scoped1 d L) 0
              ∗ (∃ W', ⌜∀ p ∈ W', p ∈ W ∨ p.2 = none ∨ p.2 = some (0 : Fin 1)⌝ ∗ owes (V d (cV L) (jV L)) O W')) -∗ Φ v2))
      ⊢ wp frame (wpE (defs₀ (F := F)) 𝒱₀ (V d (cV L) (jV L)) none) Set.univ
          (k1_part4 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1) Φ := by
  by_cases h1 : k1_cond1 L = 1#1
  · exact pre4_stage m d L hF hR h1 O W hO hOlev Φ
  · exact pre4_idle m d L hF hR h1 O W hO hOlev Φ

end Cert.Kernel.KRun

end
-- ==== Proof.BStor.lean ====
/-
  Transfers in flight, in the invariant's spelling. A copy of a slot's forty rows out to a chunk's rows of the
  result, in flight — what its landing delivers being the chunk's rows at the written contents and the slot as it
  was — is the invariant's copy in flight once the slot is known to hold the chunk's gathered rows (the rows
  written read back as written); a gather in flight, likewise, with the slot's delivered contents named. And the
  whole shared copy sliced whole is all of it.
-/
import proofs.«205984_g59184649339042_cont_9to1_m_680_25_alg».proof.Proof.BInv
import proofs.«205984_g59184649339042_cont_9to1_m_680_25_alg».proof.Proof.BTripLib

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

/-! ## The shared copy, whole -/

omit [FloatOps F] in
/-- The whole shared copy, sliced whole, is all of it. -/
theorem shAll_set : ((shAll).view.set : Finset S10000x128.Idx) = Finset.univ := by
  show ((View.whole cc1_scratch2).slice (Rect.unit (s := S10000x128) ![0, 0] S10000x128.size inb_S10000x128_S10000x128_0_0)).set = _
  rw [View.set_slice_whole]
  ext i
  rw [Rect.mem_set_unit]
  simp only [Finset.mem_univ, iff_true]
  intro a
  match a with
  | ⟨0, _⟩ => exact ⟨Nat.zero_le _, by have h : (i 0).val < 10000 := (i 0).isLt; show (i 0).val < 0 + 10000; omega⟩
  | ⟨1, _⟩ => exact ⟨Nat.zero_le _, by have h : (i 1).val < 128 := (i 1).isLt; show (i 1).val < 0 + 128; omega⟩

omit [FloatOps F] in
/-- Held on the whole slice, the shared copy is held whole. -/
theorem sh_whole (qs : PosShare TreeShare) (f : Buf (Elt F) ((shV).view.loc (V d (cV L) (jV L)))) :
    ((shAll).view.loc (V d (cV L) (jV L)) ↦[(shAll).view.set]{qs} f : sProp 𝕄) = ((shV).view.loc (V d (cV L) (jV L)) ↦{qs} f) := by
  rw [shAll_set]

/-! ## A copy out in flight -/

/-- A copy out in flight, of a slot that holds chunk k's gathered rows, to the window of the result given by its
    offset, which is chunk k's: the invariant's copy in flight, its pieces named. -/
theorem stor_canon' (s : DmaSems sig S_) (sl : Memref sig .scVector .vmem S40x128 .f32) (k : ℕ)
    (off : Fin 2 → ℕ) (hinb : ∀ a, off a + S40x128.size a ≤ S320000x128.size a)
    (hoff : off = ![20000 * (L 1).val + 10000 * (L 0).val + 40 * (k % 250), 0])
    (fw : Buf (Elt F) ((oV).view.loc (V d (cV L) (jV L)))) (fb : Buf (Elt F) (sl.view.loc (V d (cV L) (jV L))))
    (p : S40x128.Idx → Elt F .f32) (hp : p = GP m d L fix hfix k) :
    (Transfers.Flight countersEmb (V d (cV L) (jV L)) (SemLoc.dma s.sem) (default : HIx 1) 163840
      iprop((((oV).slice (Rect.unit (s := S320000x128) off S40x128.size hinb) (fun _ => rfl)).view.loc (V d (cV L) (jV L))
            ↦[((oV).slice (Rect.unit (s := S320000x128) off S40x128.size hinb) (fun _ => rfl)).view.set]{fullShare}
            ((oV).slice (Rect.unit (s := S320000x128) off S40x128.size hinb) (fun _ => rfl)).view.writes (Elt F) fw [⟨Rect.whole S40x128, p⟩])
        ∗ (sl.view.loc (V d (cV L) (jV L)) ↦[sl.view.set]{fullShare} fb)) : sProp 𝕄)
      ⊢ iprop(∃ fo fb, ⌜(oWin L k).view.read (Elt F) fo = GP m d L fix hfix k⌝ ∗
          Transfers.Flight countersEmb (V d (cV L) (jV L)) (SemLoc.dma s.sem) (default : HIx 1) 163840
            iprop(((oWin L k).view.loc (V d (cV L) (jV L)) ↦[(oWin L k).view.set]{fullShare} fo)
              ∗ (sl.view.loc (V d (cV L) (jV L)) ↦[sl.view.set]{fullShare} fb))) := by
  have hgood := stored_good m d L fix hfix k off hinb hoff fw p hp
  subst hoff
  iintro H
  iexists (((oV).slice (Rect.unit (s := S320000x128) ![20000 * (L 1).val + 10000 * (L 0).val + 40 * (k % 250), 0] S40x128.size hinb) (fun _ => rfl)).view.writes (Elt F) fw [⟨Rect.whole S40x128, p⟩]), fb
  isplitr
  · ipureintro; exact hgood
  · iexact H

/-- The same, as the invariant names it. -/
theorem stor_canon (s : DmaSems sig S_) (sl : Memref sig .scVector .vmem S40x128 .f32) (k : ℕ)
    (off : Fin 2 → ℕ) (hinb : ∀ a, off a + S40x128.size a ≤ S320000x128.size a)
    (hoff : off = ![20000 * (L 1).val + 10000 * (L 0).val + 40 * (k % 250), 0])
    (fw : Buf (Elt F) ((oV).view.loc (V d (cV L) (jV L)))) (fb : Buf (Elt F) (sl.view.loc (V d (cV L) (jV L))))
    (p : S40x128.Idx → Elt F .f32) (hp : p = GP m d L fix hfix k) :
    (Transfers.Flight countersEmb (V d (cV L) (jV L)) (SemLoc.dma s.sem) (default : HIx 1) 163840
      iprop((((oV).slice (Rect.unit (s := S320000x128) off S40x128.size hinb) (fun _ => rfl)).view.loc (V d (cV L) (jV L))
            ↦[((oV).slice (Rect.unit (s := S320000x128) off S40x128.size hinb) (fun _ => rfl)).view.set]{fullShare}
            ((oV).slice (Rect.unit (s := S320000x128) off S40x128.size hinb) (fun _ => rfl)).view.writes (Elt F) fw [⟨Rect.whole S40x128, p⟩])
        ∗ (sl.view.loc (V d (cV L) (jV L)) ↦[sl.view.set]{fullShare} fb)) : sProp 𝕄)
      ⊢ SFl m d L fix hfix s sl k := by
  have h := stor_canon' m d L fix hfix s sl k off hinb hoff fw fb p hp
  unfold SFl
  exact h

namespace Stor

/-- A gather in flight whose index window is given by its offset, which is chunk k's: the invariant's gather in
    flight, its pieces named. -/
theorem gath_canon' (g : DmaSems sig S_) (sl : Memref sig .scVector .vmem S40x128 .f32) (k : ℕ) (qi qs : PosShare TreeShare)
    (off : Fin 1 → ℕ) (hinb : ∀ a, off a + S40.size a ≤ S10000.size a) (hoff : off = ![40 * (k % 250)])
    (fprev : Buf (Elt F) (sl.view.loc (V d (cV L) (jV L)))) (p : S40x128.Idx → Elt F .f32)
    (hp : ∀ hinw, p = SparseCore.gatherPayload gathers_S10000x128_S40x128 ((shAll).view.read (Elt F) (shval m d (cV L)))
      (SparseCore.rows (((ixV).slice (Rect.unit (s := S10000) off S40.size hinb) (fun _ => rfl)).view.read (Elt F) fix) rfl hinw)) :
    (Transfers.Flight countersEmb (V d (cV L) (jV L)) (SemLoc.dma g.sem) (default : HIx 1) 163840
      iprop(((sl.view.loc (V d (cV L) (jV L)) ↦[sl.view.set]{fullShare} sl.view.writes (Elt F) fprev [⟨Rect.whole S40x128, p⟩])
          ∗ ((ixV).view.loc (V d (cV L) (jV L)) ↦[((ixV).slice (Rect.unit (s := S10000) off S40.size hinb) (fun _ => rfl)).view.set]{qi} fix))
        ∗ ((shV).view.loc (V d (cV L) (jV L)) ↦[(shAll).view.set]{qs} shval m d (cV L))) : sProp 𝕄)
      ⊢ iprop(∃ fb, ⌜sl.view.read (Elt F) fb = GP m d L fix hfix k⌝ ∗
          Transfers.Flight countersEmb (V d (cV L) (jV L)) (SemLoc.dma g.sem) (default : HIx 1) 163840
            iprop(((sl.view.loc (V d (cV L) (jV L)) ↦[sl.view.set]{fullShare} fb)
                ∗ ((ixWin k).view.loc (V d (cV L) (jV L)) ↦[(ixWin k).view.set]{qi} fix))
              ∗ ((shAll).view.loc (V d (cV L) (jV L)) ↦[(shAll).view.set]{qs} shval m d (cV L)))) := by
  have h := gath_canon m d L fix hfix g sl k qi qs off hinb hoff fprev p hp
  unfold GFl at h
  exact h

end Stor

end Cert.Kernel.KRun

end
-- ==== Proof.BTrip1.lean ====
/-
  The first part of a trip of the loop, at a trip that is neither the first nor the last: the copy out of the
  previous chunk (slot 4) is waited for and the slot reused for the gather of chunk 5 t + 4; chunk 5 t has landed
  in slot 0, is copied to its rows of the result, the copy waited for, and slot 0 reused for the gather of
  chunk 5 t + 5. The chunks' rows of the result are handed out and taken back one window at a time.
-/
import proofs.«205984_g59184649339042_cont_9to1_m_680_25_alg».proof.Proof.BMem
import proofs.«205984_g59184649339042_cont_9to1_m_680_25_alg».proof.Proof.BTripLib

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

/-- The canonical form of a gather just issued, with the in-flight term spelt out. -/
theorem gath_canon' (g : DmaSems sig S_) (sl : Memref sig .scVector .vmem S40x128 .f32) (k : ℕ) (qi qs : PosShare TreeShare)
    (off : Fin 1 → ℕ) (hinb : ∀ a, off a + S40.size a ≤ S10000.size a) (hoff : off = ![40 * (k % 250)])
    (fprev : Buf (Elt F) (sl.view.loc (V d (cV L) (jV L)))) (p : S40x128.Idx → Elt F .f32)
    (hp : ∀ hinw, p = SparseCore.gatherPayload gathers_S10000x128_S40x128 ((shAll).view.read (Elt F) (shval m d (cV L)))
      (SparseCore.rows (((ixV).slice (Rect.unit (s := S10000) off S40.size hinb) (fun _ => rfl)).view.read (Elt F) fix) rfl hinw)) :
    (Transfers.Flight countersEmb (V d (cV L) (jV L)) (SemLoc.dma g.sem) (default : HIx 1) 163840
      iprop(((sl.view.loc (V d (cV L) (jV L)) ↦[sl.view.set]{fullShare} sl.view.writes (Elt F) fprev [⟨Rect.whole S40x128, p⟩])
          ∗ ((ixV).view.loc (V d (cV L) (jV L)) ↦[((ixV).slice (Rect.unit (s := S10000) off S40.size hinb) (fun _ => rfl)).view.set]{qi} fix))
        ∗ ((shV).view.loc (V d (cV L) (jV L)) ↦[(shAll).view.set]{qs} shval m d (cV L))) : sProp 𝕄)
      ⊢ iprop(∃ fb, ⌜sl.view.read (Elt F) fb = GP m d L fix hfix k⌝ ∗
          Transfers.Flight countersEmb (V d (cV L) (jV L)) (SemLoc.dma g.sem) (default : HIx 1) 163840
            iprop(((sl.view.loc (V d (cV L) (jV L)) ↦[sl.view.set]{fullShare} fb)
                ∗ ((ixWin k).view.loc (V d (cV L) (jV L)) ↦[(ixWin k).view.set]{qi} fix))
              ∗ ((shAll).view.loc (V d (cV L) (jV L)) ↦[(shAll).view.set]{qs} shval m d (cV L)))) := by
  have h := gath_canon m d L fix hfix g sl k qi qs off hinb hoff fprev p hp
  unfold GFl at h
  exact h

set_option maxHeartbeats 8000000 in
theorem part1_mid (t : Fin k1_t1_loop.trips) (ht1 : 1 ≤ t.val) (ht2 : t.val ≤ 48) (v2 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : (Σ' (_ : BitVec 32), BitVec 32) → sProp 𝕄) :
    iprop(Transfers.MayWaits (V d (cV L) (jV L)) (default : HIx 1) O
        ∗ SlotGath m d L fix hfix cc1_scratch3 cc1_scratch8 sl0 (5 * t.val) (s5 fullShare 0) (s5 q 0)
        ∗ SlotStor m d L fix hfix cc1_scratch7 cc1_scratch12 sl4 (5 * t.val - 1) (s5 fullShare 4) (s5 q 4)
        ∗ OutRes m d L fix hfix (5 * t.val - 1) {5 * t.val - 1}
        ∗ owes (V d (cV L) (jV L)) O W
        ∗ (∀ r, iprop(SlotGath m d L fix hfix cc1_scratch3 cc1_scratch8 sl0 (5 * t.val + 5) (s5 fullShare 0) (s5 q 0)
              ∗ SlotGath m d L fix hfix cc1_scratch7 cc1_scratch12 sl4 (5 * t.val + 4) (s5 fullShare 4) (s5 q 4)
              ∗ OutRes m d L fix hfix (5 * t.val + 1) ∅
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part1 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 0#32 1#32 t) Φ := by
  have h2 : k1_cond2 t = 1#1 := by revert t; decide +kernel
  have h3 : k1_cond3 t = 1#1 := by
    have : ∀ t : Fin k1_t1_loop.trips, 1 ≤ t.val → k1_cond3 t = 1#1 := by decide +kernel
    exact this t ht1
  have h4 : k1_cond4 t = 1#1 := by
    have : ∀ t : Fin k1_t1_loop.trips, t.val ≤ 48 → k1_cond4 t = 1#1 := by decide +kernel
    exact this t ht2
  have h5 : k1_cond5 t = 1#1 := by revert t; decide +kernel
  rw [k1_part1_eq_skeleton]; unfold k1_part1_skel
  unfold SlotGath SlotStor GFl SFl Shares
  iintro ⟨#Hmw, ⟨⟨%fb0, %hfb0, Hfg0⟩, Hixr0, Ht0⟩, ⟨⟨%fo4, %fb4, %hfo4, Hfs4⟩, ⟨Hsh4, Hix4⟩, Hg4⟩, Hout, HO, Hk⟩
  sl_exec
  icases Hfg0_dst with ⟨Hslot0, Hixw0⟩
  -- the index list's share 0 is whole again
  ihave Hix0 := (ix_rejoin d L fix (5 * t.val) (s5 fullShare 0)) $$ [Hixw0 Hixr0]
  · isplitl [Hixw0] <;> iassumption
  -- the previous chunk's rows are back: every chunk below 5 t is copied
  ihave Hout := (out_put m d L fix hfix (5 * t.val - 1) (5 * t.val) (5 * t.val - 1) {5 * t.val - 1} (Finset.mem_singleton_self _) (by omega)
      (fun k hk hlt => by
        have := (Finset.mem_sdiff.mp hk).2; rw [Finset.mem_singleton] at this; omega)) $$ [Hfs4_dst Hout]
  · isplitl [Hfs4_dst]
    · iexists fo4; isplitr; · ipureintro; exact hfo4
      iexact Hfs4_dst
    iexact Hout
  rw [Finset.erase_singleton]
  -- chunk 5 t's rows of the result, for the copy out of slot 0
  ihave H := (out_take m d L fix hfix (5 * t.val) (5 * t.val) ∅ (Finset.notMem_empty _) (by omega)) $$ Hout
  icases H with ⟨⟨%fw0, Hw0⟩, Hout⟩
  ihave Hw0' := (Entails.of_eq (pts_oWin5 d L t 0 fullShare fw0)) $$ Hw0
  sl_exec
  sl_step
  iapply Hk
  -- slot 0: chunk 5 t + 5 being gathered
  isplitl [Hfg0 Hix0 Ht0]
  · isplitl [Hfg0]
    · iapply (gath_canon' m d L fix hfix cc1_scratch3 sl0 (5 * t.val + 5) (s5 fullShare 0) (s5 q 0) (k1_off7 t) (k1_off7_inb t h4) (k1_off7_canon t h4) fb0 (part1_mid.sl.gather1 m d L fix t hin h4) (fun _ => rfl))
      iexact Hfg0
    isplitl [Hix0]
    · iapply (Entails.of_eq (pts_ixRest7 d L fix t h4 (s5 fullShare 0) _ rfl)); iexact Hix0
    iexact Ht0
  -- slot 4: chunk 5 t + 4 being gathered
  isplitl [Hg4 Hix4 Hfs4]
  · isplitl [Hg4]
    · iapply (gath_canon' m d L fix hfix cc1_scratch7 sl4 (5 * t.val + 4) (s5 fullShare 4) (s5 q 4) (k1_off4 t) (k1_off4_inb t h2) (k1_off4_canon t) fb4 (part1_mid.sl.gather0 m d L fix t hin h2) (fun _ => rfl))
      iexact Hg4
    isplitl [Hix4]
    · iapply (Entails.of_eq (pts_ixRest4 d L fix t h2 (s5 fullShare 4) _ rfl)); iexact Hix4
    iexact Hfs4
  -- the result: chunk 5 t copied as well
  isplitl [Hout Hw0']
  · ihave Hw0 := (Entails.of_eq (pts_oWin5 d L t 0 fullShare _).symm) $$ Hw0'
    ihave Hout' := (out_put m d L fix hfix (5 * t.val) (5 * t.val + 1) (5 * t.val) (insert (5 * t.val) ∅) (Finset.mem_insert_self _ _) (by omega)
        (fun k hk hlt => by
          have := (Finset.mem_sdiff.mp hk).2; rw [Finset.mem_insert] at this; omega)) $$ [Hw0 Hout]
    · isplitl [Hw0]
      · iexists _; isplitr
        swap; · iexact Hw0
        ipureintro
        exact stored_good m d L fix hfix (5 * t.val) (k1_off5 L t 0#32) (k1_off5_inb L t 0) (k1_off5_canon L t 0) fw0 _ hfb0
      iexact Hout
    rw [Finset.erase_insert (Finset.notMem_empty _)]
    iexact Hout'
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Kernel.KRun

end
-- ==== Proof.BTrip2.lean ====
/-
  The second part of a trip of the loop: chunk 5 t + 1 lands in slot 1 and is copied out to its rows of the result;
  once that copy has landed the slot takes the gather of chunk 5 t + 6; chunk 5 t + 2 lands in slot 2 and its copy
  out is started and left in flight.
-/
import proofs.«205984_g59184649339042_cont_9to1_m_680_25_alg».proof.Proof.BInv
import proofs.«205984_g59184649339042_cont_9to1_m_680_25_alg».proof.Proof.BTripLib
import proofs.«205984_g59184649339042_cont_9to1_m_680_25_alg».proof.Proof.BStor

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

open Stor

set_option maxHeartbeats 8000000 in
theorem part2_mid (t : Fin k1_t1_loop.trips) (ht2 : t.val ≤ 48) (v2 v54 v72 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : BitVec 32 → sProp 𝕄) :
    iprop(Transfers.MayWaits (V d (cV L) (jV L)) (default : HIx 1) O
        ∗ SlotGath m d L fix hfix cc1_scratch4 cc1_scratch9 sl1 (5 * t.val + 1) (s5 fullShare 1) (s5 q 1)
        ∗ SlotGath m d L fix hfix cc1_scratch5 cc1_scratch10 sl2 (5 * t.val + 2) (s5 fullShare 2) (s5 q 2)
        ∗ OutRes m d L fix hfix (5 * t.val + 1) ∅
        ∗ owes (V d (cV L) (jV L)) O W
        ∗ (∀ r, iprop(SlotGath m d L fix hfix cc1_scratch4 cc1_scratch9 sl1 (5 * t.val + 6) (s5 fullShare 1) (s5 q 1)
              ∗ SlotStor m d L fix hfix cc1_scratch5 cc1_scratch10 sl2 (5 * t.val + 2) (s5 fullShare 2) (s5 q 2)
              ∗ OutRes m d L fix hfix (5 * t.val + 2) {5 * t.val + 2}
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part2 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t v54 v72) Φ := by
  have h6 : k1_cond6 t = 1#1 := by
    have : ∀ t : Fin k1_t1_loop.trips, t.val ≤ 48 → k1_cond6 t = 1#1 := by decide +kernel
    exact this t ht2
  have h7 : k1_cond7 t = 1#1 := by revert t; decide +kernel
  rw [k1_part2_eq_skeleton]; unfold k1_part2_skel
  unfold SlotGath SlotStor GFl SFl Shares
  iintro ⟨#Hmw, ⟨⟨%fb1, %hfb1, Hfg1⟩, Hixr1, Hs1⟩, ⟨⟨%fb2, %hfb2, Hfg2⟩, Hixr2, Hs2⟩, Hout, HO, Hk⟩
  sl_exec
  icases Hfg1_dst with ⟨Hslot1, Hixw1⟩
  ihave Hix1 := (ix_rejoin d L fix (5 * t.val + 1) (s5 fullShare 1)) $$ [Hixw1 Hixr1]
  · isplitl [Hixw1] <;> iassumption
  -- chunks 5 t + 1 and 5 t + 2: their rows of the result, for the two copies out
  ihave H := (out_take m d L fix hfix (5 * t.val + 1) (5 * t.val + 1) ∅ (Finset.notMem_empty _) (by omega)) $$ Hout
  icases H with ⟨⟨%fw1, Hw1⟩, Hout⟩
  ihave Hw1' := (Entails.of_eq (pts_oWin5 d L t 1 fullShare fw1)) $$ Hw1
  ihave H := (out_take m d L fix hfix (5 * t.val + 1) (5 * t.val + 2) (insert (5 * t.val + 1) ∅) (by simp) (by omega)) $$ Hout
  icases H with ⟨⟨%fw2, Hw2⟩, Hout⟩
  ihave Hw2' := (Entails.of_eq (pts_oWin5 d L t 2 fullShare fw2)) $$ Hw2
  sl_exec
  icases Hfg2_dst with ⟨Hslot2, Hixw2⟩
  ihave Hix2 := (ix_rejoin d L fix (5 * t.val + 2) (s5 fullShare 2)) $$ [Hixw2 Hixr2]
  · isplitl [Hixw2] <;> iassumption
  sl_exec
  sl_step
  iapply Hk
  -- slot 1: chunk 5 t + 6 being gathered
  isplitl [Hfg1 Hix1 Hs1]
  · isplitl [Hfg1]
    · iapply (gath_canon' m d L fix hfix cc1_scratch4 sl1 (5 * t.val + 6) (s5 fullShare 1) (s5 q 1) (k1_off9 t) (k1_off9_inb t h6) (k1_off9_canon t h6) fb1 (part2_mid.sl.gather1 m d L fix t hin h6) (fun _ => rfl))
      iexact Hfg1
    isplitl [Hix1]
    · iapply (Entails.of_eq (pts_ixRest9 d L fix t h6 (s5 fullShare 1) (5 * t.val + 6) rfl)); iexact Hix1
    iexact Hs1
  -- slot 2: chunk 5 t + 2 being copied out
  isplitl [Hs2 Hfg2_src Hix2 Hfg2]
  · isplitl [Hs2]
    · iapply (stor_canon' m d L fix hfix cc1_scratch10 sl2 (5 * t.val + 2) (k1_off5 L t 2#32) (k1_off5_inb L t 2) (k1_off5_canon L t 2) fw2 fb2 _ hfb2)
      iexact Hs2
    isplitl [Hfg2_src Hix2]
    · isplitl [Hfg2_src]
      · iapply (Entails.of_eq (sh_whole d L (s5 q 2) (shval m d (cV L)))); iexact Hfg2_src
      iexact Hix2
    iexact Hfg2
  -- the result: chunk 5 t + 1 copied as well, chunk 5 t + 2's rows with the copy in flight
  isplitl [Hout Hw1']
  · ihave Hw1 := (Entails.of_eq (pts_oWin5 d L t 1 fullShare _).symm) $$ Hw1'
    ihave Hout' := (out_put m d L fix hfix (5 * t.val + 1) (5 * t.val + 2) (5 * t.val + 1) (insert (5 * t.val + 2) (insert (5 * t.val + 1) ∅))
        (Finset.mem_insert_of_mem (Finset.mem_insert_self _ _)) (by omega)
        (fun k hk hlt => by
          have := (Finset.mem_sdiff.mp hk).2; simp only [Finset.mem_insert, Finset.notMem_empty, _root_.or_false, not_or] at this; omega)) $$ [Hw1 Hout]
    · isplitl [Hw1]
      · iexists _; isplitr
        swap; · iexact Hw1
        ipureintro
        exact stored_good m d L fix hfix (5 * t.val + 1) (k1_off5 L t 1#32) (k1_off5_inb L t 1) (k1_off5_canon L t 1) fw1 _ hfb1
      iexact Hout
    rw [show ({5 * t.val + 2} : Finset ℕ) = Finset.erase (insert (5 * t.val + 2) (insert (5 * t.val + 1) (∅ : Finset ℕ))) (5 * t.val + 1) from by
      ext x; simp only [Finset.mem_erase, Finset.mem_insert, Finset.notMem_empty, _root_.or_false, Finset.mem_singleton]; omega]
    iexact Hout'
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Kernel.KRun

end
-- ==== Proof.BTrip3.lean ====
/-
  The third part of a trip of the loop, and the copy that ends the trip. Once the copy of chunk 5 t + 2 out of slot 2
  has landed the slot takes the gather of chunk 5 t + 7; chunk 5 t + 3 lands in slot 3, is copied out to its rows
  of the result, and once that copy has landed the slot takes the gather of chunk 5 t + 8; chunk 5 t + 4 lands in
  slot 4. The trip ends by starting the copy of chunk 5 t + 4 out of slot 4, left in flight.
-/
import proofs.«205984_g59184649339042_cont_9to1_m_680_25_alg».proof.Proof.BInv
import proofs.«205984_g59184649339042_cont_9to1_m_680_25_alg».proof.Proof.BTripLib
import proofs.«205984_g59184649339042_cont_9to1_m_680_25_alg».proof.Proof.BStor

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

open Stor

set_option maxHeartbeats 8000000 in
theorem part3_mid (t : Fin k1_t1_loop.trips) (ht2 : t.val ≤ 48) (v2 v54 c3 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : BitVec 32 → sProp 𝕄) :
    iprop(Transfers.MayWaits (V d (cV L) (jV L)) (default : HIx 1) O
        ∗ SlotStor m d L fix hfix cc1_scratch5 cc1_scratch10 sl2 (5 * t.val + 2) (s5 fullShare 2) (s5 q 2)
        ∗ SlotGath m d L fix hfix cc1_scratch6 cc1_scratch11 sl3 (5 * t.val + 3) (s5 fullShare 3) (s5 q 3)
        ∗ SlotGath m d L fix hfix cc1_scratch7 cc1_scratch12 sl4 (5 * t.val + 4) (s5 fullShare 4) (s5 q 4)
        ∗ OutRes m d L fix hfix (5 * t.val + 2) {5 * t.val + 2}
        ∗ owes (V d (cV L) (jV L)) O W
        ∗ (∀ r, iprop(SlotGath m d L fix hfix cc1_scratch5 cc1_scratch10 sl2 (5 * t.val + 7) (s5 fullShare 2) (s5 q 2)
              ∗ SlotGath m d L fix hfix cc1_scratch6 cc1_scratch11 sl3 (5 * t.val + 8) (s5 fullShare 3) (s5 q 3)
              ∗ SlotLanded m d L fix hfix cc1_scratch7 cc1_scratch12 sl4 (5 * t.val + 4) (s5 fullShare 4) (s5 q 4)
              ∗ OutRes m d L fix hfix (5 * t.val + 4) ∅
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part3 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t v54 c3) Φ := by
  have h8 : k1_cond8 t = 1#1 := by
    have : ∀ t : Fin k1_t1_loop.trips, t.val ≤ 48 → k1_cond8 t = 1#1 := by decide +kernel
    exact this t ht2
  have h9 : k1_cond9 t = 1#1 := by revert t; decide +kernel
  have h10 : k1_cond10 t = 1#1 := by
    have : ∀ t : Fin k1_t1_loop.trips, t.val ≤ 48 → k1_cond10 t = 1#1 := by decide +kernel
    exact this t ht2
  have h11 : k1_cond11 t = 1#1 := by revert t; decide +kernel
  rw [k1_part3_eq_skeleton]; unfold k1_part3_skel
  unfold SlotGath SlotStor SlotLanded GFl SFl Shares
  iintro ⟨#Hmw, ⟨⟨%fo2, %fb2, %hfo2, Hfs2⟩, ⟨Hsh2, Hix2⟩, Hg2⟩, ⟨⟨%fb3, %hfb3, Hfg3⟩, Hixr3, Hs3⟩, ⟨⟨%fb4, %hfb4, Hfg4⟩, Hixr4, Hs4⟩, Hout, HO, Hk⟩
  -- chunk 5 t + 3's rows of the result, for the copy out of slot 3
  ihave H := (out_take m d L fix hfix (5 * t.val + 2) (5 * t.val + 3) {5 * t.val + 2} (by simp) (by omega)) $$ Hout
  icases H with ⟨⟨%fw3, Hw3⟩, Hout⟩
  ihave Hw3' := (Entails.of_eq (pts_oWin5 d L t 3 fullShare fw3)) $$ Hw3
  sl_exec
  icases Hfg3_dst with ⟨Hslot3, Hixw3⟩
  ihave Hix3 := (ix_rejoin d L fix (5 * t.val + 3) (s5 fullShare 3)) $$ [Hixw3 Hixr3]
  · isplitl [Hixw3] <;> iassumption
  sl_exec
  icases Hfg4_dst with ⟨Hslot4, Hixw4⟩
  ihave Hix4 := (ix_rejoin d L fix (5 * t.val + 4) (s5 fullShare 4)) $$ [Hixw4 Hixr4]
  · isplitl [Hixw4] <;> iassumption
  sl_step
  iapply Hk
  -- slot 2: chunk 5 t + 7 being gathered
  isplitl [Hg2 Hix2 Hfs2]
  · isplitl [Hg2]
    · iapply (gath_canon' m d L fix hfix cc1_scratch5 sl2 (5 * t.val + 7) (s5 fullShare 2) (s5 q 2) (k1_off11 t) (k1_off11_inb t h8) (k1_off11_canon t h8) fb2 (part3_mid.sl.gather0 m d L fix t hin h8) (fun _ => rfl))
      iexact Hg2
    isplitl [Hix2]
    · iapply (Entails.of_eq (pts_ixRest11 d L fix t h8 (s5 fullShare 2) (5 * t.val + 7) rfl)); iexact Hix2
    iexact Hfs2
  -- slot 3: chunk 5 t + 8 being gathered
  isplitl [Hfg3 Hix3 Hs3]
  · isplitl [Hfg3]
    · iapply (gath_canon' m d L fix hfix cc1_scratch6 sl3 (5 * t.val + 8) (s5 fullShare 3) (s5 q 3) (k1_off13 t) (k1_off13_inb t h10) (k1_off13_canon t h10) fb3 (part3_mid.sl.gather1 m d L fix t hin h10) (fun _ => rfl))
      iexact Hfg3
    isplitl [Hix3]
    · iapply (Entails.of_eq (pts_ixRest13 d L fix t h10 (s5 fullShare 3) (5 * t.val + 8) rfl)); iexact Hix3
    iexact Hs3
  -- slot 4: chunk 5 t + 4 landed
  isplitl [Hslot4 Hfg4_src Hix4 Hfg4 Hs4]
  · isplitl [Hslot4]
    · iexists fb4; isplitr; · ipureintro; exact hfb4
      iexact Hslot4
    isplitl [Hfg4_src Hix4]
    · isplitl [Hfg4_src]
      · iapply (Entails.of_eq (sh_whole d L (s5 q 4) (shval m d (cV L)))); iexact Hfg4_src
      iexact Hix4
    isplitl [Hfg4]; · iexact Hfg4
    iexact Hs4
  -- the result: chunks 5 t + 2 and 5 t + 3 copied as well
  isplitl [Hout Hfs2_dst Hw3']
  · ihave Hout1 := (out_put m d L fix hfix (5 * t.val + 2) (5 * t.val + 3) (5 * t.val + 2) (insert (5 * t.val + 3) {5 * t.val + 2})
        (Finset.mem_insert_of_mem (Finset.mem_singleton_self _)) (by omega)
        (fun k hk hlt => by
          have := (Finset.mem_sdiff.mp hk).2; simp only [Finset.mem_insert, Finset.mem_singleton, not_or] at this; omega)) $$ [Hfs2_dst Hout]
    · isplitl [Hfs2_dst]
      · iexists fo2; isplitr; · ipureintro; exact hfo2
        iexact Hfs2_dst
      iexact Hout
    ihave Hw3 := (Entails.of_eq (pts_oWin5 d L t 3 fullShare _).symm) $$ Hw3'
    ihave Hout2 := (out_put m d L fix hfix (5 * t.val + 3) (5 * t.val + 4) (5 * t.val + 3) (Finset.erase (insert (5 * t.val + 3) {5 * t.val + 2}) (5 * t.val + 2))
        (by simp) (by omega)
        (fun k hk hlt => by
          have := (Finset.mem_sdiff.mp hk).2; simp only [Finset.mem_erase, Finset.mem_insert, Finset.mem_singleton, not_and, not_or] at this; omega)) $$ [Hw3 Hout1]
    · isplitl [Hw3]
      · iexists _; isplitr
        swap; · iexact Hw3
        ipureintro
        exact stored_good m d L fix hfix (5 * t.val + 3) (k1_off5 L t 3#32) (k1_off5_inb L t 3) (k1_off5_canon L t 3) fw3 _ hfb3
      iexact Hout1
    rw [show (∅ : Finset ℕ) = Finset.erase (Finset.erase (insert (5 * t.val + 3) {5 * t.val + 2}) (5 * t.val + 2)) (5 * t.val + 3) from by
      ext x; simp only [Finset.mem_erase, Finset.mem_insert, Finset.mem_singleton, Finset.notMem_empty, false_iff]; omega]
    iexact Hout2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The copy that ends the trip -/

/-- The trip's last statement: the copy of slot 4 out to the rows of chunk 5 t + 4, started and left in flight. -/
abbrev restProg (L : grid1.Coords) (t : Fin k1_t1_loop.trips) : Prog (TpuEff nD τ sig (Elt F) Λ₀ (.scVector (cV L) (jV L))) Unit := do
  Prog.lift (.enqueueDma sl4 (.here ((oV).slice (Rect.unit (s := S320000x128) (k1_off5 L t 4#32) S40x128.size (k1_off5_inb L t 4)) (fun _ => rfl)))
    (.dma cc1_scratch12.sem) ((View.wordExact_bits rfl).reshape _ _) (View.wordExact_bits rfl) ⟨Or.inl rfl, trivial⟩)
  pure ⟨⟩

/-- A trip is its three parts and that copy. -/
theorem body_eq (v2 : BitVec 32) (t : Fin k1_t1_loop.trips) (u : Unit) :
    k1_t1_body (F := F) L yV (Memref.isWhole_whole _) iV (Memref.isWhole_whole _) oV (Memref.isWhole_whole _) ixV (Memref.isWhole_whole _) rwV (Memref.isWhole_whole _) shV (Memref.isWhole_whole _)
        cc1_scratch3 cc1_scratch4 cc1_scratch5 cc1_scratch6 cc1_scratch7 cc1_scratch8 cc1_scratch9 cc1_scratch10 cc1_scratch11 cc1_scratch12 cc1_scoped0 cc1_scoped1 v2 t u
      = (do
          let r1 ← k1_part1 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 0#32 1#32 t
          let c3 ← k1_part2 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t r1.1 r1.2
          let _v132 ← k1_part3 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t r1.1 c3
          restProg L t) := rfl

set_option maxHeartbeats 8000000 in
/-- The copy out of slot 4, at any trip: the slot's landed rows go out to chunk 5 t + 4's rows of the result. -/
theorem rest_mid (t : Fin k1_t1_loop.trips) (Φ : Unit → sProp 𝕄) :
    iprop(SlotLanded m d L fix hfix cc1_scratch7 cc1_scratch12 sl4 (5 * t.val + 4) (s5 fullShare 4) (s5 q 4)
        ∗ OutRes m d L fix hfix (5 * t.val + 4) ∅
        ∗ (iprop(SlotStor m d L fix hfix cc1_scratch7 cc1_scratch12 sl4 (5 * t.val + 4) (s5 fullShare 4) (s5 q 4)
              ∗ OutRes m d L fix hfix (5 * t.val + 4) {5 * t.val + 4}) -∗ Φ ⟨⟩))
      ⊢ wp frame (wpE (defs₀ (F := F)) 𝒱₀ (V d (cV L) (jV L)) none) Set.univ (restProg (F := F) L t) Φ := by
  have ht := trips_le t
  unfold SlotLanded SlotStor SFl Shares
  iintro ⟨⟨⟨%fb4, %hfb4, Hslot4⟩, ⟨Hsh4, Hix4⟩, Hg4, Hs4⟩, Hout, Hk⟩
  ihave H := (out_take m d L fix hfix (5 * t.val + 4) (5 * t.val + 4) ∅ (Finset.notMem_empty _) (by omega)) $$ Hout
  icases H with ⟨⟨%fw4, Hw4⟩, Hout⟩
  ihave Hw4' := (Entails.of_eq (pts_oWin5 d L t 4 fullShare fw4)) $$ Hw4
  sl_exec
  sl_step
  iapply Hk
  isplitr [Hout]
  · isplitl [Hs4]
    · iapply (stor_canon' m d L fix hfix cc1_scratch12 sl4 (5 * t.val + 4) (k1_off5 L t 4#32) (k1_off5_inb L t 4) (k1_off5_canon L t 4) fw4 fb4 _ hfb4)
      iexact Hs4
    isplitl [Hsh4 Hix4]
    · isplitl [Hsh4]; · iexact Hsh4
      iexact Hix4
    iexact Hg4
  rw [show ({5 * t.val + 4} : Finset ℕ) = insert (5 * t.val + 4) ∅ from by
    ext x; simp only [Finset.mem_singleton, Finset.mem_insert, Finset.notMem_empty, _root_.or_false]]
  iexact Hout

end Cert.Kernel.KRun

end
-- ==== Proof.BTripMid.lean ====
/-
  A whole trip of the loop, away from its two ends: from the state before trip t (chunks 5 t … 5 t + 3 being
  gathered into slots 0 … 3, chunk 5 t − 1 being copied out of slot 4) to the state before trip t + 1, by the trip's
  three parts and its closing copy, each framed to the slots it touches.
-/
import proofs.«205984_g59184649339042_cont_9to1_m_680_25_alg».proof.Proof.BInv
import proofs.«205984_g59184649339042_cont_9to1_m_680_25_alg».proof.Proof.BTripLib
import proofs.«205984_g59184649339042_cont_9to1_m_680_25_alg».proof.Proof.BStor
import proofs.«205984_g59184649339042_cont_9to1_m_680_25_alg».proof.Proof.BTrip1
import proofs.«205984_g59184649339042_cont_9to1_m_680_25_alg».proof.Proof.BTrip2
import proofs.«205984_g59184649339042_cont_9to1_m_680_25_alg».proof.Proof.BTrip3
import proofs.«205984_g59184649339042_cont_9to1_m_680_25_alg».proof.Proof.BPost

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable [FloatOps F]
variable (m : (ℓ : Loc nD τ sig) → Buf (Elt F) ℓ)
variable (d : Dev nD) (L : grid1.Coords)

local notation "thr" => V d (cV L) (jV L)

variable (fix : Buf (Elt F) ((ixV).view.loc (V d (cV L) (jV L)))) (hfix : FixOk d L fix) (q : PosShare TreeShare)

open Post

set_option maxHeartbeats 8000000 in
theorem trip_mid (t : Fin k1_t1_loop.trips) (ht1 : 1 ≤ t.val) (ht2 : t.val ≤ 48) (v2 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : Unit → sProp 𝕄) :
    iprop(Transfers.MayWaits (V d (cV L) (jV L)) (default : HIx 1) O
        ∗ InvMid m d L fix hfix q t.val ∗ owesW d L O W
        ∗ (iprop(InvMid m d L fix hfix q (t.val + 1) ∗ owesW d L O W) -∗ Φ ⟨⟩))
      ⊢ wp frame (wpE (defs₀ (F := F)) 𝒱₀ (V d (cV L) (jV L)) none) Set.univ
          (k1_t1_body L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t ⟨⟩) Φ := by
  rw [body_eq]
  simp only [wp_bind]
  unfold InvMid owesW
  rw [show 5 * (t.val + 1) + 1 = 5 * t.val + 6 from by omega, show 5 * (t.val + 1) + 2 = 5 * t.val + 7 from by omega,
    show 5 * (t.val + 1) + 3 = 5 * t.val + 8 from by omega, show 5 * (t.val + 1) - 1 = 5 * t.val + 4 from by omega,
    show 5 * (t.val + 1) = 5 * t.val + 5 from by omega]
  iintro ⟨#Hmw, ⟨G0, G1, G2, G3, S4, Hout⟩, ⟨%W0, %hW0, HO⟩, Hk⟩
  -- part 1: slots 0 and 4
  iapply (part1_mid m d L fix hfix q t ht1 ht2 v2 O W0 hin _)
  isplitr; · iexact Hmw
  isplitl [G0]; · iexact G0
  isplitl [S4]; · iexact S4
  isplitl [Hout]; · iexact Hout
  isplitl [HO]; · iexact HO
  iintro %r1 ⟨G0, G4, Hout, ⟨%W1, %hW1, HO⟩⟩
  -- part 2: slots 1 and 2
  iapply (part2_mid m d L fix hfix q t ht2 v2 r1.1 r1.2 O W1 hin _)
  isplitr; · iexact Hmw
  isplitl [G1]; · iexact G1
  isplitl [G2]; · iexact G2
  isplitl [Hout]; · iexact Hout
  isplitl [HO]; · iexact HO
  iintro %c3 ⟨G1, S2, Hout, ⟨%W2, %hW2, HO⟩⟩
  -- part 3: slots 2, 3 and 4
  iapply (part3_mid m d L fix hfix q t ht2 v2 r1.1 c3 O W2 hin _)
  isplitr; · iexact Hmw
  isplitl [S2]; · iexact S2
  isplitl [G3]; · iexact G3
  isplitl [G4]; · iexact G4
  isplitl [Hout]; · iexact Hout
  isplitl [HO]; · iexact HO
  iintro %v132 ⟨G2, G3, L4, Hout, ⟨%W3, %hW3, HO⟩⟩
  -- the closing copy: slot 4
  iapply (rest_mid m d L fix hfix q t _)
  isplitl [L4]; · iexact L4
  isplitl [Hout]; · iexact Hout
  iintro ⟨S4, Hout⟩
  rw [wp_pure]; imodintro
  iapply Hk
  isplitr [HO]
  · isplitl [G0]; · iexact G0
    isplitl [G1]; · iexact G1
    isplitl [G2]; · iexact G2
    isplitl [G3]; · iexact G3
    isplitl [S4]; · iexact S4
    iexact Hout
  iexists W3
  isplitr
  swap; · iexact HO
  ipureintro
  intro p hp
  rcases hW3 p hp with h | h; swap; · exact .inr (.inl h)
  rcases hW2 p h with h | h; swap; · exact .inr (.inl h)
  rcases hW1 p h with h | h; swap; · exact .inr (.inl h)
  exact hW0 p h

end Cert.Kernel.KRun

end
-- ==== Proof.BTripStart.lean ====
/-
  The first trip of a vector subcore's loop of gathers and copies out.

  It differs from the later trips in that no copy out of slot 4 is in flight when it starts: slot 4 is free, and
  nothing has been copied yet.
-/
import proofs.«205984_g59184649339042_cont_9to1_m_680_25_alg».proof.Proof.BInv
import proofs.«205984_g59184649339042_cont_9to1_m_680_25_alg».proof.Proof.BVal
import proofs.«205984_g59184649339042_cont_9to1_m_680_25_alg».proof.Proof.BTripLib
import proofs.«205984_g59184649339042_cont_9to1_m_680_25_alg».proof.Proof.BPre5

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable (d : Dev nD) (L : grid1.Coords)
variable (fix : Buf (Elt F) ((ixV).view.loc (V d (cV L) (jV L)))) (hfix : FixOk d L fix) (q : PosShare TreeShare)

/-- A gather that has been issued, as its transfer in flight is recorded, in canonical form, the in-flight term spelt out. -/
theorem gath_spelt (g : DmaSems sig S_) (sl : Memref sig .scVector .vmem S40x128 .f32) (k : ℕ) (qi qs : PosShare TreeShare)
    (off : Fin 1 → ℕ) (hinb : ∀ a, off a + S40.size a ≤ S10000.size a) (hoff : off = ![40 * (k % 250)])
    (fprev : Buf (Elt F) (sl.view.loc (V d (cV L) (jV L)))) (p : S40x128.Idx → Elt F .f32)
    (hp : ∀ hinw, p = SparseCore.gatherPayload gathers_S10000x128_S40x128 ((shAll).view.read (Elt F) (shval m d (cV L)))
      (SparseCore.rows (((ixV).slice (Rect.unit (s := S10000) off S40.size hinb) (fun _ => rfl)).view.read (Elt F) fix) rfl hinw)) :
    (Transfers.Flight countersEmb (V d (cV L) (jV L)) (SemLoc.dma g.sem) (default : HIx 1) 163840
      iprop(((sl.view.loc (V d (cV L) (jV L)) ↦[sl.view.set]{fullShare} sl.view.writes (Elt F) fprev [⟨Rect.whole S40x128, p⟩])
          ∗ ((ixV).view.loc (V d (cV L) (jV L)) ↦[((ixV).slice (Rect.unit (s := S10000) off S40.size hinb) (fun _ => rfl)).view.set]{qi} fix))
        ∗ ((shV).view.loc (V d (cV L) (jV L)) ↦[(shAll).view.set]{qs} shval m d (cV L))) : sProp 𝕄)
      ⊢ iprop(∃ fb, ⌜sl.view.read (Elt F) fb = GP m d L fix hfix k⌝ ∗
          Transfers.Flight countersEmb (V d (cV L) (jV L)) (SemLoc.dma g.sem) (default : HIx 1) 163840
            iprop(((sl.view.loc (V d (cV L) (jV L)) ↦[sl.view.set]{fullShare} fb)
                ∗ ((ixWin k).view.loc (V d (cV L) (jV L)) ↦[(ixWin k).view.set]{qi} fix))
              ∗ ((shAll).view.loc (V d (cV L) (jV L)) ↦[(shAll).view.set]{qs} shval m d (cV L)))) := by
  have h := gath_canon m d L fix hfix g sl k qi qs off hinb hoff fprev p hp
  unfold GFl at h
  exact h

set_option maxHeartbeats 8000000 in
/-- Part 1 of the first trip: chunk 4 is gathered into the free slot 4; chunk 0 lands in slot 0, is copied out and the
    copy waited for; chunk 5 is gathered into slot 0. -/
theorem part1_start (t : Fin k1_t1_loop.trips) (ht : t.val = 0) (v2 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : (Σ' (_ : BitVec 32), BitVec 32) → sProp 𝕄) :
    iprop(Transfers.MayWaits (V d (cV L) (jV L)) (default : HIx 1) O
        ∗ SlotGath m d L fix hfix cc1_scratch3 cc1_scratch8 sl0 (5 * t.val) (s5 fullShare 0) (s5 q 0)
        ∗ SlotFree m d L fix cc1_scratch7 cc1_scratch12 sl4 (s5 fullShare 4) (s5 q 4)
        ∗ OutRes m d L fix hfix 0 ∅
        ∗ owes (V d (cV L) (jV L)) O W
        ∗ (∀ r, iprop(SlotGath m d L fix hfix cc1_scratch3 cc1_scratch8 sl0 (5 * t.val + 5) (s5 fullShare 0) (s5 q 0)
              ∗ SlotGath m d L fix hfix cc1_scratch7 cc1_scratch12 sl4 (5 * t.val + 4) (s5 fullShare 4) (s5 q 4)
              ∗ OutRes m d L fix hfix (5 * t.val + 1) ∅
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part1 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 0#32 1#32 t) Φ := by
  have h2 : k1_cond2 t = 1#1 := by revert t; decide +kernel
  have h3 : ¬ k1_cond3 t = 1#1 := by
    have : ∀ t : Fin k1_t1_loop.trips, t.val = 0 → ¬ k1_cond3 t = 1#1 := by decide +kernel
    exact this t ht
  have h4 : k1_cond4 t = 1#1 := by
    have : ∀ t : Fin k1_t1_loop.trips, t.val ≤ 48 → k1_cond4 t = 1#1 := by decide +kernel
    exact this t (by omega)
  have h5 : k1_cond5 t = 1#1 := by revert t; decide +kernel
  rw [k1_part1_eq_skeleton]; unfold k1_part1_skel
  unfold SlotGath SlotFree GFl Shares
  iintro ⟨#Hmw, ⟨⟨%fb0, %hfb0, Hfg0⟩, Hixr0, Ht0⟩, ⟨⟨%fb4, Hslot4⟩, ⟨Hsh4, Hix4⟩, Hg4, Hs4⟩, Hout, HO, Hk⟩
  sl_exec
  icases Hfg0_dst with ⟨Hslot0, Hixw0⟩
  -- the index list's share 0 is whole again
  ihave Hix0 := (ix_rejoin d L fix (5 * t.val) (s5 fullShare 0)) $$ [Hixw0 Hixr0]
  · isplitl [Hixw0] <;> iassumption
  -- chunk 5 t's rows of the result, for the copy out of slot 0
  ihave H := (out_take m d L fix hfix 0 (5 * t.val) ∅ (Finset.notMem_empty _) (by omega)) $$ Hout
  icases H with ⟨⟨%fw0, Hw0⟩, Hout⟩
  ihave Hw0' := (Entails.of_eq (pts_oWin5 d L t 0 fullShare fw0)) $$ Hw0
  sl_exec
  sl_step
  iapply Hk
  -- slot 0: chunk 5 t + 5 being gathered
  isplitl [Hfg0 Hix0 Ht0]
  · isplitl [Hfg0]
    · iapply (gath_spelt m d L fix hfix cc1_scratch3 sl0 (5 * t.val + 5) (s5 fullShare 0) (s5 q 0) (k1_off7 t) (k1_off7_inb t h4) (k1_off7_canon t h4) fb0 (part1_start.sl.gather1 m d L fix t hin h4) (fun _ => rfl))
      iexact Hfg0
    isplitl [Hix0]
    · iapply (Entails.of_eq (pts_ixRest7 d L fix t h4 (s5 fullShare 0) _ rfl)); iexact Hix0
    iexact Ht0
  -- slot 4: chunk 5 t + 4 being gathered
  isplitl [Hg4 Hix4 Hs4]
  · isplitl [Hg4]
    · iapply (gath_spelt m d L fix hfix cc1_scratch7 sl4 (5 * t.val + 4) (s5 fullShare 4) (s5 q 4) (k1_off4 t) (k1_off4_inb t h2) (k1_off4_canon t) fb4 (part1_start.sl.gather0 m d L fix t hin h2) (fun _ => rfl))
      iexact Hg4
    isplitl [Hix4]
    · iapply (Entails.of_eq (pts_ixRest4 d L fix t h2 (s5 fullShare 4) _ rfl)); iexact Hix4
    iexact Hs4
  -- the result: chunk 5 t copied
  isplitl [Hout Hw0']
  · ihave Hw0 := (Entails.of_eq (pts_oWin5 d L t 0 fullShare _).symm) $$ Hw0'
    ihave Hout' := (out_put m d L fix hfix 0 (5 * t.val + 1) (5 * t.val) (insert (5 * t.val) ∅) (Finset.mem_insert_self _ _) (by omega)
        (fun k hk hlt => by
          have := (Finset.mem_sdiff.mp hk).2; rw [Finset.mem_insert] at this; omega)) $$ [Hw0 Hout]
    · isplitl [Hw0]
      · iexists _; isplitr
        swap; · iexact Hw0
        ipureintro
        exact stored_good m d L fix hfix (5 * t.val) (k1_off5 L t 0#32) (k1_off5_inb L t 0) (k1_off5_canon L t 0) fw0 _ hfb0
      iexact Hout
    rw [Finset.erase_insert (Finset.notMem_empty _)]
    iexact Hout'
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.Kernel.KRun

end
-- ==== Proof.BTripStartTrip.lean ====
/-
  The first trip, whole: its three parts and the copy out of slot 4, composed.

  From the state the program's head leaves — chunks 0 to 3 being gathered, slot 4 free, nothing copied — to the
  state before the second trip.
-/
import proofs.«205984_g59184649339042_cont_9to1_m_680_25_alg».proof.Proof.BInv
import proofs.«205984_g59184649339042_cont_9to1_m_680_25_alg».proof.Proof.BVal
import proofs.«205984_g59184649339042_cont_9to1_m_680_25_alg».proof.Proof.BTripLib
import proofs.«205984_g59184649339042_cont_9to1_m_680_25_alg».proof.Proof.BPre5
import proofs.«205984_g59184649339042_cont_9to1_m_680_25_alg».proof.Proof.BTripStart
import proofs.«205984_g59184649339042_cont_9to1_m_680_25_alg».proof.Proof.BTrip2
import proofs.«205984_g59184649339042_cont_9to1_m_680_25_alg».proof.Proof.BTrip3
import proofs.«205984_g59184649339042_cont_9to1_m_680_25_alg».proof.Proof.BPost

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable (d : Dev nD) (L : grid1.Coords)
variable (fix : Buf (Elt F) ((ixV).view.loc (V d (cV L) (jV L)))) (hfix : FixOk d L fix) (q : PosShare TreeShare)

open Post

set_option maxHeartbeats 4000000 in
/-- The first trip: from the state the program's head leaves to the loop's state before the second trip. -/
theorem trip_start (t : Fin k1_t1_loop.trips) (ht : t.val = 0) (v2 : BitVec 32) (u : Unit)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : Unit → sProp 𝕄) :
    iprop(Transfers.MayWaits (V d (cV L) (jV L)) (default : HIx 1) O ∗ InvStart m d L fix hfix q ∗ owesW d L O W
        ∗ (iprop(InvMid m d L fix hfix q 1 ∗ owesW d L O W) -∗ Φ ⟨⟩))
      ⊢ wp frame (wpE (defs₀ (F := F)) 𝒱₀ (V d (cV L) (jV L)) none) Set.univ
          (k1_t1_body L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t u) Φ := by
  obtain ⟨tv, htv⟩ := t
  obtain rfl : tv = 0 := ht
  rw [body_eq]
  simp only [wp_bind]
  unfold InvStart InvMid owesW
  iintro ⟨#Hmw, ⟨G0, G1, G2, G3, F4, Hout⟩, ⟨%W0, %hW0, HO⟩, Hk⟩
  -- part 1: slots 0 and 4
  iapply (part1_start m d L fix hfix q ⟨0, htv⟩ rfl v2 O W0 hin _)
  isplitr; · iexact Hmw
  isplitl [G0]; · iexact G0
  isplitl [F4]; · iexact F4
  isplitl [Hout]; · iexact Hout
  isplitl [HO]; · iexact HO
  iintro %r1 ⟨G0, G4, Hout, ⟨%W1, %hW1, HO⟩⟩
  -- part 2: slots 1 and 2
  iapply (part2_mid m d L fix hfix q ⟨0, htv⟩ (Nat.zero_le 48) v2 r1.1 r1.2 O W1 hin _)
  isplitr; · iexact Hmw
  isplitl [G1]; · iexact G1
  isplitl [G2]; · iexact G2
  isplitl [Hout]; · iexact Hout
  isplitl [HO]; · iexact HO
  iintro %c3 ⟨G1, S2, Hout, ⟨%W2, %hW2, HO⟩⟩
  -- part 3: slots 2, 3 and 4
  iapply (part3_mid m d L fix hfix q ⟨0, htv⟩ (Nat.zero_le 48) v2 r1.1 c3 O W2 hin _)
  isplitr; · iexact Hmw
  isplitl [S2]; · iexact S2
  isplitl [G3]; · iexact G3
  isplitl [G4]; · iexact G4
  isplitl [Hout]; · iexact Hout
  isplitl [HO]; · iexact HO
  iintro %v132 ⟨G2, G3, L4, Hout, ⟨%W3, %hW3, HO⟩⟩
  -- the closing copy: slot 4
  iapply (rest_mid m d L fix hfix q ⟨0, htv⟩ _)
  isplitl [L4]; · iexact L4
  isplitl [Hout]; · iexact Hout
  iintro ⟨S4, Hout⟩
  simp only [wp_pure]
  imodintro
  iapply Hk
  isplitr [HO]
  · isplitl [G0]; · iexact G0
    isplitl [G1]; · iexact G1
    isplitl [G2]; · iexact G2
    isplitl [G3]; · iexact G3
    isplitl [S4]; · iexact S4
    iexact Hout
  iexists W3
  isplitr
  swap; · iexact HO
  ipureintro
  intro p hp
  rcases hW3 p hp with h | h; swap; · exact .inr (.inl h)
  rcases hW2 p h with h | h; swap; · exact .inr (.inl h)
  rcases hW1 p h with h | h; swap; · exact .inr (.inl h)
  exact hW0 p h

end Cert.Kernel.KRun

end
-- ==== Proof.BTripEnd.lean ====
/-
  The last trip of a vector subcore's loop of gathers and copies out.

  It differs from the earlier trips in that no chunk is left to gather: each slot's copy out is left in flight, to
  be waited for after the loop.
-/
import proofs.«205984_g59184649339042_cont_9to1_m_680_25_alg».proof.Proof.BInv
import proofs.«205984_g59184649339042_cont_9to1_m_680_25_alg».proof.Proof.BVal
import proofs.«205984_g59184649339042_cont_9to1_m_680_25_alg».proof.Proof.BTripLib
import proofs.«205984_g59184649339042_cont_9to1_m_680_25_alg».proof.Proof.BPre5
import proofs.«205984_g59184649339042_cont_9to1_m_680_25_alg».proof.Proof.BStor
import proofs.«205984_g59184649339042_cont_9to1_m_680_25_alg».proof.Proof.BTripStart

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable (d : Dev nD) (L : grid1.Coords)
variable (fix : Buf (Elt F) ((ixV).view.loc (V d (cV L) (jV L)))) (hfix : FixOk d L fix) (q : PosShare TreeShare)

set_option maxHeartbeats 8000000 in
/-- Part 1 of the last trip: the copy of chunk 5 t − 1 out of slot 4 is waited for and the last chunk gathered into
    slot 4; chunk 5 t lands in slot 0 and its copy out is left in flight. -/
theorem part1_end (t : Fin k1_t1_loop.trips) (ht : t.val = 49) (v2 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : (Σ' (_ : BitVec 32), BitVec 32) → sProp 𝕄) :
    iprop(Transfers.MayWaits (V d (cV L) (jV L)) (default : HIx 1) O
        ∗ SlotGath m d L fix hfix cc1_scratch3 cc1_scratch8 sl0 (5 * t.val) (s5 fullShare 0) (s5 q 0)
        ∗ SlotStor m d L fix hfix cc1_scratch7 cc1_scratch12 sl4 (5 * t.val - 1) (s5 fullShare 4) (s5 q 4)
        ∗ OutRes m d L fix hfix (5 * t.val - 1) {5 * t.val - 1}
        ∗ owes (V d (cV L) (jV L)) O W
        ∗ (∀ r, iprop(SlotStor m d L fix hfix cc1_scratch3 cc1_scratch8 sl0 (5 * t.val) (s5 fullShare 0) (s5 q 0)
              ∗ SlotGath m d L fix hfix cc1_scratch7 cc1_scratch12 sl4 (5 * t.val + 4) (s5 fullShare 4) (s5 q 4)
              ∗ OutRes m d L fix hfix (5 * t.val) {5 * t.val}
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part1 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 0#32 1#32 t) Φ := by
  have h2 : k1_cond2 t = 1#1 := by revert t; decide +kernel
  have h3 : k1_cond3 t = 1#1 := by
    have : ∀ t : Fin k1_t1_loop.trips, 1 ≤ t.val → k1_cond3 t = 1#1 := by decide +kernel
    exact this t (by omega)
  have h4 : ¬ k1_cond4 t = 1#1 := by
    have : ∀ t : Fin k1_t1_loop.trips, t.val = 49 → ¬ k1_cond4 t = 1#1 := by decide +kernel
    exact this t ht
  rw [k1_part1_eq_skeleton]; unfold k1_part1_skel
  unfold SlotGath SlotStor GFl SFl Shares
  iintro ⟨#Hmw, ⟨⟨%fb0, %hfb0, Hfg0⟩, Hixr0, Ht0⟩, ⟨⟨%fo4, %fb4, %hfo4, Hfs4⟩, ⟨Hsh4, Hix4⟩, Hg4⟩, Hout, HO, Hk⟩
  sl_exec
  icases Hfg0_dst with ⟨Hslot0, Hixw0⟩
  -- the index list's share 0 is whole again
  ihave Hix0 := (ix_rejoin d L fix (5 * t.val) (s5 fullShare 0)) $$ [Hixw0 Hixr0]
  · isplitl [Hixw0] <;> iassumption
  -- the previous chunk's rows are back: every chunk below 5 t is copied
  ihave Hout := (out_put m d L fix hfix (5 * t.val - 1) (5 * t.val) (5 * t.val - 1) {5 * t.val - 1} (Finset.mem_singleton_self _) (by omega)
      (fun k hk hlt => by
        have := (Finset.mem_sdiff.mp hk).2; rw [Finset.mem_singleton] at this; omega)) $$ [Hfs4_dst Hout]
  · isplitl [Hfs4_dst]
    · iexists fo4; isplitr; · ipureintro; exact hfo4
      iexact Hfs4_dst
    iexact Hout
  rw [Finset.erase_singleton]
  -- chunk 5 t's rows of the result, for the copy out of slot 0
  ihave H := (out_take m d L fix hfix (5 * t.val) (5 * t.val) ∅ (Finset.notMem_empty _) (by omega)) $$ Hout
  icases H with ⟨⟨%fw0, Hw0⟩, Hout⟩
  ihave Hw0' := (Entails.of_eq (pts_oWin5 d L t 0 fullShare fw0)) $$ Hw0
  sl_exec
  sl_step
  iapply Hk
  -- slot 0: the copy of chunk 5 t out of it in flight; its shares are whole again
  isplitl [Ht0 Hfg0_src Hix0 Hfg0]
  · isplitl [Ht0]
    · iapply (stor_canon' m d L fix hfix cc1_scratch8 sl0 (5 * t.val) (k1_off5 L t 0#32) (k1_off5_inb L t 0) (k1_off5_canon L t 0) fw0 fb0 _ hfb0)
      iexact Ht0
    isplitl [Hfg0_src Hix0]
    · isplitl [Hfg0_src]
      · iapply (Entails.of_eq (sh_whole d L (s5 q 0) _)); iexact Hfg0_src
      iexact Hix0
    iexact Hfg0
  -- slot 4: the last chunk being gathered
  isplitl [Hg4 Hix4 Hfs4]
  · isplitl [Hg4]
    · iapply (gath_spelt m d L fix hfix cc1_scratch7 sl4 (5 * t.val + 4) (s5 fullShare 4) (s5 q 4) (k1_off4 t) (k1_off4_inb t h2) (k1_off4_canon t) fb4 (part1_end.sl.gather0 m d L fix t hin h2) (fun _ => rfl))
      iexact Hg4
    isplitl [Hix4]
    · iapply (Entails.of_eq (pts_ixRest4 d L fix t h2 (s5 fullShare 4) _ rfl)); iexact Hix4
    iexact Hfs4
  -- the result: chunk 5 t's rows travel with the copy
  isplitl [Hout]
  · rw [Finset.insert_empty]
    iexact Hout
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

set_option maxHeartbeats 8000000 in
/-- Part 2 of the last trip: chunks 5 t + 1 and 5 t + 2 land in slots 1 and 2 and their copies out are left in flight. -/
theorem part2_end (t : Fin k1_t1_loop.trips) (ht : t.val = 49) (v2 v54 v72 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : BitVec 32 → sProp 𝕄) :
    iprop(Transfers.MayWaits (V d (cV L) (jV L)) (default : HIx 1) O
        ∗ SlotGath m d L fix hfix cc1_scratch4 cc1_scratch9 sl1 (5 * t.val + 1) (s5 fullShare 1) (s5 q 1)
        ∗ SlotGath m d L fix hfix cc1_scratch5 cc1_scratch10 sl2 (5 * t.val + 2) (s5 fullShare 2) (s5 q 2)
        ∗ OutRes m d L fix hfix (5 * t.val) {5 * t.val}
        ∗ owes (V d (cV L) (jV L)) O W
        ∗ (∀ r, iprop(SlotStor m d L fix hfix cc1_scratch4 cc1_scratch9 sl1 (5 * t.val + 1) (s5 fullShare 1) (s5 q 1)
              ∗ SlotStor m d L fix hfix cc1_scratch5 cc1_scratch10 sl2 (5 * t.val + 2) (s5 fullShare 2) (s5 q 2)
              ∗ OutRes m d L fix hfix (5 * t.val) {5 * t.val, 5 * t.val + 1, 5 * t.val + 2}
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part2 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t v54 v72) Φ := by
  have h6 : ¬ k1_cond6 t = 1#1 := by
    have : ∀ t : Fin k1_t1_loop.trips, t.val = 49 → ¬ k1_cond6 t = 1#1 := by decide +kernel
    exact this t ht
  rw [k1_part2_eq_skeleton]; unfold k1_part2_skel
  unfold SlotGath SlotStor GFl SFl Shares
  iintro ⟨#Hmw, ⟨⟨%fb1, %hfb1, Hfg1⟩, Hixr1, Hs1⟩, ⟨⟨%fb2, %hfb2, Hfg2⟩, Hixr2, Hs2⟩, Hout, HO, Hk⟩
  sl_exec
  icases Hfg1_dst with ⟨Hslot1, Hixw1⟩
  ihave Hix1 := (ix_rejoin d L fix (5 * t.val + 1) (s5 fullShare 1)) $$ [Hixw1 Hixr1]
  · isplitl [Hixw1] <;> iassumption
  -- chunks 5 t + 1 and 5 t + 2: their rows of the result, for the two copies out
  ihave H := (out_take m d L fix hfix (5 * t.val) (5 * t.val + 1) {5 * t.val} (by simp) (by omega)) $$ Hout
  icases H with ⟨⟨%fw1, Hw1⟩, Hout⟩
  ihave Hw1' := (Entails.of_eq (pts_oWin5 d L t 1 fullShare fw1)) $$ Hw1
  ihave H := (out_take m d L fix hfix (5 * t.val) (5 * t.val + 2) (insert (5 * t.val + 1) {5 * t.val}) (by simp) (by omega)) $$ Hout
  icases H with ⟨⟨%fw2, Hw2⟩, Hout⟩
  ihave Hw2' := (Entails.of_eq (pts_oWin5 d L t 2 fullShare fw2)) $$ Hw2
  sl_exec
  icases Hfg2_dst with ⟨Hslot2, Hixw2⟩
  ihave Hix2 := (ix_rejoin d L fix (5 * t.val + 2) (s5 fullShare 2)) $$ [Hixw2 Hixr2]
  · isplitl [Hixw2] <;> iassumption
  sl_exec
  sl_step
  iapply Hk
  -- slot 1: chunk 5 t + 1 being copied out
  isplitl [Hs1 Hfg1_src Hix1 Hfg1]
  · isplitl [Hs1]
    · iapply (stor_canon' m d L fix hfix cc1_scratch9 sl1 (5 * t.val + 1) (k1_off5 L t 1#32) (k1_off5_inb L t 1) (k1_off5_canon L t 1) fw1 fb1 _ hfb1)
      iexact Hs1
    isplitl [Hfg1_src Hix1]
    · isplitl [Hfg1_src]
      · iapply (Entails.of_eq (sh_whole d L (s5 q 1) (shval m d (cV L)))); iexact Hfg1_src
      iexact Hix1
    iexact Hfg1
  -- slot 2: chunk 5 t + 2 being copied out
  isplitl [Hs2 Hfg2_src Hix2 Hfg2]
  · isplitl [Hs2]
    · iapply (stor_canon' m d L fix hfix cc1_scratch10 sl2 (5 * t.val + 2) (k1_off5 L t 2#32) (k1_off5_inb L t 2) (k1_off5_canon L t 2) fw2 fb2 _ hfb2)
      iexact Hs2
    isplitl [Hfg2_src Hix2]
    · isplitl [Hfg2_src]
      · iapply (Entails.of_eq (sh_whole d L (s5 q 2) (shval m d (cV L)))); iexact Hfg2_src
      iexact Hix2
    iexact Hfg2
  -- the result: the three chunks' rows travel with the copies
  isplitl [Hout]
  · rw [show ({5 * t.val, 5 * t.val + 1, 5 * t.val + 2} : Finset ℕ) = insert (5 * t.val + 2) (insert (5 * t.val + 1) {5 * t.val}) from by
      ext x; simp only [Finset.mem_insert, Finset.mem_singleton]; omega]
    iexact Hout
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

set_option maxHeartbeats 8000000 in
/-- Part 3 of the last trip: chunk 5 t + 3 lands in slot 3 and its copy out is left in flight; the last chunk lands
    in slot 4. -/
theorem part3_end (t : Fin k1_t1_loop.trips) (ht : t.val = 49) (v2 v54 c3 : BitVec 32)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : BitVec 32 → sProp 𝕄) :
    iprop(Transfers.MayWaits (V d (cV L) (jV L)) (default : HIx 1) O
        ∗ SlotGath m d L fix hfix cc1_scratch6 cc1_scratch11 sl3 (5 * t.val + 3) (s5 fullShare 3) (s5 q 3)
        ∗ SlotGath m d L fix hfix cc1_scratch7 cc1_scratch12 sl4 (5 * t.val + 4) (s5 fullShare 4) (s5 q 4)
        ∗ OutRes m d L fix hfix (5 * t.val) {5 * t.val, 5 * t.val + 1, 5 * t.val + 2}
        ∗ owes (V d (cV L) (jV L)) O W
        ∗ (∀ r, iprop(SlotStor m d L fix hfix cc1_scratch6 cc1_scratch11 sl3 (5 * t.val + 3) (s5 fullShare 3) (s5 q 3)
              ∗ SlotLanded m d L fix hfix cc1_scratch7 cc1_scratch12 sl4 (5 * t.val + 4) (s5 fullShare 4) (s5 q 4)
              ∗ OutRes m d L fix hfix (5 * t.val) {5 * t.val, 5 * t.val + 1, 5 * t.val + 2, 5 * t.val + 3}
              ∗ (∃ W', ⌜∀ p ∈ W', p ∈ W ∨ p.2 = none⌝ ∗ owes (V d (cV L) (jV L)) O W')) -∗ Φ r))
      ⊢ wp frame (wpE (defs₀ (F := F)) 𝒱₀ (V d (cV L) (jV L)) none) Set.univ
          (k1_part3 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t v54 c3) Φ := by
  have h8 : ¬ k1_cond8 t = 1#1 := by
    have : ∀ t : Fin k1_t1_loop.trips, t.val = 49 → ¬ k1_cond8 t = 1#1 := by decide +kernel
    exact this t ht
  have h10 : ¬ k1_cond10 t = 1#1 := by
    have : ∀ t : Fin k1_t1_loop.trips, t.val = 49 → ¬ k1_cond10 t = 1#1 := by decide +kernel
    exact this t ht
  rw [k1_part3_eq_skeleton]; unfold k1_part3_skel
  unfold SlotGath SlotStor SlotLanded GFl SFl Shares
  iintro ⟨#Hmw, ⟨⟨%fb3, %hfb3, Hfg3⟩, Hixr3, Hs3⟩, ⟨⟨%fb4, %hfb4, Hfg4⟩, Hixr4, Hs4⟩, Hout, HO, Hk⟩
  -- chunk 5 t + 3's rows of the result, for the copy out of slot 3
  ihave H := (out_take m d L fix hfix (5 * t.val) (5 * t.val + 3) {5 * t.val, 5 * t.val + 1, 5 * t.val + 2} (by simp) (by omega)) $$ Hout
  icases H with ⟨⟨%fw3, Hw3⟩, Hout⟩
  ihave Hw3' := (Entails.of_eq (pts_oWin5 d L t 3 fullShare fw3)) $$ Hw3
  sl_exec
  icases Hfg3_dst with ⟨Hslot3, Hixw3⟩
  ihave Hix3 := (ix_rejoin d L fix (5 * t.val + 3) (s5 fullShare 3)) $$ [Hixw3 Hixr3]
  · isplitl [Hixw3] <;> iassumption
  sl_exec
  icases Hfg4_dst with ⟨Hslot4, Hixw4⟩
  ihave Hix4 := (ix_rejoin d L fix (5 * t.val + 4) (s5 fullShare 4)) $$ [Hixw4 Hixr4]
  · isplitl [Hixw4] <;> iassumption
  sl_step
  iapply Hk
  -- slot 3: chunk 5 t + 3 being copied out
  isplitl [Hs3 Hfg3_src Hix3 Hfg3]
  · isplitl [Hs3]
    · iapply (stor_canon' m d L fix hfix cc1_scratch11 sl3 (5 * t.val + 3) (k1_off5 L t 3#32) (k1_off5_inb L t 3) (k1_off5_canon L t 3) fw3 fb3 _ hfb3)
      iexact Hs3
    isplitl [Hfg3_src Hix3]
    · isplitl [Hfg3_src]
      · iapply (Entails.of_eq (sh_whole d L (s5 q 3) (shval m d (cV L)))); iexact Hfg3_src
      iexact Hix3
    iexact Hfg3
  -- slot 4: the last chunk landed
  isplitl [Hslot4 Hfg4_src Hix4 Hfg4 Hs4]
  · isplitl [Hslot4]
    · iexists fb4; isplitr; · ipureintro; exact hfb4
      iexact Hslot4
    isplitl [Hfg4_src Hix4]
    · isplitl [Hfg4_src]
      · iapply (Entails.of_eq (sh_whole d L (s5 q 4) (shval m d (cV L)))); iexact Hfg4_src
      iexact Hix4
    isplitl [Hfg4]; · iexact Hfg4
    iexact Hs4
  -- the result: the four chunks' rows travel with the copies
  isplitl [Hout]
  · rw [show ({5 * t.val, 5 * t.val + 1, 5 * t.val + 2, 5 * t.val + 3} : Finset ℕ) = insert (5 * t.val + 3) {5 * t.val, 5 * t.val + 1, 5 * t.val + 2} from by
      ext x; simp only [Finset.mem_insert, Finset.mem_singleton]; omega]
    iexact Hout
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.Kernel.KRun

end
-- ==== Proof.BTripEndTrip.lean ====
/-
  The last trip, whole: its three parts and the copy out of slot 4, composed.

  After it every slot's copy out is in flight, one per slot, holding the rows of the last five chunks of the result.
-/
import proofs.«205984_g59184649339042_cont_9to1_m_680_25_alg».proof.Proof.BInv
import proofs.«205984_g59184649339042_cont_9to1_m_680_25_alg».proof.Proof.BVal
import proofs.«205984_g59184649339042_cont_9to1_m_680_25_alg».proof.Proof.BTripLib
import proofs.«205984_g59184649339042_cont_9to1_m_680_25_alg».proof.Proof.BPre5
import proofs.«205984_g59184649339042_cont_9to1_m_680_25_alg».proof.Proof.BStor
import proofs.«205984_g59184649339042_cont_9to1_m_680_25_alg».proof.Proof.BTripEnd
import proofs.«205984_g59184649339042_cont_9to1_m_680_25_alg».proof.Proof.BPost

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable (d : Dev nD) (L : grid1.Coords)
variable (fix : Buf (Elt F) ((ixV).view.loc (V d (cV L) (jV L)))) (hfix : FixOk d L fix) (q : PosShare TreeShare)

open Post

/-- A trip's last statement: the copy of slot 4 out to the rows of chunk 5 t + 4, started and left in flight. -/
abbrev restProgE (L : grid1.Coords) (t : Fin k1_t1_loop.trips) : Prog (TpuEff nD τ sig (Elt F) Λ₀ (.scVector (cV L) (jV L))) Unit := do
  Prog.lift (.enqueueDma sl4 (.here ((oV).slice (Rect.unit (s := S320000x128) (k1_off5 L t 4#32) S40x128.size (k1_off5_inb L t 4)) (fun _ => rfl)))
    (.dma cc1_scratch12.sem) ((View.wordExact_bits rfl).reshape _ _) (View.wordExact_bits rfl) ⟨Or.inl rfl, trivial⟩)
  pure ⟨⟩

/-- A trip is its three parts and that copy. -/
theorem body_eqE (v2 : BitVec 32) (t : Fin k1_t1_loop.trips) (u : Unit) :
    k1_t1_body (F := F) L yV (Memref.isWhole_whole _) iV (Memref.isWhole_whole _) oV (Memref.isWhole_whole _) ixV (Memref.isWhole_whole _) rwV (Memref.isWhole_whole _) shV (Memref.isWhole_whole _)
        cc1_scratch3 cc1_scratch4 cc1_scratch5 cc1_scratch6 cc1_scratch7 cc1_scratch8 cc1_scratch9 cc1_scratch10 cc1_scratch11 cc1_scratch12 cc1_scoped0 cc1_scoped1 v2 t u
      = (do
          let r1 ← k1_part1 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 0#32 1#32 t
          let c3 ← k1_part2 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t r1.1 r1.2
          let _v132 ← k1_part3 L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t r1.1 c3
          restProgE L t) := rfl

set_option maxHeartbeats 8000000 in
/-- The copy out of slot 4, at any trip and whatever part of the result is held: the slot's landed rows go out to chunk
    5 t + 4's rows of the result. -/
theorem rest_end (t : Fin k1_t1_loop.trips) (n : ℕ) (excl : Finset ℕ) (hex : 5 * t.val + 4 ∉ excl) (Φ : Unit → sProp 𝕄) :
    iprop(SlotLanded m d L fix hfix cc1_scratch7 cc1_scratch12 sl4 (5 * t.val + 4) (s5 fullShare 4) (s5 q 4)
        ∗ OutRes m d L fix hfix n excl
        ∗ (iprop(SlotStor m d L fix hfix cc1_scratch7 cc1_scratch12 sl4 (5 * t.val + 4) (s5 fullShare 4) (s5 q 4)
              ∗ OutRes m d L fix hfix n (insert (5 * t.val + 4) excl)) -∗ Φ ⟨⟩))
      ⊢ wp frame (wpE (defs₀ (F := F)) 𝒱₀ (V d (cV L) (jV L)) none) Set.univ (restProgE (F := F) L t) Φ := by
  have ht := trips_le t
  unfold SlotLanded SlotStor SFl Shares
  iintro ⟨⟨⟨%fb4, %hfb4, Hslot4⟩, ⟨Hsh4, Hix4⟩, Hg4, Hs4⟩, Hout, Hk⟩
  ihave H := (out_take m d L fix hfix n (5 * t.val + 4) excl hex (by omega)) $$ Hout
  icases H with ⟨⟨%fw4, Hw4⟩, Hout⟩
  ihave Hw4' := (Entails.of_eq (pts_oWin5 d L t 4 fullShare fw4)) $$ Hw4
  sl_exec
  sl_step
  iapply Hk
  isplitr [Hout]
  · isplitl [Hs4]
    · iapply (stor_canon' m d L fix hfix cc1_scratch12 sl4 (5 * t.val + 4) (k1_off5 L t 4#32) (k1_off5_inb L t 4) (k1_off5_canon L t 4) fw4 fb4 _ hfb4)
      iexact Hs4
    isplitl [Hsh4 Hix4]
    · isplitl [Hsh4]; · iexact Hsh4
      iexact Hix4
    iexact Hg4
  iexact Hout

set_option maxHeartbeats 4000000 in
/-- The last trip: from the loop's state before it to every slot's copy out in flight. -/
theorem trip_end (t : Fin k1_t1_loop.trips) (ht : t.val = 49) (v2 : BitVec 32) (u : Unit)
    (O : CellTallies nD τ sig (HIx 1)) (W : Waits sig (HIx 1))
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000)
    (Φ : Unit → sProp 𝕄) :
    iprop(Transfers.MayWaits (V d (cV L) (jV L)) (default : HIx 1) O ∗ InvMid m d L fix hfix q t.val ∗ owesW d L O W
        ∗ (iprop(InvEnd m d L fix hfix q ∗ owesW d L O W) -∗ Φ ⟨⟩))
      ⊢ wp frame (wpE (defs₀ (F := F)) 𝒱₀ (V d (cV L) (jV L)) none) Set.univ
          (k1_t1_body L yV (Memref.isWhole_whole _) iV (Memref.isWhole_whole _) oV (Memref.isWhole_whole _) ixV (Memref.isWhole_whole _) rwV (Memref.isWhole_whole _) shV (Memref.isWhole_whole _)
            cc1_scratch3 cc1_scratch4 cc1_scratch5 cc1_scratch6 cc1_scratch7 cc1_scratch8 cc1_scratch9 cc1_scratch10 cc1_scratch11 cc1_scratch12 cc1_scoped0 cc1_scoped1 v2 t u) Φ := by
  rw [body_eqE]
  simp only [wp_bind]
  unfold InvMid owesW
  iintro ⟨#Hmw, ⟨Hs0, Hs1, Hs2, Hs3, Hs4, Hout⟩, ⟨%W0, %hW0, HO⟩, Hk⟩
  iapply (part1_end m d L fix hfix q t ht v2 O W0 hin _)
  isplitr; · iexact Hmw
  isplitl [Hs0]; · iexact Hs0
  isplitl [Hs4]; · iexact Hs4
  isplitl [Hout]; · iexact Hout
  isplitl [HO]; · iexact HO
  iintro %r1 ⟨Hs0, Hs4, Hout, ⟨%W1, %hW1, HO⟩⟩
  iapply (part2_end m d L fix hfix q t ht v2 r1.1 r1.2 O W1 hin _)
  isplitr; · iexact Hmw
  isplitl [Hs1]; · iexact Hs1
  isplitl [Hs2]; · iexact Hs2
  isplitl [Hout]; · iexact Hout
  isplitl [HO]; · iexact HO
  iintro %c3 ⟨Hs1, Hs2, Hout, ⟨%W2, %hW2, HO⟩⟩
  iapply (part3_end m d L fix hfix q t ht v2 r1.1 c3 O W2 hin _)
  isplitr; · iexact Hmw
  isplitl [Hs3]; · iexact Hs3
  isplitl [Hs4]; · iexact Hs4
  isplitl [Hout]; · iexact Hout
  isplitl [HO]; · iexact HO
  iintro %r3 ⟨Hs3, Hs4, Hout, ⟨%W3, %hW3, HO⟩⟩
  iapply (rest_end m d L fix hfix q t (5 * t.val) {5 * t.val, 5 * t.val + 1, 5 * t.val + 2, 5 * t.val + 3} (by simp) _)
  isplitl [Hs4]; · iexact Hs4
  isplitl [Hout]; · iexact Hout
  iintro ⟨Hs4, Hout⟩
  simp only [wp_pure]
  imodintro
  iapply Hk
  rw [ht]
  unfold InvEnd
  isplitr [HO]
  · isplitl [Hs0]; · iexact Hs0
    isplitl [Hs1]; · iexact Hs1
    isplitl [Hs2]; · iexact Hs2
    isplitl [Hs3]; · iexact Hs3
    isplitl [Hs4]; · iexact Hs4
    rw [show ({245, 246, 247, 248, 249} : Finset ℕ) = insert (5 * 49 + 4) {5 * 49, 5 * 49 + 1, 5 * 49 + 2, 5 * 49 + 3} from by decide]
    iexact Hout
  iexists W3; isplitr
  swap; · iexact HO
  ipureintro; intro p hp
  rcases hW3 p hp with h | h; swap; · exact .inr (.inl h)
  rcases hW2 p h with h | h; swap; · exact .inr (.inl h)
  rcases hW1 p h with h | h; swap; · exact .inr (.inl h)
  exact hW0 p h

end Cert.Kernel.KRun

end
-- ==== Proof.BTripEnds.lean ====
/-
  Every trip of the loop keeps its invariant.

  The first trip starts from the state the program's head leaves, the last one ends with every slot's copy out in
  flight, and the trips between them go from the state before trip t to the state before trip t + 1.
-/
import proofs.«205984_g59184649339042_cont_9to1_m_680_25_alg».proof.Proof.BInv
import proofs.«205984_g59184649339042_cont_9to1_m_680_25_alg».proof.Proof.BVal
import proofs.«205984_g59184649339042_cont_9to1_m_680_25_alg».proof.Proof.BTripLib
import proofs.«205984_g59184649339042_cont_9to1_m_680_25_alg».proof.Proof.BLoop
import proofs.«205984_g59184649339042_cont_9to1_m_680_25_alg».proof.Proof.BTripMid
import proofs.«205984_g59184649339042_cont_9to1_m_680_25_alg».proof.Proof.BTripStartTrip
import proofs.«205984_g59184649339042_cont_9to1_m_680_25_alg».proof.Proof.BTripEndTrip

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ)

local notation "𝕄" => MT nD τ sig (HIx 1) (Elt F) ℕ UU ℕ

local notation "yV" => (Memref.whole Cert.Kernel.main_v2_scv : Memref Cert.Kernel.sig Kind.scVector Space.hbm Cert.Kernel.S10000x128 EltTy.f32)
local notation "iV" => (Memref.whole Cert.Kernel.main_v1_scv : Memref Cert.Kernel.sig Kind.scVector Space.hbm Cert.Kernel.S320000 EltTy.i32)
local notation "oV" => (Memref.whole Cert.Kernel.main_v3_scv : Memref Cert.Kernel.sig Kind.scVector Space.hbm Cert.Kernel.S320000x128 EltTy.f32)
local notation "ixV" => (Memref.whole Cert.Kernel.cc1_scratch0 : Memref Cert.Kernel.sig Kind.scVector Space.vmem Cert.Kernel.S10000 EltTy.i32)
local notation "rwV" => (Memref.whole Cert.Kernel.cc1_scratch1 : Memref Cert.Kernel.sig Kind.scVector Space.vmem Cert.Kernel.S5x40x128 EltTy.f32)
local notation "shV" => (Memref.whole Cert.Kernel.cc1_scratch2 : Memref Cert.Kernel.sig Kind.scVector Space.shared Cert.Kernel.S10000x128 EltTy.f32)

variable (d : Dev nD) (L : grid1.Coords)
variable (fix : Buf (Elt F) ((ixV).view.loc (V d (cV L) (jV L)))) (hfix : FixOk d L fix) (q : PosShare TreeShare)

open Post

variable (O : CellTallies nD τ sig (HIx 1)) (W : Waits sig (HIx 1))

set_option maxHeartbeats 4000000 in
/-- One trip, whichever: the loop's invariant before it gives the invariant after it. -/
theorem tripOk (v2 : BitVec 32)
    (hin : ∀ (off : Fin 1 → ℕ) (hinb : ∀ a, off a + S40.size a ≤ S10000.size a) (hst) (x : S40.Idx),
      ((((ixV).slice (Rect.unit (s := S10000) off S40.size hinb) hst).view.read (Elt F) fix) x).toNat < 10000) :
    TripOk m d L fix hfix q O W v2 := by
  intro t acc
  unfold LInv
  have ht := trips_le t
  by_cases h0 : t.val = 0
  · have e : InvAt m d L fix hfix q t.val = InvStart m d L fix hfix q := by unfold InvAt; rw [if_pos h0]
    have e1 : InvAt m d L fix hfix q (t.val + 1) = InvMid m d L fix hfix q 1 := by
      unfold InvAt; rw [h0, if_neg (by decide), if_pos (by decide)]
    rw [e, e1]
    iintro ⟨#Hmw, Hinv, HO⟩
    iapply (trip_start m d L fix hfix q t h0 v2 acc O W hin _)
    isplitr; · iexact Hmw
    isplitl [Hinv]; · iexact Hinv
    isplitl [HO]; · iexact HO
    iintro ⟨Hinv, HO⟩
    isplitr; · iexact Hmw
    isplitl [Hinv]; · iexact Hinv
    iexact HO
  · by_cases h49 : t.val = 49
    · have e : InvAt m d L fix hfix q t.val = InvMid m d L fix hfix q t.val := by
        unfold InvAt; rw [if_neg h0, if_pos (by omega)]
      have e1 : InvAt m d L fix hfix q (t.val + 1) = InvEnd m d L fix hfix q := by
        unfold InvAt; rw [if_neg (by omega), if_neg (by omega)]
      rw [e, e1]
      iintro ⟨#Hmw, Hinv, HO⟩
      iapply (trip_end m d L fix hfix q t h49 v2 acc O W hin _)
      isplitr; · iexact Hmw
      isplitl [Hinv]; · iexact Hinv
      isplitl [HO]; · iexact HO
      iintro ⟨Hinv, HO⟩
      isplitr; · iexact Hmw
      isplitl [Hinv]; · iexact Hinv
      iexact HO
    · have e : InvAt m d L fix hfix q t.val = InvMid m d L fix hfix q t.val := by
        unfold InvAt; rw [if_neg h0, if_pos (by omega)]
      have e1 : InvAt m d L fix hfix q (t.val + 1) = InvMid m d L fix hfix q (t.val + 1) := by
        unfold InvAt; rw [if_neg (by omega), if_pos (by omega)]
      rw [e, e1]
      iintro ⟨#Hmw, Hinv, HO⟩
      iapply (trip_mid m d L fix hfix q t (by omega) (by omega) v2 O W hin _)
      isplitr; · iexact Hmw
      isplitl [Hinv]; · iexact Hinv
      isplitl [HO]; · iexact HO
      iintro ⟨Hinv, HO⟩
      isplitr; · iexact Hmw
      isplitl [Hinv]; · iexact Hinv
      iexact HO

end Cert.Kernel.KRun

end
-- ==== Proof.BTileMain.lean ====
/-
  The vector subcore's whole task, from its two ingredients: the part before the loop (the staging copy, the index
  copy, the barrier, the first gathers), proved for every subcore under the range of the row numbers, and the fifty
  trips of the loop — the first, the forty-eight between, the last —, each taking the slots and the result from
  their state before the trip to their state before the next. The range of the row numbers enters twice: the
  subcore's copy of its entries of the list holds row numbers of the node table, so that every gather names rows of
  the shared copy, and the gathered rows are then the expected result's rows.
-/
import proofs.«205984_g59184649339042_cont_9to1_m_680_25_alg».proof.Proof.BTile
import proofs.«205984_g59184649339042_cont_9to1_m_680_25_alg».proof.Proof.BPre4
import proofs.«205984_g59184649339042_cont_9to1_m_680_25_alg».proof.Proof.BTripEnds

noncomputable section

namespace Cert.Kernel.KRun

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-- The vector subcores' task, for every device, SparseCore and subcore, under the range of the row numbers. -/
theorem tile_body (hR : ∀ d, Cert.Spec.RowsInRange (m (eLoc d) : IVec S2x320000 32)) : TileBody (F := F) m :=
  tile_body_of m hR (fun d L O W hO hOlev Φ => pre4 m d L facts (hR d) O W hO hOlev Φ)
    (fun d L O W v2 => tripOk m d L (fixVal m d L) (fixOk m d L (hR d)) (q16 (L 1)) O W v2 (hin' d L (fixVal m d L) (fixOk m d L (hR d))))

end Cert.Kernel.KRun

end
-- ==== Proof.BRun.lean ====
/-
  The whole program's run, from its parts: the vector subcores' task, how a SparseCore's operands split among its
  tasks, @main on the TensorCore, the launch element, and how the TensorCores' final assertions read the final
  memory. The conclusion: every fair run of the thirty-five threads per device terminates, and the result holds, for
  each edge, the transformed feature row of the edge's source node, the four arguments unchanged.
-/
import proofs.«205984_g59184649339042_cont_9to1_m_680_25_alg».proof.Proof.BMain
import proofs.«205984_g59184649339042_cont_9to1_m_680_25_alg».proof.Proof.BPay
import proofs.«205984_g59184649339042_cont_9to1_m_680_25_alg».proof.Proof.BVecSplit
import proofs.«205984_g59184649339042_cont_9to1_m_680_25_alg».proof.Proof.BEnds
import proofs.«205984_g59184649339042_cont_9to1_m_680_25_alg».proof.Proof.BLaunch
import proofs.«205984_g59184649339042_cont_9to1_m_680_25_alg».proof.Proof.BObl
import proofs.«205984_g59184649339042_cont_9to1_m_680_25_alg».proof.Proof.BTileMain

noncomputable section

namespace Cert.Kernel.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

local notation "𝕄" => MT nD τ sig (HIx 1) (Elt F) ℕ UU ℕ

/-- What the run leaves: the result at the looked-up rows, the four arguments as launched. -/
def QC : PUnit.{1} × MemSt nD τ sig (Elt F) → Prop := fun r => ∀ c : Dev nD,
  r.2.mem (oLoc c) = oval m c ∧ r.2.mem (xLoc c) = m (xLoc c) ∧ r.2.mem (eLoc c) = m (eLoc c)
    ∧ r.2.mem (w1Loc c) = m (w1Loc c) ∧ r.2.mem (w2Loc c) = m (w2Loc c)

/-- The run from its parts, each taken as stated by the launch theorem. -/
theorem run_main_of [∀ e, Nonempty (Elt F e)]
    (htile : (K (F := F)).TileObl (D (F := F)) 𝒱 (P m) v₀ 0)
    (hvec : (K (F := F)).VecSplit (P m) 0)
    (Rest FIN : Dev nD → sProp 𝕄)
    (hst : ∀ d, Mid m d ⊢ iprop((bigSep Finset.univ fun c : Fin ((K (F := F)).nCore 0) => (P m).st 0 d c) ∗ Rest d))
    (hdn : ∀ d, iprop(Rest d ∗ bigSep Finset.univ fun c : Fin ((K (F := F)).nCore 0) => (P m).dn 0 d c) ⊢ FIN d)
    (u₀ : UU)
    (hu₀ : iprop(ownU u₀ ∗ (P m).oxCred ∗ (K (F := F)).freeSems0) ⊢ |={Set.univ}=> iprop(BI.own (EH (initOf (K (F := F)).hsCells (K (F := F)).hsToks))
      ∗ bigSep Finset.univ (Gd (F := F)) ∗ bigSep Finset.univ fun thr : Thread nD τ => bigSep Finset.univ fun q : Fin 1 => (P m).x q thr))
    (fq : Dev nD → Phys nD τ sig (Elt F) → Prop) (hfin : ∀ d s', iprop(FIN d ∗ SI s') ⊢ (⌜fq d s'⌝ : sProp 𝕄))
    (hQ : ∀ s' : Phys nD τ sig (Elt F), (∀ d, fq d s') → QC m (⟨⟩, s'.mem)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => hvec)
    m ρ main (Gd (F := F)) FIN u₀ hu₀ (hmain_of m ρ (P m) Rest FIN hst hdn) fq hfin (QC m) hQ

/-- The run, under the range of the row numbers: what the vector subcores' lookups need (each gathered row number
    names a row of the transformed features). Every part is proved. -/
theorem run_main [∀ e, Nonempty (Elt F e)] (hR : ∀ d, Cert.Spec.RowsInRange (m (eLoc d) : IVec S2x320000 32)) :
    θ_run (Cert.Kernel.defs (F := F)) (Cert.Kernel.threads (F := F)) ⟨m, fun _ => 0, ρ⟩ (QC m) :=
  run_main_of m ρ (tileObl m (tile_body m hR) facts) (vecSplit m) (Rest m) (FIN m) (hst m) (hdn m) (u₀ (F := F)) (hu₀ m) (fq m) (hfin m) (fun _ h => h)

end Cert.Kernel.KRun

end
-- ==== Proof.PreFacts.lean ====
/-
  What the input-domain precondition says, decoded.

  The precondition is a one-bit scalar: the conjunction of three "every entry has absolute value below +inf"
  tests (one per float array) and of "every word of the edge list lies in 0 … 9999, read signed". The claim
  states that this bit is 1. Here each conjunct is read back: the last one gives the range of the row numbers,
  the first three give that every float entry, on the extended reals, is a real number.
-/
import proofs.«205984_g59184649339042_cont_9to1_m_680_25_alg».proof.Proof.Spec
import proofs.«205984_g59184649339042_cont_9to1_m_680_25_alg».proof.Pre_input_domain
import proofs.«205984_g59184649339042_cont_9to1_m_680_25_alg».proof.Proof.Gen.Pre_input_domain
import Idealize.ShloMosaic.Lib.ReduceAll

noncomputable section

namespace Cert.PreFacts

open Idealize.ShloMosaic Idealize.ShloMosaic.ValueIdx Cert.Pre_input_domain

/-- A scalar has one index. -/
instance : Subsingleton S_.Idx := ⟨fun a b => funext fun d => d.elim0⟩

/-- A 32-bit word that is, read signed, between 0 and 9999 is, read unsigned, at most 9999. -/
theorem toNat_le_of_signed_range (v : BitVec 32) (h0 : (0#32 : BitVec 32).toInt ≤ v.toInt) (h1 : v.toInt ≤ (9999#32 : BitVec 32).toInt) :
    v.toNat ≤ 9999 := by
  have e0 : (0#32 : BitVec 32).toInt = 0 := by decide
  have e1 : (9999#32 : BitVec 32).toInt = 9999 := by decide
  rw [e0] at h0
  rw [e1] at h1
  rw [BitVec.toInt_eq_toNat_cond] at h0 h1
  split at h0 <;> omega

/-- The last conjunct of the precondition: every word of the edge list, in particular every word of its row 0,
    is a row number of the node table. Generic in the float model: only the integer conjunct is opened. -/
theorem rows_in_range [Cert.Pre_input_domain.Facts] {F : FTy → Type} [FloatOps F] (x : FVec F S10000x128 .f32) (ei : IVec S2x320000 32)
    (w1 w2 : FVec F S128x128 .f32) (h : Cert.Pre_input_domain.fn (F := F) x ei w1 w2 = fun _ => 1#1) : Cert.Spec.RowsInRange ei := by
  intro e
  have h0 := congrFun h ValueIdx.ix0
  dsimp only [Cert.Pre_input_domain.fn, Cert.Pre_input_domain.fn_part1] at h0
  obtain ⟨h123, h4⟩ := IntOp.andi_eq_one.1 h0
  have h5 := Host.reduce_andi_all _ _ _ _ _ h4 (ix2 (0 : Fin 2) e)
  obtain ⟨ha, hb⟩ := IntOp.andi_eq_one.1 h5
  exact toNat_le_of_signed_range _ (IntOp.cmpi_sge.1 ha) (IntOp.cmpi_sle.1 hb)

/-- An extended real whose absolute value max(v, −v) compares below the pattern of +infinity is a real number. -/
theorem real_of_abs_lt_inf (v : Ideal .f32)
    (h : FloatOps.cmpf (F := Ideal) .olt (FloatOps.hostAbsf v) (FloatOps.ofBits .f32 0x7F800000#32) = 1#1) :
    ∃ r : ℝ, v = (r : EReal) := by
  have htop : Ideal.ofBits .f32 0x7F800000#32 = (⊤ : EReal) := by simp [Ideal.ofBits, Ideal.ieee]
  change Ideal.cmp .olt (max v (-v)) (Ideal.ofBits .f32 0x7F800000#32) = 1#1 at h
  rw [htop] at h
  induction v using EReal.rec with
  | bot => simp [Ideal.cmp] at h
  | coe r => exact ⟨r, rfl⟩
  | top => simp [Ideal.cmp] at h

/-- The first three conjuncts of the precondition, on the extended reals: every entry of the node table and of the
    two weight matrices is a real number. -/
theorem all_real [Cert.Pre_input_domain.Facts] (x : FVec Ideal S10000x128 .f32) (ei : IVec S2x320000 32) (w1 w2 : FVec Ideal S128x128 .f32)
    (h : Cert.Pre_input_domain.fn (F := Ideal) x ei w1 w2 = fun _ => 1#1) :
    Cert.Spec.AllReal x ∧ Cert.Spec.AllReal w1 ∧ Cert.Spec.AllReal w2 := by
  have h0 := congrFun h ValueIdx.ix0
  dsimp only [Cert.Pre_input_domain.fn, Cert.Pre_input_domain.fn_part1] at h0
  obtain ⟨h123, -⟩ := IntOp.andi_eq_one.1 h0
  obtain ⟨h12, h3⟩ := IntOp.andi_eq_one.1 h123
  obtain ⟨h1, h2⟩ := IntOp.andi_eq_one.1 h12
  exact ⟨fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

end Cert.PreFacts

end
-- ==== Proof.DenseValue.lean ====
/-
  The dense kernel's arithmetic read at an index, on the extended reals.

  The dense kernel multiplies the two weight matrices, P[o, i] = Σ_k W2[o, k] · W1[k, i] (contracting axis 1 of W2
  with axis 0 of W1), and then applies the product to every node, T[r, o] = Σ_i x[r, i] · P[o, i] (contracting
  axis 1 of x with axis 1 of P), both into a zero accumulator. Read at (r, o) the result is therefore
  Σ_i x[r, i] · Σ_k W2[o, k] · W1[k, i], and the rows of T looked up per edge are the arrangement Gk.
-/
import proofs.«205984_g59184649339042_cont_9to1_m_680_25_alg».proof.Proof.Spec
import proofs.«205984_g59184649339042_cont_9to1_m_680_25_alg».proof.Proof.Gen.KernelIdeal.Skeleton
import Idealize.ShloMosaic.PureOps.Ideal.Laws
import Idealize.ShloMosaic.Lib.ValueIdx

noncomputable section

namespace Cert.KernelIdeal.KValue

open Idealize.ShloMosaic Idealize.ShloMosaic.ValueIdx Cert.KernelIdeal Cert.KernelIdeal.Gen

/-- A product of two 128 × 128 matrices contracting the left factor's axis 1 with the right factor's axis 0, into a
    zero accumulator, read at an entry: the sum over the contracted coordinate. -/
theorem matmul_plain_apply (A B : FVec Ideal S128x128 .f32) (a b : Fin 128) :
    matmul dot_S128x128_S128x128_S128x128_1_0_0_1_n_n none A B (constant (F := Ideal) S128x128 .f32 0x00000000#32) (ix2 a b)
      = ∑ c : Fin 128, A (ix2 a c) * B (ix2 c b) := by
  show FloatOps.matmul _ none A B _ (ix2 a b) = _
  rw [Ideal.matmul_constant_zero_apply,
    ← Equiv.sum_comp (contrEquiv1 dot_S128x128_S128x128_S128x128_1_0_0_1_n_n 128 rfl rfl).symm]
  refine Finset.sum_congr rfl fun c _ => ?_
  have c2 := contrEquiv1_symm_val dot_S128x128_S128x128_S128x128_1_0_0_1_n_n 128 rfl rfl c
  have l2 : dot_S128x128_S128x128_S128x128_1_0_0_1_n_n.lhsIdx (ix2 a b) ((contrEquiv1 _ 128 rfl rfl).symm c) = ix2 a c := by
    funext ax; apply Fin.ext
    match ax with
    | ⟨0, _⟩ => simp [DotDims.lhsIdx, dot_S128x128_S128x128_S128x128_1_0_0_1_n_n]; rfl
    | ⟨1, _⟩ => simp [DotDims.lhsIdx, dot_S128x128_S128x128_S128x128_1_0_0_1_n_n]; exact c2
  have r2 : dot_S128x128_S128x128_S128x128_1_0_0_1_n_n.rhsIdx (ix2 a b) ((contrEquiv1 _ 128 rfl rfl).symm c) = ix2 c b := by
    funext ax; apply Fin.ext
    match ax with
    | ⟨0, _⟩ => simp [DotDims.rhsIdx, dot_S128x128_S128x128_S128x128_1_0_0_1_n_n]; exact c2
    | ⟨1, _⟩ => simp [DotDims.rhsIdx, dot_S128x128_S128x128_S128x128_1_0_0_1_n_n]; rfl
  rw [l2, r2]

/-- A product of a 10000 × 128 matrix with a 128 × 128 matrix contracting the left factor's axis 1 with the right
    factor's axis 1 (the right factor transposed), into a zero accumulator, read at an entry. -/
theorem matmul_transposed_apply (A : FVec Ideal S10000x128 .f32) (B : FVec Ideal S128x128 .f32) (a : Fin 10000) (b : Fin 128) :
    matmul dot_S10000x128_S128x128_S10000x128_1_1_0_0_n_n none A B (constant (F := Ideal) S10000x128 .f32 0x00000000#32) (ix2 a b)
      = ∑ c : Fin 128, A (ix2 a c) * B (ix2 b c) := by
  show FloatOps.matmul _ none A B _ (ix2 a b) = _
  rw [Ideal.matmul_constant_zero_apply,
    ← Equiv.sum_comp (contrEquiv1 dot_S10000x128_S128x128_S10000x128_1_1_0_0_n_n 128 rfl rfl).symm]
  refine Finset.sum_congr rfl fun c _ => ?_
  have c2 := contrEquiv1_symm_val dot_S10000x128_S128x128_S10000x128_1_1_0_0_n_n 128 rfl rfl c
  have l2 : dot_S10000x128_S128x128_S10000x128_1_1_0_0_n_n.lhsIdx (ix2 a b) ((contrEquiv1 _ 128 rfl rfl).symm c) = ix2 a c := by
    funext ax; apply Fin.ext
    match ax with
    | ⟨0, _⟩ => simp [DotDims.lhsIdx, dot_S10000x128_S128x128_S10000x128_1_1_0_0_n_n]; rfl
    | ⟨1, _⟩ => simp [DotDims.lhsIdx, dot_S10000x128_S128x128_S10000x128_1_1_0_0_n_n]; exact c2
  have r2 : dot_S10000x128_S128x128_S10000x128_1_1_0_0_n_n.rhsIdx (ix2 a b) ((contrEquiv1 _ 128 rfl rfl).symm c) = ix2 b c := by
    funext ax; apply Fin.ext
    match ax with
    | ⟨0, _⟩ => simp [DotDims.rhsIdx, dot_S10000x128_S128x128_S10000x128_1_1_0_0_n_n]; rfl
    | ⟨1, _⟩ => simp [DotDims.rhsIdx, dot_S10000x128_S128x128_S10000x128_1_1_0_0_n_n]; exact c2
  rw [l2, r2]

/-- The dense kernel's stored value at (r, o): Σ_i x[r, i] · Σ_k W2[o, k] · W1[k, i]. -/
theorem k0_pay1_apply (w2 w1 : FVec Ideal S128x128 .f32) (x : FVec Ideal S10000x128 .f32) (r : Fin 10000) (o : Fin 128) :
    Cert.KernelIdeal.Gen.k0_pay1 (F := Ideal) w2 w1 x (ValueIdx.ix2 r o)
      = ∑ i : Fin 128, x (ValueIdx.ix2 r i) * ∑ k : Fin 128, w2 (ValueIdx.ix2 o k) * w1 (ValueIdx.ix2 k i) := by
  unfold Cert.KernelIdeal.Gen.k0_pay1
  rw [matmul_transposed_apply]
  refine Finset.sum_congr rfl fun i _ => ?_
  rw [matmul_plain_apply]

/-- The rows of the dense kernel's result looked up per edge are the arrangement with the weights multiplied first. -/
theorem gathered_eq_Gk (x : FVec Ideal S10000x128 .f32) (ei : IVec S2x320000 32) (w1 w2 : FVec Ideal S128x128 .f32) :
    (fun j : S320000x128.Idx => Cert.KernelIdeal.Gen.k0_pay1 (F := Ideal) w2 w1 x (ValueIdx.ix2 (Cert.Spec.rowIx ei (j 0)) (j 1)))
      = Cert.Spec.Gk x ei w1 w2 := by
  funext j
  exact k0_pay1_apply w2 w1 x (Cert.Spec.rowIx ei (j 0)) (j 1)

end Cert.KernelIdeal.KValue

end
-- ==== Proof.Algebra.lean ====
/-
  The two arrangements of the specification agree when every entry is a real number.

  With real entries, Σ_i x_i · (Σ_k b_k · a_{k,i}) and Σ_k (Σ_i x_i · a_{k,i}) · b_k are both the double sum
  Σ_k Σ_i x_i · a_{k,i} · b_k: distribute the outer factor over the inner sum on each side and exchange the two
  finite sums. On the extended reals distributivity fails at the infinities, so the entries are first written
  as coercions of real numbers and the coercion is moved outside the products and the finite sums.
-/
import proofs.«205984_g59184649339042_cont_9to1_m_680_25_alg».proof.Proof.Spec

noncomputable section

namespace Cert.Spec

open Idealize.ShloMosaic Idealize.ShloMosaic.ValueIdx

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Weights multiplied first equals the two maps one after the other, on real entries. -/
theorem Gk_eq_Gr (x : FVec Ideal SX .f32) (ei : IVec SE 32) (w1 w2 : FVec Ideal SW .f32)
    (hx : AllReal x) (h1 : AllReal w1) (h2 : AllReal w2) : Gk x ei w1 w2 = Gr x ei w1 w2 := by
  choose rx hrx using hx
  choose r1 hr1 using h1
  choose r2 hr2 using h2
  funext j
  simp only [Gk, Gr, hrx, hr1, hr2]
  simp only [← EReal.coe_mul, ← coe_finset_sum]
  congr 1
  simp only [Finset.mul_sum, Finset.sum_mul]
  rw [Finset.sum_comm]
  exact Finset.sum_congr rfl fun k _ => Finset.sum_congr rfl fun i _ => by ring

end Cert.Spec

end
-- ==== Proof.RefRun.lean ====
/-
  The reference program's run, read back as one composed term of its arguments.

  The reference looks up, for every edge, the feature row of the edge's source node and pushes it through two
  linear maps. As printed it is a straight line of host operations, the outlined row lookup inlined at its call:
  the first row of the edge list is sliced and flattened to a vector of row numbers; a negative row number is
  wrapped by adding the table's height; the wrapped numbers, as a column, are compared with 0 and with the last
  row, the two comparisons combined and reduced over the unit axis into a per-edge in-bounds flag; the rows are
  gathered; rows whose flag is not set are replaced by a fill constant; then the two weight matrices are
  transposed and the two products taken. Every execution ends with the result buffer at that composed term of the
  arguments' launch contents, the arguments unchanged.
-/
import proofs.«205984_g59184649339042_cont_9to1_m_680_25_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The row numbers as the program reads them: row 0 of the edge list, flattened. -/
def rows (ei : IVec S2x320000 32) : IVec S320000 32 :=
  shapeCast S320000 (extractStridedSlice S1x320000 ![0, 0] ei slices_S2x320000_S1x320000_0_0) shapeCasts_S1x320000_S320000

/-- The row numbers after the wrap of negative ones: n < 0 becomes n + 10000. -/
def wrapped (ei : IVec S2x320000 32) : IVec S320000 32 :=
  select (cmpi .slt (rows ei) (broadcastInDim S320000 ![] bcast_S_S320000 (constantI S_ 32 0#32)))
    (addi (rows ei) (broadcastInDim S320000 ![] bcast_S_S320000 (constantI S_ 32 10000#32)))
    (rows ei)

/-- The wrapped row numbers as a column: the gather's start indices. -/
def col (ei : IVec S2x320000 32) : IVec S320000x1 32 :=
  broadcastInDim S320000x1 ![0] bcast_S320000_S320000x1_0 (wrapped ei)

/-- The per-edge in-bounds flag: 0 ≤ n and n ≤ 9999, reduced over the unit axis. -/
def inBounds (ei : IVec S2x320000 32) : IVec S320000 1 :=
  Host.reduce IntOp.andi
    (andi (cmpi .sge (col ei) (broadcastInDim S320000x1 ![] bcast_S_S320000x1 (constantI S_ 32 0#32)))
      (cmpi .sle (col ei) (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The looked-up rows: the gather, with the rows of out-of-bounds numbers replaced by the fill constant. -/
def taken (x : FVec F S10000x128 .f32) (ei : IVec S2x320000 32) : FVec F S320000x128 .f32 :=
  select (broadcastInDim S320000x128 ![0] bcast_S320000_S320000x128_0 (inBounds ei))
    (Host.gather gather_S10000x128_S320000x1_S320000x128_1_0_n_n_0_1_1128 x (col ei))
    (broadcastInDim S320000x128 ![] bcast_S_S320000x128 (constant S_ .f32 0x7FC00000#32))

/-- The reference's result as one term of its four arguments. -/
def refTerm (x : FVec F S10000x128 .f32) (ei : IVec S2x320000 32) (w1 w2 : FVec F S128x128 .f32) : FVec F S320000x128 .f32 :=
  Host.dotGeneral dot_S320000x128_S128x128_S320000x128_1_0_0_1_n_n none
    (Host.dotGeneral dot_S320000x128_S128x128_S320000x128_1_0_0_1_n_n none (taken x ei)
      (transpose S128x128 [1, 0] w1 transposes_S128x128_S128x128_1_0))
    (transpose S128x128 [1, 0] w2 transposes_S128x128_S128x128_1_0)

/-- @main's 29 operations, in order: the slice and the flattening; the row lookup's 23 (its own wrap's select,
    an outlined function of one operation, among them) over the buffers of its call; the two transposes and the
    two products. -/
abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    TRef.nullary main_call0.c (constantI S_ 32 0#32),
    TRef.unary main_call0.c main_call0.v0 (broadcastInDim S320000 ![] bcast_S_S320000),
    TRef.binary (.of main_v1) main_call0.v0 main_call0.v1 (cmpi .slt),
    TRef.nullary main_call0.c_0 (constantI S_ 32 10000#32),
    TRef.unary main_call0.c_0 main_call0.v2 (broadcastInDim S320000 ![] bcast_S_S320000),
    TRef.binary (.of main_v1) main_call0.v2 main_call0.v3 addi,
    TRef.ternary main_call0.v1 main_call0.v3 (.of main_v1) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    unary main_arg2 main_v3 ((transpose S128x128 [1, 0] · transposes_S128x128_S128x128_1_0) : (⟨S128x128, .f32⟩ : BufTy).Contents (Elt F) → (⟨S128x128, .f32⟩ : BufTy).Contents (Elt F)),
    binary main_v2 main_v3 main_v4 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg3 main_v5 ((transpose S128x128 [1, 0] · transposes_S128x128_S128x128_1_0) : (⟨S128x128, .f32⟩ : BufTy).Contents (Elt F) → (⟨S128x128, .f32⟩ : BufTy).Contents (Elt F)),
    binary main_v4 main_v5 main_v6 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)) ]

set_option maxRecDepth 1024 in
/-- @main is that straight line: the outlined functions' definitions unfolded at their calls, both sides are one
    chain of host steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., binary_bufs_sub .., unary_bufs_sub .., binary_bufs_sub ..⟩

/-- Every TensorCore buffer ends at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
set_option maxHeartbeats 800000 in
/-- The fold of the operations' results at the result buffer is the composed term: each operation's result read at
    its own buffer is its function's value and at any other buffer what was there; what is left are the
    identity transports of the typed references at these literal buffers, which compute away. The reduction and
    the gather are kept folded meanwhile: the equation never looks inside them. -/
theorem out_eq (V : Valuation τ sig (Elt F)) :
    after ops V (main_v6 : DevRef τ sig)
      = refTerm (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, from any memory with zero counters: every weakly fair execution of @main terminates with the
    result buffer at the composed term of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (out_eq _),
      (h c main_arg0).trans (arg0_eq _),
      (h c main_arg1).trans (arg1_eq _),
      (h c main_arg2).trans (arg2_eq _),
      (h c main_arg3).trans (arg3_eq _)⟩)
    (run_main m ρ)

end Cert.ReferenceIdeal.RefValue

end
-- ==== Proof.LibTakeRows.lean ====
/-
  A lookup of rows by a two-axis array of row numbers, read at an entry, and an all-ones conjunction.

  `table[idx]` for a matrix `table : [N, C]` and row numbers `idx : [R₁, R₂]` lowers to a gather over the
  row numbers given a trailing unit axis, `[R₁, R₂, 1]`, whose result `[R₁, R₂, C]` holds at `(n, f, c)` the
  entry `(ρ n f, c)` of the table, where `ρ n f` is the row number `idx[n, f, 0]` read as a signed integer
  and clamped into `[0, N − 1]`: the last coordinate is kept, the row is looked up.

  A host reduction by `and` of one-bit words that are all one, from an initial value that is one, is one.
-/
import Idealize.ShloMosaic.Lib.ValueIdx
import Idealize.ShloMosaic.PureOps.Ideal
import Idealize.ShloMosaic.PureOps.Reduce

noncomputable section

namespace TakeRows

open Idealize.ShloMosaic Idealize.ShloMosaic.ValueIdx

/-- The entry `[n, f, 0]` of a two-axis array of row numbers carrying a trailing unit axis. -/
abbrev at0 {R1 R2 : Nat} (n : Fin R1) (f : Fin R2) : (⟨3, ![R1, R2, 1]⟩ : Shape).Idx := ix3 n f (⟨0, Nat.one_pos⟩ : Fin 1)

section Gather
variable {α : Type}

/-- The dimension numbers of `table[idx]`: operand `[N, C]`, start indices `[R₁, R₂, 1]`, result `[R₁, R₂, C]`. -/
abbrev takeRowsDims (N C R1 R2 : Nat)
    (wf : GatherDims.WF ⟨2, ![N, C]⟩ ⟨3, ![R1, R2, 1]⟩ ⟨3, ![R1, R2, C]⟩ [2] [0] [] [0] [] 2 ![1, C]) :
    GatherDims ⟨2, ![N, C]⟩ ⟨3, ![R1, R2, 1]⟩ ⟨3, ![R1, R2, C]⟩ where
  offsetDims := [2]
  collapsedSliceDims := [0]
  operandBatchingDims := []
  startIndicesBatchingDims := []
  startIndexMap := [0]
  indexVectorDim := 2
  sliceSizes := ![1, C]
  wf := wf

/-- The table row that result position `(n, f)` reads: its row number read signed, clamped into `[0, N − 1]`. -/
def lookedUp {N R1 R2 w : Nat} (hN : 0 < N) (idx : IVec ⟨3, ![R1, R2, 1]⟩ w) (n : Fin R1) (f : Fin R2) : Fin N :=
  ⟨min (idx (at0 n f)).toInt.toNat (N - 1), by omega⟩

/-- THE LOOKUP READ AT `(n, f, c)`: entry `c` of the looked-up row. -/
theorem gather_apply {N C R1 R2 w : Nat} (hN : 0 < N)
    (wf : GatherDims.WF ⟨2, ![N, C]⟩ ⟨3, ![R1, R2, 1]⟩ ⟨3, ![R1, R2, C]⟩ [2] [0] [] [0] [] 2 ![1, C])
    (x : (⟨2, ![N, C]⟩ : Shape).Idx → α) (idx : IVec ⟨3, ![R1, R2, 1]⟩ w) (n : Fin R1) (f : Fin R2) (c : Fin C) :
    Host.gather (takeRowsDims N C R1 R2 wf) x idx (ix3 n f c) = x (ix2 (lookedUp hN idx n f) c) := by
  unfold Host.gather
  congr 1
  have h0 : ((takeRowsDims N C R1 R2 wf).operandIdx (ix3 n f c) idx (0 : Fin 2)).val = (lookedUp hN idx n f).val := by
    show (takeRowsDims N C R1 R2 wf).start (ix3 n f c) idx (0 : Fin 2) + (takeRowsDims N C R1 R2 wf).batchCoord (ix3 n f c) (0 : Fin 2)
        + (takeRowsDims N C R1 R2 wf).offCoord (ix3 n f c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (takeRowsDims N C R1 R2 wf).startIndexMap from List.mem_singleton.mpr rfl)]
    have hsi : (takeRowsDims N C R1 R2 wf).siIdx (ix3 n f c) ⟨List.idxOf (0 : Fin 2) (takeRowsDims N C R1 R2 wf).startIndexMap,
        List.idxOf_lt_length_iff.2 (List.mem_singleton.mpr rfl)⟩ = at0 n f := by
      funext b; refine Fin.ext ?_
      match b with
      | ⟨0, _⟩ => rfl
      | ⟨1, _⟩ => rfl
      | ⟨2, _⟩ => rfl
    rw [hsi]
    rfl
  have h1 : ((takeRowsDims N C R1 R2 wf).operandIdx (ix3 n f c) idx (1 : Fin 2)).val = c.val := by
    show (takeRowsDims N C R1 R2 wf).start (ix3 n f c) idx (1 : Fin 2) + (takeRowsDims N C R1 R2 wf).batchCoord (ix3 n f c) (1 : Fin 2)
        + (takeRowsDims N C R1 R2 wf).offCoord (ix3 n f c) (1 : Fin 2) = _
    rw [GatherDims.batchCoord_eq_zero _ _ _ List.not_mem_nil, Nat.add_zero]
    have hn : (1 : Fin 2) ∉ (takeRowsDims N C R1 R2 wf).startIndexMap := fun h =>
      absurd (List.mem_singleton.mp h) (by decide : ¬ (1 : Fin 2) = 0)
    have hk : (1 : Fin 2) ∈ (takeRowsDims N C R1 R2 wf).sKept :=
      (GatherDims.mem_sKept _ _).mpr ⟨fun h => absurd (List.mem_singleton.mp h) (by decide : ¬ (1 : Fin 2) = 0),
        List.not_mem_nil⟩
    unfold GatherDims.start GatherDims.offCoord
    rw [dif_neg hn, dif_pos hk, Nat.zero_add]
    rfl
  funext a
  refine Fin.ext ?_
  match a with
  | ⟨0, _⟩ => exact h0
  | ⟨1, _⟩ => exact h1

end Gather

/-! ## A conjunction of ones -/

/-- A left fold by `and` from one over words that are all one is one. -/
theorem foldl_andi_ones {ι : Type} (x : ι → BitVec 1) (l : List ι) (r : BitVec 1) (hr : r = 1#1) (hx : ∀ i ∈ l, x i = 1#1) :
    l.foldl (fun r i => IntOp.andi r (x i)) r = 1#1 := by
  induction l generalizing r with
  | nil => exact hr
  | cons a l ih =>
    rw [List.foldl_cons]
    refine ih _ ?_ (fun i hi => hx i (List.mem_cons_of_mem _ hi))
    rw [hr, hx a (List.mem_cons_self ..)]; decide

/-- A host reduction by `and` of one-bit words that are all one, from an initial value that is one, is one at
    every result index, whatever axes it reduces. -/
theorem reduce_andi_ones {s t u : Shape} {axes : List (Fin s.rank)} (x : s.Idx → BitVec 1) (init : u.Idx → BitVec 1) (h : s.ReducesTo axes t)
    (hu : 0 < u.numel) (j : t.Idx) (hx : ∀ i, x i = 1#1) (hinit : ∀ k, init k = 1#1) :
    Host.reduce IntOp.andi x init h hu j = 1#1 := by
  rw [Host.reduce_eq_foldl]
  exact foldl_andi_ones x _ _ (hinit _) (fun i _ => hx i)

end TakeRows

end
-- ==== Proof.RefValue.lean ====
/-
  The reference's composed term, read index by index, is the specification's second arrangement.

  At edge e and output channel o the reference's result is Σ_k (Σ_i T[e, i] · W1[k, i]) · W2[o, k], where T is the
  table of looked-up rows: each of the two products read at an index is the sum over the contraction axis of the
  operands' products, the transposed weight matrix read at (k, o) being the matrix at (o, k). The looked-up row
  T[e, ·] is the node table's row r(e), r(e) the word e of row 0 of the edge list: under the input range a row
  number n satisfies 0 ≤ n ≤ 9999, so it is not negative as a signed 32-bit integer — the wrap n < 0 ↦ n + 10000
  leaves it alone —, both bounds checks hold — the in-bounds flag is set and the gathered row, not the fill value,
  is selected —, and the gather's clamp of the start index into [0, 9999] is the identity.
-/
import proofs.«205984_g59184649339042_cont_9to1_m_680_25_alg».proof.Proof.RefRun
import proofs.«205984_g59184649339042_cont_9to1_m_680_25_alg».proof.Proof.Spec
import proofs.«205984_g59184649339042_cont_9to1_m_680_25_alg».proof.Proof.LibTakeRows
import Idealize.ShloMosaic.PureOps.Ideal.Laws
import Idealize.ShloMosaic.Lib.ValueLayout
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## A row number in range, as a signed 32-bit word -/

/-- A word below 10000 read as a signed integer is its value as a natural number. -/
theorem toInt_small (w : BitVec 32) (h : w.toNat ≤ 9999) : w.toInt = (w.toNat : Int) := by
  rw [BitVec.toInt_eq_toNat_cond]
  rw [if_pos (by omega)]

theorem toInt_toNat_small (w : BitVec 32) (h : w.toNat ≤ 9999) : w.toInt.toNat = w.toNat := by
  rw [toInt_small w h]; rfl

/-- It is not negative: the wrap's condition is off. -/
theorem slt_zero (w : BitVec 32) (h : w.toNat ≤ 9999) : IntOp.cmpi .slt w 0#32 = 0#1 := by
  have hb : w.slt 0#32 = false := by
    rw [BitVec.slt, toInt_small w h, show (0#32 : BitVec 32).toInt = 0 from by decide]
    exact decide_eq_false (by omega)
  simp only [IntOp.cmpi, hb]; rfl

/-- It is at least 0: the lower bounds check holds. -/
theorem sge_zero (w : BitVec 32) (h : w.toNat ≤ 9999) : IntOp.cmpi .sge w 0#32 = 1#1 := by
  have hb : (0#32 : BitVec 32).sle w = true := by
    rw [BitVec.sle, toInt_small w h, show (0#32 : BitVec 32).toInt = 0 from by decide]
    exact decide_eq_true (by omega)
  simp only [IntOp.cmpi, hb]; rfl

/-- It is at most the last row: the upper bounds check holds. -/
theorem sle_last (w : BitVec 32) (h : w.toNat ≤ 9999) : IntOp.cmpi .sle w 9999#32 = 1#1 := by
  have hb : w.sle 9999#32 = true := by
    rw [BitVec.sle, toInt_small w h, show (9999#32 : BitVec 32).toInt = 9999 from by decide]
    exact decide_eq_true (by omega)
  simp only [IntOp.cmpi, hb]; rfl

/-! ## The gather of rows read at an entry -/

/-- The lookup's dimension numbers: operand [10000, 128], start indices [320000, 1], result [320000, 128]; the
    result's axis 1 is the offset axis, the operand's axis 0 is collapsed and is the one the start index names. -/
abbrev GD : GatherDims S10000x128 S320000x1 S320000x128 := gather_S10000x128_S320000x1_S320000x128_1_0_n_n_0_1_1128

/-- The gather read at (e, c): entry c of the row whose number is the start index of e, read signed and clamped
    into [0, 9999]. -/
theorem gather_rows_apply {α : Type} {w : Nat} (x : S10000x128.Idx → α) (idx : IVec S320000x1 w) (e : Fin 320000) (c : Fin 128) :
    Host.gather GD x idx (ix2 e c)
      = x (ix2 (⟨min (idx (ix2 e (0 : Fin 1))).toInt.toNat 9999, by omega⟩ : Fin 10000) c) := by
  unfold Host.gather
  congr 1
  have h0 : (GD.operandIdx (ix2 e c) idx (0 : Fin 2)).val = min (idx (ix2 e (0 : Fin 1))).toInt.toNat 9999 := by
    show GD.start (ix2 e c) idx (0 : Fin 2) + GD.batchCoord (ix2 e c) (0 : Fin 2) + GD.offCoord (ix2 e c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ GD.startIndexMap from List.mem_singleton.mpr rfl)]
    have hsi : GD.siIdx (ix2 e c) ⟨List.idxOf (0 : Fin 2) GD.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (GD.operandIdx (ix2 e c) idx (1 : Fin 2)).val = c.val := by
    show GD.start (ix2 e c) idx (1 : Fin 2) + GD.batchCoord (ix2 e c) (1 : Fin 2) + GD.offCoord (ix2 e c) (1 : Fin 2) = _
    rw [GatherDims.batchCoord_eq_zero _ _ _ List.not_mem_nil, Nat.add_zero]
    have hn : (1 : Fin 2) ∉ GD.startIndexMap := fun h =>
      absurd (List.mem_singleton.mp h) (by decide : ¬ (1 : Fin 2) = 0)
    have hk : (1 : Fin 2) ∈ GD.sKept :=
      (GatherDims.mem_sKept _ _).mpr ⟨fun h => absurd (List.mem_singleton.mp h) (by decide : ¬ (1 : Fin 2) = 0),
        List.not_mem_nil⟩
    unfold GatherDims.start GatherDims.offCoord
    rw [dif_neg hn, dif_pos hk, Nat.zero_add]
    rfl
  funext a
  refine Fin.ext ?_
  match a with
  | ⟨0, _⟩ => exact h0
  | ⟨1, _⟩ => exact h1

/-! ## The row lookup, index by index -/

/-- The flattened first row of the edge list at e is word (0, e). -/
theorem rows_apply (ei : IVec S2x320000 32) (e : Fin 320000) : rows ei (ix1 e) = ei (ix2 (0 : Fin 2) e) := by
  unfold rows
  refine (shapeCast_1a_a_apply _ _ e).trans ?_
  exact slice2_axis0_apply 0 ei _ (0 : Fin 1) e (0 : Fin 2) rfl

/-- On a row number in range the wrap is the identity. -/
theorem wrapped_apply (ei : IVec S2x320000 32) (h : Cert.Spec.RowsInRange ei) (e : Fin 320000) :
    wrapped ei (ix1 e) = ei (ix2 (0 : Fin 2) e) := by
  unfold wrapped
  rw [select_apply]
  show Scalar.select (IntOp.cmpi .slt (rows ei (ix1 e)) 0#32) _ (rows ei (ix1 e)) = _
  rw [rows_apply, slt_zero _ (h e), select_zero]

/-- The start index of edge e is its row number. -/
theorem col_apply (ei : IVec S2x320000 32) (h : Cert.Spec.RowsInRange ei) (e : Fin 320000) (u : Fin 1) :
    col ei (ix2 e u) = ei (ix2 (0 : Fin 2) e) := by
  unfold col
  refine (broadcastInDim_apply _ _ _ _ (ix1 e) (fun a => ?_)).trans (wrapped_apply ei h e)
  match a with
  | ⟨0, _⟩ => rfl

/-- Every row number in range passes both bounds checks: the in-bounds flag is set at every edge. -/
theorem inBounds_apply (ei : IVec S2x320000 32) (h : Cert.Spec.RowsInRange ei) (e : Fin 320000) :
    inBounds ei (ix1 e) = 1#1 := by
  unfold inBounds
  refine TakeRows.reduce_andi_ones _ _ _ _ _ (fun i => ?_) (fun _ => rfl)
  obtain ⟨e', u, rfl⟩ : ∃ e' u, i = ix2 e' u := ⟨i 0, i 1, eq_ix2 i⟩
  show IntOp.andi (IntOp.cmpi .sge (col ei (ix2 e' u)) 0#32) (IntOp.cmpi .sle (col ei (ix2 e' u)) 9999#32) = 1#1
  rw [col_apply ei h, sge_zero _ (h e'), sle_last _ (h e')]
  rfl

/-- The looked-up table at (e, c) is the node table at (r(e), c). -/
theorem taken_apply (x : FVec Ideal S10000x128 .f32) (ei : IVec S2x320000 32) (h : Cert.Spec.RowsInRange ei)
    (e : Fin 320000) (c : Fin 128) : taken x ei (ix2 e c) = x (ix2 (Cert.Spec.rowIx ei e) c) := by
  unfold taken
  rw [select_apply]
  have hm : broadcastInDim S320000x128 ![0] bcast_S320000_S320000x128_0 (inBounds ei) (ix2 e c) = 1#1 := by
    refine (broadcastInDim_apply _ _ _ _ (ix1 e) (fun a => ?_)).trans (inBounds_apply ei h e)
    match a with
    | ⟨0, _⟩ => rfl
  rw [hm, select_one]
  refine (gather_rows_apply x (col ei) e c).trans ?_
  have hr : (⟨min (col ei (ix2 e (0 : Fin 1))).toInt.toNat 9999, by omega⟩ : Fin 10000) = Cert.Spec.rowIx ei e := by
    refine Fin.ext ?_
    show min (col ei (ix2 e (0 : Fin 1))).toInt.toNat 9999 = min (ei (ix2 (0 : Fin 2) e)).toNat 9999
    rw [col_apply ei h, toInt_toNat_small _ (h e)]
  rw [hr]

/-! ## The two products, index by index -/

/-- Both products' dimension numbers: [320000, 128] × [128, 128], the left operand's axis 1 contracted with the
    right operand's axis 0. -/
abbrev DD : DotDims S320000x128 S128x128 S320000x128 := dot_S320000x128_S128x128_S320000x128_1_0_0_1_n_n

theorem lhs_0 (j : S320000x128.Idx) (k : DD.contr.Idx) : (DD.lhsIdx j k 0 : ℕ) = j 0 := by
  simp [DotDims.lhsIdx, DD, dot_S320000x128_S128x128_S320000x128_1_0_0_1_n_n]; rfl
theorem lhs_1 (j : S320000x128.Idx) (k : DD.contr.Idx) : (DD.lhsIdx j k 1 : ℕ) = k ⟨0, by decide⟩ := by
  simp [DotDims.lhsIdx, DD, dot_S320000x128_S128x128_S320000x128_1_0_0_1_n_n]; rfl
theorem rhs_0 (j : S320000x128.Idx) (k : DD.contr.Idx) : (DD.rhsIdx j k 0 : ℕ) = k ⟨0, by decide⟩ := by
  simp [DotDims.rhsIdx, DD, dot_S320000x128_S128x128_S320000x128_1_0_0_1_n_n]; rfl
theorem rhs_1 (j : S320000x128.Idx) (k : DD.contr.Idx) : (DD.rhsIdx j k 1 : ℕ) = j 1 := by
  simp [DotDims.rhsIdx, DD, dot_S320000x128_S128x128_S320000x128_1_0_0_1_n_n]; rfl

/-- The contraction index with coordinate k. -/
def ck (k : Fin 128) : DD.contr.Idx := (contrEquiv1 DD 128 rfl rfl).symm k

theorem ck_val (k : Fin 128) : ((ck k) ⟨0, by decide⟩ : ℕ) = k.val := contrEquiv1_symm_val DD 128 rfl rfl k

theorem lhsIdx_ck (e : Fin 320000) (o k : Fin 128) : DD.lhsIdx (ix2 e o) (ck k) = ix2 e k := by
  funext a
  refine Fin.ext ?_
  match a with
  | ⟨0, _⟩ => exact lhs_0 (ix2 e o) (ck k)
  | ⟨1, _⟩ => exact (lhs_1 (ix2 e o) (ck k)).trans (ck_val k)

theorem rhsIdx_ck (e : Fin 320000) (o k : Fin 128) : DD.rhsIdx (ix2 e o) (ck k) = ix2 k o := by
  funext a
  refine Fin.ext ?_
  match a with
  | ⟨0, _⟩ => exact (rhs_0 (ix2 e o) (ck k)).trans (ck_val k)
  | ⟨1, _⟩ => exact rhs_1 (ix2 e o) (ck k)

/-- A product read at (e, o): the sum over the contracted coordinate of the operands' products. -/
theorem dot_apply (A : FVec Ideal S320000x128 .f32) (B : FVec Ideal S128x128 .f32) (e : Fin 320000) (o : Fin 128) :
    Host.dotGeneral DD none A B (ix2 e o) = ∑ k : Fin 128, A (ix2 e k) * B (ix2 k o) := by
  simp only [Host.dotGeneral]
  rw [Ideal.dotGeneral_apply, ← Equiv.sum_comp (contrEquiv1 DD 128 rfl rfl).symm]
  refine Finset.sum_congr rfl fun k _ => ?_
  show A (DD.lhsIdx (ix2 e o) (ck k)) * B (DD.rhsIdx (ix2 e o) (ck k)) = _
  rw [lhsIdx_ck, rhsIdx_ck]

/-! ## The reference's term is the specification -/

/-- Under the input range of the edge list the reference's composed term is, index by index, the two maps applied
    one after the other to the source node's row. -/
theorem refTerm_eq_Gr (x : FVec Ideal S10000x128 .f32) (ei : IVec S2x320000 32) (w1 w2 : FVec Ideal S128x128 .f32)
    (h : Cert.Spec.RowsInRange ei) : refTerm x ei w1 w2 = Cert.Spec.Gr x ei w1 w2 := by
  funext j
  obtain ⟨e, o, rfl⟩ : ∃ e o, j = ix2 e o := ⟨j 0, j 1, eq_ix2 j⟩
  unfold refTerm
  refine (dot_apply _ _ e o).trans ?_
  show _ = ∑ k : Fin 128, (∑ i : Fin 128, x (ix2 (Cert.Spec.rowIx ei e) i) * w1 (ix2 k i)) * w2 (ix2 o k)
  refine Finset.sum_congr rfl fun k _ => ?_
  rw [dot_apply, transpose_ix2_apply]
  refine congrArg (· * w2 (ix2 o k)) ?_
  refine Finset.sum_congr rfl fun i _ => ?_
  rw [taken_apply x ei h, transpose_ix2_apply]

end Cert.ReferenceIdeal.RefValue

end
-- ==== Proof.lean ====
/-
  Two programs compute, for each of the 320000 edges e of a graph and each of 128 output channels o, the feature
  row of the edge's source node pushed through two linear maps,

      out[e, o] = Σ_k ( Σ_i x[r(e), i] · W1[k, i] ) · W2[o, k],      r(e) = edge_index[0, e],

  and the claim is that they agree, from memories that agree on the four arguments (the node features x, the
  edge list, the weight matrices W1 and W2), whenever every float entry is finite and every word of the edge
  list is a row number of the node table (0 … 9999).

  The kernel multiplies the two weight matrices first, P[o, i] = Σ_k W2[o, k] · W1[k, i], applies the product to
  every node on the TensorCore, T[r, o] = Σ_i x[r, i] · P[o, i], and then has the thirty-two vector subcores of
  the two SparseCores copy, for each edge, row r(e) of T into row e of the result: it computes
  Σ_i x[r(e), i] · ( Σ_k W2[o, k] · W1[k, i] ). The reference looks the rows up first and applies the two maps one
  after the other. Both are the double sum Σ_k Σ_i x[r(e), i] · W1[k, i] · W2[o, k]: distribute the outer factor
  over the inner sum on each side and exchange the two finite sums. The programs are read on the extended reals,
  where multiplication does not distribute over addition at the infinities; the precondition's finiteness tests
  say every entry of x, W1 and W2 is a real number, the coercion of the reals commutes with products and finite
  sums, and the identity is then the one on the reals.

  The range of the edge list is used on both sides. In the kernel each vector subcore gathers rows of T by the
  row numbers of its 10000 edges, and a row number outside 0 … 9999 names no row of T; within the range the
  gathered row is row r(e). In the reference the lookup adds 10000 to a negative row number, replaces the row of a
  number that then fails the test 0 ≤ n ≤ 9999 by a fill value, and clamps the start of the gather into the table;
  within the range nothing is added, the test passes and the clamp is the identity, so the looked-up row is again
  row r(e).

  The three frame claims (each program terminates and leaves its arguments as they were) are the same runs with
  the result dropped; the kernel as printed and the kernel on the extended reals are one text at two float
  models, proved once for any model and cited at each.
-/
import proofs.«205984_g59184649339042_cont_9to1_m_680_25_alg».proof.Defs
import proofs.«205984_g59184649339042_cont_9to1_m_680_25_alg».proof.Proof.Gen.Kernel
import proofs.«205984_g59184649339042_cont_9to1_m_680_25_alg».proof.Proof.Gen.Kernel.Skeleton
import proofs.«205984_g59184649339042_cont_9to1_m_680_25_alg».proof.Proof.Gen.Kernel.Launch
import proofs.«205984_g59184649339042_cont_9to1_m_680_25_alg».proof.Proof.Gen.Kernel.Points
import proofs.«205984_g59184649339042_cont_9to1_m_680_25_alg».proof.Proof.Gen.KernelIdeal
import proofs.«205984_g59184649339042_cont_9to1_m_680_25_alg».proof.Proof.Gen.KernelIdeal.Skeleton
import proofs.«205984_g59184649339042_cont_9to1_m_680_25_alg».proof.Proof.Gen.KernelIdeal.Launch
import proofs.«205984_g59184649339042_cont_9to1_m_680_25_alg».proof.Proof.Gen.KernelIdeal.Points
import proofs.«205984_g59184649339042_cont_9to1_m_680_25_alg».proof.Proof.Gen.ReferenceIdeal
import proofs.«205984_g59184649339042_cont_9to1_m_680_25_alg».proof.Proof.Gen.Pre_input_domain
import proofs.«205984_g59184649339042_cont_9to1_m_680_25_alg».proof.Proof.KRun
import proofs.«205984_g59184649339042_cont_9to1_m_680_25_alg».proof.Proof.BRun
import proofs.«205984_g59184649339042_cont_9to1_m_680_25_alg».proof.Proof.PreFacts
import proofs.«205984_g59184649339042_cont_9to1_m_680_25_alg».proof.Proof.DenseValue
import proofs.«205984_g59184649339042_cont_9to1_m_680_25_alg».proof.Proof.Algebra
import proofs.«205984_g59184649339042_cont_9to1_m_680_25_alg».proof.Proof.RefValue
import Idealize.ShloMosaic.Adequacy
import Idealize.ShloMosaic.Init

noncomputable section

namespace Cert.Proof

open Idealize.ShloMosaic Idealize.SL.Sem

/-- The looked-up rows of the dense kernel's result are the reference's arrangement, when every entry is real. -/
theorem oval_eq_Gr (m : (ℓ : Loc Cert.KernelIdeal.nD Cert.KernelIdeal.τ Cert.KernelIdeal.sig) → Buf (Elt Ideal) ℓ) (c : Dev Cert.KernelIdeal.nD)
    (hpre : Cert.Pre_input_domain.fn (F := Ideal) (m (Cert.KernelIdeal.KRun.xLoc c)) (m (Cert.KernelIdeal.KRun.eLoc c)) (m (Cert.KernelIdeal.KRun.w1Loc c)) (m (Cert.KernelIdeal.KRun.w2Loc c)) = fun _ => 1#1) :
    Cert.KernelIdeal.KRun.oval m c
      = Cert.Spec.Gr (m (Cert.KernelIdeal.KRun.xLoc c)) (m (Cert.KernelIdeal.KRun.eLoc c)) (m (Cert.KernelIdeal.KRun.w1Loc c)) (m (Cert.KernelIdeal.KRun.w2Loc c)) := by
  obtain ⟨hx, h1, h2⟩ := Cert.PreFacts.all_real _ _ _ _ hpre
  exact (Cert.KernelIdeal.KValue.gathered_eq_Gk _ _ _ _).trans (Cert.Spec.Gk_eq_Gr _ _ _ _ hx h1 h2)

/-- The kernel's run on the extended reals, under the precondition. -/
theorem runI (m : (ℓ : Loc Cert.KernelIdeal.nD Cert.KernelIdeal.τ Cert.KernelIdeal.sig) → Buf (Elt Ideal) ℓ) (ρ : Dev Cert.KernelIdeal.nD → PrngReg)
    (hR : ∀ d, Cert.Spec.RowsInRange (m (Cert.KernelIdeal.KRun.eLoc d))) :
    θ_run (Cert.KernelIdeal.defs (F := Ideal)) (Cert.KernelIdeal.threads (F := Ideal)) ⟨m, fun _ => 0, ρ⟩ (Cert.KernelIdeal.KRun.QC m) :=
  Cert.KernelIdeal.KRun.run_main m ρ hR

/-- The kernel's run as printed, under the precondition. -/
theorem runB (m : (ℓ : Loc Cert.Kernel.nD Cert.Kernel.τ Cert.Kernel.sig) → Buf (Elt Bits) ℓ) (ρ : Dev Cert.Kernel.nD → PrngReg)
    (hR : ∀ d, Cert.Spec.RowsInRange (m (Cert.Kernel.KRun.eLoc d))) :
    θ_run (Cert.Kernel.defs (F := Bits)) (Cert.Kernel.threads (F := Bits)) ⟨m, fun _ => 0, ρ⟩ (Cert.Kernel.KRun.QC m) :=
  Cert.Kernel.KRun.run_main m ρ hR

theorem claim : Cert.Claim := ⟨Cert.Kernel.Gen.facts, Cert.KernelIdeal.Gen.facts, Cert.ReferenceIdeal.Gen.facts, Cert.Pre_input_domain.Gen.facts,
  -- the kernel as printed: it runs, its arguments unchanged
  fun m g hpre => (θ_run _ _ _).mono (fun _ h c => ⟨(h c).2.1, (h c).2.2.1, (h c).2.2.2.1, (h c).2.2.2.2⟩)
    (runB m g fun d => Cert.PreFacts.rows_in_range _ _ _ _ (hpre d)),
  -- the kernel on the extended reals
  fun m g hpre => (θ_run _ _ _).mono (fun _ h c => ⟨(h c).2.1, (h c).2.2.1, (h c).2.2.2.1, (h c).2.2.2.2⟩)
    (runI m g fun d => Cert.PreFacts.rows_in_range _ _ _ _ (hpre d)),
  -- the reference on the extended reals
  fun m g _ => (θ_run _ _ _).mono (fun _ hr c => (hr c).2) (Cert.ReferenceIdeal.RefValue.run m g),
  trivial,
  -- both end with the same result: the reference's arrangement of the double sum
  fun m g m' g' hpre hagree =>
    ⟨fun c => Cert.Spec.Gr (m (Cert.KernelIdeal.KRun.xLoc c)) (m (Cert.KernelIdeal.KRun.eLoc c)) (m (Cert.KernelIdeal.KRun.w1Loc c)) (m (Cert.KernelIdeal.KRun.w2Loc c)),
      (θ_run _ _ _).mono (fun _ h c => ⟨(h c).1.trans (oval_eq_Gr m c (hpre c)), (h c).2.1, (h c).2.2.1, (h c).2.2.2.1, (h c).2.2.2.2⟩)
        (runI m g fun d => Cert.PreFacts.rows_in_range _ _ _ _ (hpre d)),
      (θ_run _ _ _).mono (fun _ hr c => ⟨(hr c).1.trans (by
          obtain ⟨e0, e1, e2, e3⟩ := hagree c
          rw [e0, e1, e2, e3]
          exact Cert.ReferenceIdeal.RefValue.refTerm_eq_Gr _ _ _ _ (Cert.PreFacts.rows_in_range _ _ _ _ (hpre c))), (hr c).2⟩)
        (Cert.ReferenceIdeal.RefValue.run m' g')⟩⟩

end Cert.Proof

end
